-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000x128 : Shape := ⟨2, ![100000, 128]⟩
abbrev S384x8 : Shape := ⟨2, ![384, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S384x8 : S_.BroadcastsInDim S384x8 (![] : Fin 0 → Fin S384x8.rank)
  reducesTo_S384x8_S_d0_1 : S384x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg1 : IVec S16384 32) (main_arg2 : IVec S16384 32) (main_v28 : IVec S_ 1) (main_v33 : IVec S16384 1) : IVec S_ 1 :=
  let main_c_12 : IVec S_ 1 := constantI S_ 1 1#1
  let main_v34 : IVec S_ 1 := (fun x v => Host.reduce IntOp.andi x v reducesTo_S16384_S_d0 h_S_) main_v33 main_c_12
  let main_v35 : IVec S_ 1 := andi main_v28 main_v34
  let main_c_13 : IVec S_ 32 := constantI S_ 32 0#32
  let main_v36 : IVec S16384 32 := broadcastInDim S16384 ![] bcast_S_S16384 main_c_13
  let main_v37 : IVec S16384 1 := cmpi .sge main_arg1 main_v36
  let main_c_14 : IVec S_ 32 := constantI S_ 32 99999#32
  let main_v38 : IVec S16384 32 := broadcastInDim S16384 ![] bcast_S_S16384 main_c_14
  let main_v39 : IVec S16384 1 := cmpi .sle main_arg1 main_v38
  let main_v40 : IVec S16384 1 := andi main_v37 main_v39
  let main_c_15 : IVec S_ 1 := constantI S_ 1 1#1
  let main_v41 : IVec S_ 1 := (fun x v => Host.reduce IntOp.andi x v reducesTo_S16384_S_d0 h_S_) main_v40 main_c_15
  let main_v42 : IVec S_ 1 := andi main_v35 main_v41
  let main_c_16 : IVec S_ 32 := constantI S_ 32 0#32
  let main_v43 : IVec S16384 32 := broadcastInDim S16384 ![] bcast_S_S16384 main_c_16
  let main_v44 : IVec S16384 1 := cmpi .sge main_arg2 main_v43
  let main_c_17 : IVec S_ 32 := constantI S_ 32 99999#32
  let main_v45 : IVec S16384 32 := broadcastInDim S16384 ![] bcast_S_S16384 main_c_17
  let main_v46 : IVec S16384 1 := cmpi .sle main_arg2 main_v45
  let main_v47 : IVec S16384 1 := andi main_v44 main_v46
  let main_c_18 : IVec S_ 1 := constantI S_ 1 1#1
  let main_v48 : IVec S_ 1 := (fun x v => Host.reduce IntOp.andi x v reducesTo_S16384_S_d0 h_S_) main_v47 main_c_18
  let main_v49 : IVec S_ 1 := andi main_v42 main_v48
  main_v49

def fn_part1 {F : FTy → Type} [FloatOps F] (main_arg0 : IVec S16384 32) (main_arg1 : IVec S16384 32) (main_arg2 : IVec S16384 32) (main_arg7 : FVec F S8x1 .f32) (main_arg8 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x1 .f32 := Host.absf main_arg7
  let main_cst_6 : FVec F S_ .f32 := constant S_ .f32 0x7F800000#32
  let main_v20 : FVec F S8x1 .f32 := broadcastInDim S8x1 ![] bcast_S_S8x1 main_cst_6
  let main_v21 : IVec S8x1 1 := cmpf .olt main_v19 main_v20
  let main_c_7 : IVec S_ 1 := constantI S_ 1 1#1
  let main_v22 : IVec S_ 1 := (fun x v => Host.reduce IntOp.andi x v reducesTo_S8x1_S_d0_1 h_S_) main_v21 main_c_7
  let main_v23 : IVec S_ 1 := andi main_v18 main_v22
  let main_v24 : FVec F S1 .f32 := Host.absf main_arg8
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S16384 32 := broadcastInDim S16384 ![] bcast_S_S16384 main_c_10
  let main_v30 : IVec S16384 1 := cmpi .sge main_arg0 main_v29
  let main_c_11 : IVec S_ 32 := constantI S_ 32 999#32
  let main_v31 : IVec S16384 32 := broadcastInDim S16384 ![] bcast_S_S16384 main_c_11
  let main_v32 : IVec S16384 1 := cmpi .sle main_arg0 main_v31
  let main_v33 : IVec S16384 1 := andi main_v30 main_v32
  fn_part2 (F := F) main_arg1 main_arg2 main_v28 main_v33

def fn {F : FTy → Type} [FloatOps F] (main_arg0 : IVec S16384 32) (main_arg1 : IVec S16384 32) (main_arg2 : IVec S16384 32) (main_arg3 : FVec F S100000x128 .f32) (main_arg4 : FVec F S100000x128 .f32) (main_arg5 : FVec F S384x8 .f32) (main_arg6 : FVec F S8 .f32) (main_arg7 : FVec F S8x1 .f32) (main_arg8 : FVec F S1 .f32) : IVec S_ 1 :=
  let main_v0 : FVec F S100000x128 .f32 := Host.absf main_arg3
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg4
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S384x8 .f32 := Host.absf main_arg5
  let main_cst_2 : FVec F S_ .f32 := constant S_ .f32 0x7F800000#32
  let main_v10 : FVec F S384x8 .f32 := broadcastInDim S384x8 ![] bcast_S_S384x8 main_cst_2
  let main_v11 : IVec S384x8 1 := cmpf .olt main_v9 main_v10
  let main_c_3 : IVec S_ 1 := constantI S_ 1 1#1
  let main_v12 : IVec S_ 1 := (fun x v => Host.reduce IntOp.andi x v reducesTo_S384x8_S_d0_1 h_S_) main_v11 main_c_3
  let main_v13 : IVec S_ 1 := andi main_v8 main_v12
  let main_v14 : FVec F S8 .f32 := Host.absf main_arg6
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg0 main_arg1 main_arg2 main_arg7 main_arg8 main_v13 main_v16
-- ==== Kernel.lean ====
abbrev S16384 : Shape := ⟨1, ![16384]⟩
abbrev S100000x128 : Shape := ⟨2, ![100000, 128]⟩
abbrev S384x8 : Shape := ⟨2, ![384, 8]⟩
abbrev S8 : Shape := ⟨1, ![8]⟩
abbrev S8x1 : Shape := ⟨2, ![8, 1]⟩
abbrev S1 : Shape := ⟨1, ![1]⟩
abbrev S32768 : Shape := ⟨1, ![32768]⟩
abbrev S32768x128 : Shape := ⟨2, ![32768, 128]⟩
abbrev S512 : Shape := ⟨1, ![512]⟩
abbrev S7x128x128 : Shape := ⟨3, ![7, 128, 128]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S1x16384 : Shape := ⟨2, ![1, 16384]⟩
abbrev S8192x128 : Shape := ⟨2, ![8192, 128]⟩
abbrev S1x8192 : Shape := ⟨2, ![1, 8192]⟩
abbrev S128x8 : Shape := ⟨2, ![128, 8]⟩
abbrev S8x8192 : Shape := ⟨2, ![8, 8192]⟩
abbrev S8192 : Shape := ⟨1, ![8192]⟩
abbrev S1x1 : Shape := ⟨2, ![1, 1]⟩
abbrev S16384x1 : Shape := ⟨2, ![16384, 1]⟩

abbrev nBuf : Table → Nat
  | .hbm => 13
  | .local .tc .vmem => 10
  | .local .scVector .vmem => 3
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S100000x128, .f32⟩
  | .hbm, ⟨4, _⟩ => ⟨S100000x128, .f32⟩
  | .hbm, ⟨5, _⟩ => ⟨S384x8, .f32⟩
  | .hbm, ⟨6, _⟩ => ⟨S8, .f32⟩
  | .hbm, ⟨7, _⟩ => ⟨S8x1, .f32⟩
  | .hbm, ⟨8, _⟩ => ⟨S1, .f32⟩
  | .hbm, ⟨9, _⟩ => ⟨S32768, .i32⟩
  | .hbm, ⟨10, _⟩ => ⟨S32768x128, .f32⟩
  | .hbm, ⟨11, _⟩ => ⟨S1x16384, .f32⟩
  | .hbm, ⟨12, _⟩ => ⟨S16384x1, .f32⟩
  | .local .tc .vmem, ⟨0, _⟩ => ⟨S8192x128, .f32⟩
  | .local .tc .vmem, ⟨1, _⟩ => ⟨S8192x128, .f32⟩
  | .local .tc .vmem, ⟨2, _⟩ => ⟨S8192x128, .f32⟩
  | .local .tc .vmem, ⟨3, _⟩ => ⟨S8192x128, .f32⟩
  | .local .tc .vmem, ⟨4, _⟩ => ⟨S384x8, .f32⟩
  | .local .tc .vmem, ⟨5, _⟩ => ⟨S8, .f32⟩
  | .local .tc .vmem, ⟨6, _⟩ => ⟨S8x1, .f32⟩
  | .local .tc .vmem, ⟨7, _⟩ => ⟨S1, .f32⟩
  | .local .tc .vmem, ⟨8, _⟩ => ⟨S1x8192, .f32⟩
  | .local .tc .vmem, ⟨9, _⟩ => ⟨S1x8192, .f32⟩
  | .local .scVector .vmem, ⟨0, _⟩ => ⟨S512, .i32⟩
  | .local .scVector .vmem, ⟨1, _⟩ => ⟨S512, .i32⟩
  | .local .scVector .vmem, ⟨2, _⟩ => ⟨S7x128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v0_scv : Ref sig .scVector := ⟨.hbm, 9, rfl⟩
abbrev main_arg3_scv : Ref sig .scVector := ⟨.hbm, 3, rfl⟩
abbrev main_arg4_scv : Ref sig .scVector := ⟨.hbm, 4, rfl⟩
abbrev main_v1_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg6_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 1 → Nat :=
  let c16384_i32 : BitVec 32 := 16384#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v5 : BitVec 32 := Scalar.addi c16384_i32 v2
  ![v5.toNat]
def k0_off3 (i : grid0.Coords) (c0_i32_39 : BitVec 32) (c0_i32_40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v44 : BitVec 32 := Scalar.addi c0_i32_39 v2
  let v45 : BitVec 32 := Scalar.addi v44 c0_i32_40
  let c0_i32_44 : BitVec 32 := 0#32
  ![v45.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S384x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x8192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  concatenates_S16384_S16384_S32768_d0 : Shape.Concatenates [S16384, S16384] S32768 0
  inb_S7x128x128_S1x128x128_0_0_0 : ∀ a, (![0, 0, 0] : Fin 3 → Nat) a + S1x128x128.size a ≤ S7x128x128.size a
  squeezes_S1x128x128_S128x128 : S1x128x128.Squeezes S128x128
  inb_S512_S128_0 : ∀ a, (![0] : Fin 1 → Nat) a + S128.size a ≤ S512.size a
  inb_S100000x128_S100000x128_0_0 : ∀ a, (![0, 0] : Fin 2 → Nat) a + S100000x128.size a ≤ S100000x128.size a
  gathers_S100000x128_S128x128 : S100000x128.Gathers 0 S128x128
  inb_S7x128x128_S1x128x128_1_0_0 : ∀ a, (![1, 0, 0] : Fin 3 → Nat) a + S1x128x128.size a ≤ S7x128x128.size a
  inb_S512_S128_128 : ∀ a, (![128] : Fin 1 → Nat) a + S128.size a ≤ S512.size a
  inb_S7x128x128_S1x128x128_2_0_0 : ∀ a, (![2, 0, 0] : Fin 3 → Nat) a + S1x128x128.size a ≤ S7x128x128.size a
  inb_S512_S128_256 : ∀ a, (![256] : Fin 1 → Nat) a + S128.size a ≤ S512.size a
  inb_S7x128x128_S1x128x128_3_0_0 : ∀ a, (![3, 0, 0] : Fin 3 → Nat) a + S1x128x128.size a ≤ S7x128x128.size a
  inb_S512_S128_384 : ∀ a, (![384] : Fin 1 → Nat) a + S128.size a ≤ S512.size a
  inb_S7x128x128_S1x128x128_4_0_0 : ∀ a, (![4, 0, 0] : Fin 3 → Nat) a + S1x128x128.size a ≤ S7x128x128.size a
  inb_S7x128x128_S1x128x128_5_0_0 : ∀ a, (![5, 0, 0] : Fin 3 → Nat) a + S1x128x128.size a ≤ S7x128x128.size a
  inb_S7x128x128_S1x128x128_6_0_0 : ∀ a, (![6, 0, 0] : Fin 3 → Nat) a + S1x128x128.size a ≤ S7x128x128.size a
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S384x8_S128x8_0_0 : ∀ a, (![0, 0] : Fin 2 → Nat) a + S128x8.size a ≤ S384x8.size a
  h_S128x8 : 0 < S128x8.numel
  inb_S384x8_S128x8_128_0 : ∀ a, (![128, 0] : Fin 2 → Nat) a + S128x8.size a ≤ S384x8.size a
  inb_S384x8_S128x8_256_0 : ∀ a, (![256, 0] : Fin 2 → Nat) a + S128x8.size a ≤ S384x8.size a
  inb_S8_S8_0 : ∀ a, (![0] : Fin 1 → Nat) a + S8.size a ≤ S8.size a
  h_S8 : 0 < S8.numel
  shapeCasts_S8_S8x1 : S8.ShapeCasts S8x1
  broadcasts_S8x1_S8x8192 : S8x1.Broadcasts S8x8192
  inb_S8x1_S8x1_0_0 : ∀ a, (![0, 0] : Fin 2 → Nat) a + S8x1.size a ≤ S8x1.size a
  h_S8x1 : 0 < S8x1.numel
  reduces_S8x8192_S8192 : S8x8192.Reduces [0] S8192
  shapeCasts_S8192_S1x8192 : S8192.ShapeCasts S1x8192
  inb_S1_S1_0 : ∀ a, (![0] : Fin 1 → Nat) a + S1.size a ≤ S1.size a
  h_S1 : 0 < S1.numel
  shapeCasts_S1_S1x1 : S1.ShapeCasts S1x1
  broadcasts_S1x1_S1x8192 : S1x1.Broadcasts S1x8192
  inb_S1x8192_S1x8192_0_0 : ∀ a, (![0, 0] : Fin 2 → Nat) a + S1x8192.size a ≤ S1x8192.size a
  h_S1x8192 : 0 < S1x8192.numel
  shapeCasts_S1x16384_S16384x1 : S1x16384.ShapeCasts S16384x1
  dot_S128x8_S8192x128_S8x8192_0_1_1_0_n_n_wf : DotDims.WF S128x8 S8192x128 S8x8192 [0] [1] [1] [0] [] []
  hcc0_scratch3 : 0 + S_.numel ≤ 26
  hcc0_scratch4 : 1 + S_.numel ≤ 26
  hcc0_scratch5 : 2 + S_.numel ≤ 26
  hcc0_scratch6 : 3 + S_.numel ≤ 26
  hcc0_scratch7 : 4 + S_.numel ≤ 26
  hcc0_scratch8 : 5 + S_.numel ≤ 26
  hcc0_scratch9 : 6 + S_.numel ≤ 26
  hcc0_scratch10 : 7 + S_.numel ≤ 26
  hcc0_scratch11 : 8 + S_.numel ≤ 26
  hcc0_scratch12 : 9 + S_.numel ≤ 26
  hcc0_scratch13 : 10 + S_.numel ≤ 26
  hcc0_scratch14 : 11 + S_.numel ≤ 26
  hcc0_scratch15 : 12 + S_.numel ≤ 26
  hcc0_scratch16 : 13 + S_.numel ≤ 26
  hcc0_scratch17 : 14 + S_.numel ≤ 26
  hcc0_scratch18 : 15 + S_.numel ≤ 26
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S32768.size a
  k0_off2_inb : ∀ i : grid0.Coords, ∀ a, (k0_off2 i) a + S512.size a ≤ S32768.size a
  k0_off3_inb : ∀ i : grid0.Coords, ∀ (r₁ : Fin 2) (r₂ : Fin 4), ∀ a, (k0_off3 i (BitVec.ofNat 32 (16384 * r₁.val)) (BitVec.ofNat 32 (128 * r₂.val))) a + S128x128.size a ≤ S32768x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S32768x128.size a
  hwx1_0 : ∀ i : grid1.Coords, EltTy.bits .f32 = 32 ∨ (Rect.block (s := S32768x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S32768x128.size a
  hwx1_1 : ∀ i : grid1.Coords, EltTy.bits .f32 = 32 ∨ (Rect.block (s := S32768x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x8.size a ≤ S384x8.size a
  hwx1_2 : ∀ i : grid1.Coords, EltTy.bits .f32 = 32 ∨ (Rect.block (s := S384x8) S384x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8.size a ≤ S8.size a
  hwx1_3 : ∀ i : grid1.Coords, EltTy.bits .f32 = 32 ∨ (Rect.block (s := S8) S8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1.size a ≤ S8x1.size a
  hwx1_4 : ∀ i : grid1.Coords, EltTy.bits .f32 = 32 ∨ (Rect.block (s := S8x1) S8x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1.size a ≤ S1.size a
  hwx1_5 : ∀ i : grid1.Coords, EltTy.bits .f32 = 32 ∨ (Rect.block (s := S1) S1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x8192.size a ≤ S1x16384.size a
  hwx1_6 : ∀ i : grid1.Coords, EltTy.bits .f32 = 32 ∨ (Rect.block (s := S1x16384) S1x8192.size (cc1_transform_6 i) (hinb1_6 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scratch11 : DmaSems sig S_ := SemArray.consecutive 8 S_ hcc0_scratch11
abbrev cc0_scratch12 : DmaSems sig S_ := SemArray.consecutive 9 S_ hcc0_scratch12
abbrev cc0_scratch13 : DmaSems sig S_ := SemArray.consecutive 10 S_ hcc0_scratch13
abbrev cc0_scratch14 : DmaSems sig S_ := SemArray.consecutive 11 S_ hcc0_scratch14
abbrev cc0_scratch15 : DmaSems sig S_ := SemArray.consecutive 12 S_ hcc0_scratch15
abbrev cc0_scratch16 : DmaSems sig S_ := SemArray.consecutive 13 S_ hcc0_scratch16
abbrev cc0_scratch17 : DmaSems sig S_ := SemArray.consecutive 14 S_ hcc0_scratch17
abbrev cc0_scratch18 : DmaSems sig S_ := SemArray.consecutive 15 S_ hcc0_scratch18
def dot_S128x8_S8192x128_S8x8192_0_1_1_0_n_n : DotDims S128x8 S8192x128 S8x8192 where
  lhsContracting := [0]
  rhsContracting := [1]
  lhsNonContracting := [1]
  rhsNonContracting := [0]
  lhsBatch := []
  rhsBatch := []
  wf := dot_S128x8_S8192x128_S8x8192_0_1_1_0_n_n_wf

abbrev win1_0 : Pipeline.Window sig grid1 :=
  Pipeline.Window.ofSpec (Memref.whole main_v1) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S384x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S8x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x8192.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16384 : Shape := ⟨1, ![16384]⟩
abbrev S100000x128 : Shape := ⟨2, ![100000, 128]⟩
abbrev S384x8 : Shape := ⟨2, ![384, 8]⟩
abbrev S8 : Shape := ⟨1, ![8]⟩
abbrev S8x1 : Shape := ⟨2, ![8, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x384 : Shape := ⟨2, ![16384, 384]⟩
abbrev S16384x8 : Shape := ⟨2, ![16384, 8]⟩
abbrev S1x8 : Shape := ⟨2, ![1, 8]⟩

abbrev nBuf : Space → Nat
  | .hbm => 76
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S100000x128, .f32⟩
  | .hbm, ⟨4, _⟩ => ⟨S100000x128, .f32⟩
  | .hbm, ⟨5, _⟩ => ⟨S384x8, .f32⟩
  | .hbm, ⟨6, _⟩ => ⟨S8, .f32⟩
  | .hbm, ⟨7, _⟩ => ⟨S8x1, .f32⟩
  | .hbm, ⟨8, _⟩ => ⟨S1, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S1x1, .i32⟩
  | .hbm, ⟨22, _⟩ => ⟨S16384x1, .i32⟩
  | .hbm, ⟨23, _⟩ => ⟨S16384x1, .i1⟩
  | .hbm, ⟨24, _⟩ => ⟨S16384x1, .i1⟩
  | .hbm, ⟨25, _⟩ => ⟨S_, .i1⟩
  | .hbm, ⟨26, _⟩ => ⟨S16384, .i1⟩
  | .hbm, ⟨27, _⟩ => ⟨S16384x128, .f32⟩
  | .hbm, ⟨28, _⟩ => ⟨S16384x128, .i1⟩
  | .hbm, ⟨29, _⟩ => ⟨S_, .f32⟩
  | .hbm, ⟨30, _⟩ => ⟨S16384x128, .f32⟩
  | .hbm, ⟨31, _⟩ => ⟨S16384x128, .f32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S1, .i32⟩
  | .hbm, ⟨41, _⟩ => ⟨S_, .i32⟩
  | .hbm, ⟨42, _⟩ => ⟨S16384x1, .i32⟩
  | .hbm, ⟨43, _⟩ => ⟨S16384x1, .i1⟩
  | .hbm, ⟨44, _⟩ => ⟨S1x1, .i32⟩
  | .hbm, ⟨45, _⟩ => ⟨S16384x1, .i32⟩
  | .hbm, ⟨46, _⟩ => ⟨S16384x1, .i1⟩
  | .hbm, ⟨47, _⟩ => ⟨S16384x1, .i1⟩
  | .hbm, ⟨48, _⟩ => ⟨S_, .i1⟩
  | .hbm, ⟨49, _⟩ => ⟨S16384, .i1⟩
  | .hbm, ⟨50, _⟩ => ⟨S16384x128, .f32⟩
  | .hbm, ⟨51, _⟩ => ⟨S16384x128, .i1⟩
  | .hbm, ⟨52, _⟩ => ⟨S_, .f32⟩
  | .hbm, ⟨53, _⟩ => ⟨S16384x128, .f32⟩
  | .hbm, ⟨54, _⟩ => ⟨S16384x128, .f32⟩
  | .hbm, ⟨55, _⟩ => ⟨S16384x128, .f32⟩
  | .hbm, ⟨56, _⟩ => ⟨S16384x384, .f32⟩
  | .hbm, ⟨57, _⟩ => ⟨S16384x8, .f32⟩
  | .hbm, ⟨58, _⟩ => ⟨S1x8, .f32⟩
  | .hbm, ⟨59, _⟩ => ⟨S16384x8, .f32⟩
  | .hbm, ⟨60, _⟩ => ⟨S16384x8, .f32⟩
  | .hbm, ⟨61, _⟩ => ⟨S_, .f32⟩
  | .hbm, ⟨62, _⟩ => ⟨S16384x8, .f32⟩
  | .hbm, ⟨63, _⟩ => ⟨S16384x8, .f32⟩
  | .hbm, ⟨64, _⟩ => ⟨S16384x1, .f32⟩
  | .hbm, ⟨65, _⟩ => ⟨S1x1, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_call2_cst : Ref sig .tc := ⟨.hbm, 61, rfl⟩
abbrev main_call2_v0 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_cst : Ref sig .tc := ⟨.hbm, 70, rfl⟩
abbrev main_v15 : Ref sig .tc := ⟨.hbm, 71, rfl⟩
abbrev main_v16 : Ref sig .tc := ⟨.hbm, 72, rfl⟩
abbrev main_cst_0 : Ref sig .tc := ⟨.hbm, 73, rfl⟩
abbrev main_v17 : Ref sig .tc := ⟨.hbm, 74, rfl⟩
abbrev main_v18 : Ref sig .tc := ⟨.hbm, 75, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  concatenates_S16384x128_S16384x128_S16384x128_S16384x384_d1 : Shape.Concatenates [S16384x128, S16384x128, S16384x128] S16384x384 1
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  gather_S100000x128_S16384x1_S16384x128_1_0_n_n_0_1_1128_wf : GatherDims.WF S100000x128 S16384x1 S16384x128 [1] [0] [] [0] [] 1 ![1, 128]
  dot_S16384x384_S384x8_S16384x8_1_0_0_1_n_n_wf : DotDims.WF S16384x384 S384x8 S16384x8 [1] [0] [0] [1] [] []
  dot_S16384x8_S8x1_S16384x1_1_0_0_1_n_n_wf : DotDims.WF S16384x8 S8x1 S16384x1 [1] [0] [0] [1] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def dot_S16384x384_S384x8_S16384x8_1_0_0_1_n_n : DotDims S16384x384 S384x8 S16384x8 where
  lhsContracting := [1]
  rhsContracting := [0]
  lhsNonContracting := [0]
  rhsNonContracting := [1]
  lhsBatch := []
  rhsBatch := []
  wf := dot_S16384x384_S384x8_S16384x8_1_0_0_1_n_n_wf
def dot_S16384x8_S8x1_S16384x1_1_0_0_1_n_n : DotDims S16384x8 S8x1 S16384x1 where
  lhsContracting := [1]
  rhsContracting := [0]
  lhsNonContracting := [0]
  rhsNonContracting := [1]
  lhsBatch := []
  rhsBatch := []
  wf := dot_S16384x8_S8x1_S16384x1_1_0_0_1_n_n_wf

class Facts : Prop extends Facts₀ where

variable [Facts]
-- ==== Proof.Spec.lean ====
/-
  The function both programs compute, index by index, over the extended reals.

  Example r of the batch reads one row of the user table and one row of the item table (the rows its two index
  words name), forms their elementwise product, and feeds the 384 numbers (product, user row, item row) to a dense
  layer of 8 units with a bias and the positive part, then to one output unit with a bias and the logistic function:

      out r = logistic ( sum_k  max( sum_c W1[c,k] * (u r c * i r c) + sum_c W1[128+c,k] * u r c
                                      + sum_c W1[256+c,k] * i r c + b1[k] , 0 ) * W2[k,0]  +  b2[0] ).

  The three partial sums over 128 columns are written apart, as one of the two programs forms them; the other forms
  one sum over the 384 joined columns, which is the same number because addition of extended reals is commutative
  and associative and multiplication is commutative (no distributivity, so no finiteness, is needed).
-/
import Idealize.ShloMosaic.PureOps.Ideal
import Idealize.ShloMosaic.Lib.ValueIdx

noncomputable section

open scoped BigOperators

namespace Cert.Spec

open Idealize.ShloMosaic Idealize.ShloMosaic.ValueIdx

/-- The table row a 32-bit index word names: its value as a natural number, reduced into the table's 100000 rows
    (the words the programs meet are below 100000, so the reduction changes nothing there). -/
def row (w : BitVec 32) : Fin 100000 := ⟨w.toNat % 100000, Nat.mod_lt _ (by decide)⟩

theorem row_val_of_lt (w : BitVec 32) (h : w.toNat < 100000) : (row w).val = w.toNat := Nat.mod_eq_of_lt h

section

variable (iu ii : (⟨1, ![16384]⟩ : Shape).Idx → BitVec 32)
  (ut it : (⟨2, ![100000, 128]⟩ : Shape).Idx → EReal) (w1 : (⟨2, ![384, 8]⟩ : Shape).Idx → EReal)
  (b1 : (⟨1, ![8]⟩ : Shape).Idx → EReal) (w2 : (⟨2, ![8, 1]⟩ : Shape).Idx → EReal) (b2 : (⟨1, ![1]⟩ : Shape).Idx → EReal)

/-- Column c of the user-table row of example r. -/
def urow (r : Fin 16384) (c : Fin 128) : EReal := ut (ix2 (row (iu (ix1 r))) c)
/-- Column c of the item-table row of example r. -/
def irow (r : Fin 16384) (c : Fin 128) : EReal := it (ix2 (row (ii (ix1 r))) c)

/-- The first layer's weights, by thirds of its 384 rows. -/
def w1a (c : Fin 128) (k : Fin 8) : EReal := w1 (ix2 (⟨c.val, by omega⟩ : Fin 384) k)
def w1b (c : Fin 128) (k : Fin 8) : EReal := w1 (ix2 (⟨128 + c.val, by omega⟩ : Fin 384) k)
def w1c (c : Fin 128) (k : Fin 8) : EReal := w1 (ix2 (⟨256 + c.val, by omega⟩ : Fin 384) k)

/-- Unit k of the hidden layer on example r. -/
def hidden (r : Fin 16384) (k : Fin 8) : EReal :=
  max ((((∑ c : Fin 128, w1a w1 c k * (urow iu ut r c * irow ii it r c)) + ∑ c : Fin 128, w1b w1 c k * urow iu ut r c)
      + ∑ c : Fin 128, w1c w1 c k * irow ii it r c) + b1 (ix1 k)) 0

/-- The output unit's argument on example r. -/
def score (r : Fin 16384) : EReal :=
  (∑ k : Fin 8, hidden iu ii ut it w1 b1 r k * w2 (ix2 k (0 : Fin 1))) + b2 (ix1 (0 : Fin 1))

/-- The result on example r. -/
def out (r : Fin 16384) : EReal := Ideal.logistic (score iu ii ut it w1 b1 w2 b2 r)

/-- The whole result array, one column of 16384 entries. -/
def G : (⟨2, ![16384, 1]⟩ : Shape).Idx → EReal := fun j => out iu ii ut it w1 b1 w2 b2 ⟨(j 0).val, idx2_lt0 j⟩

theorem G_apply (r : Fin 16384) (z : Fin 1) : G iu ii ut it w1 b1 w2 b2 (ix2 r z) = out iu ii ut it w1 b1 w2 b2 r := rfl

end

end Cert.Spec

end
-- ==== Proof.PreRange.lean ====
/-
  The precondition, decoded: what it says of the two index arrays.

  The precondition is one bit, the conjunction of a chain of "every element …" tests; its last two conjuncts say that
  every word of the user-index array and every word of the item-index array, read signed, lies in [0, 99999]. A word
  in that signed range is below 100000 read unsigned.
-/
import proofs.«202841_g12773232738622_fold_wed_m_434_41_alg».proof.Pre_input_domain
import proofs.«202841_g12773232738622_fold_wed_m_434_41_alg».proof.Proof.Gen.Pre_input_domain
import Idealize.ShloMosaic.Lib.ReduceAll
import Idealize.ShloMosaic.Lib.ValueIdx

noncomputable section

namespace Cert.PreRange

open Idealize.ShloMosaic Cert.Pre_input_domain

/-- The scalar shape has one index. -/
instance subsingleton_S_ : Subsingleton S_.Idx := ⟨fun a b => funext fun d => d.elim0⟩

/-- A word that tests at least 0 and at most 99999, both signed, is below 100000 read unsigned. -/
theorem toNat_lt_of (w : BitVec 32) (h0 : IntOp.cmpi .sge w 0#32 = 1#1) (h1 : IntOp.cmpi .sle w 99999#32 = 1#1) :
    w.toNat < 100000 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  have := BitVec.toInt_eq_toNat_cond w
  split at this <;> omega

/-- The last part of the chain: its value 1 gives the two ranges. -/
theorem part2 {F : FTy → Type} [FloatOps F] [Facts] (a1 a2 : IVec S16384 32) (v28 : IVec S_ 1) (v33 : IVec S16384 1)
    (h : fn_part2 (F := F) a1 a2 v28 v33 ValueIdx.ix0 = 1#1) :
    (∀ j, (a1 j).toNat < 100000) ∧ (∀ j, (a2 j).toNat < 100000) := by
  unfold fn_part2 at h
  simp only [andi, IntOp.andi_eq_one] at h
  obtain ⟨⟨-, h1⟩, h2⟩ := h
  refine ⟨fun j => ?_, fun j => ?_⟩
  · have e := Host.reduce_andi_all _ _ _ _ _ h1 j
    obtain ⟨e0, e1⟩ := IntOp.andi_eq_one.1 e
    exact toNat_lt_of _ e0 e1
  · have e := Host.reduce_andi_all _ _ _ _ _ h2 j
    obtain ⟨e0, e1⟩ := IntOp.andi_eq_one.1 e
    exact toNat_lt_of _ e0 e1

/-- THE PRECONDITION DECODED: every word of the two index arrays is below 100000. -/
theorem ranges {F : FTy → Type} [FloatOps F] [Cert.Pre_input_domain.Facts]
    (a0 a1 a2 : IVec Cert.Pre_input_domain.S16384 32) (a3 a4 : FVec F Cert.Pre_input_domain.S100000x128 .f32)
    (a5 : FVec F Cert.Pre_input_domain.S384x8 .f32) (a6 : FVec F Cert.Pre_input_domain.S8 .f32)
    (a7 : FVec F Cert.Pre_input_domain.S8x1 .f32) (a8 : FVec F Cert.Pre_input_domain.S1 .f32)
    (h : Cert.Pre_input_domain.fn (F := F) a0 a1 a2 a3 a4 a5 a6 a7 a8 = fun _ => 1#1) :
    (∀ j, (a1 j).toNat < 100000) ∧ (∀ j, (a2 j).toNat < 100000) := by
  have e := congrFun h ValueIdx.ix0
  unfold fn fn_part1 at e
  exact part2 (F := F) a1 a2 _ _ e

end Cert.PreRange

end
-- ==== Proof.RefRunA.lean ====
/-
  The reference program as a straight line of host operations.

  Its main function calls the row lookup twice and the positive-part function once; a call executes the callee's
  body on the operands, so with the three definitions unfolded at their calls the program is one chain of 67
  operations (23 for each lookup, 21 for the rest), each writing a buffer of its own.
-/
import proofs.«202841_g12773232738622_fold_wed_m_434_41_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first row lookup's 23 operations (user table, user indices). -/
abbrev ops0 : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 100000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg3) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

/-- The second row lookup's 23 operations (item table, item indices). -/
abbrev ops1 : List (HloOp τ sig (Elt F)) :=
  [ TRef.nullary main_call1.c (constantI S_ 32 0#32),
    TRef.unary main_call1.c main_call1.v0 (broadcastInDim S16384 ![] bcast_S_S16384),
    TRef.binary (.of main_arg2) main_call1.v0 main_call1.v1 (cmpi .slt),
    TRef.nullary main_call1.c_0 (constantI S_ 32 100000#32),
    TRef.unary main_call1.c_0 main_call1.v2 (broadcastInDim S16384 ![] bcast_S_S16384),
    TRef.binary (.of main_arg2) main_call1.v2 main_call1.v3 addi,
    TRef.ternary main_call1.v1 main_call1.v3 (.of main_arg2) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg4) main_call1.v5 main_call1.v13 (fun x i => Host.gather gather_S100000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select ]

/-- The remaining 21 operations: product, join, first layer, positive part, second layer, logistic. -/
abbrev ops2 : List (HloOp τ sig (Elt F)) :=
  [ binary main_v0 main_v1 main_v2 (mulf : (⟨S16384x128, .f32⟩ : BufTy).Contents (Elt F) → (⟨S16384x128, .f32⟩ : BufTy).Contents (Elt F) → (⟨S16384x128, .f32⟩ : BufTy).Contents (Elt F)),
    nary ![main_v2, main_v0, main_v1] main_v3 (fun u => concatenate S16384x384 1 [⟨S16384x128, u 0⟩, ⟨S16384x128, u 1⟩, ⟨S16384x128, u 2⟩] concatenates_S16384x128_S16384x128_S16384x128_S16384x384_d1),
    binary main_v3 main_arg5 main_v4 ((fun l r => Host.dotGeneral dot_S16384x384_S384x8_S16384x8_1_0_0_1_n_n none l r) : (⟨S16384x384, .f32⟩ : BufTy).Contents (Elt F) → (⟨S384x8, .f32⟩ : BufTy).Contents (Elt F) → (⟨S16384x8, .f32⟩ : BufTy).Contents (Elt F)),
    unary main_arg6 main_v5 (broadcastInDim S1x8 ![1] bcast_S8_S1x8_1 : (⟨S8, .f32⟩ : BufTy).Contents (Elt F) → (⟨S1x8, .f32⟩ : BufTy).Contents (Elt F)),
    unary main_v5 main_v6 (broadcastInDim S16384x8 ![0, 1] bcast_S1x8_S16384x8_0_1 : (⟨S1x8, .f32⟩ : BufTy).Contents (Elt F) → (⟨S16384x8, .f32⟩ : BufTy).Contents (Elt F)),
    binary main_v4 main_v6 main_v7 (addf : (⟨S16384x8, .f32⟩ : BufTy).Contents (Elt F) → (⟨S16384x8, .f32⟩ : BufTy).Contents (Elt F) → (⟨S16384x8, .f32⟩ : BufTy).Contents (Elt F)),
    TRef.nullary main_call2.cst (constant S_ .f32 0x00000000#32),
    TRef.unary main_call2.cst main_call2.v0 (broadcastInDim S16384x8 ![] bcast_S_S16384x8),
    TRef.binary (.of main_v7) main_call2.v0 main_call2.v1 maximumf,
    binary main_v8 main_arg7 main_v9 ((fun l r => Host.dotGeneral dot_S16384x8_S8x1_S16384x1_1_0_0_1_n_n none l r) : (⟨S16384x8, .f32⟩ : BufTy).Contents (Elt F) → (⟨S8x1, .f32⟩ : BufTy).Contents (Elt F) → (⟨S16384x1, .f32⟩ : BufTy).Contents (Elt F)),
    unary main_arg8 main_v10 (broadcastInDim S1x1 ![1] bcast_S1_S1x1_1 : (⟨S1, .f32⟩ : BufTy).Contents (Elt F) → (⟨S1x1, .f32⟩ : BufTy).Contents (Elt F)),
    unary main_v10 main_v11 (broadcastInDim S16384x1 ![0, 1] bcast_S1x1_S16384x1_0_1 : (⟨S1x1, .f32⟩ : BufTy).Contents (Elt F) → (⟨S16384x1, .f32⟩ : BufTy).Contents (Elt F)),
    binary main_v9 main_v11 main_v12 (addf : (⟨S16384x1, .f32⟩ : BufTy).Contents (Elt F) → (⟨S16384x1, .f32⟩ : BufTy).Contents (Elt F) → (⟨S16384x1, .f32⟩ : BufTy).Contents (Elt F)),
    unary main_v12 main_v13 (Host.negf : (⟨S16384x1, .f32⟩ : BufTy).Contents (Elt F) → (⟨S16384x1, .f32⟩ : BufTy).Contents (Elt F)),
    unary main_v13 main_v14 (Host.exp : (⟨S16384x1, .f32⟩ : BufTy).Contents (Elt F) → (⟨S16384x1, .f32⟩ : BufTy).Contents (Elt F)),
    nullary main_cst (constant S_ .f32 0x3F800000#32),
    unary main_cst main_v15 (broadcastInDim S16384x1 ![] bcast_S_S16384x1 : (⟨S_, .f32⟩ : BufTy).Contents (Elt F) → (⟨S16384x1, .f32⟩ : BufTy).Contents (Elt F)),
    binary main_v15 main_v14 main_v16 (addf : (⟨S16384x1, .f32⟩ : BufTy).Contents (Elt F) → (⟨S16384x1, .f32⟩ : BufTy).Contents (Elt F) → (⟨S16384x1, .f32⟩ : BufTy).Contents (Elt F)),
    nullary main_cst_0 (constant S_ .f32 0x3F800000#32),
    unary main_cst_0 main_v17 (broadcastInDim S16384x1 ![] bcast_S_S16384x1 : (⟨S_, .f32⟩ : BufTy).Contents (Elt F) → (⟨S16384x1, .f32⟩ : BufTy).Contents (Elt F)),
    binary main_v17 main_v16 main_v18 (Host.divf : (⟨S16384x1, .f32⟩ : BufTy).Contents (Elt F) → (⟨S16384x1, .f32⟩ : BufTy).Contents (Elt F) → (⟨S16384x1, .f32⟩ : BufTy).Contents (Elt F)) ]

/-- The whole line, in order. -/
abbrev ops : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 100000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg3) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg2) main_call1.v0 main_call1.v1 (cmpi .slt),
    TRef.nullary main_call1.c_0 (constantI S_ 32 100000#32),
    TRef.unary main_call1.c_0 main_call1.v2 (broadcastInDim S16384 ![] bcast_S_S16384),
    TRef.binary (.of main_arg2) main_call1.v2 main_call1.v3 addi,
    TRef.ternary main_call1.v1 main_call1.v3 (.of main_arg2) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg4) main_call1.v5 main_call1.v13 (fun x i => Host.gather gather_S100000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select,
    binary main_v0 main_v1 main_v2 (mulf : (⟨S16384x128, .f32⟩ : BufTy).Contents (Elt F) → (⟨S16384x128, .f32⟩ : BufTy).Contents (Elt F) → (⟨S16384x128, .f32⟩ : BufTy).Contents (Elt F)),
    nary ![main_v2, main_v0, main_v1] main_v3 (fun u => concatenate S16384x384 1 [⟨S16384x128, u 0⟩, ⟨S16384x128, u 1⟩, ⟨S16384x128, u 2⟩] concatenates_S16384x128_S16384x128_S16384x128_S16384x384_d1),
    binary main_v3 main_arg5 main_v4 ((fun l r => Host.dotGeneral dot_S16384x384_S384x8_S16384x8_1_0_0_1_n_n none l r) : (⟨S16384x384, .f32⟩ : BufTy).Contents (Elt F) → (⟨S384x8, .f32⟩ : BufTy).Contents (Elt F) → (⟨S16384x8, .f32⟩ : BufTy).Contents (Elt F)),
    unary main_arg6 main_v5 (broadcastInDim S1x8 ![1] bcast_S8_S1x8_1 : (⟨S8, .f32⟩ : BufTy).Contents (Elt F) → (⟨S1x8, .f32⟩ : BufTy).Contents (Elt F)),
    unary main_v5 main_v6 (broadcastInDim S16384x8 ![0, 1] bcast_S1x8_S16384x8_0_1 : (⟨S1x8, .f32⟩ : BufTy).Contents (Elt F) → (⟨S16384x8, .f32⟩ : BufTy).Contents (Elt F)),
    binary main_v4 main_v6 main_v7 (addf : (⟨S16384x8, .f32⟩ : BufTy).Contents (Elt F) → (⟨S16384x8, .f32⟩ : BufTy).Contents (Elt F) → (⟨S16384x8, .f32⟩ : BufTy).Contents (Elt F)),
    TRef.nullary main_call2.cst (constant S_ .f32 0x00000000#32),
    TRef.unary main_call2.cst main_call2.v0 (broadcastInDim S16384x8 ![] bcast_S_S16384x8),
    TRef.binary (.of main_v7) main_call2.v0 main_call2.v1 maximumf,
    binary main_v8 main_arg7 main_v9 ((fun l r => Host.dotGeneral dot_S16384x8_S8x1_S16384x1_1_0_0_1_n_n none l r) : (⟨S16384x8, .f32⟩ : BufTy).Contents (Elt F) → (⟨S8x1, .f32⟩ : BufTy).Contents (Elt F) → (⟨S16384x1, .f32⟩ : BufTy).Contents (Elt F)),
    unary main_arg8 main_v10 (broadcastInDim S1x1 ![1] bcast_S1_S1x1_1 : (⟨S1, .f32⟩ : BufTy).Contents (Elt F) → (⟨S1x1, .f32⟩ : BufTy).Contents (Elt F)),
    unary main_v10 main_v11 (broadcastInDim S16384x1 ![0, 1] bcast_S1x1_S16384x1_0_1 : (⟨S1x1, .f32⟩ : BufTy).Contents (Elt F) → (⟨S16384x1, .f32⟩ : BufTy).Contents (Elt F)),
    binary main_v9 main_v11 main_v12 (addf : (⟨S16384x1, .f32⟩ : BufTy).Contents (Elt F) → (⟨S16384x1, .f32⟩ : BufTy).Contents (Elt F) → (⟨S16384x1, .f32⟩ : BufTy).Contents (Elt F)),
    unary main_v12 main_v13 (Host.negf : (⟨S16384x1, .f32⟩ : BufTy).Contents (Elt F) → (⟨S16384x1, .f32⟩ : BufTy).Contents (Elt F)),
    unary main_v13 main_v14 (Host.exp : (⟨S16384x1, .f32⟩ : BufTy).Contents (Elt F) → (⟨S16384x1, .f32⟩ : BufTy).Contents (Elt F)),
    nullary main_cst (constant S_ .f32 0x3F800000#32),
    unary main_cst main_v15 (broadcastInDim S16384x1 ![] bcast_S_S16384x1 : (⟨S_, .f32⟩ : BufTy).Contents (Elt F) → (⟨S16384x1, .f32⟩ : BufTy).Contents (Elt F)),
    binary main_v15 main_v14 main_v16 (addf : (⟨S16384x1, .f32⟩ : BufTy).Contents (Elt F) → (⟨S16384x1, .f32⟩ : BufTy).Contents (Elt F) → (⟨S16384x1, .f32⟩ : BufTy).Contents (Elt F)),
    nullary main_cst_0 (constant S_ .f32 0x3F800000#32),
    unary main_cst_0 main_v17 (broadcastInDim S16384x1 ![] bcast_S_S16384x1 : (⟨S_, .f32⟩ : BufTy).Contents (Elt F) → (⟨S16384x1, .f32⟩ : BufTy).Contents (Elt F)),
    binary main_v17 main_v16 main_v18 (Host.divf : (⟨S16384x1, .f32⟩ : BufTy).Contents (Elt F) → (⟨S16384x1, .f32⟩ : BufTy).Contents (Elt F) → (⟨S16384x1, .f32⟩ : BufTy).Contents (Elt F)) ]

theorem ops_eq : (ops : List (HloOp τ sig (Elt F))) = ops0 ++ (ops1 ++ ops2) := rfl

set_option maxHeartbeats 4000000 in
set_option maxRecDepth 8192 in
/-- The main function is that straight line: with the three functions' definitions unfolded at their calls and
    sequencing reassociated both sides are the same chain of steps, which is checked by computation. -/
theorem main_eq (c : Dev nD) : main (F := F) c = seq ops := rfl

set_option maxRecDepth 4096 in
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., nary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub ..⟩

end Cert.ReferenceIdeal.RefRun

end
-- ==== Proof.RefOut.lean ====
/-
  The reference program's result as one term of the host operations over its eight argument arrays.

  A row lookup (`take`): the index array is compared with 0 and, where negative, shifted up by the number of table
  rows; the rows at the shifted indices are gathered; and where a shifted index still lies outside the table the row is
  replaced by the not-a-number constant. The result (`refOut`): the two looked-up row arrays and their elementwise product
  are joined side by side (product, first rows, second rows), multiplied by the first weight matrix, the first bias is
  added along rows, the positive part is taken, the second weight matrix and bias follow, and the logistic function is
  spelt as one over one plus the exponential of the negation.
-/
import proofs.«202841_g12773232738622_fold_wed_m_434_41_alg».proof.Proof.Gen.ReferenceIdeal
import Idealize.ShloMosaic.PureOps.Ideal

noncomputable section

namespace Cert.ReferenceIdeal.RefRun

open Cert.ReferenceIdeal Cert.ReferenceIdeal.Gen Idealize.ShloMosaic

variable {F : FTy → Type} [FloatOps F]

/-- The index array with its negative words shifted up by the number of rows, as a column. -/
def wrapped (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 100000#32))) idx)

/-- Where the shifted index lies in the table: at least 0 and at most 99999, both signed. -/
def inTable (idx : IVec S16384 32) : IVec S16384 1 :=
  Host.reduce IntOp.andi
    (andi (cmpi .sge (wrapped idx) (broadcastInDim S16384x1 ![] bcast_S_S16384x1 (constantI S_ 32 0#32)))
      (cmpi .sle (wrapped idx) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- The row lookup: the gathered rows, a not-a-number row where the index lies outside the table. -/
def take (tbl : FVec F S100000x128 .f32) (idx : IVec S16384 32) : FVec F S16384x128 .f32 :=
  select (broadcastInDim S16384x128 ![0] bcast_S16384_S16384x128_0 (inTable idx))
    (Host.gather gather_S100000x128_S16384x1_S16384x128_1_0_n_n_0_1_1128 tbl (wrapped idx))
    (broadcastInDim S16384x128 ![] bcast_S_S16384x128 (constant S_ .f32 0x7FC00000#32))

/-- The hidden layer: the joined columns times the first weights, plus the first bias, positive part. -/
def hiddenLayer (u i : FVec F S16384x128 .f32) (a5 : FVec F S384x8 .f32) (a6 : FVec F S8 .f32) : FVec F S16384x8 .f32 :=
  maximumf
    (addf
      (Host.dotGeneral dot_S16384x384_S384x8_S16384x8_1_0_0_1_n_n none
        (concatenate S16384x384 1 [⟨S16384x128, mulf u i⟩, ⟨S16384x128, u⟩, ⟨S16384x128, i⟩]
          concatenates_S16384x128_S16384x128_S16384x128_S16384x384_d1) a5)
      (broadcastInDim S16384x8 ![0, 1] bcast_S1x8_S16384x8_0_1 (broadcastInDim S1x8 ![1] bcast_S8_S1x8_1 a6)))
    (broadcastInDim S16384x8 ![] bcast_S_S16384x8 (constant S_ .f32 0x00000000#32))

/-- The output unit's argument: the hidden layer times the second weights, plus the second bias. -/
def scoreLayer (h : FVec F S16384x8 .f32) (a7 : FVec F S8x1 .f32) (a8 : FVec F S1 .f32) : FVec F S16384x1 .f32 :=
  addf (Host.dotGeneral dot_S16384x8_S8x1_S16384x1_1_0_0_1_n_n none h a7)
    (broadcastInDim S16384x1 ![0, 1] bcast_S1x1_S16384x1_0_1 (broadcastInDim S1x1 ![1] bcast_S1_S1x1_1 a8))

/-- The logistic function as the program spells it: one over one plus the exponential of the negation. -/
def logisticSpelt (x : FVec F S16384x1 .f32) : FVec F S16384x1 .f32 :=
  Host.divf (broadcastInDim S16384x1 ![] bcast_S_S16384x1 (constant S_ .f32 0x3F800000#32))
    (addf (broadcastInDim S16384x1 ![] bcast_S_S16384x1 (constant S_ .f32 0x3F800000#32)) (Host.exp (Host.negf x)))

/-- The reference program's result, as a term of its argument arrays (the first argument array is not read). -/
def refOut (a1 a2 : IVec S16384 32) (a3 a4 : FVec Ideal S100000x128 .f32) (a5 : FVec Ideal S384x8 .f32)
    (a6 : FVec Ideal S8 .f32) (a7 : FVec Ideal S8x1 .f32) (a8 : FVec Ideal S1 .f32) : FVec Ideal S16384x1 .f32 :=
  logisticSpelt (scoreLayer (hiddenLayer (take a3 a1) (take a4 a2) a5 a6) a7 a8)

end Cert.ReferenceIdeal.RefRun

end
-- ==== Proof.RefRun.lean ====
/-
  The reference program's run: every weakly fair execution terminates, the result buffer holds the composed term
  of the host operations over the argument arrays as they were at launch, and the argument arrays are unchanged.

  The program is a straight line of 67 host operations, each writing a buffer of its own and none writing an
  argument; what a buffer holds after the line is the fold of the operations' results, read at that buffer.
-/
import proofs.«202841_g12773232738622_fold_wed_m_434_41_alg».proof.Proof.RefRunA
import proofs.«202841_g12773232738622_fold_wed_m_434_41_alg».proof.Proof.RefOut

noncomputable section

namespace Cert.ReferenceIdeal.RefRun

open Cert.ReferenceIdeal Cert.ReferenceIdeal.Gen Idealize.ShloMosaic Idealize.ShloMosaic.TcCoe Idealize.SL.Sem Idealize.ShloMosaic.StableHlo

attribute [local irreducible] Host.reduce Host.gather concatenate broadcastInDim in
set_option maxRecDepth 8192 in
set_option maxHeartbeats 4000000 in
/-- The result buffer after the line: each operation's result read at its own buffer is its function's value of
    its operands' contents, and the chain of these is the composed term. -/
theorem out_eq (V : Valuation τ sig (Elt Ideal)) :
    after (ops (F := Ideal)) V (main_v18 : DevRef τ sig)
      = refOut (V (main_arg1 : DevRef τ sig)) (V (main_arg2 : DevRef τ sig)) (V (main_arg3 : DevRef τ sig))
          (V (main_arg4 : DevRef τ sig)) (V (main_arg5 : DevRef τ sig)) (V (main_arg6 : DevRef τ sig))
          (V (main_arg7 : DevRef τ sig)) (V (main_arg8 : DevRef τ sig)) := by
  after_results_simp
  rfl

set_option maxRecDepth 8192 in
set_option maxHeartbeats 4000000 in
/-- No operation writes argument 0. -/
theorem arg0_eq (V : Valuation τ sig (Elt Ideal)) :
    after (ops (F := Ideal)) V (main_arg0 : DevRef τ sig) = V (main_arg0 : DevRef τ sig) := by
  after_results_simp

set_option maxRecDepth 8192 in
set_option maxHeartbeats 4000000 in
/-- No operation writes argument 1. -/
theorem arg1_eq (V : Valuation τ sig (Elt Ideal)) :
    after (ops (F := Ideal)) V (main_arg1 : DevRef τ sig) = V (main_arg1 : DevRef τ sig) := by
  after_results_simp

set_option maxRecDepth 8192 in
set_option maxHeartbeats 4000000 in
/-- No operation writes argument 2. -/
theorem arg2_eq (V : Valuation τ sig (Elt Ideal)) :
    after (ops (F := Ideal)) V (main_arg2 : DevRef τ sig) = V (main_arg2 : DevRef τ sig) := by
  after_results_simp

set_option maxRecDepth 8192 in
set_option maxHeartbeats 4000000 in
/-- No operation writes argument 3. -/
theorem arg3_eq (V : Valuation τ sig (Elt Ideal)) :
    after (ops (F := Ideal)) V (main_arg3 : DevRef τ sig) = V (main_arg3 : DevRef τ sig) := by
  after_results_simp

set_option maxRecDepth 8192 in
set_option maxHeartbeats 4000000 in
/-- No operation writes argument 4. -/
theorem arg4_eq (V : Valuation τ sig (Elt Ideal)) :
    after (ops (F := Ideal)) V (main_arg4 : DevRef τ sig) = V (main_arg4 : DevRef τ sig) := by
  after_results_simp

set_option maxRecDepth 8192 in
set_option maxHeartbeats 4000000 in
/-- No operation writes argument 5. -/
theorem arg5_eq (V : Valuation τ sig (Elt Ideal)) :
    after (ops (F := Ideal)) V (main_arg5 : DevRef τ sig) = V (main_arg5 : DevRef τ sig) := by
  after_results_simp

set_option maxRecDepth 8192 in
set_option maxHeartbeats 4000000 in
/-- No operation writes argument 6. -/
theorem arg6_eq (V : Valuation τ sig (Elt Ideal)) :
    after (ops (F := Ideal)) V (main_arg6 : DevRef τ sig) = V (main_arg6 : DevRef τ sig) := by
  after_results_simp

set_option maxRecDepth 8192 in
set_option maxHeartbeats 4000000 in
/-- No operation writes argument 7. -/
theorem arg7_eq (V : Valuation τ sig (Elt Ideal)) :
    after (ops (F := Ideal)) V (main_arg7 : DevRef τ sig) = V (main_arg7 : DevRef τ sig) := by
  after_results_simp

set_option maxRecDepth 8192 in
set_option maxHeartbeats 4000000 in
/-- No operation writes argument 8. -/
theorem arg8_eq (V : Valuation τ sig (Elt Ideal)) :
    after (ops (F := Ideal)) V (main_arg8 : DevRef τ sig) = V (main_arg8 : DevRef τ sig) := by
  after_results_simp

set_option maxRecDepth 8192 in
set_option maxHeartbeats 4000000 in
/-- On every device, from any memory with zero counters: every weakly fair execution of the reference program
    terminates with the result at the composed term of the arguments, and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v18)
          = refOut (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v18).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m g)

end Cert.ReferenceIdeal.RefRun

end
-- ==== Proof.LibRowGather.lean ====
/-
  A gather of whole rows: from an array of N rows and n columns, the rows named by E start indices
  (dimension numbers: offset axis [1], collapsed slice axis [0], start index map [0], index vector on axis 1,
  slice sizes [1, n]). Entry (e, c) of the result is the operand's entry (r, c), where r is start index e read
  as a signed integer and clamped into [0, N - 1], as a gather clamps every start index.
-/
import Idealize.ShloMosaic.PureOps.Ideal
import Idealize.ShloMosaic.Lib.ValueIdx

noncomputable section

namespace Cert.Lib.RowGather

open Idealize.ShloMosaic Idealize.ShloMosaic.ValueIdx

variable {α : Type}

/-- The dimension numbers of a gather of whole rows, for an operand `[N, n]`, start indices `[E, 1]` and a
    result `[E, n]`. -/
abbrev rowDims (N E n : Nat)
    (wf : GatherDims.WF ⟨2, ![N, n]⟩ ⟨2, ![E, 1]⟩ ⟨2, ![E, n]⟩ [1] [0] [] [0] [] 1 ![1, n]) :
    GatherDims ⟨2, ![N, n]⟩ ⟨2, ![E, 1]⟩ ⟨2, ![E, n]⟩ :=
  ⟨[1], [0], [], [], [0], 1, ![1, n], wf⟩

section
variable {N E n w : Nat}
  (wf : GatherDims.WF ⟨2, ![N, n]⟩ ⟨2, ![E, 1]⟩ ⟨2, ![E, n]⟩ [1] [0] [] [0] [] 1 ![1, n])
  (idx : IVec ⟨2, ![E, 1]⟩ w) (e : Fin E) (c : Fin n)

/-- On the row axis the operand coordinate is the clamped start index: no batching and no offset part. -/
theorem coord0 :
    (rowDims N E n wf).start (ix2 e c) idx 0 + (rowDims N E n wf).batchCoord (ix2 e c) 0
      + (rowDims N E n wf).offCoord (ix2 e c) 0 = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N E n wf).startIndexMap from List.mem_singleton.mpr rfl)]
  have hsi : (rowDims N E n wf).siIdx (ix2 e c) ⟨List.idxOf (0 : Fin 2) (rowDims N E n wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand coordinate is the result's column: no start and no batching part. -/
theorem coord1 :
    (rowDims N E n wf).start (ix2 e c) idx 1 + (rowDims N E n wf).batchCoord (ix2 e c) 1
      + (rowDims N E n wf).offCoord (ix2 e c) 1 = c.val := by
  rw [GatherDims.batchCoord_eq_zero _ _ _ List.not_mem_nil]
  have h1 : (1 : Fin 2) ∉ ([0] : List (Fin 2)) := by decide
  have hs : (rowDims N E n wf).start (ix2 e c) idx 1 = 0 := by
    unfold GatherDims.start
    rw [dif_neg (show (1 : Fin 2) ∉ (rowDims N E n wf).startIndexMap from h1)]
  rw [hs]
  simp only [Nat.add_zero, Nat.zero_add]
  have hk : (1 : Fin 2) ∈ (rowDims N E n wf).sKept :=
    (GatherDims.mem_sKept _ _).mpr ⟨h1, List.not_mem_nil⟩
  unfold GatherDims.offCoord
  rw [dif_pos hk]
  rfl

end

/-- THE ROW GATHER READ AT `(e, c)`: the operand at row `idx[e, 0]` (read signed, clamped into `[0, N − 1]`),
    column `c`. -/
theorem rowGather_apply {N E n w : Nat} (hN : 0 < N)
    (wf : GatherDims.WF ⟨2, ![N, n]⟩ ⟨2, ![E, 1]⟩ ⟨2, ![E, n]⟩ [1] [0] [] [0] [] 1 ![1, n])
    (x : (⟨2, ![N, n]⟩ : Shape).Idx → α) (idx : IVec ⟨2, ![E, 1]⟩ w) (e : Fin E) (c : Fin n) :
    Host.gather (⟨[1], [0], [], [], [0], 1, ![1, n], wf⟩ : GatherDims ⟨2, ![N, n]⟩ ⟨2, ![E, 1]⟩ ⟨2, ![E, n]⟩) x idx (ix2 e c)
      = x (ix2 ⟨min (idx (ix2 e (0 : Fin 1))).toInt.toNat (N - 1), by omega⟩ c) := by
  show Host.gather (rowDims N E n wf) x idx (ix2 e c) = _
  unfold Host.gather
  congr 1
  funext a
  refine Fin.ext ?_
  match a with
  | ⟨0, _⟩ => exact coord0 wf idx e c
  | ⟨1, _⟩ => exact coord1 wf idx e c

end Cert.Lib.RowGather

end
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.RefValue.lean ====
/-
  The reference program's composed term is the shared specification, index by index, when every index word is
  below the number of table rows.

  Read outermost first at entry (r, 0): the logistic spelling is the logistic function of the output unit's
  argument; that argument is the sum over the 8 hidden units of unit times weight, plus the bias; a hidden unit is
  the positive part of a sum over the 384 joined columns plus its bias, and the 384-term sum splits into three sums
  of 128 terms, one per joined piece (product, first rows, second rows), each product commuted into the
  specification's weight-times-value order; and a looked-up row is the table row the index word names: a word below
  100000 is nonnegative as a signed word, so it is not shifted, the in-table test holds at every example, and the
  gather's clamp into [0, 99999] leaves it alone.
-/
import proofs.«202841_g12773232738622_fold_wed_m_434_41_alg».proof.Proof.RefOut
import proofs.«202841_g12773232738622_fold_wed_m_434_41_alg».proof.Proof.Spec
import proofs.«202841_g12773232738622_fold_wed_m_434_41_alg».proof.Proof.LibRowGather
import proofs.«202841_g12773232738622_fold_wed_m_434_41_alg».proof.Proof.LibMatDot
import Idealize.ShloMosaic.Lib.ReduceAll
import Idealize.ShloMosaic.Lib.IdealHost
import Idealize.ShloMosaic.Lib.Pipeline.Value

noncomputable section

open scoped BigOperators

namespace Cert.ReferenceIdeal.RefValue

open Cert.ReferenceIdeal Cert.ReferenceIdeal.Gen Cert.ReferenceIdeal.RefRun Idealize.ShloMosaic Idealize.ShloMosaic.ValueIdx

/-- A word below 100000 reads the same signed and unsigned. -/
theorem toInt_of_lt (w : BitVec 32) (h : w.toNat < 100000) : w.toInt = (w.toNat : Int) := by
  have := BitVec.toInt_eq_toNat_cond w
  split at this <;> omega

/-- A left fold by `and` over one-bit words that are all 1, started at 1, is 1. -/
theorem foldl_andi_ones {ι : Type} (f : ι → BitVec 1) (l : List ι) (h : ∀ n ∈ l, f n = 1#1) :
    l.foldl (fun r n => IntOp.andi r (f n)) 1#1 = 1#1 := by
  induction l with
  | nil => rfl
  | cons a l ih =>
    have e : IntOp.andi 1#1 1#1 = 1#1 := by decide
    rw [List.foldl_cons, h a List.mem_cons_self, e]
    exact ih fun n hn => h n (List.mem_cons_of_mem _ hn)

/-- A reduction by `and` of an array of ones from the initial value 1 is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ (fun n _ => hx n)

/-- At an example whose index word is below 100000 the shifted index is the word itself: it does not test negative. -/
theorem wrapped_apply (idx : IVec S16384 32) (r : Fin 16384) (z : Fin 1) (h : (idx (ix1 r)).toNat < 100000) :
    wrapped idx (ix2 r z) = idx (ix1 r) := by
  unfold wrapped
  rw [broadcastInDim_apply ![0] bcast_S16384_S16384x1_0 _ (ix2 r z) (ix1 r) (fun a => by match a with | ⟨0, _⟩ => rfl)]
  show Scalar.select (IntOp.cmpi .slt (idx (ix1 r)) 0#32) _ (idx (ix1 r)) = _
  refine if_neg fun e => ?_
  have e' := IntOp.cmpi_slt.1 e
  rw [toInt_of_lt _ h] at e'
  have : (0#32 : BitVec 32).toInt = 0 := by decide
  omega

/-- With every index word below 100000 the in-table test holds at every example. -/
theorem inTable_apply (idx : IVec S16384 32) (h : ∀ j, (idx j).toNat < 100000) (r : Fin 16384) :
    inTable idx (ix1 r) = 1#1 := by
  unfold inTable
  refine reduce_andi_ones _ _ _ _ (fun i => ?_) (fun _ => rfl) _
  obtain ⟨a, b, rfl⟩ : ∃ (a : Fin 16384) (b : Fin 1), i = ix2 a b := ⟨i 0, i 1, eq_ix2 i⟩
  show IntOp.andi (IntOp.cmpi .sge (wrapped idx (ix2 a b)) 0#32) (IntOp.cmpi .sle (wrapped idx (ix2 a b)) 99999#32) = 1#1
  rw [wrapped_apply idx a b (h _), IntOp.andi_eq_one, IntOp.cmpi_sge, IntOp.cmpi_sle, toInt_of_lt _ (h _)]
  have e0 : (0#32 : BitVec 32).toInt = 0 := by decide
  have e1 : (99999#32 : BitVec 32).toInt = 99999 := by decide
  have := h (ix1 a)
  omega

/-- THE ROW LOOKUP READ AT (r, c): the table at the row the index word of example r names, column c. -/
theorem take_apply (tbl : FVec Ideal S100000x128 .f32) (idx : IVec S16384 32) (h : ∀ j, (idx j).toNat < 100000)
    (r : Fin 16384) (c : Fin 128) :
    take tbl idx (ix2 r c) = tbl (ix2 (Cert.Spec.row (idx (ix1 r))) c) := by
  unfold take
  show Scalar.select (broadcastInDim S16384x128 ![0] bcast_S16384_S16384x128_0 (inTable idx) (ix2 r c)) _ _ = _
  rw [broadcastInDim_apply ![0] bcast_S16384_S16384x128_0 _ (ix2 r c) (ix1 r) (fun a => by match a with | ⟨0, _⟩ => rfl),
    inTable_apply idx h r]
  refine (if_pos (show (1#1 : BitVec 1) = 1 from rfl)).trans ?_
  refine (Cert.Lib.RowGather.rowGather_apply (by decide) _ tbl (wrapped idx) r c).trans ?_
  congr 1
  congr 1
  apply Fin.ext
  show min (wrapped idx (ix2 r (0 : Fin 1))).toInt.toNat (100000 - 1) = (idx (ix1 r)).toNat % 100000
  rw [wrapped_apply idx r 0 (h _), toInt_of_lt _ (h _)]
  have := h (ix1 r)
  omega

/-- A sum over 384 terms is the sum of its three thirds of 128 terms. -/
theorem sum_384 (f : Fin 384 → EReal) :
    ∑ c : Fin 384, f c = ((∑ c : Fin 128, f ⟨c.val, by omega⟩) + ∑ c : Fin 128, f ⟨128 + c.val, by omega⟩)
      + ∑ c : Fin 128, f ⟨256 + c.val, by omega⟩ := by
  have e1 := Fin.sum_univ_add (a := 256) (b := 128) f
  have e2 := Fin.sum_univ_add (a := 128) (b := 128) (fun i : Fin (128 + 128) => f (Fin.castAdd 128 i))
  rw [e1, e2]
  rfl

section
variable (x0 x1 x2 : FVec Ideal S16384x128 .f32) (r : Fin 16384) (c : Fin 128)

/-- The join of three 128-column arrays, read in its first, second and third 128 columns, is the first, second and
    third array. -/
theorem concat_apply0 :
    concatenate S16384x384 1 [⟨S16384x128, x0⟩, ⟨S16384x128, x1⟩, ⟨S16384x128, x2⟩] concatenates_S16384x128_S16384x128_S16384x128_S16384x384_d1
      (ix2 r (⟨c.val, by omega⟩ : Fin 384)) = x0 (ix2 r c) := by
  refine concatenate_apply_piece (α := Ideal .f32) (t := S16384x384) (1 : Fin 2) [⟨S16384x128, x0⟩, ⟨S16384x128, x1⟩, ⟨S16384x128, x2⟩] concatenates_S16384x128_S16384x128_S16384x128_S16384x384_d1 _ 0 (by simp) S16384x128 x0 rfl rfl 0 rfl (ix2 r c) (fun b hb => ?_) ?_
  · match b with
    | ⟨0, _⟩ => rfl
    | ⟨1, _⟩ => exact absurd rfl hb
  · show 0 + c.val = c.val
    omega

theorem concat_apply1 :
    concatenate S16384x384 1 [⟨S16384x128, x0⟩, ⟨S16384x128, x1⟩, ⟨S16384x128, x2⟩] concatenates_S16384x128_S16384x128_S16384x128_S16384x384_d1
      (ix2 r (⟨128 + c.val, by omega⟩ : Fin 384)) = x1 (ix2 r c) := by
  refine concatenate_apply_piece (α := Ideal .f32) (t := S16384x384) (1 : Fin 2) [⟨S16384x128, x0⟩, ⟨S16384x128, x1⟩, ⟨S16384x128, x2⟩] concatenates_S16384x128_S16384x128_S16384x128_S16384x384_d1 _ 1 (by simp) S16384x128 x1 rfl rfl 128 rfl (ix2 r c) (fun b hb => ?_) ?_
  · match b with
    | ⟨0, _⟩ => rfl
    | ⟨1, _⟩ => exact absurd rfl hb
  · rfl

theorem concat_apply2 :
    concatenate S16384x384 1 [⟨S16384x128, x0⟩, ⟨S16384x128, x1⟩, ⟨S16384x128, x2⟩] concatenates_S16384x128_S16384x128_S16384x128_S16384x384_d1
      (ix2 r (⟨256 + c.val, by omega⟩ : Fin 384)) = x2 (ix2 r c) := by
  refine concatenate_apply_piece (α := Ideal .f32) (t := S16384x384) (1 : Fin 2) [⟨S16384x128, x0⟩, ⟨S16384x128, x1⟩, ⟨S16384x128, x2⟩] concatenates_S16384x128_S16384x128_S16384x128_S16384x384_d1 _ 2 (by simp) S16384x128 x2 rfl rfl 256 rfl (ix2 r c) (fun b hb => ?_) ?_
  · match b with
    | ⟨0, _⟩ => rfl
    | ⟨1, _⟩ => exact absurd rfl hb
  · rfl

end

/-- THE HIDDEN LAYER READ AT (r, k): the positive part of the three 128-term sums (weight times value) plus the bias. -/
theorem hidden_apply (u i : FVec Ideal S16384x128 .f32) (a5 : FVec Ideal S384x8 .f32) (a6 : FVec Ideal S8 .f32)
    (r : Fin 16384) (k : Fin 8) :
    hiddenLayer u i a5 a6 (ix2 r k)
      = max ((((∑ c : Fin 128, a5 (ix2 (⟨c.val, by omega⟩ : Fin 384) k) * (u (ix2 r c) * i (ix2 r c)))
            + ∑ c : Fin 128, a5 (ix2 (⟨128 + c.val, by omega⟩ : Fin 384) k) * u (ix2 r c))
            + ∑ c : Fin 128, a5 (ix2 (⟨256 + c.val, by omega⟩ : Fin 384) k) * i (ix2 r c)) + a6 (ix1 k)) 0 := by
  have hd := Cert.Lib.MatDot.dotGeneral_apply dot_S16384x384_S384x8_S16384x8_1_0_0_1_n_n_wf none
      (concatenate S16384x384 1 [⟨S16384x128, mulf u i⟩, ⟨S16384x128, u⟩, ⟨S16384x128, i⟩] concatenates_S16384x128_S16384x128_S16384x128_S16384x384_d1) a5 r k
  have hb := Cert.Lib.MatDot.broadcastInDim_vec_rows_apply bcast_S8_S1x8_1 bcast_S1x8_S16384x8_0_1 a6 r k
  have hz : broadcastInDim S16384x8 ![] bcast_S_S16384x8 (constant (F := Ideal) S_ .f32 0x00000000#32) (ix2 r k)
      = (0 : EReal) := Ideal.ofBits_zero_f32
  refine (congrArg₂ max (congrArg₂ (· + ·) (hd.trans (sum_384 _)) hb) hz).trans ?_
  simp only [concat_apply0, concat_apply1, concat_apply2]
  congr 1
  congr 1
  congr 1
  congr 1
  · exact Finset.sum_congr rfl fun c _ => mul_comm _ _
  · exact Finset.sum_congr rfl fun c _ => mul_comm _ _
  · exact Finset.sum_congr rfl fun c _ => mul_comm _ _

/-- The output unit's argument at (r, z): the sum over the hidden units of unit times weight, plus the bias. -/
theorem score_apply (h : FVec Ideal S16384x8 .f32) (a7 : FVec Ideal S8x1 .f32) (a8 : FVec Ideal S1 .f32)
    (r : Fin 16384) (z : Fin 1) :
    scoreLayer h a7 a8 (ix2 r z) = (∑ k : Fin 8, h (ix2 r k) * a7 (ix2 k z)) + a8 (ix1 z) := by
  have hd := Cert.Lib.MatDot.dotGeneral_apply dot_S16384x8_S8x1_S16384x1_1_0_0_1_n_n_wf none h a7 r z
  have hb := Cert.Lib.MatDot.broadcastInDim_vec_rows_apply bcast_S1_S1x1_1 bcast_S1x1_S16384x1_0_1 a8 r z
  exact congrArg₂ (· + ·) hd hb

/-- One over one plus the exponential of the negation is the logistic function (the constant pattern is 1). -/
theorem logistic_apply (x : FVec Ideal S16384x1 .f32) (j : S16384x1.Idx) :
    logisticSpelt x j = Ideal.logistic (x j) := by
  show Ideal.div (Ideal.ofBits .f32 0x3F800000#32) (Ideal.ofBits .f32 0x3F800000#32 + Ideal.exp (-(x j))) = _
  rw [Ideal.ofBits_one_f32]
  rfl

/-- THE REFERENCE'S TERM IS THE SPECIFICATION, when every word of the two index arrays is below 100000. -/
theorem refOut_eq_G (a1 a2 : IVec S16384 32) (a3 a4 : FVec Ideal S100000x128 .f32) (a5 : FVec Ideal S384x8 .f32)
    (a6 : FVec Ideal S8 .f32) (a7 : FVec Ideal S8x1 .f32) (a8 : FVec Ideal S1 .f32)
    (h1 : ∀ j, (a1 j).toNat < 100000) (h2 : ∀ j, (a2 j).toNat < 100000) :
    refOut a1 a2 a3 a4 a5 a6 a7 a8 = Cert.Spec.G a1 a2 a3 a4 a5 a6 a7 a8 := by
  funext j
  obtain ⟨r, z, rfl⟩ : ∃ (r : Fin 16384) (z : Fin 1), j = ix2 r z := ⟨j 0, j 1, eq_ix2 j⟩
  have hz : z = 0 := Subsingleton.elim _ _
  subst hz
  rw [Cert.Spec.G_apply]
  refine (logistic_apply _ _).trans (congrArg Ideal.logistic ?_)
  refine (score_apply _ _ _ _ _).trans ?_
  refine congrArg₂ (· + ·) (Finset.sum_congr rfl fun k _ => ?_) rfl
  refine congrArg₂ (· * ·) ?_ rfl
  rw [hidden_apply]
  simp only [take_apply _ _ h1, take_apply _ _ h2]
  rfl

end Cert.ReferenceIdeal.RefValue

end
-- ==== Proof.ScCommon.lean ====
/-
  The gather-then-dense program as the SparseCore launch sees it: its label signature and body table, the ghost
  state (the handshakes' rounds, a second copy of the rounds for the dense stage's staging cells, the local transfers'
  counters), and the arrays the two stages pass between them.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.KernelIdeal
import proofs.«202841_g12773232738622_fold_wed_m_434_41_alg».proof.Proof.Gen.KernelIdeal.Skeleton
import proofs.«202841_g12773232738622_fold_wed_m_434_41_alg».proof.Proof.Gen.KernelIdeal.Launch
import proofs.«202841_g12773232738622_fold_wed_m_434_41_alg».proof.Proof.Gen.KernelIdeal.Points
import proofs.«202841_g12773232738622_fold_wed_m_434_41_alg».proof.Proof.Spec

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

/-! ## The arrays the gather stage works on -/

/-- The joined index list (the user indices followed by the item indices), the two tables, and the gathered rows. -/
abbrev xLoc (d : Dev nD) : Loc nD τ sig := (SparseCore.T d).loc main_v0
abbrev uLoc (d : Dev nD) : Loc nD τ sig := (SparseCore.T d).loc main_arg3
abbrev iLoc (d : Dev nD) : Loc nD τ sig := (SparseCore.T d).loc main_arg4
abbrev oLoc (d : Dev nD) : Loc nD τ sig := (SparseCore.T d).loc main_v1

theorem xdiv : 64 ∣ S32768.size 0 := ⟨512, rfl⟩
theorem odiv : 256 ∣ S32768x128.size 0 := ⟨128, rfl⟩
/-- Part n of the index list cut into 64 stretches of 512 words. -/
abbrev xpart (n : Fin 64) : Rect S32768 := Rect.part (s := S32768) (a₀ := 0) xdiv n
/-- Part n of the gathered rows cut into 256 blocks of 128 rows. -/
abbrev opart (n : Fin 256) : Rect S32768x128 := Rect.part (s := S32768x128) (a₀ := 0) odiv n
abbrev xSet (n : Fin 64) : Finset S32768.Idx := ((Memref.whole main_v0_scv : Memref sig .scVector .hbm S32768 .i32).view.slice (xpart n)).set
abbrev oSet (n : Fin 256) : Finset S32768x128.Idx := ((Memref.whole main_v1_scv : Memref sig .scVector .hbm S32768x128 .f32).view.slice (opart n)).set

/-- Worker number of vector subcore i of SparseCore c: 2 i + c, below 32. Worker w owns words [512 w, 512 w + 512) of each
    half of the index list and the same rows of each half of the gathered rows. -/
def wid (c : Fin 2) (i : Fin 16) : Fin 32 := ⟨2 * i.val + c.val, by omega⟩
/-- The worker's stretch of half a of the index list. -/
def xN (a : Fin 2) (c : Fin 2) (i : Fin 16) : Fin 64 := ⟨32 * a.val + (wid c i).val, by have := (wid c i).isLt; omega⟩
/-- The worker's block b (128 rows) of half a of the gathered rows. -/
def oN (a : Fin 2) (c : Fin 2) (i : Fin 16) (b : Fin 4) : Fin 256 := ⟨128 * a.val + 4 * (wid c i).val + b.val, by have := (wid c i).isLt; omega⟩

/-! ## Shares of a table: the full share halved n times -/

/-- Leaf i of the depth-n halving of share q. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The share of a table a worker lends to its g-th gather in flight (four at most read one table at once). -/
def tq (c : Fin 2) (i : Fin 16) (g : Fin 4) : PosShare TreeShare := leaf 7 fullShare ⟨4 * (wid c i).val + g.val, by have := (wid c i).isLt; omega⟩

/-! ## The gathered rows as one function of the index list and the tables -/

/-- Row r of the result is the table row its index word names: the user table's for r below 16384, the item
    table's from there on. -/
def gathered (x : S32768.Idx → BitVec 32) (ut it : S100000x128.Idx → F .f32) : S32768x128.Idx → F .f32 := fun j =>
  if (j 0).val < 16384 then ut (ValueIdx.ix2 (Cert.Spec.row (x (ValueIdx.ix1 (⟨(j 0).val, ValueIdx.idx2_lt0 j⟩ : Fin 32768)))) (⟨(j 1).val, ValueIdx.idx2_lt1 j⟩ : Fin 128))
  else it (ValueIdx.ix2 (Cert.Spec.row (x (ValueIdx.ix1 (⟨(j 0).val, ValueIdx.idx2_lt0 j⟩ : Fin 32768)))) (⟨(j 1).val, ValueIdx.idx2_lt1 j⟩ : Fin 128))

/-! ## What a worker is handed, and hands back -/

variable (m : (ℓ : Loc nD τ sig) → Buf (Elt F) ℓ)

/-- A worker's holdings: its two stretches of the index list (whole share; contents X), four shares of each table
    (launch contents), and its eight blocks of the gathered rows at contents f. -/
def tileRes (X : (d : Dev nD) → Buf (Elt F) (xLoc d)) (d : Dev nD) (c : Fin 2) (i : Fin 16) (f : Buf (Elt F) (oLoc d)) : sProp 𝕄 :=
  iprop((bigSep Finset.univ fun a : Fin 2 => xLoc d ↦[xSet (xN a c i)]{fullShare} X d)
    ∗ (bigSep Finset.univ fun g : Fin 4 => uLoc d ↦{tq c i g} m (uLoc d))
    ∗ (bigSep Finset.univ fun g : Fin 4 => iLoc d ↦{tq c i g} m (iLoc d))
    ∗ (bigSep Finset.univ fun ab : Fin 2 × Fin 4 => oLoc d ↦[oSet (oN ab.1 c i ab.2)]{fullShare} f))

/-- The gathered rows from the launch memory and the joined index list's contents X d. -/
def gath (X : (d : Dev nD) → Buf (Elt F) (xLoc d)) (d : Dev nD) : Buf (Elt F) (oLoc d) :=
  gathered (F := F) (X d) (m (uLoc d)) (m (iLoc d))

/-- Every index word names a table row. -/
def InRange (X : (d : Dev nD) → Buf (Elt F) (xLoc d)) : Prop := ∀ (d : Dev nD) (j : S32768.Idx), (X d j).toNat < 100000

end Cert.KernelIdeal.Sc

end
-- ==== Proof.ScLaunchA.lean ====
/-
  What the handshakes of the gather stage carry, and the launch element of the ghost state: the TensorCore's start
  hands SparseCore c its sixteen workers' holdings (their stretches of the index list, their shares of the two tables,
  their blocks of the result at the launch contents), each worker is handed its own and hands it back with its blocks
  holding the gathered rows; the launch element funds the handshakes and the dense stage's staging cells.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.KernelIdeal
import proofs.«202841_g12773232738622_fold_wed_m_434_41_alg».proof.Proof.Gen.KernelIdeal.Skeleton
import proofs.«202841_g12773232738622_fold_wed_m_434_41_alg».proof.Proof.Gen.KernelIdeal.Launch
import proofs.«202841_g12773232738622_fold_wed_m_434_41_alg».proof.Proof.Gen.KernelIdeal.Points
import proofs.«202841_g12773232738622_fold_wed_m_434_41_alg».proof.Proof.ScCommon

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (X : (d : Dev nD) → Buf (Elt F) (xLoc d))

/-! ## What the handshakes carry -/

def P : (K (F := F)).Pay (nD := nD) (Val := Elt F) (Name := ℕ) (U := UU) where
  st := fun q d c => match q with | 0 => bigSep Finset.univ fun i : Fin 16 => tileRes m X d (Fin.cast nCore_zero c) i (m (oLoc d))
  dn := fun q d c => match q with | 0 => bigSep Finset.univ fun i : Fin 16 => tileRes m X d (Fin.cast nCore_zero c) i (gath m X d)
  go := fun q d c i => match q with | 0 => tileRes m X d (Fin.cast nCore_zero c) (Fin.cast nSub_zero i) (m (oLoc d))
  td := fun q d c i => match q with | 0 => tileRes m X d (Fin.cast nCore_zero c) (Fin.cast nSub_zero i) (gath m X d)
  x := fun _ _ => iprop(emp)

omit [FloatOps F] in
instance tileRes_storable (d : Dev nD) (c : Fin 2) (i : Fin 16) (f : Buf (Elt F) (oLoc d)) :
    BI.Storable (upEmb : UEmb _ 𝕄) (tileRes m X d c i f) := by
  unfold tileRes; infer_instance

instance P_storable : (P (F := F) m X).IsStorable where
  st q d c := match q with
    | 0 => (inferInstance : BI.Storable (upEmb : UEmb _ 𝕄) (bigSep Finset.univ fun i : Fin 16 => tileRes m X d (Fin.cast nCore_zero c) i (m (oLoc d))))
  dn q d c := match q with
    | 0 => (inferInstance : BI.Storable (upEmb : UEmb _ 𝕄) (bigSep Finset.univ fun i : Fin 16 => tileRes m X d (Fin.cast nCore_zero c) i (gath m X d)))
  go q d c i := match q with
    | 0 => (inferInstance : BI.Storable (upEmb : UEmb _ 𝕄) (tileRes m X d (Fin.cast nCore_zero c) (Fin.cast nSub_zero i) (m (oLoc d))))
  td q d c i := match q with
    | 0 => (inferInstance : BI.Storable (upEmb : UEmb _ 𝕄) (tileRes m X d (Fin.cast nCore_zero c) (Fin.cast nSub_zero i) (gath m X d)))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's holdings are its workers' and come back as theirs. -/
theorem vecSplit : (K (F := F)).VecSplit' (P m X) 0 := by
  intro d c
  show (bigSep Finset.univ fun i : Fin 16 => tileRes m X d (Fin.cast nCore_zero c) i (m (oLoc d))) ⊢ |={Set.univ}=> iprop(
      (bigSep Finset.univ fun i : Fin ((K (F := F)).nSub 0) => tileRes m X d (Fin.cast nCore_zero c) (Fin.cast nSub_zero i) (m (oLoc d)))
      ∗ ((bigSep Finset.univ fun i : Fin ((K (F := F)).nSub 0) => tileRes m X d (Fin.cast nCore_zero c) (Fin.cast nSub_zero i) (gath m X d))
          -∗ (bigSep Finset.univ fun i : Fin 16 => tileRes m X d (Fin.cast nCore_zero c) i (gath m X d))))
  rw [bigSep_tasks (F := F) (fun i => tileRes m X d (Fin.cast nCore_zero c) i (m (oLoc d))),
    bigSep_tasks (F := F) (fun i => tileRes m X d (Fin.cast nCore_zero c) i (gath m X d))]
  iintro H; imodintro
  isplitl [H]; · iexact H
  iintro H; iexact H

/-! ## The dense stage's pipeline, table-less, and the launch element -/

/-- The one pipeline prefetches nothing: its admissible contents are the empty ones. -/
abbrev adm : (p : Fin 1) → (pcfgs (F := F) p).Adm := fun p => (cfgs p).toPCfg_adm

theorem pinj : Function.Injective (Pipeline.cellOf (nD := nD) (τ := τ) (Pipeline.pin (pcfgs (F := F)) adm)) := Gen.cellOf_inj

def u₀ : UU :=
  (initOf (K (F := F)).hsCells (K (F := F)).hsToks,
    (initOf (Pipeline.cells (Pipeline.pin (pcfgs (F := F)) adm) pinj) (Pipeline.launchToks (Pipeline.pin (pcfgs (F := F)) adm) pinj), 1))

/-- What the launch deals device d's TensorCore for the dense stage: its staging cells' ghost state and duty tokens. -/
def G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

omit [FloatOps F] in
theorem bigSep_emp' {I : Type} (s : Finset I) : (bigSep s fun _ => iprop(emp)) = (iprop(emp) : sProp 𝕄) := bigSep_emp_const s

theorem hu₀ : iprop(ownU (u₀ (F := F)) ∗ (P m X).oxCred ∗ (K (F := F)).freeSems0)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m X).x q thr) := by
  unfold u₀
  iintro ⟨Hu, -, -⟩
  ihave H := (ownU_pair (initOf (K (F := F)).hsCells (K (F := F)).hsToks) _) $$ Hu
  icases H with ⟨HH, HR⟩
  ihave H2 := (own_pair_emb embR _ _) $$ HR
  icases H2 with ⟨HP, -⟩
  imod (show (BI.own (((Emb.inl : Emb UP (UP × Counters)).trans embR)
        (initOf (Pipeline.cells (Pipeline.pin (pcfgs (F := F)) adm) pinj) (Pipeline.launchToks (Pipeline.pin (pcfgs (F := F)) adm) pinj))) : sProp 𝕄) ⊢ _ from
      Pipeline.fund_ghost (Pipeline.pin (pcfgs (F := F)) adm) (EP (F := F)) pinj) $$ HP with ⟨Hg, Ht⟩
  imodintro
  isplitl [HH]; · iexact HH
  isplitl [Hg Ht]
  · unfold G
    rw [bigSep_sep']
    isplitl [Hg]
    · ihave Hg' := (Entails.of_eq (bigSep_congr fun d _ => bigSep_univ_of_subsingleton (0 : Fin 1))) $$ Hg; iexact Hg'
    · ihave Ht' := (Entails.of_eq (bigSep_congr fun d _ => bigSep_univ_of_subsingleton (0 : Fin 1))) $$ Ht; iexact Ht'
  rw [show (bigSep Finset.univ fun thr : Thread nD τ => bigSep Finset.univ fun q : Fin 1 => (P (F := F) m X).x q thr) = bigSep Finset.univ fun _ => iprop(emp) from
    bigSep_congr fun _ _ => bigSep_univ_of_subsingleton (0 : Fin 1), bigSep_emp']
  iempintro

end Cert.KernelIdeal.Sc

end
-- ==== Proof.ScPartition.lean ====
/-
  The arrays of the gather stage cut among its 32 workers: the joined index list into 64 stretches of 512 words (a
  worker owns one in each half), the gathered rows into 256 blocks of 128 rows (a worker owns four in each half), and
  each table's whole share into 128 leaves of the binary halving (a worker owns four). Each cut is a bijection between
  (core, subcore, piece) and the pieces' numbers, so the whole array is the iterated separating conjunction of the
  workers' holdings.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.KernelIdeal
import proofs.«202841_g12773232738622_fold_wed_m_434_41_alg».proof.Proof.Gen.KernelIdeal.Skeleton
import proofs.«202841_g12773232738622_fold_wed_m_434_41_alg».proof.Proof.Gen.KernelIdeal.Launch
import proofs.«202841_g12773232738622_fold_wed_m_434_41_alg».proof.Proof.Gen.KernelIdeal.Points
import proofs.«202841_g12773232738622_fold_wed_m_434_41_alg».proof.Proof.ScCommon

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The numberings are bijections -/

/-- (core, subcore, half) ↦ the stretch's number 32 a + 2 i + c. -/
def xEquiv : Fin 2 × Fin 16 × Fin 2 ≃ Fin 64 where
  toFun p := xN p.2.2 p.1 p.2.1
  invFun n := (⟨n.val % 2, by omega⟩, ⟨n.val % 32 / 2, by omega⟩, ⟨n.val / 32, by omega⟩)
  left_inv p := by
    obtain ⟨c, i, a⟩ := p
    have hc := c.isLt; have hi := i.isLt; have ha := a.isLt
    simp only [xN, wid, Prod.mk.injEq]
    refine ⟨Fin.ext ?_, Fin.ext ?_, Fin.ext ?_⟩ <;> simp only <;> omega
  right_inv n := by
    have hn := n.isLt
    apply Fin.ext; simp only [xN, wid]; omega

/-- (core, subcore, (half, block)) ↦ the block's number 128 a + 4 (2 i + c) + b. -/
def oEquiv : Fin 2 × Fin 16 × (Fin 2 × Fin 4) ≃ Fin 256 where
  toFun p := oN p.2.2.1 p.1 p.2.1 p.2.2.2
  invFun n := (⟨n.val % 128 / 4 % 2, by omega⟩, ⟨n.val % 128 / 4 / 2, by omega⟩, ⟨n.val / 128, by omega⟩, ⟨n.val % 4, by omega⟩)
  left_inv p := by
    obtain ⟨c, i, a, b⟩ := p
    have hc := c.isLt; have hi := i.isLt; have ha := a.isLt; have hb := b.isLt
    simp only [oN, wid, Prod.mk.injEq]
    refine ⟨Fin.ext ?_, Fin.ext ?_, Fin.ext ?_, Fin.ext ?_⟩ <;> simp only <;> omega
  right_inv n := by
    have hn := n.isLt
    apply Fin.ext; simp only [oN, wid]; omega

/-- (core, subcore, gather) ↦ the leaf's number 4 (2 i + c) + g. -/
def tEquiv : Fin 2 × Fin 16 × Fin 4 ≃ Fin (2 ^ 7) where
  toFun p := ⟨4 * (wid p.1 p.2.1).val + p.2.2.val, by have := (wid p.1 p.2.1).isLt; have := p.2.2.isLt; omega⟩
  invFun n := (⟨n.val / 4 % 2, by omega⟩, ⟨n.val / 4 / 2, by have := n.isLt; omega⟩, ⟨n.val % 4, by omega⟩)
  left_inv p := by
    obtain ⟨c, i, g⟩ := p
    have hc := c.isLt; have hi := i.isLt; have hg := g.isLt
    simp only [wid, Prod.mk.injEq]
    refine ⟨Fin.ext ?_, Fin.ext ?_, Fin.ext ?_⟩ <;> simp only <;> omega
  right_inv n := by
    have hn := n.isLt
    apply Fin.ext; simp only [wid]; omega

/-! ## A share is its leaves -/

/-- The leaves of depth n + 1 are those of the two halves. -/
def halves (n : ℕ) : Fin (2 ^ n) ⊕ Fin (2 ^ n) ≃ Fin (2 ^ (n + 1)) := finSumFinEquiv.trans (finCongr (by omega))

theorem halves_inl (n : ℕ) (i : Fin (2 ^ n)) : (halves n (Sum.inl i)).val = i.val := by simp [halves]
theorem halves_inr (n : ℕ) (i : Fin (2 ^ n)) : (halves n (Sum.inr i)).val = 2 ^ n + i.val := by simp [halves]; omega

theorem leaf_halves_inl (n : ℕ) (q : PosShare TreeShare) (i : Fin (2 ^ n)) : leaf (n + 1) q (halves n (Sum.inl i)) = leaf n q.left i := by
  have h : (halves n (Sum.inl i)).val < 2 ^ n := by rw [halves_inl]; exact i.isLt
  rw [leaf, dif_pos h]; exact congrArg (leaf n q.left) (Fin.ext (halves_inl n i))
theorem leaf_halves_inr (n : ℕ) (q : PosShare TreeShare) (i : Fin (2 ^ n)) : leaf (n + 1) q (halves n (Sum.inr i)) = leaf n q.right i := by
  have h : ¬(halves n (Sum.inr i)).val < 2 ^ n := by rw [halves_inr]; omega
  rw [leaf, dif_neg h]; exact congrArg (leaf n q.right) (Fin.ext (by simp only [halves_inr]; omega))

/-- Holding an element set at share q is holding it at every leaf of q's depth-n halving. -/
theorem pointsTo_leaf_split {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaf_split I f n q.left, pointsTo_leaf_split I f n q.right,
      bigSep_univ_equiv (halves n) (fun i : Fin (2 ^ (n + 1)) => (ℓ ↦[I]{leaf (n + 1) q i} f : sProp 𝕄)), bigSep_univ_sum]
    congr 1 <;> refine bigSep_congr fun i _ => ?_
    · rw [leaf_halves_inl]
    · rw [leaf_halves_inr]

/-! ## The three cuts -/

theorem xSet_eq (n : Fin 64) : xSet n = (xpart n).set := by
  show ((View.whole (main_v0_scv : Ref sig .scVector)).slice (xpart n)).set = _
  rw [View.set_slice]; exact Finset.map_refl
theorem oSet_eq (n : Fin 256) : oSet n = (opart n).set := by
  show ((View.whole (main_v1_scv : Ref sig .scVector)).slice (opart n)).set = _
  rw [View.set_slice]; exact Finset.map_refl

theorem x_cut (d : Dev nD) (f : Buf (Elt F) (xLoc d)) :
    (xLoc d ↦{fullShare} f : sProp 𝕄)
      = bigSep Finset.univ fun c : Fin 2 => bigSep Finset.univ fun i : Fin 16 => bigSep Finset.univ fun a : Fin 2 => xLoc d ↦[xSet (xN a c i)]{fullShare} f := by
  have h1 : (xLoc d ↦{fullShare} f : sProp 𝕄) = bigSep Finset.univ fun n : Fin 64 => xLoc d ↦[xSet n]{fullShare} f := by
    rw [← pointsTo_biUnion Finset.univ (ℓ := xLoc d) xSet (fun n _ n' _ h => by rw [xSet_eq, xSet_eq]; exact Rect.part_disjoint xdiv h),
      (Finset.biUnion_congr rfl fun n _ => xSet_eq n).trans (Rect.biUnion_part xdiv)]; try rfl
  rw [h1, bigSep_univ_equiv xEquiv, bigSep_univ_prod]
  refine bigSep_congr fun c _ => ?_
  rw [bigSep_univ_prod]; rfl

theorem o_cut (d : Dev nD) (f : Buf (Elt F) (oLoc d)) :
    (oLoc d ↦{fullShare} f : sProp 𝕄)
      = bigSep Finset.univ fun c : Fin 2 => bigSep Finset.univ fun i : Fin 16 => bigSep Finset.univ fun ab : Fin 2 × Fin 4 => oLoc d ↦[oSet (oN ab.1 c i ab.2)]{fullShare} f := by
  have h1 : (oLoc d ↦{fullShare} f : sProp 𝕄) = bigSep Finset.univ fun n : Fin 256 => oLoc d ↦[oSet n]{fullShare} f := by
    rw [← pointsTo_biUnion Finset.univ (ℓ := oLoc d) oSet (fun n _ n' _ h => by rw [oSet_eq, oSet_eq]; exact Rect.part_disjoint odiv h),
      (Finset.biUnion_congr rfl fun n _ => oSet_eq n).trans (Rect.biUnion_part odiv)]; try rfl
  rw [h1, bigSep_univ_equiv oEquiv, bigSep_univ_prod]
  refine bigSep_congr fun c _ => ?_
  rw [bigSep_univ_prod]; rfl

theorem t_cut (ℓ : Loc nD τ sig) (f : Buf (Elt F) ℓ) :
    (ℓ ↦{fullShare} f : sProp 𝕄)
      = bigSep Finset.univ fun c : Fin 2 => bigSep Finset.univ fun i : Fin 16 => bigSep Finset.univ fun g : Fin 4 => ℓ ↦{tq c i g} f := by
  rw [pointsTo_leaf_split Finset.univ f 7 fullShare, bigSep_univ_equiv tEquiv, bigSep_univ_prod]
  refine bigSep_congr fun c _ => ?_
  rw [bigSep_univ_prod]; rfl

/-- The four arrays whole are the 32 workers' holdings. -/
theorem whole_cut (m : (ℓ : Loc nD τ sig) → Buf (Elt F) ℓ) (X : (d : Dev nD) → Buf (Elt F) (xLoc d)) (d : Dev nD) (f : Buf (Elt F) (oLoc d)) :
    (iprop((xLoc d ↦{fullShare} X d) ∗ (uLoc d ↦{fullShare} m (uLoc d)) ∗ (iLoc d ↦{fullShare} m (iLoc d)) ∗ (oLoc d ↦{fullShare} f)) : sProp 𝕄)
      = bigSep Finset.univ fun c : Fin 2 => bigSep Finset.univ fun i : Fin 16 => tileRes m X d c i f := by
  rw [x_cut, t_cut (uLoc d), t_cut (iLoc d), o_cut]
  simp only [← bigSep_sep']
  rfl

end Cert.KernelIdeal.Sc

end
-- ==== Proof.Region.lean ====
/-
  The dense stage as a pipeline region: its proof data and its body obligation.

  The stage walks two points. At point t it is handed block t of the gathered rows' first half (8192 user rows of 128
  columns) and block t + 2 of the same array (the matching 8192 item rows), the first layer's weights and bias, the
  output weights and bias (each whole, fetched at the first point and found unchanged at the second), and the
  staging buffer of block t of the result row (8192 entries), which it overwrites whole. The body loads its inputs,
  computes one value from them and stores it: so what the result's buffer holds after the body is that value of the six
  input blocks, and every input's buffer holds what it held.
-/
import proofs.«202841_g12773232738622_fold_wed_m_434_41_alg».proof.Proof.ScCommon
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Sc

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Vr : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vr c (Pipeline.arrRef spec1 w))

/-! ## The body's accesses -/

/-- A rows block, whole. -/
abbrev rRows : Rect S8192x128 := Rect.unit (s := S8192x128) ![0, 0] S8192x128.size inb_S8192x128_S8192x128_0_0
/-- The three thirds of the first layer's weights: rows 0.., 128.., 256.. of the 384. -/
abbrev rW1a : Rect S384x8 := Rect.unit (s := S384x8) ![0, 0] S128x8.size inb_S384x8_S128x8_0_0
abbrev rW1b : Rect S384x8 := Rect.unit (s := S384x8) ![128, 0] S128x8.size inb_S384x8_S128x8_128_0
abbrev rW1c : Rect S384x8 := Rect.unit (s := S384x8) ![256, 0] S128x8.size inb_S384x8_S128x8_256_0
/-- The first bias, the output weights, the output bias and the result block, each whole. -/
abbrev rB1 : Rect S8 := Rect.unit (s := S8) ![0] S8.size inb_S8_S8_0
abbrev rW2 : Rect S8x1 := Rect.unit (s := S8x1) ![0, 0] S8x1.size inb_S8x1_S8x1_0_0
abbrev rB2 : Rect S1 := Rect.unit (s := S1) ![0] S1.size inb_S1_S1_0
abbrev rOut : Rect S1x8192 := Rect.unit (s := S1x8192) ![0, 0] S1x8192.size inb_S1x8192_S1x8192_0_0

/-! ## What the body leaves in the result window's buffer -/

/-- The result window's staging buffer after the body, from the input windows' blocks: its one store as a piece. -/
def out6 (x0 x1 : Vec F S8192x128 .f32) (w : Vec F S384x8 .f32) (b1 : Vec F S8 .f32) (w2 : Vec F S8x1 .f32) (b2 : Vec F S1 .f32) :
    Vec F S1x8192 .f32 :=
  View.canon [⟨rOut, k1_pay1 (View.ld x0 rRows) (View.ld x1 rRows) (View.ld w rW1a) (View.ld w rW1b) (View.ld w rW1c)
    (View.ld b1 rB1) (View.ld w2 rW2) (View.ld b2 rB2)⟩]

/-- The one store covers the buffer. -/
theorem cover6 (p0 : Vec F S1x8192 .f32) (y : S1x8192.Idx) :
    ∃ pc ∈ ([⟨rOut, p0⟩] : List (View.Piece (Elt F) S1x8192 .f32)), y ∈ pc.1.set :=
  ⟨_, List.mem_singleton_self _, View.mem_set_unit_zero (funext fun a => by match a with | ⟨0, _⟩ => rfl | ⟨1, _⟩ => rfl) inb_S1x8192_S1x8192_0_0 y⟩

/-! ## The body's triple -/

set_option maxHeartbeats 1000000 in
/-- The body on whole staging memrefs, the inputs' at read contents and the result's at anything, runs to the
    continuation holding the inputs' as they were and the result's at out6 of the inputs'. -/
theorem sound_kernel (c : Dev nD) (E : Set ℕ) (i : grid1.Coords)
    (arg1 : Memref sig .tc .vmem S8192x128 .f32) (harg1 : arg1.IsWhole) (arg2 : Memref sig .tc .vmem S8192x128 .f32) (harg2 : arg2.IsWhole)
    (arg3 : Memref sig .tc .vmem S384x8 .f32) (harg3 : arg3.IsWhole) (arg4 : Memref sig .tc .vmem S8 .f32) (harg4 : arg4.IsWhole)
    (arg5 : Memref sig .tc .vmem S8x1 .f32) (harg5 : arg5.IsWhole) (arg6 : Memref sig .tc .vmem S1 .f32) (harg6 : arg6.IsWhole)
    (arg7 : Memref sig .tc .vmem S1x8192 .f32) (harg7 : arg7.IsWhole)
    (x0 x1 : Vec F S8192x128 .f32) (w : Vec F S384x8 .f32) (b1 : Vec F S8 .f32) (w2 : Vec F S8x1 .f32) (b2 : Vec F S1 .f32)
    (K : PUnit → sProp 𝕄) :
    iprop(owns (c : Thread nD τ) arg1 fullShare x0 ∗ owns (c : Thread nD τ) arg2 fullShare x1 ∗ owns (c : Thread nD τ) arg3 fullShare w
        ∗ owns (c : Thread nD τ) arg4 fullShare b1 ∗ owns (c : Thread nD τ) arg5 fullShare w2 ∗ owns (c : Thread nD τ) arg6 fullShare b2
        ∗ (∃ d, owns (c : Thread nD τ) arg7 fullShare d)
        ∗ (iprop(owns (c : Thread nD τ) arg1 fullShare x0 ∗ owns (c : Thread nD τ) arg2 fullShare x1 ∗ owns (c : Thread nD τ) arg3 fullShare w
            ∗ owns (c : Thread nD τ) arg4 fullShare b1 ∗ owns (c : Thread nD τ) arg5 fullShare w2 ∗ owns (c : Thread nD τ) arg6 fullShare b2
            ∗ owns (c : Thread nD τ) arg7 fullShare (out6 x0 x1 w b1 w2 b2)) -∗ K ⟨⟩))
      ⊢ wp frame (wpE (defs₀ (F := F)) Variants.none c none) E
          (cc1_mlp_kernel i arg1 harg1 arg2 harg2 arg3 harg3 arg4 harg4 arg5 harg5 arg6 harg6 arg7 harg7) K := by
  simp only [cc1_mlp_kernel_eq_skeleton]; unfold cc1_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## Each input window's staging buffer holds its block -/

/-- Input window 0's current staging buffer holds its block at every point, fetched there or not, for any proof data
    whose array is the region's and whose body leaves the block in place: unfetched, the block index has not moved. -/
theorem before_0_of {c : Dev nD} (dat : Pipeline.Dat τ (Elt F) (HIx 1) ℕ UU ℕ cfg1 c) (hA : dat.A 0 = Vr c (Pipeline.arrRef spec1 0))
    (hafter : ∀ t, dat.after 0 t = iblk Vr c 0 t) (t : Fin cfg1.N) (d) : dat.before 0 t d = iblk Vr c 0 t :=
  (dat.before_in_eq_fetched 0 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-- Input window 1's current staging buffer holds its block at every point, fetched there or not, for any proof data
    whose array is the region's and whose body leaves the block in place: unfetched, the block index has not moved. -/
theorem before_1_of {c : Dev nD} (dat : Pipeline.Dat τ (Elt F) (HIx 1) ℕ UU ℕ cfg1 c) (hA : dat.A 1 = Vr c (Pipeline.arrRef spec1 1))
    (hafter : ∀ t, dat.after 1 t = iblk Vr c 1 t) (t : Fin cfg1.N) (d) : dat.before 1 t d = iblk Vr c 1 t :=
  (dat.before_in_eq_fetched 1 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-- Input window 2's current staging buffer holds its block at every point, fetched there or not, for any proof data
    whose array is the region's and whose body leaves the block in place: unfetched, the block index has not moved. -/
theorem before_2_of {c : Dev nD} (dat : Pipeline.Dat τ (Elt F) (HIx 1) ℕ UU ℕ cfg1 c) (hA : dat.A 2 = Vr c (Pipeline.arrRef spec1 2))
    (hafter : ∀ t, dat.after 2 t = iblk Vr c 2 t) (t : Fin cfg1.N) (d) : dat.before 2 t d = iblk Vr c 2 t :=
  (dat.before_in_eq_fetched 2 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-- Input window 3's current staging buffer holds its block at every point, fetched there or not, for any proof data
    whose array is the region's and whose body leaves the block in place: unfetched, the block index has not moved. -/
theorem before_3_of {c : Dev nD} (dat : Pipeline.Dat τ (Elt F) (HIx 1) ℕ UU ℕ cfg1 c) (hA : dat.A 3 = Vr c (Pipeline.arrRef spec1 3))
    (hafter : ∀ t, dat.after 3 t = iblk Vr c 3 t) (t : Fin cfg1.N) (d) : dat.before 3 t d = iblk Vr c 3 t :=
  (dat.before_in_eq_fetched 3 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-- Input window 4's current staging buffer holds its block at every point, fetched there or not, for any proof data
    whose array is the region's and whose body leaves the block in place: unfetched, the block index has not moved. -/
theorem before_4_of {c : Dev nD} (dat : Pipeline.Dat τ (Elt F) (HIx 1) ℕ UU ℕ cfg1 c) (hA : dat.A 4 = Vr c (Pipeline.arrRef spec1 4))
    (hafter : ∀ t, dat.after 4 t = iblk Vr c 4 t) (t : Fin cfg1.N) (d) : dat.before 4 t d = iblk Vr c 4 t :=
  (dat.before_in_eq_fetched 4 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-- Input window 5's current staging buffer holds its block at every point, fetched there or not, for any proof data
    whose array is the region's and whose body leaves the block in place: unfetched, the block index has not moved. -/
theorem before_5_of {c : Dev nD} (dat : Pipeline.Dat τ (Elt F) (HIx 1) ℕ UU ℕ cfg1 c) (hA : dat.A 5 = Vr c (Pipeline.arrRef spec1 5))
    (hafter : ∀ t, dat.after 5 t = iblk Vr c 5 t) (t : Fin cfg1.N) (d) : dat.before 5 t d = iblk Vr c 5 t :=
  (dat.before_in_eq_fetched 5 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-! ## The pipeline's proof data -/

/-- The region's invariant on core c: the core's scoped buffers that are no staging buffer, at some contents each, and
    its generator register at some state; the body uses neither. -/
def ΦR (c : Dev nD) : sProp 𝕄 :=
  iprop(Pipeline.scopedRest (Ix := HIx 1) (Name := ℕ) (U := UU) (Lvl := ℕ) (Val := Elt F) spec1 c ∗ ∃ r, prngReg c r)

/-- The proof data of the dense stage's pipeline on core c: the arrays as the region finds them; after the body at
    point t each input's buffer at its block and the result's at out6 of the input blocks; nothing owed; the two
    windows on the gathered rows take the two halves of that array's share, every other window its array's full share. -/
def rdat (c : Dev nD) : Pipeline.Dat τ (Elt F) (HIx 1) ℕ UU ℕ cfg1 c where
  A w := Vr c (Pipeline.arrRef spec1 w)
  after w t := match w with
    | ⟨0, _⟩ => iblk Vr c 0 t
    | ⟨1, _⟩ => iblk Vr c 1 t
    | ⟨2, _⟩ => iblk Vr c 2 t
    | ⟨3, _⟩ => iblk Vr c 3 t
    | ⟨4, _⟩ => iblk Vr c 4 t
    | ⟨5, _⟩ => iblk Vr c 5 t
    | ⟨6, _⟩ => out6 (iblk Vr c 0 t) (iblk Vr c 1 t) (iblk Vr c 2 t) (iblk Vr c 3 t) (iblk Vr c 4 t) (iblk Vr c 5 t)
  Φ _ := ΦR c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The proof data's arrays are the region's. -/
theorem A_eq (c : Dev nD) (w : Fin cfg1.W) : (rdat Vr c).A w = Vr c (Pipeline.arrRef spec1 w) := by
  dsimp only [rdat]

/-- What the body leaves, window by window. -/
theorem after_0 (c : Dev nD) (t : Fin cfg1.N) : (rdat Vr c).after 0 t = iblk Vr c 0 t := by dsimp only [rdat]
theorem after_1 (c : Dev nD) (t : Fin cfg1.N) : (rdat Vr c).after 1 t = iblk Vr c 1 t := by dsimp only [rdat]
theorem after_2 (c : Dev nD) (t : Fin cfg1.N) : (rdat Vr c).after 2 t = iblk Vr c 2 t := by dsimp only [rdat]
theorem after_3 (c : Dev nD) (t : Fin cfg1.N) : (rdat Vr c).after 3 t = iblk Vr c 3 t := by dsimp only [rdat]
theorem after_4 (c : Dev nD) (t : Fin cfg1.N) : (rdat Vr c).after 4 t = iblk Vr c 4 t := by dsimp only [rdat]
theorem after_5 (c : Dev nD) (t : Fin cfg1.N) : (rdat Vr c).after 5 t = iblk Vr c 5 t := by dsimp only [rdat]
theorem after_6 (c : Dev nD) (t : Fin cfg1.N) :
    (rdat Vr c).after 6 t = out6 (iblk Vr c 0 t) (iblk Vr c 1 t) (iblk Vr c 2 t) (iblk Vr c 3 t) (iblk Vr c 4 t) (iblk Vr c 5 t) := by dsimp only [rdat]

/-- Each input's current staging buffer holds its block at every point. -/
theorem before_0 (c : Dev nD) (t : Fin cfg1.N) (d) : (rdat Vr c).before 0 t d = iblk Vr c 0 t :=
  before_0_of Vr (rdat Vr c) (A_eq Vr c 0) (after_0 Vr c) t d
theorem before_1 (c : Dev nD) (t : Fin cfg1.N) (d) : (rdat Vr c).before 1 t d = iblk Vr c 1 t :=
  before_1_of Vr (rdat Vr c) (A_eq Vr c 1) (after_1 Vr c) t d
theorem before_2 (c : Dev nD) (t : Fin cfg1.N) (d) : (rdat Vr c).before 2 t d = iblk Vr c 2 t :=
  before_2_of Vr (rdat Vr c) (A_eq Vr c 2) (after_2 Vr c) t d
theorem before_3 (c : Dev nD) (t : Fin cfg1.N) (d) : (rdat Vr c).before 3 t d = iblk Vr c 3 t :=
  before_3_of Vr (rdat Vr c) (A_eq Vr c 3) (after_3 Vr c) t d
theorem before_4 (c : Dev nD) (t : Fin cfg1.N) (d) : (rdat Vr c).before 4 t d = iblk Vr c 4 t :=
  before_4_of Vr (rdat Vr c) (A_eq Vr c 4) (after_4 Vr c) t d
theorem before_5 (c : Dev nD) (t : Fin cfg1.N) (d) : (rdat Vr c).before 5 t d = iblk Vr c 5 t :=
  before_5_of Vr (rdat Vr c) (A_eq Vr c 5) (after_5 Vr c) t d

/-! ## The body obligation, at a generic point -/

/-- What the body is called with at point t, the windows one by one, -/
def bodyPre (c : Dev nD) (t : Fin cfg1.N) : sProp 𝕄 :=
  iprop((rdat Vr c).Φ t.castSucc ∗ (rdat Vr c).owesAt (default : HIx 1) t.castSucc
    ∗ (∃ d, owns (c : Thread nD τ) (st1_0 t) fullShare ((rdat Vr c).before 0 t d))
    ∗ (∃ d, owns (c : Thread nD τ) (st1_1 t) fullShare ((rdat Vr c).before 1 t d))
    ∗ (∃ d, owns (c : Thread nD τ) (st1_2 t) fullShare ((rdat Vr c).before 2 t d))
    ∗ (∃ d, owns (c : Thread nD τ) (st1_3 t) fullShare ((rdat Vr c).before 3 t d))
    ∗ (∃ d, owns (c : Thread nD τ) (st1_4 t) fullShare ((rdat Vr c).before 4 t d))
    ∗ (∃ d, owns (c : Thread nD τ) (st1_5 t) fullShare ((rdat Vr c).before 5 t d))
    ∗ (∃ d, owns (c : Thread nD τ) (st1_6 t) fullShare ((rdat Vr c).before 6 t d)))

/-- and what it returns. -/
def bodyPost (c : Dev nD) (t : Fin cfg1.N) : sProp 𝕄 :=
  iprop((rdat Vr c).Φ t.succ ∗ (rdat Vr c).owesAt (default : HIx 1) t.succ
    ∗ owns (c : Thread nD τ) (st1_0 t) fullShare ((rdat Vr c).after 0 t)
    ∗ owns (c : Thread nD τ) (st1_1 t) fullShare ((rdat Vr c).after 1 t)
    ∗ owns (c : Thread nD τ) (st1_2 t) fullShare ((rdat Vr c).after 2 t)
    ∗ owns (c : Thread nD τ) (st1_3 t) fullShare ((rdat Vr c).after 3 t)
    ∗ owns (c : Thread nD τ) (st1_4 t) fullShare ((rdat Vr c).after 4 t)
    ∗ owns (c : Thread nD τ) (st1_5 t) fullShare ((rdat Vr c).after 5 t)
    ∗ owns (c : Thread nD τ) (st1_6 t) fullShare ((rdat Vr c).after 6 t))

/-- The body at any point: the inputs' memrefs hold their blocks, so the body's triple applies; the invariant and the
    core's owed tallies pass through unread. -/
theorem sound_body (c : Dev nD) (t : Fin cfg1.N) :
    bodyPre Vr c t ⊢ wp frame (wpE (defs₀ (F := F)) Variants.none c none) Set.univ (bodyAt1 t) (fun _ => bodyPost Vr c t) := by
  unfold bodyPre bodyPost bodyAt1
  simp only [before_0, before_1, before_2, before_3, before_4, before_5]
  rw [show (rdat Vr c).Φ t.succ = (rdat Vr c).Φ t.castSucc from rfl,
    show (rdat Vr c).owesAt (default : HIx 1) t.succ = (rdat Vr c).owesAt (default : HIx 1) t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid1.coords t) _ _ _ _ _ _ _ _ _ _ _ _ _ _
    (iblk Vr c 0 t) (iblk Vr c 1 t) (iblk Vr c 2 t) (iblk Vr c 3 t) (iblk Vr c 4 t) (iblk Vr c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) :
    Pipeline.BodyObligation (rdat Vr c) (defs₀ (F := F)) Variants.none (default : HIx 1) Set.univ := fun t => by
  rw [bigSep_W1, bigSep_W1]
  exact sound_body Vr c t

end Cert.KernelIdeal.Sc
end
-- ==== Proof.ScRegion.lean ====
/-
  The dense stage as one region of @main: the library's record of a kernel region over the stage's proof data — the
  windows' arrays (the gathered rows at two half shares, the weights and biases, the result), the other arrays of the
  TensorCore passing by, the generator register entering the stage's invariant and coming back.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.KernelIdeal
import proofs.«202841_g12773232738622_fold_wed_m_434_41_alg».proof.Proof.Gen.KernelIdeal.Skeleton
import proofs.«202841_g12773232738622_fold_wed_m_434_41_alg».proof.Proof.Gen.KernelIdeal.Launch
import proofs.«202841_g12773232738622_fold_wed_m_434_41_alg».proof.Proof.Gen.KernelIdeal.Points
import proofs.«202841_g12773232738622_fold_wed_m_434_41_alg».proof.Proof.ScLaunchA
import proofs.«202841_g12773232738622_fold_wed_m_434_41_alg».proof.Proof.Region

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type}

local notation "𝕄" => MT nD τ sig (HIx 1) (Elt F) ℕ UU ℕ

variable [FloatOps F] (Vr : (c : Dev nD) → (b : Ref sig .tc) → Buf (Elt F) ((c : Thread nD τ).loc b))

/-- The stage's proof data as the family the region record takes (one pipeline). -/
def pdats (_ : Fin 1) (c : Dev nD) : Pipeline.Dat τ (Elt F) (HIx 1) ℕ UU ℕ (Pipeline.pin (pcfgs (F := F)) adm 0) c := rdat Vr c

/-- The core owing nothing. -/
abbrev Rowe (c : Dev nD) : sProp 𝕄 := iprop(∃ W, owes (c : Thread nD τ) (0 : CellTallies nD τ sig (HIx 1)) W)

/-- The TensorCore's arrays no window is on, whole at W: the group indices, the two index arrays, the two tables, the
    joined index list, the final result. -/
def restArrays (c : Dev nD) (W : (b : Ref sig .tc) → Buf (Elt F) ((c : Thread nD τ).loc b)) : sProp 𝕄 :=
  iprop((((c : Thread nD τ).loc main_arg0) ↦{fullShare} W main_arg0) ∗ (((c : Thread nD τ).loc main_arg1) ↦{fullShare} W main_arg1)
    ∗ (((c : Thread nD τ).loc main_arg2) ↦{fullShare} W main_arg2) ∗ (((c : Thread nD τ).loc main_arg3) ↦{fullShare} W main_arg3)
    ∗ (((c : Thread nD τ).loc main_arg4) ↦{fullShare} W main_arg4) ∗ (((c : Thread nD τ).loc main_v0) ↦{fullShare} W main_v0)
    ∗ (((c : Thread nD τ).loc main_v3) ↦{fullShare} W main_v3))

/-- The thread state around the region: the windows' arrays at contents A, the rest at Vr, the generator register, nothing owed. -/
def regionState (c : Dev nD) (A : (w : Fin cfg1.W) → Buf (Elt F) ((cfg1.win w).arr.view.loc (c : Thread nD τ))) : sProp 𝕄 :=
  iprop((rdat Vr c).arrays A ∗ restArrays c (Vr c) ∗ (∃ r, prngReg c r) ∗ Rowe (F := F) c)

set_option backward.isDefEq.respectTransparency.types false in
/-- The region: the layout the launch decides, no semaphore of the body's own, the body obligation; entered with the
    arrays at the entry contents, left with them at what the write-backs leave. -/
def reg : Pipeline.RegionSeg (pcfgs (F := F)) adm (pdats Vr) (default : HIx 1) defs₀ 𝒱₀ (K (F := F)).L (K (F := F)).lev 0 where
  win := Gen.winFacts₀1
  block_pos := Gen.block_pos1
  stage_whole := Gen.stage_whole1
  K := PEmpty
  osem := fun k => k.elim
  ho := Pipeline.OwnSemFacts.none _
  hbody c := (body_obligation Vr c).loose
  hwaits := Pipeline.hwaits_of_owed_zero _ _ _ _ (K (F := F)).L (K (F := F)).lev 0 fun _ _ => rfl
  pre c := regionState Vr c ((rdat Vr c).arrAt · 0)
  post c := regionState Vr c ((rdat Vr c).arrAt · cfg1.N)
  X c := iprop(∃ r, prngReg c r)
  Y c := iprop(∃ r, prngReg c r)
  Z c := restArrays c (Vr c)
  hentry c := by
    unfold regionState
    iintro ⟨⟨Ha, Hz, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (pdats Vr 0 c).Φ 0 = ΦR (F := F) c from rfl]; unfold ΦR
    iintro ⟨Hp, -, Hr⟩
    isplitl [Hr]; · iexact Hr
    iexact Hp
  hout c := by
    rw [show (pdats Vr 0 c).Φ (Fin.last cfg1.N) = ΦR (F := F) c from rfl]; unfold ΦR
    iintro ⟨Hr, Hp⟩
    isplitl [Hp]; · iexact Hp
    isplitr; · unfold Pipeline.ownSems0; rw [show (Finset.univ : Finset PEmpty) = ∅ from rfl, BI.bigSep_empty]; iempintro
    iexact Hr
  hexit c := by
    unfold regionState
    iintro ⟨Ha, HO, HY, HZ⟩
    imodintro
    isplitl [Ha]; · iexact Ha
    isplitl [HZ]; · iexact HZ
    isplitl [HY]; · iexact HY
    unfold Pipeline.Dat.owesAt Pipeline.owesWithin
    icases HO with ⟨%W, -, HO⟩; iexists W; iexact HO

end Cert.KernelIdeal.Sc

end
-- ==== Proof.ScMainDefs.lean ====
/-
  @main on the TensorCore, its vocabulary: the two host operations (joining the index arrays; the final reshape), the
  TensorCore's thirteen arrays, and what they hold at each stage — at launch, after the join, after the gather stage,
  after the dense stage, after the reshape.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.KernelIdeal
import proofs.«202841_g12773232738622_fold_wed_m_434_41_alg».proof.Proof.Gen.KernelIdeal.Skeleton
import proofs.«202841_g12773232738622_fold_wed_m_434_41_alg».proof.Proof.Gen.KernelIdeal.Launch
import proofs.«202841_g12773232738622_fold_wed_m_434_41_alg».proof.Proof.Gen.KernelIdeal.Points
import proofs.«202841_g12773232738622_fold_wed_m_434_41_alg».proof.Proof.ScLaunchA
import proofs.«202841_g12773232738622_fold_wed_m_434_41_alg».proof.Proof.ScPartition
import proofs.«202841_g12773232738622_fold_wed_m_434_41_alg».proof.Proof.ScRegion

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.TcCoe

variable {F : FTy → Type}

local notation "𝕄" => MT nD τ sig (HIx 1) (Elt F) ℕ UU ℕ

/-! ## The arrays and the operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev a7' : DevRef τ sig := Proc.devRef .tc (main_arg7 : Ref sig .tc)
abbrev a8' : DevRef τ sig := Proc.devRef .tc (main_arg8 : Ref sig .tc)
abbrev x' : DevRef τ sig := Proc.devRef .tc (main_v0 : Ref sig .tc)
abbrev o' : DevRef τ sig := Proc.devRef .tc (main_v1 : Ref sig .tc)
abbrev y' : DevRef τ sig := Proc.devRef .tc (main_v2 : Ref sig .tc)
abbrev r' : DevRef τ sig := Proc.devRef .tc (main_v3 : Ref sig .tc)

/-- The TensorCore's arrays, all unscoped. -/
abbrev S13 : Finset (DevRef τ sig) := {a0', a1', a2', a3', a4', a5', a6', a7', a8', x', o', y', r'}

variable [FloatOps F]

/-- Joining the two index arrays. -/
abbrev opCat : HloOp τ sig (Elt F) :=
  StableHlo.binary main_arg1 main_arg2 main_v0 ((fun a b => concatenate S32768 0 [⟨S16384, a⟩, ⟨S16384, b⟩] concatenates_S16384_S16384_S32768_d0) : (⟨S16384, .i32⟩ : BufTy).Contents (Elt F) → (⟨S16384, .i32⟩ : BufTy).Contents (Elt F) → (⟨S32768, .i32⟩ : BufTy).Contents (Elt F))
/-- The final reshape of the one-row result to one column. -/
abbrev opRs : HloOp τ sig (Elt F) := StableHlo.reshape main_v2 main_v3 rfl shapeCasts_S1x16384_S16384x1

theorem hCat : (opCat (F := F)).bufs ⊆ S13 := show ({a1', a2', x'} : Finset (DevRef τ sig)) ⊆ S13 by decide
theorem hRs : (opRs (F := F)).bufs ⊆ S13 := show ({y', r'} : Finset (DevRef τ sig)) ⊆ S13 by decide

omit [FloatOps F] in
theorem held_S13 (d : Dev nD) (W : Valuation τ sig (Elt F)) :
    (held (T d) S13 W : sProp 𝕄)
      = iprop(((SparseCore.T d).loc main_arg0 ↦{fullShare} W a0') ∗ ((SparseCore.T d).loc main_arg1 ↦{fullShare} W a1') ∗ ((SparseCore.T d).loc main_arg2 ↦{fullShare} W a2')
          ∗ ((SparseCore.T d).loc main_arg3 ↦{fullShare} W a3') ∗ ((SparseCore.T d).loc main_arg4 ↦{fullShare} W a4') ∗ ((SparseCore.T d).loc main_arg5 ↦{fullShare} W a5')
          ∗ ((SparseCore.T d).loc main_arg6 ↦{fullShare} W a6') ∗ ((SparseCore.T d).loc main_arg7 ↦{fullShare} W a7') ∗ ((SparseCore.T d).loc main_arg8 ↦{fullShare} W a8')
          ∗ ((SparseCore.T d).loc main_v0 ↦{fullShare} W x') ∗ ((SparseCore.T d).loc main_v1 ↦{fullShare} W o') ∗ ((SparseCore.T d).loc main_v2 ↦{fullShare} W y')
          ∗ (SparseCore.T d).loc main_v3 ↦{fullShare} W r') := by
  unfold held S13
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1) ∗ ((SparseCore.T d).loc main_arg2 ↦{fullShare} W main_arg2)
          ∗ ((SparseCore.T d).loc main_arg3 ↦{fullShare} W main_arg3) ∗ ((SparseCore.T d).loc main_arg4 ↦{fullShare} W main_arg4) ∗ ((SparseCore.T d).loc main_arg5 ↦{fullShare} W main_arg5)
          ∗ ((SparseCore.T d).loc main_arg6 ↦{fullShare} W main_arg6) ∗ ((SparseCore.T d).loc main_arg7 ↦{fullShare} W main_arg7) ∗ ((SparseCore.T d).loc main_arg8 ↦{fullShare} W main_arg8)
          ∗ ((SparseCore.T d).loc main_v0 ↦{fullShare} W main_v0) ∗ ((SparseCore.T d).loc main_v1 ↦{fullShare} W main_v1) ∗ ((SparseCore.T d).loc main_v2 ↦{fullShare} W main_v2)
          ∗ (SparseCore.T d).loc main_v3 ↦{fullShare} W main_v3) := by
  unfold unscopedBufs
  rw [show (Finset.univ.filter fun b : Ref sig .tc => ¬ b.isScoped) = {main_arg0, main_arg1, main_arg2, main_arg3, main_arg4, main_arg5, main_arg6, main_arg7, main_arg8, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## What the arrays hold, stage by stage -/

variable (m : (ℓ : Loc nD τ sig) → Buf (Elt F) ℓ)

/-- At launch. -/
def V0 (d : Dev nD) : Valuation τ sig (Elt F) := fun b => m (d, b)
/-- After the join. -/
def V1 (d : Dev nD) : Valuation τ sig (Elt F) := (opCat (F := F)).result (V0 m d)
/-- The joined index list. -/
def Xd (d : Dev nD) : Buf (Elt F) (xLoc d) := V1 m d x'
/-- After the gather stage: the gathered rows in place. -/
def V2 (d : Dev nD) : Valuation τ sig (Elt F) := Function.update (V1 m d) o' (gath m (Xd m) d)
/-- The TensorCore's arrays as the dense stage finds them. -/
def Vr (d : Dev nD) (b : Ref sig .tc) : Buf (Elt F) ((d : Thread nD τ).loc b) := V2 m d (Proc.devRef .tc b)
/-- After the dense stage: the one-row result in place. -/
def V3 (d : Dev nD) : Valuation τ sig (Elt F) := Function.update (V2 m d) y' ((rdat (Vr m) d).arrAt 6 cfg1.N)
/-- After the reshape. -/
def V4 (d : Dev nD) : Valuation τ sig (Elt F) := (opRs (F := F)).result (V3 m d)

theorem unscoped_held (d : Dev nD) : (unscopedBufs d (fun b => m ((SparseCore.T d).loc b)) : sProp 𝕄) = held (T d) S13 (V0 m d) := by
  rw [unscopedBufs_eq, held_S13]; rfl

end Cert.KernelIdeal.Sc

end
-- ==== Proof.RegionOut.lean ====
/-
  The dense stage's result array as one function of the arrays the region finds.

  Point t of the two writes back block t (8192 entries) of the one result row, and the block it writes is the body's
  value of the six input blocks at that point. So entry n of the row, n below 16384, is that value at point n / 8192
  read at column n % 8192; the two blocks tile the row, and the input arrays are never written.
-/
import proofs.«202841_g12773232738622_fold_wed_m_434_41_alg».proof.Proof.Region
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Sc

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 idx2_lt0 idx2_lt1)

variable {F : FTy → Type} [FloatOps F]

local notation "𝕄" => MT nD τ sig (HIx 1) (Elt F) ℕ UU ℕ

variable (Vr : (c : Dev nD) → (b : Ref sig .tc) → Buf (Elt F) ((c : Thread nD τ).loc b))

/-! ## What the body stores, as one value of its loaded blocks -/

theorem hz2 : (![0, 0] : Fin 2 → Nat) = fun _ => 0 := funext fun a => by match a with | ⟨0, _⟩ => rfl | ⟨1, _⟩ => rfl
theorem hz1 : (![0] : Fin 1 → Nat) = fun _ => 0 := funext fun a => by match a with | ⟨0, _⟩ => rfl

/-- The result buffer after the body is the body's value of the blocks: the rows blocks, the biases and the output
    weights as they are, the first layer's weights by thirds. -/
theorem out6_eq (x0 x1 : Vec F S8192x128 .f32) (w : Vec F S384x8 .f32) (b1 : Vec F S8 .f32) (w2 : Vec F S8x1 .f32) (b2 : Vec F S1 .f32) :
    out6 x0 x1 w b1 w2 b2 = k1_pay1 x0 x1 (View.ld w rW1a) (View.ld w rW1b) (View.ld w rW1c) b1 w2 b2 := by
  unfold out6
  rw [View.canon_unit_zero hz2]
  rw [View.ld_unit_zero hz2 inb_S8192x128_S8192x128_0_0 x0, View.ld_unit_zero hz2 inb_S8192x128_S8192x128_0_0 x1,
    View.ld_unit_zero hz1 inb_S8_S8_0 b1, View.ld_unit_zero hz2 inb_S8x1_S8x1_0_0 w2, View.ld_unit_zero hz1 inb_S1_S1_0 b2]

/-! ## The result array as one function -/

/-- The stage's value at point t: the body's value of the six input blocks there. -/
def pointOut (c : Dev nD) (t : Fin cfg1.N) : Vec F S1x8192 .f32 :=
  k1_pay1 (iblk Vr c 0 t) (iblk Vr c 1 t) (View.ld (iblk Vr c 2 t) rW1a) (View.ld (iblk Vr c 2 t) rW1b) (View.ld (iblk Vr c 2 t) rW1c)
    (iblk Vr c 3 t) (iblk Vr c 4 t) (iblk Vr c 5 t)

theorem pointOut_congr (c : Dev nD) (t t' : Fin cfg1.N) (h : t = t') (y y' : S1x8192.Idx) (hy : y = y') :
    pointOut Vr c t y = pointOut Vr c t' y' := by subst h hy; rfl

/-- Example n of the 16384 is handled at point n / 8192, as column n % 8192 of that point's block. -/
def ptOf (n : Fin 16384) : Fin cfg1.N := ⟨n.val / 8192, by have := N_1; show n.val / 8192 < grid1.N; omega⟩
def colOf (n : Fin 16384) : Fin 8192 := ⟨n.val % 8192, Nat.mod_lt _ (by decide)⟩

/-- The result row: entry (0, n) is the stage's value at point n / 8192, read at (0, n % 8192). -/
def regionOut (c : Dev nD) : S1x16384.Idx → F .f32 := fun i =>
  pointOut Vr c (ptOf ⟨(i 1).val, idx2_lt1 i⟩) (ix2 (0 : Fin 1) (colOf ⟨(i 1).val, idx2_lt1 i⟩))

theorem regionOut_apply (c : Dev nD) (z : Fin 1) (n : Fin 16384) :
    regionOut Vr c (ix2 z n) = pointOut Vr c (ptOf n) (ix2 (0 : Fin 1) (colOf n)) := rfl

/-- The result window's block index at point t is (0, t). -/
theorem idx6 : ∀ t : Fin cfg1.N, win1_6.index t (0 : Fin 2) = 0 ∧ win1_6.index t (1 : Fin 2) = t.val :=
  (by decide +kernel : ∀ t : Fin grid1.N, _)

/-- What point t writes back is block t of the result row. -/
theorem flushed6_eq (c : Dev nD) (t : Fin cfg1.N) :
    (rdat Vr c).flushed 6 t = ((cfg1.win 6).blk t).view.read (Elt F) (regionOut Vr c) := by
  show (cfg1.win 6).cut (grid1.coords t) ((rdat Vr c).after 6 t) = _
  rw [after_6, out6_eq]
  obtain ⟨e0, e1⟩ := idx6 t
  funext j
  show pointOut Vr c t j = regionOut Vr c (((cfg1.win 6).blk t).view.emb j)
  have h1 : ((((cfg1.win 6).blk t).view.emb j) 1).val = win1_6.index t (1 : Fin 2) * 8192 + 1 * (j 1).val := rfl
  have hj1 : (j 1).val < 8192 := (j 1).isLt
  have hj0 : (j 0).val < 1 := (j 0).isLt
  unfold regionOut
  refine pointOut_congr Vr c _ _ (Fin.ext ?_) _ _ (funext fun a => Fin.ext ?_)
  · show t.val = ((((cfg1.win 6).blk t).view.emb j) 1).val / 8192
    rw [h1, e1]; omega
  · match a with
    | ⟨0, _⟩ => show (j 0).val = 0; omega
    | ⟨1, _⟩ =>
      show (j 1).val = ((((cfg1.win 6).blk t).view.emb j) 1).val % 8192
      rw [h1, e1]; omega

/-- An index of the result row is in point t's block iff each coordinate is in the block's range on its axis. -/
theorem mem_blk6 (t : Fin cfg1.N) (i : S1x16384.Idx) :
    i ∈ ((cfg1.win 6).blk t).view.set ↔ ∀ a : Fin 2, win1_6.index t a * S1x8192.size a ≤ (i a).val ∧ (i a).val < win1_6.index t a * S1x8192.size a + S1x8192.size a := by
  show i ∈ ((View.whole main_v2).slice (win1_6.rect t)).set ↔ _
  rw [View.set_slice_whole, Rect.mem_set_unit]
  exact Iff.rfl

/-- Every entry of the result row is in some point's block: entry n in point n / 8192's. -/
theorem covered6 (i : S1x16384.Idx) : ∃ t : Fin cfg1.N, (cfg1.win 6).flush t = true ∧ i ∈ ((cfg1.win 6).blk t).view.set := by
  have hi0 : (i 0).val < 1 := (i 0).isLt
  have hi1 : (i 1).val < 16384 := (i 1).isLt
  refine ⟨ptOf ⟨(i 1).val, hi1⟩, flush1_6 _, ?_⟩
  rw [mem_blk6]
  obtain ⟨e0, e1⟩ := idx6 (ptOf ⟨(i 1).val, hi1⟩)
  have hp : (ptOf ⟨(i 1).val, hi1⟩).val = (i 1).val / 8192 := rfl
  intro a
  match a with
  | ⟨0, _⟩ =>
    show win1_6.index _ (0 : Fin 2) * 1 ≤ (i 0).val ∧ (i 0).val < win1_6.index _ (0 : Fin 2) * 1 + 1
    rw [e0]; omega
  | ⟨1, _⟩ =>
    show win1_6.index _ (1 : Fin 2) * 8192 ≤ (i 1).val ∧ (i 1).val < win1_6.index _ (1 : Fin 2) * 8192 + 8192
    rw [e1, hp]; omega

/-- The result array after the run is the result row. -/
theorem arrAt_out (c : Dev nD) : (rdat Vr c).arrAt 6 cfg1.N = regionOut Vr c :=
  (rdat Vr c).arrAt_eq_of_cover 6 (regionOut Vr c) (fun t _ => flushed6_eq Vr c t) covered6

/-- The input arrays are never written back. -/
theorem arrAt_in (c : Dev nD) (w : Fin cfg1.W) (hw : w ≠ 6) (n : Nat) : (rdat Vr c).arrAt w n = Vr c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, h => exact absurd rfl h
  exact ((rdat Vr c).arrAt_in w hin n).trans (A_eq Vr c w)

end Cert.KernelIdeal.Sc
end
-- ==== Proof.ScMain.lean ====
/-
  @main on the TensorCore, run: the index arrays joined; the gather stage (the arrays cut among the 32 workers, handed
  over, taken back with the gathered rows in place); the dense stage (the library's region rule, over the stage's proof
  data); the reshape. The ten arrays the claim reads are left whole: the nine arguments at their launch contents, the
  result at the reshape of the dense stage's output.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.KernelIdeal
import proofs.«202841_g12773232738622_fold_wed_m_434_41_alg».proof.Proof.Gen.KernelIdeal.Skeleton
import proofs.«202841_g12773232738622_fold_wed_m_434_41_alg».proof.Proof.Gen.KernelIdeal.Launch
import proofs.«202841_g12773232738622_fold_wed_m_434_41_alg».proof.Proof.Gen.KernelIdeal.Points
import proofs.«202841_g12773232738622_fold_wed_m_434_41_alg».proof.Proof.ScMainDefs
import proofs.«202841_g12773232738622_fold_wed_m_434_41_alg».proof.Proof.RegionOut

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.TcCoe

variable {F : FTy → Type}

local notation "𝕄" => MT nD τ sig (HIx 1) (Elt F) ℕ UU ℕ

variable [FloatOps F] (m : (ℓ : Loc nD τ sig) → Buf (Elt F) ℓ) (ρ : Dev nD → PrngReg)

/-! ## The valuations at the arrays -/

theorem V1_of_ne (d : Dev nD) (b : DevRef τ sig) (hb : b ∉ ({x'} : Finset (DevRef τ sig))) : V1 m d b = m (d, b) :=
  (opCat (F := F)).result_of_not_mem (V0 m d) hb
theorem V2_o (d : Dev nD) : V2 m d o' = gath m (Xd m) d := Function.update_self _ _ _
theorem V2_of_ne (d : Dev nD) (b : DevRef τ sig) (hb : b ≠ o') : V2 m d b = V1 m d b := Function.update_of_ne hb _ _
theorem V3_y (d : Dev nD) : V3 m d y' = (rdat (Vr m) d).arrAt 6 cfg1.N := Function.update_self _ _ _
theorem V3_of_ne (d : Dev nD) (b : DevRef τ sig) (hb : b ≠ y') : V3 m d b = V2 m d b := Function.update_of_ne hb _ _
theorem V4_of_ne (d : Dev nD) (b : DevRef τ sig) (hb : b ∉ ({r'} : Finset (DevRef τ sig))) : V4 m d b = V3 m d b :=
  (opRs (F := F)).result_of_not_mem (V3 m d) hb

/-- An argument array is never written: it holds its launch contents to the end. -/
theorem V4_arg (d : Dev nD) (b : DevRef τ sig) (h1 : b ∉ ({r'} : Finset (DevRef τ sig))) (h2 : b ≠ y') (h3 : b ≠ o') (h4 : b ∉ ({x'} : Finset (DevRef τ sig))) :
    V4 m d b = m (d, b) := by
  rw [V4_of_ne m d b h1, V3_of_ne m d b h2, V2_of_ne m d b h3, V1_of_ne m d b h4]

/-! ## The handshake's payload at the one call -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (X : (d : Dev nD) → Buf (Elt F) (xLoc d)) (d : Dev nD) :
    (bigSep Finset.univ fun c : Fin ((K (F := F)).nCore 0) => (P m X).st 0 d c)
      = bigSep Finset.univ fun c : Fin 2 => bigSep Finset.univ fun i : Fin 16 => tileRes m X d c i (m (oLoc d)) :=
  bigSep_cores (F := F) (fun c => bigSep Finset.univ fun i : Fin 16 => tileRes m X d c i (m (oLoc d)))
theorem dn0_eq (X : (d : Dev nD) → Buf (Elt F) (xLoc d)) (d : Dev nD) :
    (bigSep Finset.univ fun c : Fin ((K (F := F)).nCore 0) => (P m X).dn 0 d c)
      = bigSep Finset.univ fun c : Fin 2 => bigSep Finset.univ fun i : Fin 16 => tileRes m X d c i (gath m X d) :=
  bigSep_cores (F := F) (fun c => bigSep Finset.univ fun i : Fin 16 => tileRes m X d c i (gath m X d))

/-! ## The dense stage's arrays among the thirteen -/

omit [FloatOps F] in
/-- The windows' arrays, one by one: the gathered rows at the two half shares, the four parameter arrays, the result. -/
theorem arrays_chain (Vr : (c : Dev nD) → (b : Ref sig .tc) → Buf (Elt F) ((c : Thread nD τ).loc b)) [FloatOps F] (d : Dev nD)
    (A : (w : Fin cfg1.W) → Buf (Elt F) ((cfg1.win w).arr.view.loc (d : Thread nD τ))) :
    ((rdat Vr d).arrays A : sProp 𝕄)
      = iprop(((SparseCore.T d).loc main_v1 ↦{fullShare.left} A 0) ∗ ((SparseCore.T d).loc main_v1 ↦{fullShare.right} A 1)
          ∗ ((SparseCore.T d).loc main_arg5 ↦{fullShare} A 2) ∗ ((SparseCore.T d).loc main_arg6 ↦{fullShare} A 3)
          ∗ ((SparseCore.T d).loc main_arg7 ↦{fullShare} A 4) ∗ ((SparseCore.T d).loc main_arg8 ↦{fullShare} A 5)
          ∗ ((SparseCore.T d).loc main_v2 ↦{fullShare} A 6)) := by
  unfold Pipeline.Dat.arrays
  rw [show (bigSep Finset.univ fun w : Fin cfg1.W => ((cfg1.win w).arr.view.loc (d : Thread nD τ) ↦[(cfg1.win w).arr.view.set]{(rdat Vr d).share w} A w : sProp 𝕄))
      = bigSep Finset.univ fun w : Fin 7 => (((d : Thread nD τ).loc (Pipeline.arrRef spec1 w)) ↦{(rdat Vr d).share w} A w : sProp 𝕄) from
    bigSep_congr fun w _ => by rw [(Gen.arr_whole1 w).set_eq_univ]]
  rw [Gen.bigSep_W1]
  rfl

/-! ## The thirteen arrays as one chain -/

/-- The TensorCore's arrays whole: the nine arguments at their launch contents, the joined index list at fx, the
    gathered rows at fo, the dense stage's one-row result at fy, the final result at fr. -/
abbrev tc13 (d : Dev nD) (fx : Buf (Elt F) (xLoc d)) (fo : Buf (Elt F) (oLoc d)) (fy : Buf (Elt F) ((SparseCore.T d : Thread nD τ).loc main_v2))
    (fr : Buf (Elt F) ((SparseCore.T d : Thread nD τ).loc main_v3)) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ ((SparseCore.T d).loc main_arg6 ↦{fullShare} m ((SparseCore.T d).loc main_arg6)) ∗ ((SparseCore.T d).loc main_arg7 ↦{fullShare} m ((SparseCore.T d).loc main_arg7))
    ∗ ((SparseCore.T d).loc main_arg8 ↦{fullShare} m ((SparseCore.T d).loc main_arg8))
    ∗ (xLoc d ↦{fullShare} fx) ∗ (oLoc d ↦{fullShare} fo) ∗ ((SparseCore.T d).loc main_v2 ↦{fullShare} fy) ∗ ((SparseCore.T d).loc main_v3 ↦{fullShare} fr))

omit [FloatOps F] in
/-- A valuation that has the arguments at their launch contents holds the thirteen as the chain. -/
theorem held_tc13 (d : Dev nD) (W : Valuation τ sig (Elt F))
    (h0 : W a0' = m (d, a0')) (h1 : W a1' = m (d, a1')) (h2 : W a2' = m (d, a2')) (h3 : W a3' = m (d, a3')) (h4 : W a4' = m (d, a4'))
    (h5 : W a5' = m (d, a5')) (h6 : W a6' = m (d, a6')) (h7 : W a7' = m (d, a7')) (h8 : W a8' = m (d, a8')) :
    (held (T d) S13 W : sProp 𝕄) = tc13 m d (W x') (W o') (W y') (W r') := by
  rw [held_S13, h0, h1, h2, h3, h4, h5, h6, h7, h8]

theorem V1_arg (d : Dev nD) (b : DevRef τ sig) (h4 : b ∉ ({x'} : Finset (DevRef τ sig))) : V1 m d b = m (d, b) := V1_of_ne m d b h4
theorem V2_arg (d : Dev nD) (b : DevRef τ sig) (h3 : b ≠ o') (h4 : b ∉ ({x'} : Finset (DevRef τ sig))) : V2 m d b = m (d, b) := by
  rw [V2_of_ne m d b h3, V1_of_ne m d b h4]
theorem V3_arg (d : Dev nD) (b : DevRef τ sig) (h2 : b ≠ y') (h3 : b ≠ o') (h4 : b ∉ ({x'} : Finset (DevRef τ sig))) : V3 m d b = m (d, b) := by
  rw [V3_of_ne m d b h2, V2_of_ne m d b h3, V1_of_ne m d b h4]

theorem V2_x (d : Dev nD) : V2 m d x' = Xd m d := V2_of_ne m d x' (by decide)
theorem V3_x (d : Dev nD) : V3 m d x' = Xd m d := (V3_of_ne m d x' (by decide)).trans (V2_x m d)
theorem V4_x (d : Dev nD) : V4 m d x' = Xd m d := (V4_of_ne m d x' (by decide)).trans (V3_x m d)
theorem V3_o (d : Dev nD) : V3 m d o' = gath m (Xd m) d := (V3_of_ne m d o' (by decide)).trans (V2_o m d)
theorem V4_o (d : Dev nD) : V4 m d o' = gath m (Xd m) d := (V4_of_ne m d o' (by decide)).trans (V3_o m d)
theorem V4_y (d : Dev nD) : V4 m d y' = (rdat (Vr m) d).arrAt 6 cfg1.N := (V4_of_ne m d y' (by decide)).trans (V3_y m d)

/-- After the join. -/
theorem held_V1 (d : Dev nD) :
    (held (T d) S13 ((opCat (F := F)).result (V0 m d)) : sProp 𝕄)
      = tc13 m d (Xd m d) (m (oLoc d)) (m ((SparseCore.T d).loc main_v2)) (m ((SparseCore.T d).loc main_v3)) := by
  show held (T d) S13 (V1 m d) = _
  rw [held_tc13 m d (V1 m d) (V1_arg m d _ (by decide)) (V1_arg m d _ (by decide)) (V1_arg m d _ (by decide)) (V1_arg m d _ (by decide)) (V1_arg m d _ (by decide))
    (V1_arg m d _ (by decide)) (V1_arg m d _ (by decide)) (V1_arg m d _ (by decide)) (V1_arg m d _ (by decide)),
    V1_arg m d o' (by decide), V1_arg m d y' (by decide), V1_arg m d r' (by decide)]
  try rfl
/-- After the dense stage, as the reshape finds the arrays. -/
theorem held_V3 (d : Dev nD) :
    (held (T d) S13 (V3 m d) : sProp 𝕄)
      = tc13 m d (Xd m d) (gath m (Xd m) d) ((rdat (Vr m) d).arrAt 6 cfg1.N) (m ((SparseCore.T d).loc main_v3)) := by
  rw [held_tc13 m d (V3 m d) (V3_arg m d _ (by decide) (by decide) (by decide)) (V3_arg m d _ (by decide) (by decide) (by decide)) (V3_arg m d _ (by decide) (by decide) (by decide))
    (V3_arg m d _ (by decide) (by decide) (by decide)) (V3_arg m d _ (by decide) (by decide) (by decide)) (V3_arg m d _ (by decide) (by decide) (by decide))
    (V3_arg m d _ (by decide) (by decide) (by decide)) (V3_arg m d _ (by decide) (by decide) (by decide)) (V3_arg m d _ (by decide) (by decide) (by decide)),
    V3_x, V3_o, V3_y, V3_arg m d r' (by decide) (by decide) (by decide)]
  try rfl
/-- After the reshape. -/
theorem held_V4 (d : Dev nD) :
    (held (T d) S13 ((opRs (F := F)).result (V3 m d)) : sProp 𝕄)
      = tc13 m d (Xd m d) (gath m (Xd m) d) ((rdat (Vr m) d).arrAt 6 cfg1.N) (V4 m d r') := by
  show held (T d) S13 (V4 m d) = _
  rw [held_tc13 m d (V4 m d) (V4_arg m d _ (by decide) (by decide) (by decide) (by decide)) (V4_arg m d _ (by decide) (by decide) (by decide) (by decide))
    (V4_arg m d _ (by decide) (by decide) (by decide) (by decide)) (V4_arg m d _ (by decide) (by decide) (by decide) (by decide)) (V4_arg m d _ (by decide) (by decide) (by decide) (by decide))
    (V4_arg m d _ (by decide) (by decide) (by decide) (by decide)) (V4_arg m d _ (by decide) (by decide) (by decide) (by decide)) (V4_arg m d _ (by decide) (by decide) (by decide) (by decide))
    (V4_arg m d _ (by decide) (by decide) (by decide) (by decide)), V4_x, V4_o, V4_y]

/-! ## Into the dense stage's state and out of it -/

theorem Vr_arg (d : Dev nD) (b : Ref sig .tc) (h3 : Proc.devRef .tc b ≠ o') (h4 : Proc.devRef .tc b ∉ ({x'} : Finset (DevRef τ sig))) :
    Vr m d b = m ((d : Thread nD τ).loc b) := V2_arg m d _ h3 h4
theorem Vr_o (d : Dev nD) : Vr m d main_v1 = gath m (Xd m) d := V2_o m d
theorem Vr_x (d : Dev nD) : Vr m d main_v0 = Xd m d := V2_x m d

/-- From the thirteen (the gathered rows in place) to the dense stage's state at its entry. -/
theorem region_enter (d : Dev nD) :
    iprop(tc13 m d (Xd m d) (gath m (Xd m) d) (m ((SparseCore.T d).loc main_v2)) (m ((SparseCore.T d).loc main_v3)) ∗ (∃ r, prngReg d r) ∗ Rowe (F := F) d)
      ⊢ regionState (Vr m) d (fun w => (rdat (Vr m) d).arrAt w 0) := by
  unfold regionState tc13 restArrays
  rw [arrays_chain]
  have e0 : (rdat (Vr m) d).arrAt 0 0 = gath m (Xd m) d := Vr_o m d
  have e1 : (rdat (Vr m) d).arrAt 1 0 = gath m (Xd m) d := Vr_o m d
  have e2 : (rdat (Vr m) d).arrAt 2 0 = m ((d : Thread nD τ).loc main_arg5) := Vr_arg m d main_arg5 (by decide) (by decide)
  have e3 : (rdat (Vr m) d).arrAt 3 0 = m ((d : Thread nD τ).loc main_arg6) := Vr_arg m d main_arg6 (by decide) (by decide)
  have e4 : (rdat (Vr m) d).arrAt 4 0 = m ((d : Thread nD τ).loc main_arg7) := Vr_arg m d main_arg7 (by decide) (by decide)
  have e5 : (rdat (Vr m) d).arrAt 5 0 = m ((d : Thread nD τ).loc main_arg8) := Vr_arg m d main_arg8 (by decide) (by decide)
  have e6 : (rdat (Vr m) d).arrAt 6 0 = m ((d : Thread nD τ).loc main_v2) := Vr_arg m d main_v2 (by decide) (by decide)
  simp only [e0, e1, e2, e3, e4, e5, e6]
  rw [Vr_arg m d main_arg0 (by decide) (by decide), Vr_arg m d main_arg1 (by decide) (by decide), Vr_arg m d main_arg2 (by decide) (by decide),
    Vr_arg m d main_arg3 (by decide) (by decide), Vr_arg m d main_arg4 (by decide) (by decide), Vr_x, Vr_arg m d main_v3 (by decide) (by decide)]
  iintro ⟨⟨H0, H1, H2, H3, H4, H5, H6, H7, H8, Hx, Ho, Hy, Hr⟩, Hp, HO⟩
  ihave Ho2 := (pointsTo_share (PosShare.mem_left_op_right fullShare)).1 $$ Ho
  icases Ho2 with ⟨HoL, HoR⟩
  isplitl [HoL HoR H5 H6 H7 H8 Hy]
  · isplitl [HoL]; · iexact HoL
    isplitl [HoR]; · iexact HoR
    isplitl [H5]; · iexact H5
    isplitl [H6]; · iexact H6
    isplitl [H7]; · iexact H7
    isplitl [H8]; · iexact H8
    iexact Hy
  isplitl [H0 H1 H2 H3 H4 Hx Hr]
  · isplitl [H0]; · iexact H0
    isplitl [H1]; · iexact H1
    isplitl [H2]; · iexact H2
    isplitl [H3]; · iexact H3
    isplitl [H4]; · iexact H4
    isplitl [Hx]; · iexact Hx
    iexact Hr
  isplitl [Hp]; · iexact Hp
  iexact HO

/-- From the dense stage's state at its exit back to the thirteen, the one-row result in place. -/
theorem region_exit (d : Dev nD) :
    regionState (Vr m) d (fun w => (rdat (Vr m) d).arrAt w cfg1.N)
      ⊢ iprop(tc13 m d (Xd m d) (gath m (Xd m) d) ((rdat (Vr m) d).arrAt 6 cfg1.N) (m ((SparseCore.T d).loc main_v3)) ∗ (∃ r, prngReg d r) ∗ Rowe (F := F) d) := by
  unfold regionState tc13 restArrays
  rw [arrays_chain]
  have e0 : (rdat (Vr m) d).arrAt 0 cfg1.N = gath m (Xd m) d := (arrAt_in (Vr m) d 0 (by decide) _).trans (Vr_o m d)
  have e1 : (rdat (Vr m) d).arrAt 1 cfg1.N = gath m (Xd m) d := (arrAt_in (Vr m) d 1 (by decide) _).trans (Vr_o m d)
  have e2 : (rdat (Vr m) d).arrAt 2 cfg1.N = m ((d : Thread nD τ).loc main_arg5) := (arrAt_in (Vr m) d 2 (by decide) _).trans (Vr_arg m d main_arg5 (by decide) (by decide))
  have e3 : (rdat (Vr m) d).arrAt 3 cfg1.N = m ((d : Thread nD τ).loc main_arg6) := (arrAt_in (Vr m) d 3 (by decide) _).trans (Vr_arg m d main_arg6 (by decide) (by decide))
  have e4 : (rdat (Vr m) d).arrAt 4 cfg1.N = m ((d : Thread nD τ).loc main_arg7) := (arrAt_in (Vr m) d 4 (by decide) _).trans (Vr_arg m d main_arg7 (by decide) (by decide))
  have e5 : (rdat (Vr m) d).arrAt 5 cfg1.N = m ((d : Thread nD τ).loc main_arg8) := (arrAt_in (Vr m) d 5 (by decide) _).trans (Vr_arg m d main_arg8 (by decide) (by decide))
  simp only [e0, e1, e2, e3, e4, e5]
  rw [Vr_arg m d main_arg0 (by decide) (by decide), Vr_arg m d main_arg1 (by decide) (by decide), Vr_arg m d main_arg2 (by decide) (by decide),
    Vr_arg m d main_arg3 (by decide) (by decide), Vr_arg m d main_arg4 (by decide) (by decide), Vr_x, Vr_arg m d main_v3 (by decide) (by decide)]
  iintro ⟨⟨HoL, HoR, H5, H6, H7, H8, Hy⟩, ⟨H0, H1, H2, H3, H4, Hx, Hr⟩, Hp, HO⟩
  ihave Ho := (pointsTo_share (PosShare.mem_left_op_right fullShare)).2 $$ [HoL HoR]
  · isplitl [HoL] <;> iassumption
  isplitl [H0 H1 H2 H3 H4 H5 H6 H7 H8 Hx Ho Hy Hr]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hx]; · iexact Hx
    isplitl [Ho]; · iexact Ho
    isplitl [Hy]; · iexact Hy
    iexact Hr
  isplitl [Hp]; · iexact Hp
  iexact HO

/-! ## The TensorCore's handshake state, its owes taken out and put back -/

omit [FloatOps F] in
/-- With one call, every recorded wait sits at or below level 8. -/
theorem wbelow8 (d : Dev nD) (W : Waits sig (HIx 1)) : (K (F := F)).WBelow (SparseCore.T d) W (8 * 1) := by
  intro p _
  rcases p with ⟨s, ι⟩
  cases ι with
  | none => exact Nat.zero_le _
  | some q =>
    have h := (K (F := F)).lev_some_le (nD := nD) ((SparseCore.T d : Thread nD τ), s) q
    have hq : q.val = 0 := by omega
    exact le_trans h (by omega)

/-- After the one call the TensorCore owes nothing: its owes can be lent to the dense stage and taken back. -/
theorem tcSt_owes_out (d : Dev nD) :
    ((K (F := F)).tcSt EH d 1 : sProp 𝕄)
      ⊢ iprop(Rowe (F := F) d ∗ (Rowe (F := F) d -∗ (K (F := F)).tcSt EH d 1)) := by
  unfold SparseCore.Cfg.tcSt
  rw [(K (F := F)).Otc_end d (n := 1) (le_refl 1)]
  iintro ⟨⟨%W, %hW, HO⟩, Hrest⟩
  isplitl [HO]; · iexists W; iexact HO
  iintro ⟨%W', HO'⟩
  isplitl [HO']
  · iexists W'; isplitr; · ipureintro; exact wbelow8 (F := F) d W'
    iexact HO'
  iexact Hrest

/-! ## The dense stage's step of @main -/

theorem reg_pre (d : Dev nD) : (reg (Vr m)).pre d = regionState (Vr m) d (fun w => (rdat (Vr m) d).arrAt w 0) := rfl
theorem reg_post (d : Dev nD) : (reg (Vr m)).post d = regionState (Vr m) d (fun w => (rdat (Vr m) d).arrAt w cfg1.N) := rfl

/-- The dense stage's call, lifted into the whole program's label signature, is @main's own line. -/
theorem lift_call :
    (SparseCore.liftProg (Q := 1) (Prog.op (.customCall (Pipeline.entry (0 : Fin 1)) ()) fun _ => .ret ⟨⟩ :
        Prog (TpuEff nD τ sig (Elt F) (ΛP (F := F)) .tc) PUnit) : Prog (TpuEff nD τ sig (Elt F) (SparseCore.Sig (ΛP (F := F)) 1) .tc) PUnit)
      = Prog.lift (.customCall (SparseCore.inner (Pipeline.entry (0 : Fin 1))) ()) := rfl

set_option maxHeartbeats 1000000 in
set_option backward.isDefEq.respectTransparency.types false in
/-- The dense stage's call in @main: from the region boundary, the stage's state at entry, the level facts and the
    staging cells' ghost state, to the boundary and the stage's state at exit for whatever follows. -/
theorem region_step (d : Dev nD) (Φ : PUnit → sProp 𝕄) :
    iprop((iprop(boundary (d.tc : Thread nD τ) ∗ (reg (Vr m)).post d)
            -∗ wp frame (wpE (D (F := F)) 𝒱 (d.tc : Thread nD τ) none) Set.univ (.ret ⟨⟩) Φ)
        ∗ boundary (d.tc : Thread nD τ) ∗ (reg (Vr m)).pre d
        ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (d.tc : Thread nD τ) none) Set.univ
          (Prog.lift (.customCall (SparseCore.inner (Pipeline.entry (0 : Fin 1))) ())) Φ := by
  rw [← lift_call (F := F)]
  refine BI.Entails.trans ?_ ((K (F := F)).wp_liftProg (D (F := F)) 𝒱 (d.tc : Thread nD τ) Set.univ none _ Φ)
  exact Pipeline.RegionSeg.wp (pcfgs (F := F)) adm (pdats (Vr m)) (default : HIx 1) pinj (EP (F := F)) defs₀ 𝒱₀ (K (F := F)).L (K (F := F)).lev
      (reg (Vr m)) d none (fun _ h => nomatch h) (fun _ => .ret ⟨⟩) Φ

/-! ## @main -/

/-- What @main leaves the claim: the nine arguments at their launch contents, the result at the reshape of the dense stage's output. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ ((SparseCore.T d).loc main_arg6 ↦{fullShare} m ((SparseCore.T d).loc main_arg6)) ∗ ((SparseCore.T d).loc main_arg7 ↦{fullShare} m ((SparseCore.T d).loc main_arg7))
    ∗ ((SparseCore.T d).loc main_arg8 ↦{fullShare} m ((SparseCore.T d).loc main_arg8)) ∗ ((SparseCore.T d).loc main_v3 ↦{fullShare} V4 m d r'))

set_option maxHeartbeats 1000000 in
/-- @main on device d's TensorCore. -/
theorem hmain (κ : GSem nD τ sig → ℕ) (d : Dev nD) :
    iprop((K (F := F)).ctx EH (P m (Xd m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held]
  simp only [main, wp_bind, wp_pure]
  iintro ⟨#Hctx, Hst, ⟨Hb, Hheld, -, Hprng⟩, ⟨Hcg, Hti⟩⟩
  -- the join of the index arrays
  iapply (wp_hlo_within 𝒱 (SparseCore.T d) none Set.univ (op := opCat) (S := S13) hCat (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨H0, H1, H2, H3, H4, H5, H6, H7, H8, Hx, Ho, Hy, Hr⟩
  -- the gather stage: the four arrays cut among the workers, handed over, taken back
  ihave Hcut := (Entails.of_eq (whole_cut m (Xd m) d (m (oLoc d)))) $$ [Hx H3 H4 Ho]
  · isplitl [Hx]; · iexact Hx
    isplitl [H3]; · iexact H3
    isplitl [H4]; · iexact H4
    iexact Ho
  iapply ((K (F := F)).wp_run (D (F := F)) 𝒱 (EH := EH) (P := P m (Xd m)) κ d 0) $$ [Hst Hcut H0 H1 H2 H5 H6 H7 H8 Hy Hr Hb Hprng Hcg Hti]
  isplitr; · iexact Hctx
  isplitl [Hst]; · iexact Hst
  isplitl [Hcut]
  · rw [st0_eq]; iexact Hcut
  iintro ⟨Hst, Hdn⟩
  ihave Hdn' := (Entails.of_eq (dn0_eq m (Xd m) d)) $$ Hdn
  ihave Hw := (Entails.of_eq (whole_cut m (Xd m) d (gath m (Xd m) d)).symm) $$ Hdn'
  icases Hw with ⟨Hx, H3, H4, Ho⟩
  -- the dense stage: the region rule over its proof data
  ihave Hst1 := (Entails.of_eq (show ((K (F := F)).tcSt EH d ((0 : Fin 1).val + 1) : sProp 𝕄) = (K (F := F)).tcSt EH d 1 from rfl)) $$ Hst
  ihave Hso := (tcSt_owes_out (F := F) d) $$ Hst1
  icases Hso with ⟨HO, Hstback⟩
  ihave Hlev := ((K (F := F)).ctx_levAts (EH := EH) (P := P m (Xd m)) κ) $$ Hctx
  ihave Hpre := (region_enter m d) $$ [H0 H1 H2 H3 H4 H5 H6 H7 H8 Hx Ho Hy Hr Hprng HO]
  · isplitl [H0 H1 H2 H3 H4 H5 H6 H7 H8 Hx Ho Hy Hr]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [Hx]; · iexact Hx
      isplitl [Ho]; · iexact Ho
      isplitl [Hy]; · iexact Hy
      iexact Hr
    isplitl [Hprng]; · iexists _; iexact Hprng
    iexact HO
  iapply (region_step m d _) $$ [Hb Hpre Hlev Hcg Hti Hstback]
  isplitl [Hstback]
  swap
  · isplitl [Hb]; · iexact Hb
    isplitl [Hpre]; · iapply (Entails.of_eq (reg_pre m d).symm); iexact Hpre
    isplitl [Hlev]; · iexact Hlev
    isplitl [Hcg]; · iexact Hcg
    iexact Hti
  iintro ⟨Hb, Hpost⟩
  rw [wp_ret]; imodintro
  ihave Hpost' := (Entails.of_eq (reg_post m d)) $$ Hpost
  ihave Hx13 := (region_exit m d) $$ Hpost'
  icases Hx13 with ⟨H13, -, HO⟩
  ihave Hst := Hstback $$ HO
  -- the reshape
  ihave Hheld := (Entails.of_eq (held_V3 (F := F) m d).symm) $$ H13
  iapply (wp_hlo_within 𝒱 (SparseCore.T d) none Set.univ (op := opRs) (S := S13) hRs (V := V3 m d)) $$ [Hb Hheld]
  · isplitl [Hb] <;> iassumption
  iintro ⟨Hb, Hheld⟩
  ihave Hh := (Entails.of_eq (held_V4 (F := F) m d)) $$ Hheld
  icases Hh with ⟨H0, H1, H2, H3, H4, H5, H6, H7, H8, -, -, -, Hr⟩
  rw [wp_ret]; imodintro; imodintro
  isplitl [Hst]; · iexact Hst
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hr

/-! ## The claim's reading of the final state -/

omit [FloatOps F] in
/-- An array held whole beside the state interpretation is what the state's memory holds there. -/
theorem agree1 (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr; · ipureintro; exact funext fun i => h i (Finset.mem_univ i)
  iexact HSI

/-- What the claim reads on device d: the result, then the nine arguments unchanged. -/
def fq (d : Dev nD) (s' : Phys nD τ sig (Elt F)) : Prop :=
  s'.mem.mem ((SparseCore.T d).loc main_v3) = V4 m d r'
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4) ∧ s'.mem.mem ((SparseCore.T d).loc main_arg5) = m ((SparseCore.T d).loc main_arg5)
    ∧ s'.mem.mem ((SparseCore.T d).loc main_arg6) = m ((SparseCore.T d).loc main_arg6) ∧ s'.mem.mem ((SparseCore.T d).loc main_arg7) = m ((SparseCore.T d).loc main_arg7)
    ∧ s'.mem.mem ((SparseCore.T d).loc main_arg8) = m ((SparseCore.T d).loc main_arg8)

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5, H6, H7, H8, Hr⟩, HSI⟩
  ihave A := (agree1 (F := F) _ _ s') $$ [HSI H0]
  · isplitl [HSI] <;> iassumption
  icases A with ⟨%h0, HSI⟩
  ihave A := (agree1 (F := F) _ _ s') $$ [HSI H1]
  · isplitl [HSI] <;> iassumption
  icases A with ⟨%h1, HSI⟩
  ihave A := (agree1 (F := F) _ _ s') $$ [HSI H2]
  · isplitl [HSI] <;> iassumption
  icases A with ⟨%h2, HSI⟩
  ihave A := (agree1 (F := F) _ _ s') $$ [HSI H3]
  · isplitl [HSI] <;> iassumption
  icases A with ⟨%h3, HSI⟩
  ihave A := (agree1 (F := F) _ _ s') $$ [HSI H4]
  · isplitl [HSI] <;> iassumption
  icases A with ⟨%h4, HSI⟩
  ihave A := (agree1 (F := F) _ _ s') $$ [HSI H5]
  · isplitl [HSI] <;> iassumption
  icases A with ⟨%h5, HSI⟩
  ihave A := (agree1 (F := F) _ _ s') $$ [HSI H6]
  · isplitl [HSI] <;> iassumption
  icases A with ⟨%h6, HSI⟩
  ihave A := (agree1 (F := F) _ _ s') $$ [HSI H7]
  · isplitl [HSI] <;> iassumption
  icases A with ⟨%h7, HSI⟩
  ihave A := (agree1 (F := F) _ _ s') $$ [HSI H8]
  · isplitl [HSI] <;> iassumption
  icases A with ⟨%h8, HSI⟩
  ihave A := (agree1 (F := F) _ _ s') $$ [HSI Hr]
  · isplitl [HSI] <;> iassumption
  icases A with ⟨%hr, -⟩
  ipureintro; exact ⟨hr, h0, h1, h2, h3, h4, h5, h6, h7, h8⟩

end Cert.KernelIdeal.Sc

end
-- ==== Proof.TileFacts.lean ====
/-
  Facts about one gather worker's pieces of the arrays: the rectangles the program cuts (at offsets it computes from the
  worker's coordinates) are the parts of the even cuts the launch deals out, so a piece held under one name is the piece
  under the other; the index words the worker reads are in range; and a block of rows gathered through a stretch of the
  index list and stored to the output holds the one gathered function there.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.KernelIdeal
import proofs.«202841_g12773232738622_fold_wed_m_434_41_alg».proof.Proof.Gen.KernelIdeal.Skeleton
import proofs.«202841_g12773232738622_fold_wed_m_434_41_alg».proof.Proof.Gen.KernelIdeal.Launch
import proofs.«202841_g12773232738622_fold_wed_m_434_41_alg».proof.Proof.Gen.KernelIdeal.Points
import proofs.«202841_g12773232738622_fold_wed_m_434_41_alg».proof.Proof.Spec
import proofs.«202841_g12773232738622_fold_wed_m_434_41_alg».proof.Proof.ScCommon

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole main_v0_scv : Memref sig Kind.scVector Space.hbm S32768 EltTy.i32)
local notation "uV" => (Memref.whole main_arg3_scv : Memref sig Kind.scVector Space.hbm S100000x128 EltTy.f32)
local notation "tV" => (Memref.whole main_arg4_scv : Memref sig Kind.scVector Space.hbm S100000x128 EltTy.f32)
local notation "oV" => (Memref.whole main_v1_scv : Memref sig Kind.scVector Space.hbm S32768x128 EltTy.f32)
local notation "aV" => (Memref.whole cc0_scratch0 : Memref sig Kind.scVector Space.vmem S512 EltTy.i32)
local notation "bV" => (Memref.whole cc0_scratch1 : Memref sig Kind.scVector Space.vmem S512 EltTy.i32)
local notation "rV" => (Memref.whole cc0_scratch2 : Memref sig Kind.scVector Space.vmem S7x128x128 EltTy.f32)

/-! ## The worker's coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

variable (L : grid0.Coords)

/-! ## The program's own rectangles, and the parts they are -/

abbrev xRectK1 (L : grid0.Coords) : Rect S32768 := Rect.unit (s := S32768) (k0_off1 L) S512.size (k0_off1_inb L)
abbrev xRectK2 (L : grid0.Coords) : Rect S32768 := Rect.unit (s := S32768) (k0_off2 L) S512.size (k0_off2_inb L)
abbrev oRectK (L : grid0.Coords) (a : Fin 2) (b : Fin 4) : Rect S32768x128 :=
  Rect.unit (s := S32768x128) (k0_off3 L (BitVec.ofNat 32 (16384 * a.val)) (BitVec.ofNat 32 (128 * b.val))) S128x128.size (k0_off3_inb L a b)

theorem xRectK1_eq : xRectK1 L = xpart (xN 0 (cL L) (iL L)) := by
  unfold xRectK1 xpart Rect.part Rect.block
  congr 1 <;> funext a
  · rw [k0_off1_eq]
    match a with
    | 0 => simp [Shape.partIx, Shape.partSize, xN, wid]; omega
  · match a with
    | 0 => simp [Shape.partSize]

theorem xRectK2_eq : xRectK2 L = xpart (xN 1 (cL L) (iL L)) := by
  unfold xRectK2 xpart Rect.part Rect.block
  congr 1 <;> funext a
  · rw [k0_off2_eq]
    match a with
    | 0 => simp [Shape.partIx, Shape.partSize, xN, wid]; omega
  · match a with
    | 0 => simp [Shape.partSize]

theorem oRectK_eq (a : Fin 2) (b : Fin 4) : oRectK L a b = opart (oN a (cL L) (iL L) b) := by
  unfold oRectK opart Rect.part Rect.block
  congr 1 <;> funext k
  · rw [k0_off3_eq]
    match k with
    | 0 => simp [Shape.partIx, Shape.partSize, oN, wid]; omega
    | 1 => simp [Shape.partIx, Shape.partSize]
  · match k with
    | 0 => simp [Shape.partSize]
    | 1 => simp [Shape.partSize]

/-! ## The subcore's own semaphore cells and scratch buffers, by name -/

abbrev cell0 (d : Dev nD) (c : Fin τ.nSC) (i : Fin τ.nSub) : GSem nD τ sig := (V d c i, .dma cc0_scratch3.sem)
abbrev cell1 (d : Dev nD) (c : Fin τ.nSC) (i : Fin τ.nSub) : GSem nD τ sig := (V d c i, .dma cc0_scratch4.sem)
abbrev cell2 (d : Dev nD) (c : Fin τ.nSC) (i : Fin τ.nSub) : GSem nD τ sig := (V d c i, .dma cc0_scratch5.sem)
abbrev cell3 (d : Dev nD) (c : Fin τ.nSC) (i : Fin τ.nSub) : GSem nD τ sig := (V d c i, .dma cc0_scratch6.sem)
abbrev cell4 (d : Dev nD) (c : Fin τ.nSC) (i : Fin τ.nSub) : GSem nD τ sig := (V d c i, .dma cc0_scratch7.sem)
abbrev cell5 (d : Dev nD) (c : Fin τ.nSC) (i : Fin τ.nSub) : GSem nD τ sig := (V d c i, .dma cc0_scratch8.sem)
abbrev cell6 (d : Dev nD) (c : Fin τ.nSC) (i : Fin τ.nSub) : GSem nD τ sig := (V d c i, .dma cc0_scratch9.sem)
abbrev cell7 (d : Dev nD) (c : Fin τ.nSC) (i : Fin τ.nSub) : GSem nD τ sig := (V d c i, .dma cc0_scratch10.sem)
abbrev cell8 (d : Dev nD) (c : Fin τ.nSC) (i : Fin τ.nSub) : GSem nD τ sig := (V d c i, .dma cc0_scratch11.sem)
abbrev cell9 (d : Dev nD) (c : Fin τ.nSC) (i : Fin τ.nSub) : GSem nD τ sig := (V d c i, .dma cc0_scratch12.sem)
abbrev cell10 (d : Dev nD) (c : Fin τ.nSC) (i : Fin τ.nSub) : GSem nD τ sig := (V d c i, .dma cc0_scratch13.sem)
abbrev cell11 (d : Dev nD) (c : Fin τ.nSC) (i : Fin τ.nSub) : GSem nD τ sig := (V d c i, .dma cc0_scratch14.sem)
abbrev cell12 (d : Dev nD) (c : Fin τ.nSC) (i : Fin τ.nSub) : GSem nD τ sig := (V d c i, .dma cc0_scratch15.sem)
abbrev cell13 (d : Dev nD) (c : Fin τ.nSC) (i : Fin τ.nSub) : GSem nD τ sig := (V d c i, .dma cc0_scratch16.sem)
abbrev cell14 (d : Dev nD) (c : Fin τ.nSC) (i : Fin τ.nSub) : GSem nD τ sig := (V d c i, .dma cc0_scratch17.sem)
abbrev cell15 (d : Dev nD) (c : Fin τ.nSC) (i : Fin τ.nSub) : GSem nD τ sig := (V d c i, .dma cc0_scratch18.sem)

theorem cell_ne (d : Dev nD) (c : Fin τ.nSC) (i : Fin τ.nSub) {s s' : DmaSem sig} (h : s ≠ s') :
    ((V d c i, SemLoc.dma s) : GSem nD τ sig) ≠ (V d c i, SemLoc.dma s') :=
  fun e => h (by injection e with _ e2; injection e2)

/-- The subcore's sixteen transfer semaphores are among its own cells: they are them, at zero, and the rest. -/
theorem ownSems0_V (d : Dev nD) :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ semVal (cell6 d (cV L) (jV L)) 0 ∗ semVal (cell7 d (cV L) (jV L)) 0 ∗ semVal (cell8 d (cV L) (jV L)) 0 ∗ semVal (cell9 d (cV L) (jV L)) 0 ∗ semVal (cell10 d (cV L) (jV L)) 0 ∗ semVal (cell11 d (cV L) (jV L)) 0 ∗ semVal (cell12 d (cV L) (jV L)) 0 ∗ semVal (cell13 d (cV L) (jV L)) 0 ∗ semVal (cell14 d (cV L) (jV L)) 0 ∗ semVal (cell15 d (cV L) (jV L)) 0
          ∗ bigSep (((((((((((((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))).erase (cell6 d (cV L) (jV L))).erase (cell7 d (cV L) (jV L))).erase (cell8 d (cV L) (jV L))).erase (cell9 d (cV L) (jV L))).erase (cell10 d (cV L) (jV L))).erase (cell11 d (cV L) (jV L))).erase (cell12 d (cV L) (jV L))).erase (cell13 d (cV L) (jV L))).erase (cell14 d (cV L) (jV L))).erase (cell15 d (cV L) (jV L))) fun g => semVal g 0) := by
  unfold SparseCore.Cfg.ownSems0
  rw [SparseCore.bigSep_erase' ((mem_ownCells (g := cell0 d (cV L) (jV L))).mpr ⟨rfl, by show (SemLoc.dma cc0_scratch3.sem : SemLoc sig).isScoped .scVector = true; decide⟩),
    SparseCore.bigSep_erase' (Finset.mem_erase.mpr ⟨cell_ne d (cV L) (jV L) (by decide : cc0_scratch4.sem ≠ cc0_scratch3.sem), (mem_ownCells (g := cell1 d (cV L) (jV L))).mpr ⟨rfl, by show (SemLoc.dma cc0_scratch4.sem : SemLoc sig).isScoped .scVector = true; decide⟩⟩),
    SparseCore.bigSep_erase' (Finset.mem_erase.mpr ⟨cell_ne d (cV L) (jV L) (by decide : cc0_scratch5.sem ≠ cc0_scratch4.sem), Finset.mem_erase.mpr ⟨cell_ne d (cV L) (jV L) (by decide : cc0_scratch5.sem ≠ cc0_scratch3.sem), (mem_ownCells (g := cell2 d (cV L) (jV L))).mpr ⟨rfl, by show (SemLoc.dma cc0_scratch5.sem : SemLoc sig).isScoped .scVector = true; decide⟩⟩⟩),
    SparseCore.bigSep_erase' (Finset.mem_erase.mpr ⟨cell_ne d (cV L) (jV L) (by decide : cc0_scratch6.sem ≠ cc0_scratch5.sem), Finset.mem_erase.mpr ⟨cell_ne d (cV L) (jV L) (by decide : cc0_scratch6.sem ≠ cc0_scratch4.sem), Finset.mem_erase.mpr ⟨cell_ne d (cV L) (jV L) (by decide : cc0_scratch6.sem ≠ cc0_scratch3.sem), (mem_ownCells (g := cell3 d (cV L) (jV L))).mpr ⟨rfl, by show (SemLoc.dma cc0_scratch6.sem : SemLoc sig).isScoped .scVector = true; decide⟩⟩⟩⟩),
    SparseCore.bigSep_erase' (Finset.mem_erase.mpr ⟨cell_ne d (cV L) (jV L) (by decide : cc0_scratch7.sem ≠ cc0_scratch6.sem), Finset.mem_erase.mpr ⟨cell_ne d (cV L) (jV L) (by decide : cc0_scratch7.sem ≠ cc0_scratch5.sem), Finset.mem_erase.mpr ⟨cell_ne d (cV L) (jV L) (by decide : cc0_scratch7.sem ≠ cc0_scratch4.sem), Finset.mem_erase.mpr ⟨cell_ne d (cV L) (jV L) (by decide : cc0_scratch7.sem ≠ cc0_scratch3.sem), (mem_ownCells (g := cell4 d (cV L) (jV L))).mpr ⟨rfl, by show (SemLoc.dma cc0_scratch7.sem : SemLoc sig).isScoped .scVector = true; decide⟩⟩⟩⟩⟩),
    SparseCore.bigSep_erase' (Finset.mem_erase.mpr ⟨cell_ne d (cV L) (jV L) (by decide : cc0_scratch8.sem ≠ cc0_scratch7.sem), Finset.mem_erase.mpr ⟨cell_ne d (cV L) (jV L) (by decide : cc0_scratch8.sem ≠ cc0_scratch6.sem), Finset.mem_erase.mpr ⟨cell_ne d (cV L) (jV L) (by decide : cc0_scratch8.sem ≠ cc0_scratch5.sem), Finset.mem_erase.mpr ⟨cell_ne d (cV L) (jV L) (by decide : cc0_scratch8.sem ≠ cc0_scratch4.sem), Finset.mem_erase.mpr ⟨cell_ne d (cV L) (jV L) (by decide : cc0_scratch8.sem ≠ cc0_scratch3.sem), (mem_ownCells (g := cell5 d (cV L) (jV L))).mpr ⟨rfl, by show (SemLoc.dma cc0_scratch8.sem : SemLoc sig).isScoped .scVector = true; decide⟩⟩⟩⟩⟩⟩),
    SparseCore.bigSep_erase' (Finset.mem_erase.mpr ⟨cell_ne d (cV L) (jV L) (by decide : cc0_scratch9.sem ≠ cc0_scratch8.sem), Finset.mem_erase.mpr ⟨cell_ne d (cV L) (jV L) (by decide : cc0_scratch9.sem ≠ cc0_scratch7.sem), Finset.mem_erase.mpr ⟨cell_ne d (cV L) (jV L) (by decide : cc0_scratch9.sem ≠ cc0_scratch6.sem), Finset.mem_erase.mpr ⟨cell_ne d (cV L) (jV L) (by decide : cc0_scratch9.sem ≠ cc0_scratch5.sem), Finset.mem_erase.mpr ⟨cell_ne d (cV L) (jV L) (by decide : cc0_scratch9.sem ≠ cc0_scratch4.sem), Finset.mem_erase.mpr ⟨cell_ne d (cV L) (jV L) (by decide : cc0_scratch9.sem ≠ cc0_scratch3.sem), (mem_ownCells (g := cell6 d (cV L) (jV L))).mpr ⟨rfl, by show (SemLoc.dma cc0_scratch9.sem : SemLoc sig).isScoped .scVector = true; decide⟩⟩⟩⟩⟩⟩⟩),
    SparseCore.bigSep_erase' (Finset.mem_erase.mpr ⟨cell_ne d (cV L) (jV L) (by decide : cc0_scratch10.sem ≠ cc0_scratch9.sem), Finset.mem_erase.mpr ⟨cell_ne d (cV L) (jV L) (by decide : cc0_scratch10.sem ≠ cc0_scratch8.sem), Finset.mem_erase.mpr ⟨cell_ne d (cV L) (jV L) (by decide : cc0_scratch10.sem ≠ cc0_scratch7.sem), Finset.mem_erase.mpr ⟨cell_ne d (cV L) (jV L) (by decide : cc0_scratch10.sem ≠ cc0_scratch6.sem), Finset.mem_erase.mpr ⟨cell_ne d (cV L) (jV L) (by decide : cc0_scratch10.sem ≠ cc0_scratch5.sem), Finset.mem_erase.mpr ⟨cell_ne d (cV L) (jV L) (by decide : cc0_scratch10.sem ≠ cc0_scratch4.sem), Finset.mem_erase.mpr ⟨cell_ne d (cV L) (jV L) (by decide : cc0_scratch10.sem ≠ cc0_scratch3.sem), (mem_ownCells (g := cell7 d (cV L) (jV L))).mpr ⟨rfl, by show (SemLoc.dma cc0_scratch10.sem : SemLoc sig).isScoped .scVector = true; decide⟩⟩⟩⟩⟩⟩⟩⟩),
    SparseCore.bigSep_erase' (Finset.mem_erase.mpr ⟨cell_ne d (cV L) (jV L) (by decide : cc0_scratch11.sem ≠ cc0_scratch10.sem), Finset.mem_erase.mpr ⟨cell_ne d (cV L) (jV L) (by decide : cc0_scratch11.sem ≠ cc0_scratch9.sem), Finset.mem_erase.mpr ⟨cell_ne d (cV L) (jV L) (by decide : cc0_scratch11.sem ≠ cc0_scratch8.sem), Finset.mem_erase.mpr ⟨cell_ne d (cV L) (jV L) (by decide : cc0_scratch11.sem ≠ cc0_scratch7.sem), Finset.mem_erase.mpr ⟨cell_ne d (cV L) (jV L) (by decide : cc0_scratch11.sem ≠ cc0_scratch6.sem), Finset.mem_erase.mpr ⟨cell_ne d (cV L) (jV L) (by decide : cc0_scratch11.sem ≠ cc0_scratch5.sem), Finset.mem_erase.mpr ⟨cell_ne d (cV L) (jV L) (by decide : cc0_scratch11.sem ≠ cc0_scratch4.sem), Finset.mem_erase.mpr ⟨cell_ne d (cV L) (jV L) (by decide : cc0_scratch11.sem ≠ cc0_scratch3.sem), (mem_ownCells (g := cell8 d (cV L) (jV L))).mpr ⟨rfl, by show (SemLoc.dma cc0_scratch11.sem : SemLoc sig).isScoped .scVector = true; decide⟩⟩⟩⟩⟩⟩⟩⟩⟩),
    SparseCore.bigSep_erase' (Finset.mem_erase.mpr ⟨cell_ne d (cV L) (jV L) (by decide : cc0_scratch12.sem ≠ cc0_scratch11.sem), Finset.mem_erase.mpr ⟨cell_ne d (cV L) (jV L) (by decide : cc0_scratch12.sem ≠ cc0_scratch10.sem), Finset.mem_erase.mpr ⟨cell_ne d (cV L) (jV L) (by decide : cc0_scratch12.sem ≠ cc0_scratch9.sem), Finset.mem_erase.mpr ⟨cell_ne d (cV L) (jV L) (by decide : cc0_scratch12.sem ≠ cc0_scratch8.sem), Finset.mem_erase.mpr ⟨cell_ne d (cV L) (jV L) (by decide : cc0_scratch12.sem ≠ cc0_scratch7.sem), Finset.mem_erase.mpr ⟨cell_ne d (cV L) (jV L) (by decide : cc0_scratch12.sem ≠ cc0_scratch6.sem), Finset.mem_erase.mpr ⟨cell_ne d (cV L) (jV L) (by decide : cc0_scratch12.sem ≠ cc0_scratch5.sem), Finset.mem_erase.mpr ⟨cell_ne d (cV L) (jV L) (by decide : cc0_scratch12.sem ≠ cc0_scratch4.sem), Finset.mem_erase.mpr ⟨cell_ne d (cV L) (jV L) (by decide : cc0_scratch12.sem ≠ cc0_scratch3.sem), (mem_ownCells (g := cell9 d (cV L) (jV L))).mpr ⟨rfl, by show (SemLoc.dma cc0_scratch12.sem : SemLoc sig).isScoped .scVector = true; decide⟩⟩⟩⟩⟩⟩⟩⟩⟩⟩),
    SparseCore.bigSep_erase' (Finset.mem_erase.mpr ⟨cell_ne d (cV L) (jV L) (by decide : cc0_scratch13.sem ≠ cc0_scratch12.sem), Finset.mem_erase.mpr ⟨cell_ne d (cV L) (jV L) (by decide : cc0_scratch13.sem ≠ cc0_scratch11.sem), Finset.mem_erase.mpr ⟨cell_ne d (cV L) (jV L) (by decide : cc0_scratch13.sem ≠ cc0_scratch10.sem), Finset.mem_erase.mpr ⟨cell_ne d (cV L) (jV L) (by decide : cc0_scratch13.sem ≠ cc0_scratch9.sem), Finset.mem_erase.mpr ⟨cell_ne d (cV L) (jV L) (by decide : cc0_scratch13.sem ≠ cc0_scratch8.sem), Finset.mem_erase.mpr ⟨cell_ne d (cV L) (jV L) (by decide : cc0_scratch13.sem ≠ cc0_scratch7.sem), Finset.mem_erase.mpr ⟨cell_ne d (cV L) (jV L) (by decide : cc0_scratch13.sem ≠ cc0_scratch6.sem), Finset.mem_erase.mpr ⟨cell_ne d (cV L) (jV L) (by decide : cc0_scratch13.sem ≠ cc0_scratch5.sem), Finset.mem_erase.mpr ⟨cell_ne d (cV L) (jV L) (by decide : cc0_scratch13.sem ≠ cc0_scratch4.sem), Finset.mem_erase.mpr ⟨cell_ne d (cV L) (jV L) (by decide : cc0_scratch13.sem ≠ cc0_scratch3.sem), (mem_ownCells (g := cell10 d (cV L) (jV L))).mpr ⟨rfl, by show (SemLoc.dma cc0_scratch13.sem : SemLoc sig).isScoped .scVector = true; decide⟩⟩⟩⟩⟩⟩⟩⟩⟩⟩⟩),
    SparseCore.bigSep_erase' (Finset.mem_erase.mpr ⟨cell_ne d (cV L) (jV L) (by decide : cc0_scratch14.sem ≠ cc0_scratch13.sem), Finset.mem_erase.mpr ⟨cell_ne d (cV L) (jV L) (by decide : cc0_scratch14.sem ≠ cc0_scratch12.sem), Finset.mem_erase.mpr ⟨cell_ne d (cV L) (jV L) (by decide : cc0_scratch14.sem ≠ cc0_scratch11.sem), Finset.mem_erase.mpr ⟨cell_ne d (cV L) (jV L) (by decide : cc0_scratch14.sem ≠ cc0_scratch10.sem), Finset.mem_erase.mpr ⟨cell_ne d (cV L) (jV L) (by decide : cc0_scratch14.sem ≠ cc0_scratch9.sem), Finset.mem_erase.mpr ⟨cell_ne d (cV L) (jV L) (by decide : cc0_scratch14.sem ≠ cc0_scratch8.sem), Finset.mem_erase.mpr ⟨cell_ne d (cV L) (jV L) (by decide : cc0_scratch14.sem ≠ cc0_scratch7.sem), Finset.mem_erase.mpr ⟨cell_ne d (cV L) (jV L) (by decide : cc0_scratch14.sem ≠ cc0_scratch6.sem), Finset.mem_erase.mpr ⟨cell_ne d (cV L) (jV L) (by decide : cc0_scratch14.sem ≠ cc0_scratch5.sem), Finset.mem_erase.mpr ⟨cell_ne d (cV L) (jV L) (by decide : cc0_scratch14.sem ≠ cc0_scratch4.sem), Finset.mem_erase.mpr ⟨cell_ne d (cV L) (jV L) (by decide : cc0_scratch14.sem ≠ cc0_scratch3.sem), (mem_ownCells (g := cell11 d (cV L) (jV L))).mpr ⟨rfl, by show (SemLoc.dma cc0_scratch14.sem : SemLoc sig).isScoped .scVector = true; decide⟩⟩⟩⟩⟩⟩⟩⟩⟩⟩⟩⟩),
    SparseCore.bigSep_erase' (Finset.mem_erase.mpr ⟨cell_ne d (cV L) (jV L) (by decide : cc0_scratch15.sem ≠ cc0_scratch14.sem), Finset.mem_erase.mpr ⟨cell_ne d (cV L) (jV L) (by decide : cc0_scratch15.sem ≠ cc0_scratch13.sem), Finset.mem_erase.mpr ⟨cell_ne d (cV L) (jV L) (by decide : cc0_scratch15.sem ≠ cc0_scratch12.sem), Finset.mem_erase.mpr ⟨cell_ne d (cV L) (jV L) (by decide : cc0_scratch15.sem ≠ cc0_scratch11.sem), Finset.mem_erase.mpr ⟨cell_ne d (cV L) (jV L) (by decide : cc0_scratch15.sem ≠ cc0_scratch10.sem), Finset.mem_erase.mpr ⟨cell_ne d (cV L) (jV L) (by decide : cc0_scratch15.sem ≠ cc0_scratch9.sem), Finset.mem_erase.mpr ⟨cell_ne d (cV L) (jV L) (by decide : cc0_scratch15.sem ≠ cc0_scratch8.sem), Finset.mem_erase.mpr ⟨cell_ne d (cV L) (jV L) (by decide : cc0_scratch15.sem ≠ cc0_scratch7.sem), Finset.mem_erase.mpr ⟨cell_ne d (cV L) (jV L) (by decide : cc0_scratch15.sem ≠ cc0_scratch6.sem), Finset.mem_erase.mpr ⟨cell_ne d (cV L) (jV L) (by decide : cc0_scratch15.sem ≠ cc0_scratch5.sem), Finset.mem_erase.mpr ⟨cell_ne d (cV L) (jV L) (by decide : cc0_scratch15.sem ≠ cc0_scratch4.sem), Finset.mem_erase.mpr ⟨cell_ne d (cV L) (jV L) (by decide : cc0_scratch15.sem ≠ cc0_scratch3.sem), (mem_ownCells (g := cell12 d (cV L) (jV L))).mpr ⟨rfl, by show (SemLoc.dma cc0_scratch15.sem : SemLoc sig).isScoped .scVector = true; decide⟩⟩⟩⟩⟩⟩⟩⟩⟩⟩⟩⟩⟩),
    SparseCore.bigSep_erase' (Finset.mem_erase.mpr ⟨cell_ne d (cV L) (jV L) (by decide : cc0_scratch16.sem ≠ cc0_scratch15.sem), Finset.mem_erase.mpr ⟨cell_ne d (cV L) (jV L) (by decide : cc0_scratch16.sem ≠ cc0_scratch14.sem), Finset.mem_erase.mpr ⟨cell_ne d (cV L) (jV L) (by decide : cc0_scratch16.sem ≠ cc0_scratch13.sem), Finset.mem_erase.mpr ⟨cell_ne d (cV L) (jV L) (by decide : cc0_scratch16.sem ≠ cc0_scratch12.sem), Finset.mem_erase.mpr ⟨cell_ne d (cV L) (jV L) (by decide : cc0_scratch16.sem ≠ cc0_scratch11.sem), Finset.mem_erase.mpr ⟨cell_ne d (cV L) (jV L) (by decide : cc0_scratch16.sem ≠ cc0_scratch10.sem), Finset.mem_erase.mpr ⟨cell_ne d (cV L) (jV L) (by decide : cc0_scratch16.sem ≠ cc0_scratch9.sem), Finset.mem_erase.mpr ⟨cell_ne d (cV L) (jV L) (by decide : cc0_scratch16.sem ≠ cc0_scratch8.sem), Finset.mem_erase.mpr ⟨cell_ne d (cV L) (jV L) (by decide : cc0_scratch16.sem ≠ cc0_scratch7.sem), Finset.mem_erase.mpr ⟨cell_ne d (cV L) (jV L) (by decide : cc0_scratch16.sem ≠ cc0_scratch6.sem), Finset.mem_erase.mpr ⟨cell_ne d (cV L) (jV L) (by decide : cc0_scratch16.sem ≠ cc0_scratch5.sem), Finset.mem_erase.mpr ⟨cell_ne d (cV L) (jV L) (by decide : cc0_scratch16.sem ≠ cc0_scratch4.sem), Finset.mem_erase.mpr ⟨cell_ne d (cV L) (jV L) (by decide : cc0_scratch16.sem ≠ cc0_scratch3.sem), (mem_ownCells (g := cell13 d (cV L) (jV L))).mpr ⟨rfl, by show (SemLoc.dma cc0_scratch16.sem : SemLoc sig).isScoped .scVector = true; decide⟩⟩⟩⟩⟩⟩⟩⟩⟩⟩⟩⟩⟩⟩),
    SparseCore.bigSep_erase' (Finset.mem_erase.mpr ⟨cell_ne d (cV L) (jV L) (by decide : cc0_scratch17.sem ≠ cc0_scratch16.sem), Finset.mem_erase.mpr ⟨cell_ne d (cV L) (jV L) (by decide : cc0_scratch17.sem ≠ cc0_scratch15.sem), Finset.mem_erase.mpr ⟨cell_ne d (cV L) (jV L) (by decide : cc0_scratch17.sem ≠ cc0_scratch14.sem), Finset.mem_erase.mpr ⟨cell_ne d (cV L) (jV L) (by decide : cc0_scratch17.sem ≠ cc0_scratch13.sem), Finset.mem_erase.mpr ⟨cell_ne d (cV L) (jV L) (by decide : cc0_scratch17.sem ≠ cc0_scratch12.sem), Finset.mem_erase.mpr ⟨cell_ne d (cV L) (jV L) (by decide : cc0_scratch17.sem ≠ cc0_scratch11.sem), Finset.mem_erase.mpr ⟨cell_ne d (cV L) (jV L) (by decide : cc0_scratch17.sem ≠ cc0_scratch10.sem), Finset.mem_erase.mpr ⟨cell_ne d (cV L) (jV L) (by decide : cc0_scratch17.sem ≠ cc0_scratch9.sem), Finset.mem_erase.mpr ⟨cell_ne d (cV L) (jV L) (by decide : cc0_scratch17.sem ≠ cc0_scratch8.sem), Finset.mem_erase.mpr ⟨cell_ne d (cV L) (jV L) (by decide : cc0_scratch17.sem ≠ cc0_scratch7.sem), Finset.mem_erase.mpr ⟨cell_ne d (cV L) (jV L) (by decide : cc0_scratch17.sem ≠ cc0_scratch6.sem), Finset.mem_erase.mpr ⟨cell_ne d (cV L) (jV L) (by decide : cc0_scratch17.sem ≠ cc0_scratch5.sem), Finset.mem_erase.mpr ⟨cell_ne d (cV L) (jV L) (by decide : cc0_scratch17.sem ≠ cc0_scratch4.sem), Finset.mem_erase.mpr ⟨cell_ne d (cV L) (jV L) (by decide : cc0_scratch17.sem ≠ cc0_scratch3.sem), (mem_ownCells (g := cell14 d (cV L) (jV L))).mpr ⟨rfl, by show (SemLoc.dma cc0_scratch17.sem : SemLoc sig).isScoped .scVector = true; decide⟩⟩⟩⟩⟩⟩⟩⟩⟩⟩⟩⟩⟩⟩⟩),
    SparseCore.bigSep_erase' (Finset.mem_erase.mpr ⟨cell_ne d (cV L) (jV L) (by decide : cc0_scratch18.sem ≠ cc0_scratch17.sem), Finset.mem_erase.mpr ⟨cell_ne d (cV L) (jV L) (by decide : cc0_scratch18.sem ≠ cc0_scratch16.sem), Finset.mem_erase.mpr ⟨cell_ne d (cV L) (jV L) (by decide : cc0_scratch18.sem ≠ cc0_scratch15.sem), Finset.mem_erase.mpr ⟨cell_ne d (cV L) (jV L) (by decide : cc0_scratch18.sem ≠ cc0_scratch14.sem), Finset.mem_erase.mpr ⟨cell_ne d (cV L) (jV L) (by decide : cc0_scratch18.sem ≠ cc0_scratch13.sem), Finset.mem_erase.mpr ⟨cell_ne d (cV L) (jV L) (by decide : cc0_scratch18.sem ≠ cc0_scratch12.sem), Finset.mem_erase.mpr ⟨cell_ne d (cV L) (jV L) (by decide : cc0_scratch18.sem ≠ cc0_scratch11.sem), Finset.mem_erase.mpr ⟨cell_ne d (cV L) (jV L) (by decide : cc0_scratch18.sem ≠ cc0_scratch10.sem), Finset.mem_erase.mpr ⟨cell_ne d (cV L) (jV L) (by decide : cc0_scratch18.sem ≠ cc0_scratch9.sem), Finset.mem_erase.mpr ⟨cell_ne d (cV L) (jV L) (by decide : cc0_scratch18.sem ≠ cc0_scratch8.sem), Finset.mem_erase.mpr ⟨cell_ne d (cV L) (jV L) (by decide : cc0_scratch18.sem ≠ cc0_scratch7.sem), Finset.mem_erase.mpr ⟨cell_ne d (cV L) (jV L) (by decide : cc0_scratch18.sem ≠ cc0_scratch6.sem), Finset.mem_erase.mpr ⟨cell_ne d (cV L) (jV L) (by decide : cc0_scratch18.sem ≠ cc0_scratch5.sem), Finset.mem_erase.mpr ⟨cell_ne d (cV L) (jV L) (by decide : cc0_scratch18.sem ≠ cc0_scratch4.sem), Finset.mem_erase.mpr ⟨cell_ne d (cV L) (jV L) (by decide : cc0_scratch18.sem ≠ cc0_scratch3.sem), (mem_ownCells (g := cell15 d (cV L) (jV L))).mpr ⟨rfl, by show (SemLoc.dma cc0_scratch18.sem : SemLoc sig).isScoped .scVector = true; decide⟩⟩⟩⟩⟩⟩⟩⟩⟩⟩⟩⟩⟩⟩⟩⟩)]

/-- The three scratch buffers are among the subcore's own: they are them, at some contents, and the rest. -/
theorem ownBufs_V (d : Dev nD) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## The program's own memrefs -/

variable (d : Dev nD)

abbrev xK1 (L : grid0.Coords) : Memref sig .scVector .hbm S512 .i32 := (xV).slice (Rect.unit (s := S32768) (k0_off1 L) S512.size (k0_off1_inb L)) (fun _ => rfl)
abbrev xK2 (L : grid0.Coords) : Memref sig .scVector .hbm S512 .i32 := (xV).slice (Rect.unit (s := S32768) (k0_off2 L) S512.size (k0_off2_inb L)) (fun _ => rfl)
abbrev oK (L : grid0.Coords) (a : Fin 2) (b : Fin 4) : Memref sig .scVector .hbm S128x128 .f32 := (oV).slice (oRectK L a b) (fun _ => rfl)
abbrev oK00 (L : grid0.Coords) : Memref sig .scVector .hbm S128x128 .f32 := (oV).slice (Rect.unit (s := S32768x128) (k0_off3 L 0#32 0#32) S128x128.size (k0_off3_inb L 0 0)) (fun _ => rfl)
abbrev oK01 (L : grid0.Coords) : Memref sig .scVector .hbm S128x128 .f32 := (oV).slice (Rect.unit (s := S32768x128) (k0_off3 L 0#32 128#32) S128x128.size (k0_off3_inb L 0 1)) (fun _ => rfl)
abbrev oK02 (L : grid0.Coords) : Memref sig .scVector .hbm S128x128 .f32 := (oV).slice (Rect.unit (s := S32768x128) (k0_off3 L 0#32 256#32) S128x128.size (k0_off3_inb L 0 2)) (fun _ => rfl)
abbrev oK03 (L : grid0.Coords) : Memref sig .scVector .hbm S128x128 .f32 := (oV).slice (Rect.unit (s := S32768x128) (k0_off3 L 0#32 384#32) S128x128.size (k0_off3_inb L 0 3)) (fun _ => rfl)
abbrev oK10 (L : grid0.Coords) : Memref sig .scVector .hbm S128x128 .f32 := (oV).slice (Rect.unit (s := S32768x128) (k0_off3 L 16384#32 0#32) S128x128.size (k0_off3_inb L 1 0)) (fun _ => rfl)
abbrev oK11 (L : grid0.Coords) : Memref sig .scVector .hbm S128x128 .f32 := (oV).slice (Rect.unit (s := S32768x128) (k0_off3 L 16384#32 128#32) S128x128.size (k0_off3_inb L 1 1)) (fun _ => rfl)
abbrev oK12 (L : grid0.Coords) : Memref sig .scVector .hbm S128x128 .f32 := (oV).slice (Rect.unit (s := S32768x128) (k0_off3 L 16384#32 256#32) S128x128.size (k0_off3_inb L 1 2)) (fun _ => rfl)
abbrev oK13 (L : grid0.Coords) : Memref sig .scVector .hbm S128x128 .f32 := (oV).slice (Rect.unit (s := S32768x128) (k0_off3 L 16384#32 384#32) S128x128.size (k0_off3_inb L 1 3)) (fun _ => rfl)

theorem set_xK1 : (xK1 L).view.set = xSet (xN 0 (cL L) (iL L)) := by
  show ((xV).view.slice (xRectK1 L)).set = ((xV).view.slice (xpart (xN 0 (cL L) (iL L)))).set
  exact xRectK1_eq L ▸ rfl
theorem set_xK2 : (xK2 L).view.set = xSet (xN 1 (cL L) (iL L)) := by
  show ((xV).view.slice (xRectK2 L)).set = ((xV).view.slice (xpart (xN 1 (cL L) (iL L)))).set
  exact xRectK2_eq L ▸ rfl
theorem set_oK (a : Fin 2) (b : Fin 4) : (oK L a b).view.set = oSet (oN a (cL L) (iL L) b) := by
  show ((oV).view.slice (oRectK L a b)).set = ((oV).view.slice (opart (oN a (cL L) (iL L) b))).set
  exact oRectK_eq L a b ▸ rfl

theorem pts_xK1 (f : Buf (Elt F) (xLoc d)) :
    ((xK1 L).view.loc (V d (cV L) (jV L)) ↦[(xK1 L).view.set]{fullShare} f : sProp 𝕄) = xLoc d ↦[xSet (xN 0 (cL L) (iL L))]{fullShare} f := by
  rw [set_xK1]
theorem pts_xK2 (f : Buf (Elt F) (xLoc d)) :
    ((xK2 L).view.loc (V d (cV L) (jV L)) ↦[(xK2 L).view.set]{fullShare} f : sProp 𝕄) = xLoc d ↦[xSet (xN 1 (cL L) (iL L))]{fullShare} f := by
  rw [set_xK2]
theorem pts_oK (a : Fin 2) (b : Fin 4) (f : Buf (Elt F) (oLoc d)) :
    ((oK L a b).view.loc (V d (cV L) (jV L)) ↦[(oK L a b).view.set]{fullShare} f : sProp 𝕄) = oLoc d ↦[oSet (oN a (cL L) (iL L) b)]{fullShare} f := by
  rw [set_oK]
theorem pts_oK00 (f : Buf (Elt F) (oLoc d)) :
    ((oK00 L).view.loc (V d (cV L) (jV L)) ↦[(oK00 L).view.set]{fullShare} f : sProp 𝕄) = oLoc d ↦[oSet (oN 0 (cL L) (iL L) 0)]{fullShare} f :=
  pts_oK L d 0 0 f
theorem pts_oK01 (f : Buf (Elt F) (oLoc d)) :
    ((oK01 L).view.loc (V d (cV L) (jV L)) ↦[(oK01 L).view.set]{fullShare} f : sProp 𝕄) = oLoc d ↦[oSet (oN 0 (cL L) (iL L) 1)]{fullShare} f :=
  pts_oK L d 0 1 f
theorem pts_oK02 (f : Buf (Elt F) (oLoc d)) :
    ((oK02 L).view.loc (V d (cV L) (jV L)) ↦[(oK02 L).view.set]{fullShare} f : sProp 𝕄) = oLoc d ↦[oSet (oN 0 (cL L) (iL L) 2)]{fullShare} f :=
  pts_oK L d 0 2 f
theorem pts_oK03 (f : Buf (Elt F) (oLoc d)) :
    ((oK03 L).view.loc (V d (cV L) (jV L)) ↦[(oK03 L).view.set]{fullShare} f : sProp 𝕄) = oLoc d ↦[oSet (oN 0 (cL L) (iL L) 3)]{fullShare} f :=
  pts_oK L d 0 3 f
theorem pts_oK10 (f : Buf (Elt F) (oLoc d)) :
    ((oK10 L).view.loc (V d (cV L) (jV L)) ↦[(oK10 L).view.set]{fullShare} f : sProp 𝕄) = oLoc d ↦[oSet (oN 1 (cL L) (iL L) 0)]{fullShare} f :=
  pts_oK L d 1 0 f
theorem pts_oK11 (f : Buf (Elt F) (oLoc d)) :
    ((oK11 L).view.loc (V d (cV L) (jV L)) ↦[(oK11 L).view.set]{fullShare} f : sProp 𝕄) = oLoc d ↦[oSet (oN 1 (cL L) (iL L) 1)]{fullShare} f :=
  pts_oK L d 1 1 f
theorem pts_oK12 (f : Buf (Elt F) (oLoc d)) :
    ((oK12 L).view.loc (V d (cV L) (jV L)) ↦[(oK12 L).view.set]{fullShare} f : sProp 𝕄) = oLoc d ↦[oSet (oN 1 (cL L) (iL L) 2)]{fullShare} f :=
  pts_oK L d 1 2 f
theorem pts_oK13 (f : Buf (Elt F) (oLoc d)) :
    ((oK13 L).view.loc (V d (cV L) (jV L)) ↦[(oK13 L).view.set]{fullShare} f : sProp 𝕄) = oLoc d ↦[oSet (oN 1 (cL L) (iL L) 3)]{fullShare} f :=
  pts_oK L d 1 3 f
theorem pts_uV (q : PosShare TreeShare) (f : Buf (Elt F) (uLoc d)) :
    ((uV).view.loc (V d (cV L) (jV L)) ↦{q} f : sProp 𝕄) = uLoc d ↦{q} f := rfl
theorem pts_tV (q : PosShare TreeShare) (f : Buf (Elt F) (iLoc d)) :
    ((tV).view.loc (V d (cV L) (jV L)) ↦{q} f : sProp 𝕄) = iLoc d ↦{q} f := rfl
theorem pts_aV (f : Buf (Elt F) ((V d (cV L) (jV L)).loc cc0_scratch0)) :
    ((aV).view.loc (V d (cV L) (jV L)) ↦{fullShare} f : sProp 𝕄) = (V d (cV L) (jV L)).loc cc0_scratch0 ↦{fullShare} f := rfl
theorem pts_bV (f : Buf (Elt F) ((V d (cV L) (jV L)).loc cc0_scratch1)) :
    ((bV).view.loc (V d (cV L) (jV L)) ↦{fullShare} f : sProp 𝕄) = (V d (cV L) (jV L)).loc cc0_scratch1 ↦{fullShare} f := rfl
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-- A worker's holdings, piece by piece. -/
theorem tileRes_eq (m : (ℓ : Loc nD τ sig) → Buf (Elt F) ℓ) (X : (d : Dev nD) → Buf (Elt F) (xLoc d)) (c : Fin 2) (i : Fin 16) (f : Buf (Elt F) (oLoc d)) :
    (tileRes m X d c i f : sProp 𝕄)
      = iprop(((xLoc d ↦[xSet (xN 0 c i)]{fullShare} X d) ∗ (xLoc d ↦[xSet (xN 1 c i)]{fullShare} X d))
          ∗ ((uLoc d ↦{tq c i 0} m (uLoc d)) ∗ (uLoc d ↦{tq c i 1} m (uLoc d)) ∗ (uLoc d ↦{tq c i 2} m (uLoc d)) ∗ (uLoc d ↦{tq c i 3} m (uLoc d)))
          ∗ ((iLoc d ↦{tq c i 0} m (iLoc d)) ∗ (iLoc d ↦{tq c i 1} m (iLoc d)) ∗ (iLoc d ↦{tq c i 2} m (iLoc d)) ∗ (iLoc d ↦{tq c i 3} m (iLoc d)))
          ∗ ((oLoc d ↦[oSet (oN 0 c i 0)]{fullShare} f) ∗ (oLoc d ↦[oSet (oN 0 c i 1)]{fullShare} f) ∗ (oLoc d ↦[oSet (oN 0 c i 2)]{fullShare} f) ∗ (oLoc d ↦[oSet (oN 0 c i 3)]{fullShare} f) ∗ (oLoc d ↦[oSet (oN 1 c i 0)]{fullShare} f) ∗ (oLoc d ↦[oSet (oN 1 c i 1)]{fullShare} f) ∗ (oLoc d ↦[oSet (oN 1 c i 2)]{fullShare} f) ∗ (oLoc d ↦[oSet (oN 1 c i 3)]{fullShare} f))) := by
  unfold tileRes
  rw [BI.bigSep_fin_two,
    bigSep_univ_eq_bigSepL ([0, 1, 2, 3] : List (Fin 4)) (by decide) (by decide),
    bigSep_univ_eq_bigSepL ([0, 1, 2, 3] : List (Fin 4)) (by decide) (by decide),
    bigSep_univ_eq_bigSepL ([(0,0),(0,1),(0,2),(0,3),(1,0),(1,1),(1,2),(1,3)] : List (Fin 2 × Fin 4)) (by decide) (by decide)]
  rfl

/-! ## The index words a gather reads are in range -/

variable (X : (d : Dev nD) → Buf (Elt F) (xLoc d))

/-- A stretch of the index list as a copy reads it: word by word the list's own. -/
theorem read_xK1 (j : S512.Idx) : (xK1 L).view.read (Elt F) (X d) j = X d ((xK1 L).view.emb j) := (View.read_apply _ _).trans (cast_eq _ _)
theorem read_xK2 (j : S512.Idx) : (xK2 L).view.read (Elt F) (X d) j = X d ((xK2 L).view.emb j) := (View.read_apply _ _).trans (cast_eq _ _)

theorem inb_a (fs : Buf (Elt F) ((aV).view.loc (V d (cV L) (jV L)))) (g : S512.Idx → Elt F .i32) (hg : ∀ j, (g j).toNat < 100000)
    (off : Fin 1 → Nat) (ho : ∀ a, off a + S128.size a ≤ S512.size a) (x : S128.Idx) :
    (((aV).slice (Rect.unit (s := S512) off S128.size ho) (fun _ => rfl)).view.read (Elt F) (View.write (Elt F) (aV).view fs g Finset.univ) x).toNat
      < S100000x128.size gathers_S100000x128_S128x128.axis := by
  show _ < 100000
  simp only [Memref.view_whole]
  rw [View.write_whole_univ, (View.read_apply _ _).trans (cast_eq _ _)]
  exact hg _

theorem inb_b (fs : Buf (Elt F) ((bV).view.loc (V d (cV L) (jV L)))) (g : S512.Idx → Elt F .i32) (hg : ∀ j, (g j).toNat < 100000)
    (off : Fin 1 → Nat) (ho : ∀ a, off a + S128.size a ≤ S512.size a) (x : S128.Idx) :
    (((bV).slice (Rect.unit (s := S512) off S128.size ho) (fun _ => rfl)).view.read (Elt F) (View.write (Elt F) (bV).view fs g Finset.univ) x).toNat
      < S100000x128.size gathers_S100000x128_S128x128.axis := by
  show _ < 100000
  simp only [Memref.view_whole]
  rw [View.write_whole_univ, (View.read_apply _ _).trans (cast_eq _ _)]
  exact hg _

/-! ## What a gather lands, and what a block of the output ends at -/

variable [FloatOps F] (m : (ℓ : Loc nD τ sig) → Buf (Elt F) ℓ)

/-- The row-major position of a one-axis index is its coordinate. -/
theorem symm_rowMajor_S128 (k : Fin S128.numel) : ((S128.rowMajor.symm k) 0).val = k.val := by
  have h := Shape.rowMajor_val_one (d := ![128]) (S128.rowMajor.symm k)
  rw [Equiv.apply_symm_apply] at h
  exact h.symm

abbrev uS : Memref sig .scVector .hbm S100000x128 .f32 := (uV).slice (Rect.unit (s := S100000x128) ![0, 0] S100000x128.size inb_S100000x128_S100000x128_0_0) (fun _ => rfl)
abbrev tS : Memref sig .scVector .hbm S100000x128 .f32 := (tV).slice (Rect.unit (s := S100000x128) ![0, 0] S100000x128.size inb_S100000x128_S100000x128_0_0) (fun _ => rfl)
abbrev aS (off : Fin 1 → Nat) (ho : ∀ a, off a + S128.size a ≤ S512.size a) : Memref sig .scVector .vmem S128 .i32 := (aV).slice (Rect.unit (s := S512) off S128.size ho) (fun _ => rfl)
abbrev bS (off : Fin 1 → Nat) (ho : ∀ a, off a + S128.size a ≤ S512.size a) : Memref sig .scVector .vmem S128 .i32 := (bV).slice (Rect.unit (s := S512) off S128.size ho) (fun _ => rfl)

/-- A gather through a stretch of the first index scratch, filled from the worker's stretch of the first half of the index
    list, lands at (e, col) the user table's row named by the list's word at the stretch's place e, column col. -/
theorem gather_val_u (fa : Buf (Elt F) ((aV).view.loc (V d (cV L) (jV L)))) (off : Fin 1 → Nat) (ho : ∀ a, off a + S128.size a ≤ S512.size a)
    (hn : S128.numel = S128x128.size gathers_S100000x128_S128x128.axis')
    (hin : ∀ x, ((aS off ho).view.read (Elt F) (View.write (Elt F) (aV).view fa (ReadAs.same.apply ((xK1 L).view.read (Elt F) (X d))) Finset.univ) x).toNat
      < S100000x128.size gathers_S100000x128_S128x128.axis)
    (x : S128x128.Idx) (I : S100000x128.Idx) (J : S32768.Idx)
    (hJ : (J 0).val = k0_off1 L 0 + off 0 + (x 0).val) (hI0 : (I 0).val = (X d J).toNat) (hI1 : (I 1).val = (x 1).val) :
    SparseCore.gatherPayload gathers_S100000x128_S128x128 ((uS).view.read (Elt F) (m (uLoc d)))
        (SparseCore.rows ((aS off ho).view.read (Elt F) (View.write (Elt F) (aV).view fa (ReadAs.same.apply ((xK1 L).view.read (Elt F) (X d))) Finset.univ)) hn hin) x
      = m (uLoc d) I := by
  unfold SparseCore.gatherPayload
  rw [(View.read_apply _ _).trans (cast_eq _ _)]
  congr 1
  funext a
  apply Fin.ext
  match a with
  | 0 =>
    show 0 + 1 * ((gathers_S100000x128_S128x128.idx _ x) 0).val = (I 0).val
    have e := Shape.Gathers.idx_axis gathers_S100000x128_S128x128 (SparseCore.rows ((aS off ho).view.read (Elt F) (View.write (Elt F) (aV).view fa (ReadAs.same.apply ((xK1 L).view.read (Elt F) (X d))) Finset.univ)) hn hin) x
    show 0 + 1 * ((gathers_S100000x128_S128x128.idx _ x) gathers_S100000x128_S128x128.axis).val = (I 0).val
    rw [e, hI0]
    show 0 + 1 * (((aS off ho).view.read (Elt F) (View.write (Elt F) (aV).view fa (ReadAs.same.apply ((xK1 L).view.read (Elt F) (X d))) Finset.univ)) (S128.rowMajor.symm ((x gathers_S100000x128_S128x128.axis').cast hn.symm))).toNat = _
    rw [(View.read_apply _ _).trans (cast_eq _ _)]
    simp only [Memref.view_whole]
    rw [View.write_whole_univ, ReadAs.apply_same, (View.read_apply _ _).trans (cast_eq _ _), Nat.zero_add, Nat.one_mul]
    congr 2
    funext a
    apply Fin.ext
    match a with
    | 0 =>
      show k0_off1 L 0 + 1 * (off 0 + 1 * ((S128.rowMajor.symm ((x gathers_S100000x128_S128x128.axis').cast hn.symm)) 0).val) = (J 0).val
      rw [hJ, symm_rowMajor_S128]
      show k0_off1 L 0 + 1 * (off 0 + 1 * (x 0).val) = _
      omega
  | 1 =>
    show 0 + 1 * ((gathers_S100000x128_S128x128.idx _ x) 1).val = (I 1).val
    rw [hI1, Shape.Gathers.idx_of_ne _ _ _ 1 (by decide)]
    show 0 + 1 * (x 1).val = _
    omega

/-- The same through the second index scratch, filled from the worker's stretch of the second half of the list, out of the
    item table. -/
theorem gather_val_t (fb : Buf (Elt F) ((bV).view.loc (V d (cV L) (jV L)))) (off : Fin 1 → Nat) (ho : ∀ a, off a + S128.size a ≤ S512.size a)
    (hn : S128.numel = S128x128.size gathers_S100000x128_S128x128.axis')
    (hin : ∀ x, ((bS off ho).view.read (Elt F) (View.write (Elt F) (bV).view fb (ReadAs.same.apply ((xK2 L).view.read (Elt F) (X d))) Finset.univ) x).toNat
      < S100000x128.size gathers_S100000x128_S128x128.axis)
    (x : S128x128.Idx) (I : S100000x128.Idx) (J : S32768.Idx)
    (hJ : (J 0).val = k0_off2 L 0 + off 0 + (x 0).val) (hI0 : (I 0).val = (X d J).toNat) (hI1 : (I 1).val = (x 1).val) :
    SparseCore.gatherPayload gathers_S100000x128_S128x128 ((tS).view.read (Elt F) (m (iLoc d)))
        (SparseCore.rows ((bS off ho).view.read (Elt F) (View.write (Elt F) (bV).view fb (ReadAs.same.apply ((xK2 L).view.read (Elt F) (X d))) Finset.univ)) hn hin) x
      = m (iLoc d) I := by
  unfold SparseCore.gatherPayload
  rw [(View.read_apply _ _).trans (cast_eq _ _)]
  congr 1
  funext a
  apply Fin.ext
  match a with
  | 0 =>
    show 0 + 1 * ((gathers_S100000x128_S128x128.idx _ x) 0).val = (I 0).val
    have e := Shape.Gathers.idx_axis gathers_S100000x128_S128x128 (SparseCore.rows ((bS off ho).view.read (Elt F) (View.write (Elt F) (bV).view fb (ReadAs.same.apply ((xK2 L).view.read (Elt F) (X d))) Finset.univ)) hn hin) x
    show 0 + 1 * ((gathers_S100000x128_S128x128.idx _ x) gathers_S100000x128_S128x128.axis).val = (I 0).val
    rw [e, hI0]
    show 0 + 1 * (((bS off ho).view.read (Elt F) (View.write (Elt F) (bV).view fb (ReadAs.same.apply ((xK2 L).view.read (Elt F) (X d))) Finset.univ)) (S128.rowMajor.symm ((x gathers_S100000x128_S128x128.axis').cast hn.symm))).toNat = _
    rw [(View.read_apply _ _).trans (cast_eq _ _)]
    simp only [Memref.view_whole]
    rw [View.write_whole_univ, ReadAs.apply_same, (View.read_apply _ _).trans (cast_eq _ _), Nat.zero_add, Nat.one_mul]
    congr 2
    funext a
    apply Fin.ext
    match a with
    | 0 =>
      show k0_off2 L 0 + 1 * (off 0 + 1 * ((S128.rowMajor.symm ((x gathers_S100000x128_S128x128.axis').cast hn.symm)) 0).val) = (J 0).val
      rw [hJ, symm_rowMajor_S128]
      show k0_off2 L 0 + 1 * (off 0 + 1 * (x 0).val) = _
      omega
  | 1 =>
    show 0 + 1 * ((gathers_S100000x128_S128x128.idx _ x) 1).val = (I 1).val
    rw [hI1, Shape.Gathers.idx_of_ne _ _ _ 1 (by decide)]
    show 0 + 1 * (x 1).val = _
    omega

/-- Block b of half 0 of the gathered rows: what the gather through stretch b of the first index scratch lands is the one
    gathered function at the block's rows. -/
theorem gath_u (b : Fin 4) (fa : Buf (Elt F) ((aV).view.loc (V d (cV L) (jV L)))) (hX : InRange X) (off : Fin 1 → Nat) (hoff : off 0 = 128 * b.val) (ho : ∀ a, off a + S128.size a ≤ S512.size a)
    (hn : S128.numel = S128x128.size gathers_S100000x128_S128x128.axis')
    (hin : ∀ x, ((aS off ho).view.read (Elt F) (View.write (Elt F) (aV).view fa (ReadAs.same.apply ((xK1 L).view.read (Elt F) (X d))) Finset.univ) x).toNat
      < S100000x128.size gathers_S100000x128_S128x128.axis)
    (x : S128x128.Idx) :
    SparseCore.gatherPayload gathers_S100000x128_S128x128 ((uS).view.read (Elt F) (m (uLoc d)))
        (SparseCore.rows ((aS off ho).view.read (Elt F) (View.write (Elt F) (aV).view fa (ReadAs.same.apply ((xK1 L).view.read (Elt F) (X d))) Finset.univ)) hn hin) x
      = gath m X d ((oK L 0 b).view.emb x) := by
  have h0 : (((oK L 0 b).view.emb x) 0).val = 16384 * 0 + 1024 * (L 1).val + 512 * (L 0).val + 128 * b.val + (x 0).val := by
    show k0_off3 L (BitVec.ofNat 32 (16384 * (0 : Fin 2).val)) (BitVec.ofNat 32 (128 * b.val)) 0 + 1 * (x 0).val = _
    rw [k0_off3_eq]; simp
  have h1 : (((oK L 0 b).view.emb x) 1).val = (x 1).val := by
    show k0_off3 L (BitVec.ofNat 32 (16384 * (0 : Fin 2).val)) (BitVec.ofNat 32 (128 * b.val)) 1 + 1 * (x 1).val = _
    rw [k0_off3_eq]; simp
  have hk : k0_off1 L 0 = 1024 * (L 1).val + 512 * (L 0).val := by rw [k0_off1_eq]; rfl
  have hL0 : (L 0).val < 2 := (L 0).isLt
  have hL1 : (L 1).val < 16 := (L 1).isLt
  have hb : b.val < 4 := b.isLt
  have hx0 : (x 0).val < 128 := (x 0).isLt
  unfold gath gathered
  rw [if_pos (by rw [h0]; omega)]
  refine gather_val_u L d X m fa off ho hn hin x _ (ValueIdx.ix1 (⟨(((oK L 0 b).view.emb x) 0).val, ValueIdx.idx2_lt0 _⟩ : Fin 32768)) ?_ ?_ ?_
  · show (((oK L 0 b).view.emb x) 0).val = _
    rw [h0, hk, hoff]; omega
  · exact Cert.Spec.row_val_of_lt _ (hX d _)
  · exact h1

/-- Block b of half 1 of the gathered rows: what the gather through stretch b of the second index scratch lands is the one
    gathered function at the block's rows. -/
theorem gath_t (b : Fin 4) (fb : Buf (Elt F) ((bV).view.loc (V d (cV L) (jV L)))) (hX : InRange X) (off : Fin 1 → Nat) (hoff : off 0 = 128 * b.val) (ho : ∀ a, off a + S128.size a ≤ S512.size a)
    (hn : S128.numel = S128x128.size gathers_S100000x128_S128x128.axis')
    (hin : ∀ x, ((bS off ho).view.read (Elt F) (View.write (Elt F) (bV).view fb (ReadAs.same.apply ((xK2 L).view.read (Elt F) (X d))) Finset.univ) x).toNat
      < S100000x128.size gathers_S100000x128_S128x128.axis)
    (x : S128x128.Idx) :
    SparseCore.gatherPayload gathers_S100000x128_S128x128 ((tS).view.read (Elt F) (m (iLoc d)))
        (SparseCore.rows ((bS off ho).view.read (Elt F) (View.write (Elt F) (bV).view fb (ReadAs.same.apply ((xK2 L).view.read (Elt F) (X d))) Finset.univ)) hn hin) x
      = gath m X d ((oK L 1 b).view.emb x) := by
  have h0 : (((oK L 1 b).view.emb x) 0).val = 16384 * 1 + 1024 * (L 1).val + 512 * (L 0).val + 128 * b.val + (x 0).val := by
    show k0_off3 L (BitVec.ofNat 32 (16384 * (1 : Fin 2).val)) (BitVec.ofNat 32 (128 * b.val)) 0 + 1 * (x 0).val = _
    rw [k0_off3_eq]; simp
  have h1 : (((oK L 1 b).view.emb x) 1).val = (x 1).val := by
    show k0_off3 L (BitVec.ofNat 32 (16384 * (1 : Fin 2).val)) (BitVec.ofNat 32 (128 * b.val)) 1 + 1 * (x 1).val = _
    rw [k0_off3_eq]; simp
  have hk : k0_off2 L 0 = 1024 * (L 1).val + 512 * (L 0).val + 16384 := by rw [k0_off2_eq]; rfl
  have hL0 : (L 0).val < 2 := (L 0).isLt
  have hL1 : (L 1).val < 16 := (L 1).isLt
  have hb : b.val < 4 := b.isLt
  have hx0 : (x 0).val < 128 := (x 0).isLt
  unfold gath gathered
  rw [if_neg (by rw [h0]; omega)]
  refine gather_val_t L d X m fb off ho hn hin x _ (ValueIdx.ix1 (⟨(((oK L 1 b).view.emb x) 0).val, ValueIdx.idx2_lt0 _⟩ : Fin 32768)) ?_ ?_ ?_
  · show (((oK L 1 b).view.emb x) 0).val = _
    rw [h0, hk, hoff]; omega
  · exact Cert.Spec.row_val_of_lt _ (hX d _)
  · exact h1

/-! ## The seven row slots are apart -/

abbrev slot (off : Fin 3 → Nat) (h : ∀ a, off a + S1x128x128.size a ≤ S7x128x128.size a) : Memref sig .scVector .vmem S128x128 .f32 :=
  ((rV).slice (Rect.unit (s := S7x128x128) off S1x128x128.size h) (fun _ => rfl)).squeeze S128x128 squeezes_S1x128x128_S128x128

theorem slot_disjoint {off off' : Fin 3 → Nat} (h : ∀ a, off a + S1x128x128.size a ≤ S7x128x128.size a)
    (h' : ∀ a, off' a + S1x128x128.size a ≤ S7x128x128.size a) (hne : off 0 ≠ off' 0) :
    Disjoint (slot off h).view.set (slot off' h').view.set := by
  show Disjoint (((rV).view.slice (Rect.unit (s := S7x128x128) off S1x128x128.size h)).reshape S128x128 squeezes_S1x128x128_S128x128.numel_eq).set
    (((rV).view.slice (Rect.unit (s := S7x128x128) off' S1x128x128.size h')).reshape S128x128 squeezes_S1x128x128_S128x128.numel_eq).set
  rw [View.set_reshape, View.set_reshape, View.set_slice, View.set_slice]
  refine (Finset.disjoint_map _).mpr (Rect.disjoint_of_separated _ _ 0 ?_)
  show (1 = 0 ∨ off 0 + 1 * (1 - 1) < off' 0) ∨ (1 = 0 ∨ off' 0 + 1 * (1 - 1) < off 0)
  omega

/-- A write into one slot is not seen through another. -/
theorem read_slot_write_slot {off off' : Fin 3 → Nat} (h : ∀ a, off a + S1x128x128.size a ≤ S7x128x128.size a)
    (h' : ∀ a, off' a + S1x128x128.size a ≤ S7x128x128.size a) (hne : off 0 ≠ off' 0)
    (f : Buf (Elt F) ((rV).view.loc (V d (cV L) (jV L)))) (w : S128x128.Idx → Elt F .f32) :
    (slot off h).view.read (Elt F) ((slot off' h').view.write (Elt F) f w Finset.univ) = (slot off h).view.read (Elt F) f :=
  View.read_congr fun i hi => View.write_of_not_mem _ _ _ (by
    rw [View.setOn_univ]; exact Finset.disjoint_left.mp (slot_disjoint h h' hne) hi)

/-! ## A block of the output written whole -/

/-- A block of the output written whole with a payload that is the gathered function at the block's rows holds the gathered
    function there. -/
theorem block_val (a : Fin 2) (b : Fin 4) (pay : S128x128.Idx → Elt F .f32)
    (hpay : ∀ x : S128x128.Idx, pay x = gath m X d ((oK L a b).view.emb x)) :
    ((oK L a b).view.loc (V d (cV L) (jV L)) ↦[(oK L a b).view.set]{fullShare}
        (oK L a b).view.writes (Elt F) (m (oLoc d)) [⟨Rect.whole S128x128, pay⟩] : sProp 𝕄)
      = oLoc d ↦[oSet (oN a (cL L) (iL L) b)]{fullShare} gath m X d := by
  rw [← pts_oK (F := F) L d a b]
  refine pointsTo_congr fun i hi => ?_
  obtain ⟨x, -, rfl⟩ := Finset.mem_map.mp hi
  rw [View.writes_singleton]
  have e : ((oK L a b).view.slice (Rect.whole S128x128)).emb x = (oK L a b).view.emb x := by
    show (oK L a b).view.emb ((Rect.whole S128x128).emb x) = _
    rw [Rect.emb_whole_apply]
  rw [← e, View.write_emb_of_mem _ _ (Finset.mem_univ x), cast_eq, e]
  exact hpay x

end Cert.KernelIdeal.Sc

end
-- ==== Proof.TileBody.lean ====
/-
  One gather worker's whole run: it copies its two stretches of the index list into its index scratches, then for each of
  its eight blocks of 128 rows gathers the table rows the block's index words name into a row slot and copies the slot out
  to the block of the gathered rows; seven slots serve the eight blocks, the first slot twice. Every transfer is waited for
  before its buffers are touched again, so the run is a straight line of issues and waits; what is left is that each block
  of the output holds the one gathered function: a slot read after later gathers wrote the other slots still reads its own
  gather's rows (the slots are apart), and those rows are the table's at the rows the index words name.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.KernelIdeal
import proofs.«202841_g12773232738622_fold_wed_m_434_41_alg».proof.Proof.Gen.KernelIdeal.Skeleton
import proofs.«202841_g12773232738622_fold_wed_m_434_41_alg».proof.Proof.Gen.KernelIdeal.Launch
import proofs.«202841_g12773232738622_fold_wed_m_434_41_alg».proof.Proof.Gen.KernelIdeal.Points
import proofs.«202841_g12773232738622_fold_wed_m_434_41_alg».proof.Proof.Spec
import proofs.«202841_g12773232738622_fold_wed_m_434_41_alg».proof.Proof.ScCommon
import proofs.«202841_g12773232738622_fold_wed_m_434_41_alg».proof.Proof.TileFacts

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole main_v0_scv : Memref sig Kind.scVector Space.hbm S32768 EltTy.i32)
local notation "uV" => (Memref.whole main_arg3_scv : Memref sig Kind.scVector Space.hbm S100000x128 EltTy.f32)
local notation "tV" => (Memref.whole main_arg4_scv : Memref sig Kind.scVector Space.hbm S100000x128 EltTy.f32)
local notation "oV" => (Memref.whole main_v1_scv : Memref sig Kind.scVector Space.hbm S32768x128 EltTy.f32)
local notation "aV" => (Memref.whole cc0_scratch0 : Memref sig Kind.scVector Space.vmem S512 EltTy.i32)
local notation "bV" => (Memref.whole cc0_scratch1 : Memref sig Kind.scVector Space.vmem S512 EltTy.i32)
local notation "rV" => (Memref.whole cc0_scratch2 : Memref sig Kind.scVector Space.vmem S7x128x128 EltTy.f32)

variable [FloatOps F] (m : (ℓ : Loc nD τ sig) → Buf (Elt F) ℓ) (X : (d : Dev nD) → Buf (Elt F) (xLoc d)) (d : Dev nD) (L : grid0.Coords)

/-! ## The eight blocks, in the program's own spelling -/

theorem block_val_00 (pay : S128x128.Idx → Elt F .f32) (hpay : ∀ x : S128x128.Idx, pay x = gath m X d ((oK L 0 0).view.emb x)) :
    ((oK00 L).view.loc (V d (cV L) (jV L)) ↦[(oK00 L).view.set]{fullShare}
        (oK00 L).view.writes (Elt F) (m (oLoc d)) [⟨Rect.whole S128x128, pay⟩] : sProp 𝕄)
      ⊢ oLoc d ↦[oSet (oN 0 (cL L) (iL L) 0)]{fullShare} gath m X d :=
  Entails.of_eq (block_val (F := F) L d X m 0 0 pay hpay)

theorem block_val_01 (pay : S128x128.Idx → Elt F .f32) (hpay : ∀ x : S128x128.Idx, pay x = gath m X d ((oK L 0 1).view.emb x)) :
    ((oK01 L).view.loc (V d (cV L) (jV L)) ↦[(oK01 L).view.set]{fullShare}
        (oK01 L).view.writes (Elt F) (m (oLoc d)) [⟨Rect.whole S128x128, pay⟩] : sProp 𝕄)
      ⊢ oLoc d ↦[oSet (oN 0 (cL L) (iL L) 1)]{fullShare} gath m X d :=
  Entails.of_eq (block_val (F := F) L d X m 0 1 pay hpay)

theorem block_val_02 (pay : S128x128.Idx → Elt F .f32) (hpay : ∀ x : S128x128.Idx, pay x = gath m X d ((oK L 0 2).view.emb x)) :
    ((oK02 L).view.loc (V d (cV L) (jV L)) ↦[(oK02 L).view.set]{fullShare}
        (oK02 L).view.writes (Elt F) (m (oLoc d)) [⟨Rect.whole S128x128, pay⟩] : sProp 𝕄)
      ⊢ oLoc d ↦[oSet (oN 0 (cL L) (iL L) 2)]{fullShare} gath m X d :=
  Entails.of_eq (block_val (F := F) L d X m 0 2 pay hpay)

theorem block_val_03 (pay : S128x128.Idx → Elt F .f32) (hpay : ∀ x : S128x128.Idx, pay x = gath m X d ((oK L 0 3).view.emb x)) :
    ((oK03 L).view.loc (V d (cV L) (jV L)) ↦[(oK03 L).view.set]{fullShare}
        (oK03 L).view.writes (Elt F) (m (oLoc d)) [⟨Rect.whole S128x128, pay⟩] : sProp 𝕄)
      ⊢ oLoc d ↦[oSet (oN 0 (cL L) (iL L) 3)]{fullShare} gath m X d :=
  Entails.of_eq (block_val (F := F) L d X m 0 3 pay hpay)

theorem block_val_10 (pay : S128x128.Idx → Elt F .f32) (hpay : ∀ x : S128x128.Idx, pay x = gath m X d ((oK L 1 0).view.emb x)) :
    ((oK10 L).view.loc (V d (cV L) (jV L)) ↦[(oK10 L).view.set]{fullShare}
        (oK10 L).view.writes (Elt F) (m (oLoc d)) [⟨Rect.whole S128x128, pay⟩] : sProp 𝕄)
      ⊢ oLoc d ↦[oSet (oN 1 (cL L) (iL L) 0)]{fullShare} gath m X d :=
  Entails.of_eq (block_val (F := F) L d X m 1 0 pay hpay)

theorem block_val_11 (pay : S128x128.Idx → Elt F .f32) (hpay : ∀ x : S128x128.Idx, pay x = gath m X d ((oK L 1 1).view.emb x)) :
    ((oK11 L).view.loc (V d (cV L) (jV L)) ↦[(oK11 L).view.set]{fullShare}
        (oK11 L).view.writes (Elt F) (m (oLoc d)) [⟨Rect.whole S128x128, pay⟩] : sProp 𝕄)
      ⊢ oLoc d ↦[oSet (oN 1 (cL L) (iL L) 1)]{fullShare} gath m X d :=
  Entails.of_eq (block_val (F := F) L d X m 1 1 pay hpay)

theorem block_val_12 (pay : S128x128.Idx → Elt F .f32) (hpay : ∀ x : S128x128.Idx, pay x = gath m X d ((oK L 1 2).view.emb x)) :
    ((oK12 L).view.loc (V d (cV L) (jV L)) ↦[(oK12 L).view.set]{fullShare}
        (oK12 L).view.writes (Elt F) (m (oLoc d)) [⟨Rect.whole S128x128, pay⟩] : sProp 𝕄)
      ⊢ oLoc d ↦[oSet (oN 1 (cL L) (iL L) 2)]{fullShare} gath m X d :=
  Entails.of_eq (block_val (F := F) L d X m 1 2 pay hpay)

theorem block_val_13 (pay : S128x128.Idx → Elt F .f32) (hpay : ∀ x : S128x128.Idx, pay x = gath m X d ((oK L 1 3).view.emb x)) :
    ((oK13 L).view.loc (V d (cV L) (jV L)) ↦[(oK13 L).view.set]{fullShare}
        (oK13 L).view.writes (Elt F) (m (oLoc d)) [⟨Rect.whole S128x128, pay⟩] : sProp 𝕄)
      ⊢ oLoc d ↦[oSet (oN 1 (cL L) (iL L) 3)]{fullShare} gath m X d :=
  Entails.of_eq (block_val (F := F) L d X m 1 3 pay hpay)

set_option maxHeartbeats 4000000 in
set_option maxRecDepth 65536 in
theorem tile_body (hF : (K (F := F)).Facts) (hX : InRange X) (O : CellTallies nD τ sig (HIx 1)) (W : Waits sig (HIx 1)) (hO : ∀ g, O g none = 0) :
    iprop(levAts (K (F := F)).L (K (F := F)).lev ∗ emp
        ∗ tileRes m X d (cL L) (iL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L (Memref.whole main_v0_scv) (Memref.isWhole_whole _) (Memref.whole main_arg3_scv) (Memref.isWhole_whole _) (Memref.whole main_arg4_scv) (Memref.isWhole_whole _)
            (Memref.whole main_v1_scv) (Memref.isWhole_whole _) (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18)
          fun _ => iprop(tileRes m X d (cL L) (iL L) (gath m X d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  simp only [tileRes_eq]
  iintro ⟨#Hlv, -, ⟨⟨Hx1, Hx2⟩, ⟨Hu0, Hu1, Hu2, Hu3⟩, ⟨Ht0, Ht1, Ht2, Ht3⟩, ⟨Ho00, Ho01, Ho02, Ho03, Ho10, Ho11, Ho12, Ho13⟩⟩, ⟨⟨%fa, Ha⟩, ⟨%fb, Hb⟩, ⟨%fr, Hr⟩, Hbufs⟩, ⟨Hs0, Hs1, Hs2, Hs3, Hs4, Hs5, Hs6, Hs7, Hs8, Hs9, Hs10, Hs11, Hs12, Hs13, Hs14, Hs15, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx1' := (Entails.of_eq (pts_xK1 (F := F) L d _).symm) $$ Hx1
  ihave Hx2' := (Entails.of_eq (pts_xK2 (F := F) L d _).symm) $$ Hx2
  ihave Hu0' := (Entails.of_eq (pts_uV (F := F) L d _ _).symm) $$ Hu0
  ihave Ht0' := (Entails.of_eq (pts_tV (F := F) L d _ _).symm) $$ Ht0
  ihave Hu1' := (Entails.of_eq (pts_uV (F := F) L d _ _).symm) $$ Hu1
  ihave Ht1' := (Entails.of_eq (pts_tV (F := F) L d _ _).symm) $$ Ht1
  ihave Hu2' := (Entails.of_eq (pts_uV (F := F) L d _ _).symm) $$ Hu2
  ihave Ht2' := (Entails.of_eq (pts_tV (F := F) L d _ _).symm) $$ Ht2
  ihave Hu3' := (Entails.of_eq (pts_uV (F := F) L d _ _).symm) $$ Hu3
  ihave Ht3' := (Entails.of_eq (pts_tV (F := F) L d _ _).symm) $$ Ht3
  ihave Ho00' := (Entails.of_eq (pts_oK00 (F := F) L d _).symm) $$ Ho00
  ihave Ho01' := (Entails.of_eq (pts_oK01 (F := F) L d _).symm) $$ Ho01
  ihave Ho02' := (Entails.of_eq (pts_oK02 (F := F) L d _).symm) $$ Ho02
  ihave Ho03' := (Entails.of_eq (pts_oK03 (F := F) L d _).symm) $$ Ho03
  ihave Ho10' := (Entails.of_eq (pts_oK10 (F := F) L d _).symm) $$ Ho10
  ihave Ho11' := (Entails.of_eq (pts_oK11 (F := F) L d _).symm) $$ Ho11
  ihave Ho12' := (Entails.of_eq (pts_oK12 (F := F) L d _).symm) $$ Ho12
  ihave Ho13' := (Entails.of_eq (pts_oK13 (F := F) L d _).symm) $$ Ho13
  ihave Ha' := (Entails.of_eq (pts_aV (F := F) L d _).symm) $$ Ha
  ihave Hb' := (Entails.of_eq (pts_bV (F := F) L d _).symm) $$ Hb
  ihave Hr' := (Entails.of_eq (pts_rV (F := F) L d _).symm) $$ Hr
  have hinA : ∀ (fs : Buf (Elt F) ((aV).view.loc (V d (cV L) (jV L)))) (off : Fin 1 → Nat) (ho : ∀ a, off a + S128.size a ≤ S512.size a) (x : S128.Idx),
      (((aV).slice (Rect.unit (s := S512) off S128.size ho) (fun _ => rfl)).view.read (Elt F)
        (View.write (Elt F) (aV).view fs (ReadAs.same.apply ((xK1 L).view.read (Elt F) (X d))) Finset.univ) x).toNat
      < S100000x128.size gathers_S100000x128_S128x128.axis :=
    fun fs off ho x => inb_a L d fs _ (fun j => by rw [ReadAs.apply_same, read_xK1]; exact hX d _) off ho x
  have hinB : ∀ (fs : Buf (Elt F) ((bV).view.loc (V d (cV L) (jV L)))) (off : Fin 1 → Nat) (ho : ∀ a, off a + S128.size a ≤ S512.size a) (x : S128.Idx),
      (((bV).slice (Rect.unit (s := S512) off S128.size ho) (fun _ => rfl)).view.read (Elt F)
        (View.write (Elt F) (bV).view fs (ReadAs.same.apply ((xK2 L).view.read (Elt F) (X d))) Finset.univ) x).toNat
      < S100000x128.size gathers_S100000x128_S128x128.axis :=
    fun fs off ho x => inb_b L d fs _ (fun j => by rw [ReadAs.apply_same, read_xK2]; exact hX d _) off ho x
  sl_exec
  sl_step
  isplitl [Hx1' Hx2' Hu0' Hu1' Hu2' Hu3' Ht0' Ht1' Ht2' Ht3' Ho00' Ho01' Ho02' Ho03' Ho10' Ho11' Ho12' Ho13']
  · isplitl [Hx1' Hx2']
    · isplitl [Hx1']
      · iapply (Entails.of_eq (pts_xK1 (F := F) L d _)); iexact Hx1'
      · iapply (Entails.of_eq (pts_xK2 (F := F) L d _)); iexact Hx2'
    isplitl [Hu0' Hu1' Hu2' Hu3']
    · isplitl [Hu0']; · iexact Hu0'
      isplitl [Hu1']; · iexact Hu1'
      isplitl [Hu2']; · iexact Hu2'
      iexact Hu3'
    isplitl [Ht0' Ht1' Ht2' Ht3']
    · isplitl [Ht0']; · iexact Ht0'
      isplitl [Ht1']; · iexact Ht1'
      isplitl [Ht2']; · iexact Ht2'
      iexact Ht3'
    isplitl [Ho00']
    · iapply (block_val_00 (F := F) m X d L)
      any_goals iexact Ho00'
      intro x
      unfold tile_body.sl.dma0_2
      rw [ReadAs.apply_same,
        read_slot_write_slot (F := F) L d (off := ![0, 0, 0]) (off' := ![6, 0, 0]) _ _ (by decide),
        read_slot_write_slot (F := F) L d (off := ![0, 0, 0]) (off' := ![5, 0, 0]) _ _ (by decide),
        read_slot_write_slot (F := F) L d (off := ![0, 0, 0]) (off' := ![4, 0, 0]) _ _ (by decide),
        read_slot_write_slot (F := F) L d (off := ![0, 0, 0]) (off' := ![3, 0, 0]) _ _ (by decide),
        read_slot_write_slot (F := F) L d (off := ![0, 0, 0]) (off' := ![2, 0, 0]) _ _ (by decide),
        read_slot_write_slot (F := F) L d (off := ![0, 0, 0]) (off' := ![1, 0, 0]) _ _ (by decide),
        View.read_write_univ]
      unfold tile_body.sl.gather2
      exact gath_u (F := F) L d X m 0 fa hX ![0] rfl _ _ _ x
    isplitl [Ho01']
    · iapply (block_val_01 (F := F) m X d L)
      any_goals iexact Ho01'
      intro x
      unfold tile_body.sl.dma0_3
      rw [ReadAs.apply_same,
        read_slot_write_slot (F := F) L d (off := ![1, 0, 0]) (off' := ![0, 0, 0]) _ _ (by decide),
        read_slot_write_slot (F := F) L d (off := ![1, 0, 0]) (off' := ![6, 0, 0]) _ _ (by decide),
        read_slot_write_slot (F := F) L d (off := ![1, 0, 0]) (off' := ![5, 0, 0]) _ _ (by decide),
        read_slot_write_slot (F := F) L d (off := ![1, 0, 0]) (off' := ![4, 0, 0]) _ _ (by decide),
        read_slot_write_slot (F := F) L d (off := ![1, 0, 0]) (off' := ![3, 0, 0]) _ _ (by decide),
        read_slot_write_slot (F := F) L d (off := ![1, 0, 0]) (off' := ![2, 0, 0]) _ _ (by decide),
        View.read_write_univ]
      unfold tile_body.sl.gather3
      exact gath_u (F := F) L d X m 1 fa hX ![128] rfl _ _ _ x
    isplitl [Ho02']
    · iapply (block_val_02 (F := F) m X d L)
      any_goals iexact Ho02'
      intro x
      unfold tile_body.sl.dma0_4
      rw [ReadAs.apply_same,
        read_slot_write_slot (F := F) L d (off := ![2, 0, 0]) (off' := ![0, 0, 0]) _ _ (by decide),
        read_slot_write_slot (F := F) L d (off := ![2, 0, 0]) (off' := ![6, 0, 0]) _ _ (by decide),
        read_slot_write_slot (F := F) L d (off := ![2, 0, 0]) (off' := ![5, 0, 0]) _ _ (by decide),
        read_slot_write_slot (F := F) L d (off := ![2, 0, 0]) (off' := ![4, 0, 0]) _ _ (by decide),
        read_slot_write_slot (F := F) L d (off := ![2, 0, 0]) (off' := ![3, 0, 0]) _ _ (by decide),
        View.read_write_univ]
      unfold tile_body.sl.gather4
      exact gath_u (F := F) L d X m 2 fa hX ![256] rfl _ _ _ x
    isplitl [Ho03']
    · iapply (block_val_03 (F := F) m X d L)
      any_goals iexact Ho03'
      intro x
      unfold tile_body.sl.dma0_5
      rw [ReadAs.apply_same,
        read_slot_write_slot (F := F) L d (off := ![3, 0, 0]) (off' := ![0, 0, 0]) _ _ (by decide),
        read_slot_write_slot (F := F) L d (off := ![3, 0, 0]) (off' := ![6, 0, 0]) _ _ (by decide),
        read_slot_write_slot (F := F) L d (off := ![3, 0, 0]) (off' := ![5, 0, 0]) _ _ (by decide),
        read_slot_write_slot (F := F) L d (off := ![3, 0, 0]) (off' := ![4, 0, 0]) _ _ (by decide),
        View.read_write_univ]
      unfold tile_body.sl.gather5
      exact gath_u (F := F) L d X m 3 fa hX ![384] rfl _ _ _ x
    isplitl [Ho10']
    · iapply (block_val_10 (F := F) m X d L)
      any_goals iexact Ho10'
      intro x
      unfold tile_body.sl.dma0_6
      rw [ReadAs.apply_same,
        read_slot_write_slot (F := F) L d (off := ![4, 0, 0]) (off' := ![0, 0, 0]) _ _ (by decide),
        read_slot_write_slot (F := F) L d (off := ![4, 0, 0]) (off' := ![6, 0, 0]) _ _ (by decide),
        read_slot_write_slot (F := F) L d (off := ![4, 0, 0]) (off' := ![5, 0, 0]) _ _ (by decide),
        View.read_write_univ]
      unfold tile_body.sl.gather6
      exact gath_t (F := F) L d X m 0 fb hX ![0] rfl _ _ _ x
    isplitl [Ho11']
    · iapply (block_val_11 (F := F) m X d L)
      any_goals iexact Ho11'
      intro x
      unfold tile_body.sl.dma0_7
      rw [ReadAs.apply_same,
        read_slot_write_slot (F := F) L d (off := ![5, 0, 0]) (off' := ![0, 0, 0]) _ _ (by decide),
        read_slot_write_slot (F := F) L d (off := ![5, 0, 0]) (off' := ![6, 0, 0]) _ _ (by decide),
        View.read_write_univ]
      unfold tile_body.sl.gather7
      exact gath_t (F := F) L d X m 1 fb hX ![128] rfl _ _ _ x
    isplitl [Ho12']
    · iapply (block_val_12 (F := F) m X d L)
      any_goals iexact Ho12'
      intro x
      unfold tile_body.sl.dma0_8
      rw [ReadAs.apply_same,
        read_slot_write_slot (F := F) L d (off := ![6, 0, 0]) (off' := ![0, 0, 0]) _ _ (by decide),
        View.read_write_univ]
      unfold tile_body.sl.gather8
      exact gath_t (F := F) L d X m 2 fb hX ![256] rfl _ _ _ x
    iapply (block_val_13 (F := F) m X d L)
    any_goals iexact Ho13'
    intro x
    unfold tile_body.sl.dma0_9
    rw [ReadAs.apply_same,
      View.read_write_univ]
    unfold tile_body.sl.gather10
    exact gath_t (F := F) L d X m 3 fb hX ![384] rfl _ _ _ x
  isplitl [Ha' Hb' Hr' Hbufs]
  · isplitl [Ha']; · iexists _; iexact Ha'
    isplitl [Hb']; · iexists _; iexact Hb'
    isplitl [Hr']; · iexists _; iexact Hr'
    iexact Hbufs
  isplitl [Hs0 Hs1 Hs2 Hs3 Hs4 Hs5 Hs6 Hs7 Hs8 Hs9 Hs10 Hs11 Hs12 Hs13 Hs14 Hs15 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    iexact Hsems
  iexists _; isplitr
  swap; · iexact HO
  ipureintro; intro p hp
  iterate 18 (rcases Finset.mem_insert.mp hp with hp | hp; · exact .inr (hp ▸ rfl))
  exact .inl hp

end Cert.KernelIdeal.Sc

end
-- ==== Proof.KernelGlue.lean ====
/-
  Two small facts about the kernel program's host operations around its two kernels.

  The two index arrays are joined end to end into one array of 32768 words: the first 16384 entries are the first
  array's, the last 16384 the second's; so if every word of both arrays is below 100000, so is every word of the
  joined array. And the final reshape of the one-row result [1, 16384] into one column [16384, 1] reads, at row n
  of the column, the row's entry n: both have row-major position n.
-/
import proofs.«202841_g12773232738622_fold_wed_m_434_41_alg».proof.Proof.Gen.KernelIdeal
import Idealize.ShloMosaic.Lib.ValueIdx
import Idealize.ShloMosaic.Lib.Pipeline.Value
import Idealize.ShloMosaic.Lib.ValueLayout

noncomputable section

namespace Cert.KernelIdeal.Glue

open Idealize.ShloMosaic Idealize.ShloMosaic.ValueIdx Cert.KernelIdeal Cert.KernelIdeal.Gen

/-- The two index arrays joined end to end, as the program's first host operation forms them. -/
def cat (a b : IVec S16384 32) : IVec S32768 32 :=
  concatenate S32768 0 [⟨S16384, a⟩, ⟨S16384, b⟩] concatenates_S16384_S16384_S32768_d0

/-- The first half of the joined array is the first array. -/
theorem cat_lo (a b : IVec S16384 32) (n : Fin 16384) :
    cat a b (ix1 (⟨n.val, by omega⟩ : Fin 32768)) = a (ix1 n) := by
  unfold cat
  refine concatenate_apply_piece (α := BitVec 32) (t := S32768) (0 : Fin 1) [⟨S16384, a⟩, ⟨S16384, b⟩]
    concatenates_S16384_S16384_S32768_d0 _ 0 (by simp) S16384 a rfl rfl 0 rfl (ix1 n) (fun c hc => ?_) ?_
  · match c with
    | ⟨0, _⟩ => exact absurd rfl hc
  · show 0 + n.val = n.val
    omega

/-- The second half of the joined array is the second array. -/
theorem cat_hi (a b : IVec S16384 32) (n : Fin 16384) :
    cat a b (ix1 (⟨16384 + n.val, by omega⟩ : Fin 32768)) = b (ix1 n) := by
  unfold cat
  refine concatenate_apply_piece (α := BitVec 32) (t := S32768) (0 : Fin 1) [⟨S16384, a⟩, ⟨S16384, b⟩]
    concatenates_S16384_S16384_S32768_d0 _ 1 (by simp) S16384 b rfl rfl 16384 rfl (ix1 n) (fun c hc => ?_) ?_
  · match c with
    | ⟨0, _⟩ => exact absurd rfl hc
  · rfl

/-- If every word of both arrays is below 100000, so is every word of the joined array. -/
theorem cat_inRange (a b : IVec S16384 32) (ha : ∀ j, (a j).toNat < 100000) (hb : ∀ j, (b j).toNat < 100000) :
    ∀ j, (cat a b j).toNat < 100000 := by
  intro j
  obtain ⟨p, rfl⟩ : ∃ p : Fin 32768, j = ix1 p := ⟨j 0, eq_ix1 j⟩
  by_cases hp : p.val < 16384
  · have e : p = (⟨(⟨p.val, hp⟩ : Fin 16384).val, by omega⟩ : Fin 32768) := rfl
    rw [e, cat_lo a b ⟨p.val, hp⟩]
    exact ha _
  · have e : p = (⟨16384 + (⟨p.val - 16384, by omega⟩ : Fin 16384).val, by omega⟩ : Fin 32768) :=
      Fin.ext (by show p.val = 16384 + (p.val - 16384); omega)
    rw [e, cat_hi a b ⟨p.val - 16384, by omega⟩]
    exact hb _

/-- The one-row array [1, 16384] reshaped into one column [16384, 1] reads, at row n, the row's entry n. -/
theorem reshape_col {α : Type} (y : S1x16384.Idx → α) (n : Fin 16384) (z : Fin 1) :
    shapeCast S16384x1 y shapeCasts_S1x16384_S16384x1 (ix2 n z) = y (ix2 (0 : Fin 1) n) :=
  shapeCast_apply y shapeCasts_S1x16384_S16384x1 _ _ (by
    have hz : z.val = 0 := by omega
    rw [Shape.rowMajor_val_two, Shape.rowMajor_val_two]
    show 0 * 16384 + n.val = n.val * 1 + z.val
    rw [hz]
    omega)

end Cert.KernelIdeal.Glue

end
-- ==== Proof.ScRun.lean ====
/-
  The gather-then-dense program's run: every weakly fair execution of its threads — the TensorCore's @main, the two
  sequencers, the 32 workers — terminates without a fault, with the nine arguments unchanged and the result at the
  reshape of the dense stage's output; and, read over the extended reals, that result is the specification's function
  of the arguments.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.KernelIdeal
import proofs.«202841_g12773232738622_fold_wed_m_434_41_alg».proof.Proof.Gen.KernelIdeal.Skeleton
import proofs.«202841_g12773232738622_fold_wed_m_434_41_alg».proof.Proof.Gen.KernelIdeal.Launch
import proofs.«202841_g12773232738622_fold_wed_m_434_41_alg».proof.Proof.Gen.KernelIdeal.Points
import proofs.«202841_g12773232738622_fold_wed_m_434_41_alg».proof.Proof.ScMain
import proofs.«202841_g12773232738622_fold_wed_m_434_41_alg».proof.Proof.TileBody
import proofs.«202841_g12773232738622_fold_wed_m_434_41_alg».proof.Proof.KernelGlue

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.TcCoe

/-! ## The worker's obligation, in the launch theorem's spelling -/

section Obl

variable {F : FTy → Type} [FloatOps F] (m : (ℓ : Loc nD τ sig) → Buf (Elt F) ℓ) (X : (d : Dev nD) → Buf (Elt F) (xLoc d))

local notation "𝕄" => MT nD τ sig (HIx 1) (Elt F) ℕ UU ℕ

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          (Memref.whole main_v0_scv) (Memref.isWhole_whole _) (Memref.whole main_arg3_scv) (Memref.isWhole_whole _) (Memref.whole main_arg4_scv) (Memref.isWhole_whole _)
          (Memref.whole main_v1_scv) (Memref.isWhole_whole _) (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hX : InRange X) : (K (F := F)).TileObl (D (F := F)) 𝒱 (P m X) v₀ 0 := by
  intro d c i O W hO _ _
  simp only [show (P m X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m X d (coordsV ⟨_, hci.1⟩ ⟨_, hci.2⟩) hF hX O W hO).trans (wp_mono frame _ _ fun _ => obl_post)

end Obl

variable {F : FTy → Type}

local notation "𝕄" => MT nD τ sig (HIx 1) (Elt F) ℕ UU ℕ

variable [FloatOps F] (m : (ℓ : Loc nD τ sig) → Buf (Elt F) ℓ) (ρ : Dev nD → PrngReg)

/-- The run's post: on every device the result at the final valuation's, the nine arguments at their launch contents. -/
def QC : PUnit × MemSt nD τ sig (Elt F) → Prop := fun r => ∀ c : Dev nD,
  r.2.mem ((SparseCore.T c).loc main_v3) = V4 m c r'
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_arg4) = m ((SparseCore.T c).loc main_arg4) ∧ r.2.mem ((SparseCore.T c).loc main_arg5) = m ((SparseCore.T c).loc main_arg5)
    ∧ r.2.mem ((SparseCore.T c).loc main_arg6) = m ((SparseCore.T c).loc main_arg6) ∧ r.2.mem ((SparseCore.T c).loc main_arg7) = m ((SparseCore.T c).loc main_arg7)
    ∧ r.2.mem ((SparseCore.T c).loc main_arg8) = m ((SparseCore.T c).loc main_arg8)

theorem run_main [∀ e, Nonempty (Elt F e)] (hX : InRange (Xd m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (Xd m)) facts v₀
    (fun q hq => match q with | 0 => nomatch hq)
    (fun q _ => match q with | 0 => tileObl m (Xd m) facts hX)
    (fun q _ => match q with | 0 => SparseCore.Cfg.VecSplit.of_plain (vecSplit m (Xd m)))
    m ρ main (G (F := F)) (FIN m) (u₀ (F := F)) (hu₀ m (Xd m)) (hmain m ρ) (fq m) (hfin m) (QC m) (fun _ h => h)

/-! ## The joined index list, and the frame -/

/-- The joined index list is the two index arrays' concatenation. -/
theorem Xd_eq (d : Dev nD) : Xd m d = Glue.cat (m ((SparseCore.T d).loc main_arg1)) (m ((SparseCore.T d).loc main_arg2)) := by
  show (opCat (F := F)).result (V0 m d) x' = _
  exact (StableHlo.binary_result main_arg1 main_arg2 main_v0 _ _ _ _ (V0 m d)).trans rfl

/-- Index words below 100000 in both arrays are index words below 100000 in the joined list. -/
theorem inRange (h1 : ∀ (c : Dev nD) j, (m ((c.tc : Thread nD τ).loc main_arg1) j).toNat < 100000)
    (h2 : ∀ (c : Dev nD) j, (m ((c.tc : Thread nD τ).loc main_arg2) j).toNat < 100000) : InRange (Xd m) := fun d j => by
  rw [Xd_eq]; exact Glue.cat_inRange _ _ (h1 d) (h2 d) j

/-- The frame: the run with the result dropped. -/
theorem run_frame [∀ e, Nonempty (Elt F e)] (g : Dev nD → PrngReg)
    (h1 : ∀ (c : Dev nD) j, (m ((c.tc : Thread nD τ).loc main_arg1) j).toNat < 100000)
    (h2 : ∀ (c : Dev nD) j, (m ((c.tc : Thread nD τ).loc main_arg2) j).toNat < 100000) :
    θ_run (Cert.KernelIdeal.defs (F := F)) (Cert.KernelIdeal.threads (F := F)) ⟨m, fun _ => 0, g⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)
      ∧ r.2.mem ((c.tc : Thread nD τ).loc main_arg6) = m ((c.tc : Thread nD τ).loc main_arg6) ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (Cert.KernelIdeal.defs (F := F)) _ _).mono (fun _ h c => (h c).2) (run_main m g (inRange m h1 h2))

end Cert.KernelIdeal.Sc

end
-- ==== Proof.MlpPayload.lean ====
/-
  The dense-layer body's stored value, read at one entry, at the ideal values.

  The body holds two 8192 × 128 blocks of rows (user rows u, item rows i), three 128 × 8 thirds of the first layer's
  weights (wa, wb, wc), the first bias b1 (8 entries), the output weights w2 (8 × 1) and the output bias b2 (1 entry).
  It forms the three matrix products that contract the weights' rows against the blocks' columns, so that entry
  (k, q) of each 8 × 8192 product is the sum over the 128 columns c of W[c, k] * x[q, c]; adds them and the bias laid
  along each row; takes the positive part; multiplies row k by w2[k, 0]; sums down the 8 rows; adds b2; and applies the
  logistic function lane by lane. Read at column q of the one stored row this is

      logistic ( sum_k max( sum_c wa[c,k] * (u[q,c] * i[q,c]) + sum_c wb[c,k] * u[q,c] + sum_c wc[c,k] * i[q,c] + b1[k], 0 ) * w2[k,0] + b2[0] ).

  Every pointwise operation reads at an index by definition; the others each need one small fact: a matrix product into
  the zero accumulator is the sum over its contraction coordinate (here the weights' axis 0 against the block's axis 1),
  a vector cast to a column or to a row keeps its entries, a column laid across columns repeats its entry, and a sum
  down one axis is the finite sum over that axis's coordinates.
-/
import proofs.«202841_g12773232738622_fold_wed_m_434_41_alg».proof.Proof.Gen.KernelIdeal.Skeleton
import proofs.«202841_g12773232738622_fold_wed_m_434_41_alg».proof.Proof.LibMatDot
import Idealize.ShloMosaic.Lib.ValueIdx
import Idealize.ShloMosaic.Lib.Pipeline.Value
import Idealize.ShloMosaic.Lib.ValueLayout
import Idealize.ShloMosaic.PureOps.Ideal.Laws

noncomputable section
open scoped BigOperators
namespace Cert.KernelIdeal.MlpValue
open Idealize.ShloMosaic Idealize.ShloMosaic.ValueIdx Cert.KernelIdeal

local notation "DD" => dot_S128x8_S8192x128_S8x8192_0_1_1_0_n_n

/-- The left operand's entry that output entry (k, q) meets at contraction position c is (c, k): the weights are
    contracted along their rows. -/
theorem lhsIdx_eq (k : Fin 8) (q : Fin 8192) (c : Fin 128) :
    (DD).lhsIdx (ix2 k q) ((contrEquiv1 DD 128 rfl rfl).symm c) = ix2 c k := by
  have c2 := contrEquiv1_symm_val DD 128 rfl rfl c
  funext ax; apply Fin.ext
  match ax with
  | ⟨0, _⟩ => exact ((DD).lhsIdx_val_of_single (cl := (0 : Fin 2)) rfl (ix2 k q) _).trans c2
  | ⟨1, _⟩ => simp [DotDims.lhsIdx, dot_S128x8_S8192x128_S8x8192_0_1_1_0_n_n]; rfl

/-- The right operand's entry there is (q, c): the rows block is contracted along its columns. -/
theorem rhsIdx_eq (k : Fin 8) (q : Fin 8192) (c : Fin 128) :
    (DD).rhsIdx (ix2 k q) ((contrEquiv1 DD 128 rfl rfl).symm c) = ix2 q c := by
  have c2 := contrEquiv1_symm_val DD 128 rfl rfl c
  funext ax; apply Fin.ext
  match ax with
  | ⟨0, _⟩ => simp [DotDims.rhsIdx, dot_S128x8_S8192x128_S8x8192_0_1_1_0_n_n]; rfl
  | ⟨1, _⟩ => exact ((DD).rhsIdx_val_of_single (cr := (1 : Fin 2)) rfl (ix2 k q) _).trans c2

/-- The matrix product into the zero accumulator at entry (k, q): the sum over the 128 columns. -/
theorem matmul_kq (wx : FVec Ideal S128x8 .f32) (x : FVec Ideal S8192x128 .f32) (k : Fin 8) (q : Fin 8192) :
    matmul DD none wx x (constant (F := Ideal) S8x8192 .f32 0x00000000#32) (ix2 k q)
      = ∑ c : Fin 128, wx (ix2 c k) * x (ix2 q c) := by
  show FloatOps.matmul _ none wx x (constant (F := Ideal) S8x8192 .f32 0x00000000#32) (ix2 k q) = _
  rw [Ideal.matmul_constant_zero_apply, ← Equiv.sum_comp (contrEquiv1 DD 128 rfl rfl).symm]
  refine Finset.sum_congr rfl fun c _ => ?_
  rw [lhsIdx_eq k q c, rhsIdx_eq k q c]

/-- A vector of a entries cast to one column [a, 1] reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum down the 8 rows of an 8 × 8192 array, read at column q. -/
theorem reduce_rows_apply (v : FVec Ideal S8x8192 .f32) (h : S8x8192.Reduces [0] S8192) (hφ : FKind.Formats .f32)
    (hacc : (0x00000000#32 : BitVec 32) = FKind.add.neutral .f32 hφ) (q : Fin 8192) :
    multiReduction .add [0] S8192 v 0x00000000#32 h hφ hacc (ix1 q) = ∑ k : Fin 8, v (ix2 k q) := by
  refine (Ideal.multiReduction_add_single v 0x00000000#32 h hφ hacc (ix1 q)).trans ?_
  refine Finset.sum_congr rfl fun k _ => congrArg v ?_
  funext ax; apply Fin.ext
  match ax with
  | ⟨0, _⟩ => rfl
  | ⟨1, _⟩ => rfl

/-- The stored 1 × 8192 value of the dense-layer body, read at column q: the logistic of the output unit's argument,
    with the three partial sums over the 128 columns (product, user row, item row) of each of the 8 hidden units. -/
theorem pay_apply (u i : Vec Ideal S8192x128 .f32) (wa wb wc : Vec Ideal S128x8 .f32) (b1 : Vec Ideal S8 .f32)
    (w2 : Vec Ideal S8x1 .f32) (b2 : Vec Ideal S1 .f32) (z : Fin 1) (q : Fin 8192) :
    Gen.k1_pay1 (F := Ideal) u i wa wb wc b1 w2 b2 (ix2 z q)
      = Ideal.logistic ((∑ k : Fin 8, max ((((∑ c : Fin 128, wa (ix2 c k) * (u (ix2 q c) * i (ix2 q c))) + ∑ c : Fin 128, wb (ix2 c k) * u (ix2 q c))
            + ∑ c : Fin 128, wc (ix2 c k) * i (ix2 q c)) + b1 (ix1 k)) 0 * w2 (ix2 k (0 : Fin 1))) + b2 (ix1 (0 : Fin 1))) := by
  unfold Gen.k1_pay1
  -- the logistic, lane by lane, of the row sum cast to one row plus the second bias laid along the row
  show Ideal.logistic (shapeCast S1x8192 _ _ (ix2 z q) + broadcastTo S1x8192 _ _ (ix2 z q)) = _
  rw [shapeCast_a_1a_apply, Cert.Lib.MatDot.broadcastTo_col_apply, shapeCast_a_1a_apply]
  refine congrArg Ideal.logistic (congrArg (· + b2 (ix1 (0 : Fin 1))) ?_)
  -- the sum down the 8 rows
  refine (reduce_rows_apply _ _ _ _ q).trans ?_
  refine Finset.sum_congr rfl fun k _ => ?_
  -- row k: the positive part of the three products plus the first bias, times the output weight
  simp only [mulf_apply, maximumf_apply, addf_apply, broadcast_apply, shapeCast_self, matmul_kq,
    Cert.Lib.MatDot.broadcastTo_col_apply, shapeCast_a_a1_apply, Ideal.ofBits_def, Ideal.ofBits_zero_f32]

end Cert.KernelIdeal.MlpValue
end
-- ==== Proof.RegionValue.lean ====
/-
  The dense stage's result row, read at the ideal values, is the specification's result.

  At point t the two rows blocks are rows 8192 t .. and rows 16384 + 8192 t .. of the gathered rows: for example
  n = 8192 t + q the user-table row and the item-table row that example's two index words name. The weights block is
  the whole first layer, read by thirds; the biases and the output weights are whole. So the body's value at an entry,
  as the dense layer's arithmetic reads it, is the specification's expression on example n term by term.
-/
import proofs.«202841_g12773232738622_fold_wed_m_434_41_alg».proof.Proof.RegionOut
import proofs.«202841_g12773232738622_fold_wed_m_434_41_alg».proof.Proof.MlpPayload
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Sc

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 idx2_lt0 idx2_lt1)

variable (Vr : (c : Dev nD) → (b : Ref sig .tc) → Buf (Elt Ideal) ((c : Thread nD τ).loc b))

/-! ## The two halves of the joined index list -/

/-- The user half: words 0 .. 16383. -/
def xlo (X : S32768.Idx → BitVec 32) : (⟨1, ![16384]⟩ : Shape).Idx → BitVec 32 := fun j =>
  X (ix1 (⟨(j 0).val, by have h : (j 0).val < 16384 := (j 0).isLt; omega⟩ : Fin 32768))
/-- The item half: words 16384 .. 32767. -/
def xhi (X : S32768.Idx → BitVec 32) : (⟨1, ![16384]⟩ : Shape).Idx → BitVec 32 := fun j =>
  X (ix1 (⟨16384 + (j 0).val, by have h : (j 0).val < 16384 := (j 0).isLt; omega⟩ : Fin 32768))

/-- A gathered row of the first half is the user-table row its index word names; -/
theorem gathered_lo (X : S32768.Idx → BitVec 32) (ut it : S100000x128.Idx → EReal) (e : S32768x128.Idx) (n : Fin 16384) (cc : Fin 128)
    (h0 : (e 0).val = n.val) (h1 : (e 1).val = cc.val) :
    gathered (F := Ideal) X ut it e = Cert.Spec.urow (xlo X) ut n cc := by
  unfold gathered
  rw [if_pos (by rw [h0]; exact n.isLt)]
  unfold Cert.Spec.urow xlo
  exact congrArg ut (congrArg₂ ix2 (congrArg Cert.Spec.row (congrArg X (congrArg ix1 (Fin.ext h0)))) (Fin.ext h1))

/-- one of the second half, the item-table row. -/
theorem gathered_hi (X : S32768.Idx → BitVec 32) (ut it : S100000x128.Idx → EReal) (e : S32768x128.Idx) (n : Fin 16384) (cc : Fin 128)
    (h0 : (e 0).val = 16384 + n.val) (h1 : (e 1).val = cc.val) :
    gathered (F := Ideal) X ut it e = Cert.Spec.irow (xhi X) it n cc := by
  unfold gathered
  rw [if_neg (by rw [h0]; omega)]
  unfold Cert.Spec.irow xhi
  exact congrArg it (congrArg₂ ix2 (congrArg Cert.Spec.row (congrArg X (congrArg ix1 (Fin.ext h0)))) (Fin.ext h1))

/-! ## Where each input block sits in its array -/

/-- The input windows' block indices at point t: the rows windows at blocks t and t + 2 of the gathered rows, every
    other window at its whole array. -/
theorem idx_in : ∀ t : Fin cfg1.N, win1_0.index t (0 : Fin 2) = t.val ∧ win1_0.index t (1 : Fin 2) = 0
    ∧ win1_1.index t (0 : Fin 2) = t.val + 2 ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0 :=
  (by decide +kernel : ∀ t : Fin grid1.N, _)

section
variable (c : Dev nD) (X : S32768.Idx → BitVec 32) (ut it : S100000x128.Idx → EReal)
  (hv1 : Vr c main_v1 = gathered (F := Ideal) X ut it)
include hv1

/-- Row n % 8192 of the user rows block at point n / 8192 is example n's user-table row. -/
theorem ublk_apply (n : Fin 16384) (cc : Fin 128) :
    iblk Vr c 0 (ptOf n) (ix2 (colOf n) cc) = Cert.Spec.urow (xlo X) ut n cc := by
  obtain ⟨e0, e1, -⟩ := idx_in (ptOf n)
  show Vr c main_v1 (((cfg1.win 0).blk (ptOf n)).view.emb (ix2 (colOf n) cc)) = _
  rw [hv1]
  refine gathered_lo X ut it _ n cc ?_ ?_
  · show win1_0.index (ptOf n) (0 : Fin 2) * 8192 + 1 * (n.val % 8192) = n.val
    rw [e0]; show n.val / 8192 * 8192 + 1 * (n.val % 8192) = n.val; omega
  · show win1_0.index (ptOf n) (1 : Fin 2) * 128 + 1 * cc.val = cc.val
    rw [e1]; omega

/-- Row n % 8192 of the item rows block there is example n's item-table row. -/
theorem iblk_apply (n : Fin 16384) (cc : Fin 128) :
    iblk Vr c 1 (ptOf n) (ix2 (colOf n) cc) = Cert.Spec.irow (xhi X) it n cc := by
  obtain ⟨-, -, e0, e1, -⟩ := idx_in (ptOf n)
  show Vr c main_v1 (((cfg1.win 1).blk (ptOf n)).view.emb (ix2 (colOf n) cc)) = _
  rw [hv1]
  refine gathered_hi X ut it _ n cc ?_ ?_
  · show win1_1.index (ptOf n) (0 : Fin 2) * 8192 + 1 * (n.val % 8192) = 16384 + n.val
    rw [e0]; show (n.val / 8192 + 2) * 8192 + 1 * (n.val % 8192) = 16384 + n.val; omega
  · show win1_1.index (ptOf n) (1 : Fin 2) * 128 + 1 * cc.val = cc.val
    rw [e1]; omega

end

section
variable (c : Dev nD) (t : Fin cfg1.N)

/-- The three thirds of the weights block are the thirds of the first layer's weights. -/
theorem w1a_apply (cc : Fin 128) (k : Fin 8) :
    View.ld (iblk Vr c 2 t) rW1a (ix2 cc k) = Cert.Spec.w1a (Vr c main_arg5) cc k := by
  obtain ⟨-, -, -, -, e0, e1, -⟩ := idx_in t
  show Vr c main_arg5 (((cfg1.win 2).blk t).view.emb (rW1a.idx (ix2 cc k))) = Vr c main_arg5 (ix2 (⟨cc.val, by omega⟩ : Fin 384) k)
  refine congrArg (Vr c main_arg5) (funext fun a => Fin.ext ?_)
  match a with
  | ⟨0, _⟩ => show win1_2.index t (0 : Fin 2) * 384 + 1 * (0 + 1 * cc.val) = cc.val; rw [e0]; omega
  | ⟨1, _⟩ => show win1_2.index t (1 : Fin 2) * 8 + 1 * (0 + 1 * k.val) = k.val; rw [e1]; omega

theorem w1b_apply (cc : Fin 128) (k : Fin 8) :
    View.ld (iblk Vr c 2 t) rW1b (ix2 cc k) = Cert.Spec.w1b (Vr c main_arg5) cc k := by
  obtain ⟨-, -, -, -, e0, e1, -⟩ := idx_in t
  show Vr c main_arg5 (((cfg1.win 2).blk t).view.emb (rW1b.idx (ix2 cc k))) = Vr c main_arg5 (ix2 (⟨128 + cc.val, by omega⟩ : Fin 384) k)
  refine congrArg (Vr c main_arg5) (funext fun a => Fin.ext ?_)
  match a with
  | ⟨0, _⟩ => show win1_2.index t (0 : Fin 2) * 384 + 1 * (128 + 1 * cc.val) = 128 + cc.val; rw [e0]; omega
  | ⟨1, _⟩ => show win1_2.index t (1 : Fin 2) * 8 + 1 * (0 + 1 * k.val) = k.val; rw [e1]; omega

theorem w1c_apply (cc : Fin 128) (k : Fin 8) :
    View.ld (iblk Vr c 2 t) rW1c (ix2 cc k) = Cert.Spec.w1c (Vr c main_arg5) cc k := by
  obtain ⟨-, -, -, -, e0, e1, -⟩ := idx_in t
  show Vr c main_arg5 (((cfg1.win 2).blk t).view.emb (rW1c.idx (ix2 cc k))) = Vr c main_arg5 (ix2 (⟨256 + cc.val, by omega⟩ : Fin 384) k)
  refine congrArg (Vr c main_arg5) (funext fun a => Fin.ext ?_)
  match a with
  | ⟨0, _⟩ => show win1_2.index t (0 : Fin 2) * 384 + 1 * (256 + 1 * cc.val) = 256 + cc.val; rw [e0]; omega
  | ⟨1, _⟩ => show win1_2.index t (1 : Fin 2) * 8 + 1 * (0 + 1 * k.val) = k.val; rw [e1]; omega

/-- The biases' and the output weights' blocks are their arrays. -/
theorem b1_apply (k : Fin 8) : iblk Vr c 3 t (ix1 k) = Vr c main_arg6 (ix1 k) := by
  obtain ⟨-, -, -, -, -, -, e0, -⟩ := idx_in t
  show Vr c main_arg6 (((cfg1.win 3).blk t).view.emb (ix1 k)) = Vr c main_arg6 (ix1 k)
  refine congrArg (Vr c main_arg6) (funext fun a => Fin.ext ?_)
  match a with
  | ⟨0, _⟩ => show win1_3.index t (0 : Fin 1) * 8 + 1 * k.val = k.val; rw [e0]; omega

theorem w2_apply (k : Fin 8) (z : Fin 1) : iblk Vr c 4 t (ix2 k z) = Vr c main_arg7 (ix2 k z) := by
  obtain ⟨-, -, -, -, -, -, -, e0, e1, -⟩ := idx_in t
  show Vr c main_arg7 (((cfg1.win 4).blk t).view.emb (ix2 k z)) = Vr c main_arg7 (ix2 k z)
  refine congrArg (Vr c main_arg7) (funext fun a => Fin.ext ?_)
  match a with
  | ⟨0, _⟩ => show win1_4.index t (0 : Fin 2) * 8 + 1 * k.val = k.val; rw [e0]; omega
  | ⟨1, _⟩ => show win1_4.index t (1 : Fin 2) * 1 + 1 * z.val = z.val; rw [e1]; omega

theorem b2_apply (z : Fin 1) : iblk Vr c 5 t (ix1 z) = Vr c main_arg8 (ix1 z) := by
  obtain ⟨-, -, -, -, -, -, -, -, -, e0⟩ := idx_in t
  show Vr c main_arg8 (((cfg1.win 5).blk t).view.emb (ix1 z)) = Vr c main_arg8 (ix1 z)
  refine congrArg (Vr c main_arg8) (funext fun a => Fin.ext ?_)
  match a with
  | ⟨0, _⟩ => show win1_5.index t (0 : Fin 1) * 1 + 1 * z.val = z.val; rw [e0]; omega

end

/-! ## The result row is the specification's -/

/-- Entry n of the result row, when the gathered rows are those of the index list X and the tables, is the
    specification's result on example n, the user indices the first half of X and the item indices the second. -/
theorem regionOut_ideal (c : Dev nD) (X : S32768.Idx → BitVec 32) (ut it : S100000x128.Idx → EReal)
    (hv1 : Vr c main_v1 = gathered (F := Ideal) X ut it) (n : Fin 16384) :
    regionOut Vr c (ix2 (0 : Fin 1) n)
      = Cert.Spec.out (xlo X) (xhi X) ut it (Vr c main_arg5) (Vr c main_arg6) (Vr c main_arg7) (Vr c main_arg8) n := by
  rw [regionOut_apply]
  unfold pointOut
  refine (MlpValue.pay_apply _ _ _ _ _ _ _ _ (0 : Fin 1) (colOf n)).trans ?_
  unfold Cert.Spec.out Cert.Spec.score Cert.Spec.hidden
  simp only [ublk_apply Vr c X ut it hv1 n, iblk_apply Vr c X ut it hv1 n, w1a_apply Vr c, w1b_apply Vr c, w1c_apply Vr c,
    b1_apply Vr c, w2_apply Vr c, b2_apply Vr c]

end Cert.KernelIdeal.Sc
end
-- ==== Proof.ScValue.lean ====
/-
  The kernel's result over the extended reals. The final reshape reads the dense stage's one-row output by columns;
  that output at column n is the stage's arithmetic on row n of the two halves of the gathered rows; those rows are
  the table rows the n-th words of the two index arrays name. So the result is the specification's function of the
  nine arguments.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.KernelIdeal
import proofs.«202841_g12773232738622_fold_wed_m_434_41_alg».proof.Proof.Gen.KernelIdeal.Skeleton
import proofs.«202841_g12773232738622_fold_wed_m_434_41_alg».proof.Proof.Gen.KernelIdeal.Launch
import proofs.«202841_g12773232738622_fold_wed_m_434_41_alg».proof.Proof.Gen.KernelIdeal.Points
import proofs.«202841_g12773232738622_fold_wed_m_434_41_alg».proof.Proof.ScRun
import proofs.«202841_g12773232738622_fold_wed_m_434_41_alg».proof.Proof.RegionValue

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.ValueIdx

variable (m : (ℓ : Loc nD τ sig) → Buf (Elt Ideal) ℓ)

/-- The reshape reads the one-row output by columns. -/
theorem V4_r_apply (d : Dev nD) (n : Fin 16384) (z : Fin 1) : V4 m d r' (ix2 n z) = V3 m d y' (ix2 (0 : Fin 1) n) := by
  have h := StableHlo.reshape_result (τ := τ) (Val := Elt Ideal) main_v2 main_v3 rfl shapeCasts_S1x16384_S16384x1 ⟨by decide, by decide⟩ ⟨by decide, by decide⟩ (V3 m d)
  show (opRs (F := Ideal)).result (V3 m d) r' (ix2 n z) = _
  rw [h]; exact Glue.reshape_col (V3 m d y') n z

/-- The halves of the joined index list are the two index arrays. -/
theorem xlo_Xd (d : Dev nD) : xlo (Xd m d) = m ((SparseCore.T d).loc main_arg1) := by
  funext j; rw [Xd_eq, eq_ix1 j]; exact Glue.cat_lo _ _ (j 0)
theorem xhi_Xd (d : Dev nD) : xhi (Xd m d) = m ((SparseCore.T d).loc main_arg2) := by
  funext j; rw [Xd_eq, eq_ix1 j]; exact Glue.cat_hi _ _ (j 0)

/-- The result array is the specification's function of the nine arguments. -/
theorem result_eq_G (d : Dev nD) :
    V4 m d r' = Cert.Spec.G (m ((SparseCore.T d).loc main_arg1)) (m ((SparseCore.T d).loc main_arg2)) (m ((SparseCore.T d).loc main_arg3)) (m ((SparseCore.T d).loc main_arg4))
      (m ((SparseCore.T d).loc main_arg5)) (m ((SparseCore.T d).loc main_arg6)) (m ((SparseCore.T d).loc main_arg7)) (m ((SparseCore.T d).loc main_arg8)) := by
  funext j
  obtain ⟨n, z, rfl⟩ : ∃ (n : Fin 16384) (z : Fin 1), j = ix2 n z := ⟨j 0, j 1, eq_ix2 j⟩
  rw [V4_r_apply, V3_y, arrAt_out, regionOut_ideal (Vr m) d (Xd m d) (m (uLoc d)) (m (iLoc d)) (Vr_o m d) n, Cert.Spec.G_apply,
    xlo_Xd, xhi_Xd, Vr_arg m d main_arg5 (by decide) (by decide), Vr_arg m d main_arg6 (by decide) (by decide),
    Vr_arg m d main_arg7 (by decide) (by decide), Vr_arg m d main_arg8 (by decide) (by decide)]

/-- The run with its result read as the specification. -/
theorem run_G (g : Dev nD → PrngReg)
    (h1 : ∀ (c : Dev nD) j, (m ((c.tc : Thread nD τ).loc main_arg1) j).toNat < 100000)
    (h2 : ∀ (c : Dev nD) j, (m ((c.tc : Thread nD τ).loc main_arg2) j).toNat < 100000) :
    θ_run (Cert.KernelIdeal.defs (F := Ideal)) (Cert.KernelIdeal.threads (F := Ideal)) ⟨m, fun _ => 0, g⟩ (fun r => ∀ c : Dev nD,
      r.2.mem ((c.tc : Thread nD τ).loc main_v3) = Cert.Spec.G (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)
      ∧ r.2.mem ((c.tc : Thread nD τ).loc main_arg6) = m ((c.tc : Thread nD τ).loc main_arg6) ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (Cert.KernelIdeal.defs (F := Ideal)) _ _).mono (fun _ h c => ⟨(h c).1.trans (result_eq_G m c), (h c).2⟩) (run_main m g (inRange m h1 h2))

end Cert.KernelIdeal.Sc

end
-- ==== Proof.KScCommon.lean ====
/-
  The gather-then-dense program as the SparseCore launch sees it: its label signature and body table, the ghost
  state (the handshakes' rounds, a second copy of the rounds for the dense stage's staging cells, the local transfers'
  counters), and the arrays the two stages pass between them.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.Kernel
import proofs.«202841_g12773232738622_fold_wed_m_434_41_alg».proof.Proof.Gen.Kernel.Skeleton
import proofs.«202841_g12773232738622_fold_wed_m_434_41_alg».proof.Proof.Gen.Kernel.Launch
import proofs.«202841_g12773232738622_fold_wed_m_434_41_alg».proof.Proof.Gen.Kernel.Points
import proofs.«202841_g12773232738622_fold_wed_m_434_41_alg».proof.Proof.Spec

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

/-! ## The arrays the gather stage works on -/

/-- The joined index list (the user indices followed by the item indices), the two tables, and the gathered rows. -/
abbrev xLoc (d : Dev nD) : Loc nD τ sig := (SparseCore.T d).loc main_v0
abbrev uLoc (d : Dev nD) : Loc nD τ sig := (SparseCore.T d).loc main_arg3
abbrev iLoc (d : Dev nD) : Loc nD τ sig := (SparseCore.T d).loc main_arg4
abbrev oLoc (d : Dev nD) : Loc nD τ sig := (SparseCore.T d).loc main_v1

theorem xdiv : 64 ∣ S32768.size 0 := ⟨512, rfl⟩
theorem odiv : 256 ∣ S32768x128.size 0 := ⟨128, rfl⟩
/-- Part n of the index list cut into 64 stretches of 512 words. -/
abbrev xpart (n : Fin 64) : Rect S32768 := Rect.part (s := S32768) (a₀ := 0) xdiv n
/-- Part n of the gathered rows cut into 256 blocks of 128 rows. -/
abbrev opart (n : Fin 256) : Rect S32768x128 := Rect.part (s := S32768x128) (a₀ := 0) odiv n
abbrev xSet (n : Fin 64) : Finset S32768.Idx := ((Memref.whole main_v0_scv : Memref sig .scVector .hbm S32768 .i32).view.slice (xpart n)).set
abbrev oSet (n : Fin 256) : Finset S32768x128.Idx := ((Memref.whole main_v1_scv : Memref sig .scVector .hbm S32768x128 .f32).view.slice (opart n)).set

/-- Worker number of vector subcore i of SparseCore c: 2 i + c, below 32. Worker w owns words [512 w, 512 w + 512) of each
    half of the index list and the same rows of each half of the gathered rows. -/
def wid (c : Fin 2) (i : Fin 16) : Fin 32 := ⟨2 * i.val + c.val, by omega⟩
/-- The worker's stretch of half a of the index list. -/
def xN (a : Fin 2) (c : Fin 2) (i : Fin 16) : Fin 64 := ⟨32 * a.val + (wid c i).val, by have := (wid c i).isLt; omega⟩
/-- The worker's block b (128 rows) of half a of the gathered rows. -/
def oN (a : Fin 2) (c : Fin 2) (i : Fin 16) (b : Fin 4) : Fin 256 := ⟨128 * a.val + 4 * (wid c i).val + b.val, by have := (wid c i).isLt; omega⟩

/-! ## Shares of a table: the full share halved n times -/

/-- Leaf i of the depth-n halving of share q. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The share of a table a worker lends to its g-th gather in flight (four at most read one table at once). -/
def tq (c : Fin 2) (i : Fin 16) (g : Fin 4) : PosShare TreeShare := leaf 7 fullShare ⟨4 * (wid c i).val + g.val, by have := (wid c i).isLt; omega⟩

/-! ## The gathered rows as one function of the index list and the tables -/

/-- Row r of the result is the table row its index word names: the user table's for r below 16384, the item
    table's from there on. -/
def gathered (x : S32768.Idx → BitVec 32) (ut it : S100000x128.Idx → F .f32) : S32768x128.Idx → F .f32 := fun j =>
  if (j 0).val < 16384 then ut (ValueIdx.ix2 (Cert.Spec.row (x (ValueIdx.ix1 (⟨(j 0).val, ValueIdx.idx2_lt0 j⟩ : Fin 32768)))) (⟨(j 1).val, ValueIdx.idx2_lt1 j⟩ : Fin 128))
  else it (ValueIdx.ix2 (Cert.Spec.row (x (ValueIdx.ix1 (⟨(j 0).val, ValueIdx.idx2_lt0 j⟩ : Fin 32768)))) (⟨(j 1).val, ValueIdx.idx2_lt1 j⟩ : Fin 128))

/-! ## What a worker is handed, and hands back -/

variable (m : (ℓ : Loc nD τ sig) → Buf (Elt F) ℓ)

/-- A worker's holdings: its two stretches of the index list (whole share; contents X), four shares of each table
    (launch contents), and its eight blocks of the gathered rows at contents f. -/
def tileRes (X : (d : Dev nD) → Buf (Elt F) (xLoc d)) (d : Dev nD) (c : Fin 2) (i : Fin 16) (f : Buf (Elt F) (oLoc d)) : sProp 𝕄 :=
  iprop((bigSep Finset.univ fun a : Fin 2 => xLoc d ↦[xSet (xN a c i)]{fullShare} X d)
    ∗ (bigSep Finset.univ fun g : Fin 4 => uLoc d ↦{tq c i g} m (uLoc d))
    ∗ (bigSep Finset.univ fun g : Fin 4 => iLoc d ↦{tq c i g} m (iLoc d))
    ∗ (bigSep Finset.univ fun ab : Fin 2 × Fin 4 => oLoc d ↦[oSet (oN ab.1 c i ab.2)]{fullShare} f))

/-- The gathered rows from the launch memory and the joined index list's contents X d. -/
def gath (X : (d : Dev nD) → Buf (Elt F) (xLoc d)) (d : Dev nD) : Buf (Elt F) (oLoc d) :=
  gathered (F := F) (X d) (m (uLoc d)) (m (iLoc d))

/-- Every index word names a table row. -/
def InRange (X : (d : Dev nD) → Buf (Elt F) (xLoc d)) : Prop := ∀ (d : Dev nD) (j : S32768.Idx), (X d j).toNat < 100000

end Cert.Kernel.Sc

end
-- ==== Proof.KScLaunchA.lean ====
/-
  What the handshakes of the gather stage carry, and the launch element of the ghost state: the TensorCore's start
  hands SparseCore c its sixteen workers' holdings (their stretches of the index list, their shares of the two tables,
  their blocks of the result at the launch contents), each worker is handed its own and hands it back with its blocks
  holding the gathered rows; the launch element funds the handshakes and the dense stage's staging cells.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.Kernel
import proofs.«202841_g12773232738622_fold_wed_m_434_41_alg».proof.Proof.Gen.Kernel.Skeleton
import proofs.«202841_g12773232738622_fold_wed_m_434_41_alg».proof.Proof.Gen.Kernel.Launch
import proofs.«202841_g12773232738622_fold_wed_m_434_41_alg».proof.Proof.Gen.Kernel.Points
import proofs.«202841_g12773232738622_fold_wed_m_434_41_alg».proof.Proof.KScCommon

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (X : (d : Dev nD) → Buf (Elt F) (xLoc d))

/-! ## What the handshakes carry -/

def P : (K (F := F)).Pay (nD := nD) (Val := Elt F) (Name := ℕ) (U := UU) where
  st := fun q d c => match q with | 0 => bigSep Finset.univ fun i : Fin 16 => tileRes m X d (Fin.cast nCore_zero c) i (m (oLoc d))
  dn := fun q d c => match q with | 0 => bigSep Finset.univ fun i : Fin 16 => tileRes m X d (Fin.cast nCore_zero c) i (gath m X d)
  go := fun q d c i => match q with | 0 => tileRes m X d (Fin.cast nCore_zero c) (Fin.cast nSub_zero i) (m (oLoc d))
  td := fun q d c i => match q with | 0 => tileRes m X d (Fin.cast nCore_zero c) (Fin.cast nSub_zero i) (gath m X d)
  x := fun _ _ => iprop(emp)

omit [FloatOps F] in
instance tileRes_storable (d : Dev nD) (c : Fin 2) (i : Fin 16) (f : Buf (Elt F) (oLoc d)) :
    BI.Storable (upEmb : UEmb _ 𝕄) (tileRes m X d c i f) := by
  unfold tileRes; infer_instance

instance P_storable : (P (F := F) m X).IsStorable where
  st q d c := match q with
    | 0 => (inferInstance : BI.Storable (upEmb : UEmb _ 𝕄) (bigSep Finset.univ fun i : Fin 16 => tileRes m X d (Fin.cast nCore_zero c) i (m (oLoc d))))
  dn q d c := match q with
    | 0 => (inferInstance : BI.Storable (upEmb : UEmb _ 𝕄) (bigSep Finset.univ fun i : Fin 16 => tileRes m X d (Fin.cast nCore_zero c) i (gath m X d)))
  go q d c i := match q with
    | 0 => (inferInstance : BI.Storable (upEmb : UEmb _ 𝕄) (tileRes m X d (Fin.cast nCore_zero c) (Fin.cast nSub_zero i) (m (oLoc d))))
  td q d c i := match q with
    | 0 => (inferInstance : BI.Storable (upEmb : UEmb _ 𝕄) (tileRes m X d (Fin.cast nCore_zero c) (Fin.cast nSub_zero i) (gath m X d)))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's holdings are its workers' and come back as theirs. -/
theorem vecSplit : (K (F := F)).VecSplit' (P m X) 0 := by
  intro d c
  show (bigSep Finset.univ fun i : Fin 16 => tileRes m X d (Fin.cast nCore_zero c) i (m (oLoc d))) ⊢ |={Set.univ}=> iprop(
      (bigSep Finset.univ fun i : Fin ((K (F := F)).nSub 0) => tileRes m X d (Fin.cast nCore_zero c) (Fin.cast nSub_zero i) (m (oLoc d)))
      ∗ ((bigSep Finset.univ fun i : Fin ((K (F := F)).nSub 0) => tileRes m X d (Fin.cast nCore_zero c) (Fin.cast nSub_zero i) (gath m X d))
          -∗ (bigSep Finset.univ fun i : Fin 16 => tileRes m X d (Fin.cast nCore_zero c) i (gath m X d))))
  rw [bigSep_tasks (F := F) (fun i => tileRes m X d (Fin.cast nCore_zero c) i (m (oLoc d))),
    bigSep_tasks (F := F) (fun i => tileRes m X d (Fin.cast nCore_zero c) i (gath m X d))]
  iintro H; imodintro
  isplitl [H]; · iexact H
  iintro H; iexact H

/-! ## The dense stage's pipeline, table-less, and the launch element -/

/-- The one pipeline prefetches nothing: its admissible contents are the empty ones. -/
abbrev adm : (p : Fin 1) → (pcfgs (F := F) p).Adm := fun p => (cfgs p).toPCfg_adm

theorem pinj : Function.Injective (Pipeline.cellOf (nD := nD) (τ := τ) (Pipeline.pin (pcfgs (F := F)) adm)) := Gen.cellOf_inj

def u₀ : UU :=
  (initOf (K (F := F)).hsCells (K (F := F)).hsToks,
    (initOf (Pipeline.cells (Pipeline.pin (pcfgs (F := F)) adm) pinj) (Pipeline.launchToks (Pipeline.pin (pcfgs (F := F)) adm) pinj), 1))

/-- What the launch deals device d's TensorCore for the dense stage: its staging cells' ghost state and duty tokens. -/
def G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

omit [FloatOps F] in
theorem bigSep_emp' {I : Type} (s : Finset I) : (bigSep s fun _ => iprop(emp)) = (iprop(emp) : sProp 𝕄) := bigSep_emp_const s

theorem hu₀ : iprop(ownU (u₀ (F := F)) ∗ (P m X).oxCred ∗ (K (F := F)).freeSems0)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m X).x q thr) := by
  unfold u₀
  iintro ⟨Hu, -, -⟩
  ihave H := (ownU_pair (initOf (K (F := F)).hsCells (K (F := F)).hsToks) _) $$ Hu
  icases H with ⟨HH, HR⟩
  ihave H2 := (own_pair_emb embR _ _) $$ HR
  icases H2 with ⟨HP, -⟩
  imod (show (BI.own (((Emb.inl : Emb UP (UP × Counters)).trans embR)
        (initOf (Pipeline.cells (Pipeline.pin (pcfgs (F := F)) adm) pinj) (Pipeline.launchToks (Pipeline.pin (pcfgs (F := F)) adm) pinj))) : sProp 𝕄) ⊢ _ from
      Pipeline.fund_ghost (Pipeline.pin (pcfgs (F := F)) adm) (EP (F := F)) pinj) $$ HP with ⟨Hg, Ht⟩
  imodintro
  isplitl [HH]; · iexact HH
  isplitl [Hg Ht]
  · unfold G
    rw [bigSep_sep']
    isplitl [Hg]
    · ihave Hg' := (Entails.of_eq (bigSep_congr fun d _ => bigSep_univ_of_subsingleton (0 : Fin 1))) $$ Hg; iexact Hg'
    · ihave Ht' := (Entails.of_eq (bigSep_congr fun d _ => bigSep_univ_of_subsingleton (0 : Fin 1))) $$ Ht; iexact Ht'
  rw [show (bigSep Finset.univ fun thr : Thread nD τ => bigSep Finset.univ fun q : Fin 1 => (P (F := F) m X).x q thr) = bigSep Finset.univ fun _ => iprop(emp) from
    bigSep_congr fun _ _ => bigSep_univ_of_subsingleton (0 : Fin 1), bigSep_emp']
  iempintro

end Cert.Kernel.Sc

end
-- ==== Proof.KScPartition.lean ====
/-
  The arrays of the gather stage cut among its 32 workers: the joined index list into 64 stretches of 512 words (a
  worker owns one in each half), the gathered rows into 256 blocks of 128 rows (a worker owns four in each half), and
  each table's whole share into 128 leaves of the binary halving (a worker owns four). Each cut is a bijection between
  (core, subcore, piece) and the pieces' numbers, so the whole array is the iterated separating conjunction of the
  workers' holdings.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.Kernel
import proofs.«202841_g12773232738622_fold_wed_m_434_41_alg».proof.Proof.Gen.Kernel.Skeleton
import proofs.«202841_g12773232738622_fold_wed_m_434_41_alg».proof.Proof.Gen.Kernel.Launch
import proofs.«202841_g12773232738622_fold_wed_m_434_41_alg».proof.Proof.Gen.Kernel.Points
import proofs.«202841_g12773232738622_fold_wed_m_434_41_alg».proof.Proof.KScCommon

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The numberings are bijections -/

/-- (core, subcore, half) ↦ the stretch's number 32 a + 2 i + c. -/
def xEquiv : Fin 2 × Fin 16 × Fin 2 ≃ Fin 64 where
  toFun p := xN p.2.2 p.1 p.2.1
  invFun n := (⟨n.val % 2, by omega⟩, ⟨n.val % 32 / 2, by omega⟩, ⟨n.val / 32, by omega⟩)
  left_inv p := by
    obtain ⟨c, i, a⟩ := p
    have hc := c.isLt; have hi := i.isLt; have ha := a.isLt
    simp only [xN, wid, Prod.mk.injEq]
    refine ⟨Fin.ext ?_, Fin.ext ?_, Fin.ext ?_⟩ <;> simp only <;> omega
  right_inv n := by
    have hn := n.isLt
    apply Fin.ext; simp only [xN, wid]; omega

/-- (core, subcore, (half, block)) ↦ the block's number 128 a + 4 (2 i + c) + b. -/
def oEquiv : Fin 2 × Fin 16 × (Fin 2 × Fin 4) ≃ Fin 256 where
  toFun p := oN p.2.2.1 p.1 p.2.1 p.2.2.2
  invFun n := (⟨n.val % 128 / 4 % 2, by omega⟩, ⟨n.val % 128 / 4 / 2, by omega⟩, ⟨n.val / 128, by omega⟩, ⟨n.val % 4, by omega⟩)
  left_inv p := by
    obtain ⟨c, i, a, b⟩ := p
    have hc := c.isLt; have hi := i.isLt; have ha := a.isLt; have hb := b.isLt
    simp only [oN, wid, Prod.mk.injEq]
    refine ⟨Fin.ext ?_, Fin.ext ?_, Fin.ext ?_, Fin.ext ?_⟩ <;> simp only <;> omega
  right_inv n := by
    have hn := n.isLt
    apply Fin.ext; simp only [oN, wid]; omega

/-- (core, subcore, gather) ↦ the leaf's number 4 (2 i + c) + g. -/
def tEquiv : Fin 2 × Fin 16 × Fin 4 ≃ Fin (2 ^ 7) where
  toFun p := ⟨4 * (wid p.1 p.2.1).val + p.2.2.val, by have := (wid p.1 p.2.1).isLt; have := p.2.2.isLt; omega⟩
  invFun n := (⟨n.val / 4 % 2, by omega⟩, ⟨n.val / 4 / 2, by have := n.isLt; omega⟩, ⟨n.val % 4, by omega⟩)
  left_inv p := by
    obtain ⟨c, i, g⟩ := p
    have hc := c.isLt; have hi := i.isLt; have hg := g.isLt
    simp only [wid, Prod.mk.injEq]
    refine ⟨Fin.ext ?_, Fin.ext ?_, Fin.ext ?_⟩ <;> simp only <;> omega
  right_inv n := by
    have hn := n.isLt
    apply Fin.ext; simp only [wid]; omega

/-! ## A share is its leaves -/

/-- The leaves of depth n + 1 are those of the two halves. -/
def halves (n : ℕ) : Fin (2 ^ n) ⊕ Fin (2 ^ n) ≃ Fin (2 ^ (n + 1)) := finSumFinEquiv.trans (finCongr (by omega))

theorem halves_inl (n : ℕ) (i : Fin (2 ^ n)) : (halves n (Sum.inl i)).val = i.val := by simp [halves]
theorem halves_inr (n : ℕ) (i : Fin (2 ^ n)) : (halves n (Sum.inr i)).val = 2 ^ n + i.val := by simp [halves]; omega

theorem leaf_halves_inl (n : ℕ) (q : PosShare TreeShare) (i : Fin (2 ^ n)) : leaf (n + 1) q (halves n (Sum.inl i)) = leaf n q.left i := by
  have h : (halves n (Sum.inl i)).val < 2 ^ n := by rw [halves_inl]; exact i.isLt
  rw [leaf, dif_pos h]; exact congrArg (leaf n q.left) (Fin.ext (halves_inl n i))
theorem leaf_halves_inr (n : ℕ) (q : PosShare TreeShare) (i : Fin (2 ^ n)) : leaf (n + 1) q (halves n (Sum.inr i)) = leaf n q.right i := by
  have h : ¬(halves n (Sum.inr i)).val < 2 ^ n := by rw [halves_inr]; omega
  rw [leaf, dif_neg h]; exact congrArg (leaf n q.right) (Fin.ext (by simp only [halves_inr]; omega))

/-- Holding an element set at share q is holding it at every leaf of q's depth-n halving. -/
theorem pointsTo_leaf_split {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaf_split I f n q.left, pointsTo_leaf_split I f n q.right,
      bigSep_univ_equiv (halves n) (fun i : Fin (2 ^ (n + 1)) => (ℓ ↦[I]{leaf (n + 1) q i} f : sProp 𝕄)), bigSep_univ_sum]
    congr 1 <;> refine bigSep_congr fun i _ => ?_
    · rw [leaf_halves_inl]
    · rw [leaf_halves_inr]

/-! ## The three cuts -/

theorem xSet_eq (n : Fin 64) : xSet n = (xpart n).set := by
  show ((View.whole (main_v0_scv : Ref sig .scVector)).slice (xpart n)).set = _
  rw [View.set_slice]; exact Finset.map_refl
theorem oSet_eq (n : Fin 256) : oSet n = (opart n).set := by
  show ((View.whole (main_v1_scv : Ref sig .scVector)).slice (opart n)).set = _
  rw [View.set_slice]; exact Finset.map_refl

theorem x_cut (d : Dev nD) (f : Buf (Elt F) (xLoc d)) :
    (xLoc d ↦{fullShare} f : sProp 𝕄)
      = bigSep Finset.univ fun c : Fin 2 => bigSep Finset.univ fun i : Fin 16 => bigSep Finset.univ fun a : Fin 2 => xLoc d ↦[xSet (xN a c i)]{fullShare} f := by
  have h1 : (xLoc d ↦{fullShare} f : sProp 𝕄) = bigSep Finset.univ fun n : Fin 64 => xLoc d ↦[xSet n]{fullShare} f := by
    rw [← pointsTo_biUnion Finset.univ (ℓ := xLoc d) xSet (fun n _ n' _ h => by rw [xSet_eq, xSet_eq]; exact Rect.part_disjoint xdiv h),
      (Finset.biUnion_congr rfl fun n _ => xSet_eq n).trans (Rect.biUnion_part xdiv)]; try rfl
  rw [h1, bigSep_univ_equiv xEquiv, bigSep_univ_prod]
  refine bigSep_congr fun c _ => ?_
  rw [bigSep_univ_prod]; rfl

theorem o_cut (d : Dev nD) (f : Buf (Elt F) (oLoc d)) :
    (oLoc d ↦{fullShare} f : sProp 𝕄)
      = bigSep Finset.univ fun c : Fin 2 => bigSep Finset.univ fun i : Fin 16 => bigSep Finset.univ fun ab : Fin 2 × Fin 4 => oLoc d ↦[oSet (oN ab.1 c i ab.2)]{fullShare} f := by
  have h1 : (oLoc d ↦{fullShare} f : sProp 𝕄) = bigSep Finset.univ fun n : Fin 256 => oLoc d ↦[oSet n]{fullShare} f := by
    rw [← pointsTo_biUnion Finset.univ (ℓ := oLoc d) oSet (fun n _ n' _ h => by rw [oSet_eq, oSet_eq]; exact Rect.part_disjoint odiv h),
      (Finset.biUnion_congr rfl fun n _ => oSet_eq n).trans (Rect.biUnion_part odiv)]; try rfl
  rw [h1, bigSep_univ_equiv oEquiv, bigSep_univ_prod]
  refine bigSep_congr fun c _ => ?_
  rw [bigSep_univ_prod]; rfl

theorem t_cut (ℓ : Loc nD τ sig) (f : Buf (Elt F) ℓ) :
    (ℓ ↦{fullShare} f : sProp 𝕄)
      = bigSep Finset.univ fun c : Fin 2 => bigSep Finset.univ fun i : Fin 16 => bigSep Finset.univ fun g : Fin 4 => ℓ ↦{tq c i g} f := by
  rw [pointsTo_leaf_split Finset.univ f 7 fullShare, bigSep_univ_equiv tEquiv, bigSep_univ_prod]
  refine bigSep_congr fun c _ => ?_
  rw [bigSep_univ_prod]; rfl

/-- The four arrays whole are the 32 workers' holdings. -/
theorem whole_cut (m : (ℓ : Loc nD τ sig) → Buf (Elt F) ℓ) (X : (d : Dev nD) → Buf (Elt F) (xLoc d)) (d : Dev nD) (f : Buf (Elt F) (oLoc d)) :
    (iprop((xLoc d ↦{fullShare} X d) ∗ (uLoc d ↦{fullShare} m (uLoc d)) ∗ (iLoc d ↦{fullShare} m (iLoc d)) ∗ (oLoc d ↦{fullShare} f)) : sProp 𝕄)
      = bigSep Finset.univ fun c : Fin 2 => bigSep Finset.univ fun i : Fin 16 => tileRes m X d c i f := by
  rw [x_cut, t_cut (uLoc d), t_cut (iLoc d), o_cut]
  simp only [← bigSep_sep']
  rfl

end Cert.Kernel.Sc

end
-- ==== Proof.KRegion.lean ====
/-
  The dense stage as a pipeline region: its proof data and its body obligation.

  The stage walks two points. At point t it is handed block t of the gathered rows' first half (8192 user rows of 128
  columns) and block t + 2 of the same array (the matching 8192 item rows), the first layer's weights and bias, the
  output weights and bias (each whole, fetched at the first point and found unchanged at the second), and the
  staging buffer of block t of the result row (8192 entries), which it overwrites whole. The body loads its inputs,
  computes one value from them and stores it: so what the result's buffer holds after the body is that value of the six
  input blocks, and every input's buffer holds what it held.
-/
import proofs.«202841_g12773232738622_fold_wed_m_434_41_alg».proof.Proof.KScCommon
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Sc

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Vr : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vr c (Pipeline.arrRef spec1 w))

/-! ## The body's accesses -/

/-- A rows block, whole. -/
abbrev rRows : Rect S8192x128 := Rect.unit (s := S8192x128) ![0, 0] S8192x128.size inb_S8192x128_S8192x128_0_0
/-- The three thirds of the first layer's weights: rows 0.., 128.., 256.. of the 384. -/
abbrev rW1a : Rect S384x8 := Rect.unit (s := S384x8) ![0, 0] S128x8.size inb_S384x8_S128x8_0_0
abbrev rW1b : Rect S384x8 := Rect.unit (s := S384x8) ![128, 0] S128x8.size inb_S384x8_S128x8_128_0
abbrev rW1c : Rect S384x8 := Rect.unit (s := S384x8) ![256, 0] S128x8.size inb_S384x8_S128x8_256_0
/-- The first bias, the output weights, the output bias and the result block, each whole. -/
abbrev rB1 : Rect S8 := Rect.unit (s := S8) ![0] S8.size inb_S8_S8_0
abbrev rW2 : Rect S8x1 := Rect.unit (s := S8x1) ![0, 0] S8x1.size inb_S8x1_S8x1_0_0
abbrev rB2 : Rect S1 := Rect.unit (s := S1) ![0] S1.size inb_S1_S1_0
abbrev rOut : Rect S1x8192 := Rect.unit (s := S1x8192) ![0, 0] S1x8192.size inb_S1x8192_S1x8192_0_0

/-! ## What the body leaves in the result window's buffer -/

/-- The result window's staging buffer after the body, from the input windows' blocks: its one store as a piece. -/
def out6 (x0 x1 : Vec F S8192x128 .f32) (w : Vec F S384x8 .f32) (b1 : Vec F S8 .f32) (w2 : Vec F S8x1 .f32) (b2 : Vec F S1 .f32) :
    Vec F S1x8192 .f32 :=
  View.canon [⟨rOut, k1_pay1 (View.ld x0 rRows) (View.ld x1 rRows) (View.ld w rW1a) (View.ld w rW1b) (View.ld w rW1c)
    (View.ld b1 rB1) (View.ld w2 rW2) (View.ld b2 rB2)⟩]

/-- The one store covers the buffer. -/
theorem cover6 (p0 : Vec F S1x8192 .f32) (y : S1x8192.Idx) :
    ∃ pc ∈ ([⟨rOut, p0⟩] : List (View.Piece (Elt F) S1x8192 .f32)), y ∈ pc.1.set :=
  ⟨_, List.mem_singleton_self _, View.mem_set_unit_zero (funext fun a => by match a with | ⟨0, _⟩ => rfl | ⟨1, _⟩ => rfl) inb_S1x8192_S1x8192_0_0 y⟩

/-! ## The body's triple -/

set_option maxHeartbeats 1000000 in
/-- The body on whole staging memrefs, the inputs' at read contents and the result's at anything, runs to the
    continuation holding the inputs' as they were and the result's at out6 of the inputs'. -/
theorem sound_kernel (c : Dev nD) (E : Set ℕ) (i : grid1.Coords)
    (arg1 : Memref sig .tc .vmem S8192x128 .f32) (harg1 : arg1.IsWhole) (arg2 : Memref sig .tc .vmem S8192x128 .f32) (harg2 : arg2.IsWhole)
    (arg3 : Memref sig .tc .vmem S384x8 .f32) (harg3 : arg3.IsWhole) (arg4 : Memref sig .tc .vmem S8 .f32) (harg4 : arg4.IsWhole)
    (arg5 : Memref sig .tc .vmem S8x1 .f32) (harg5 : arg5.IsWhole) (arg6 : Memref sig .tc .vmem S1 .f32) (harg6 : arg6.IsWhole)
    (arg7 : Memref sig .tc .vmem S1x8192 .f32) (harg7 : arg7.IsWhole)
    (x0 x1 : Vec F S8192x128 .f32) (w : Vec F S384x8 .f32) (b1 : Vec F S8 .f32) (w2 : Vec F S8x1 .f32) (b2 : Vec F S1 .f32)
    (K : PUnit → sProp 𝕄) :
    iprop(owns (c : Thread nD τ) arg1 fullShare x0 ∗ owns (c : Thread nD τ) arg2 fullShare x1 ∗ owns (c : Thread nD τ) arg3 fullShare w
        ∗ owns (c : Thread nD τ) arg4 fullShare b1 ∗ owns (c : Thread nD τ) arg5 fullShare w2 ∗ owns (c : Thread nD τ) arg6 fullShare b2
        ∗ (∃ d, owns (c : Thread nD τ) arg7 fullShare d)
        ∗ (iprop(owns (c : Thread nD τ) arg1 fullShare x0 ∗ owns (c : Thread nD τ) arg2 fullShare x1 ∗ owns (c : Thread nD τ) arg3 fullShare w
            ∗ owns (c : Thread nD τ) arg4 fullShare b1 ∗ owns (c : Thread nD τ) arg5 fullShare w2 ∗ owns (c : Thread nD τ) arg6 fullShare b2
            ∗ owns (c : Thread nD τ) arg7 fullShare (out6 x0 x1 w b1 w2 b2)) -∗ K ⟨⟩))
      ⊢ wp frame (wpE (defs₀ (F := F)) Variants.none c none) E
          (cc1_mlp_kernel i arg1 harg1 arg2 harg2 arg3 harg3 arg4 harg4 arg5 harg5 arg6 harg6 arg7 harg7) K := by
  simp only [cc1_mlp_kernel_eq_skeleton]; unfold cc1_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## Each input window's staging buffer holds its block -/

/-- Input window 0's current staging buffer holds its block at every point, fetched there or not, for any proof data
    whose array is the region's and whose body leaves the block in place: unfetched, the block index has not moved. -/
theorem before_0_of {c : Dev nD} (dat : Pipeline.Dat τ (Elt F) (HIx 1) ℕ UU ℕ cfg1 c) (hA : dat.A 0 = Vr c (Pipeline.arrRef spec1 0))
    (hafter : ∀ t, dat.after 0 t = iblk Vr c 0 t) (t : Fin cfg1.N) (d) : dat.before 0 t d = iblk Vr c 0 t :=
  (dat.before_in_eq_fetched 0 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-- Input window 1's current staging buffer holds its block at every point, fetched there or not, for any proof data
    whose array is the region's and whose body leaves the block in place: unfetched, the block index has not moved. -/
theorem before_1_of {c : Dev nD} (dat : Pipeline.Dat τ (Elt F) (HIx 1) ℕ UU ℕ cfg1 c) (hA : dat.A 1 = Vr c (Pipeline.arrRef spec1 1))
    (hafter : ∀ t, dat.after 1 t = iblk Vr c 1 t) (t : Fin cfg1.N) (d) : dat.before 1 t d = iblk Vr c 1 t :=
  (dat.before_in_eq_fetched 1 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-- Input window 2's current staging buffer holds its block at every point, fetched there or not, for any proof data
    whose array is the region's and whose body leaves the block in place: unfetched, the block index has not moved. -/
theorem before_2_of {c : Dev nD} (dat : Pipeline.Dat τ (Elt F) (HIx 1) ℕ UU ℕ cfg1 c) (hA : dat.A 2 = Vr c (Pipeline.arrRef spec1 2))
    (hafter : ∀ t, dat.after 2 t = iblk Vr c 2 t) (t : Fin cfg1.N) (d) : dat.before 2 t d = iblk Vr c 2 t :=
  (dat.before_in_eq_fetched 2 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-- Input window 3's current staging buffer holds its block at every point, fetched there or not, for any proof data
    whose array is the region's and whose body leaves the block in place: unfetched, the block index has not moved. -/
theorem before_3_of {c : Dev nD} (dat : Pipeline.Dat τ (Elt F) (HIx 1) ℕ UU ℕ cfg1 c) (hA : dat.A 3 = Vr c (Pipeline.arrRef spec1 3))
    (hafter : ∀ t, dat.after 3 t = iblk Vr c 3 t) (t : Fin cfg1.N) (d) : dat.before 3 t d = iblk Vr c 3 t :=
  (dat.before_in_eq_fetched 3 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-- Input window 4's current staging buffer holds its block at every point, fetched there or not, for any proof data
    whose array is the region's and whose body leaves the block in place: unfetched, the block index has not moved. -/
theorem before_4_of {c : Dev nD} (dat : Pipeline.Dat τ (Elt F) (HIx 1) ℕ UU ℕ cfg1 c) (hA : dat.A 4 = Vr c (Pipeline.arrRef spec1 4))
    (hafter : ∀ t, dat.after 4 t = iblk Vr c 4 t) (t : Fin cfg1.N) (d) : dat.before 4 t d = iblk Vr c 4 t :=
  (dat.before_in_eq_fetched 4 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-- Input window 5's current staging buffer holds its block at every point, fetched there or not, for any proof data
    whose array is the region's and whose body leaves the block in place: unfetched, the block index has not moved. -/
theorem before_5_of {c : Dev nD} (dat : Pipeline.Dat τ (Elt F) (HIx 1) ℕ UU ℕ cfg1 c) (hA : dat.A 5 = Vr c (Pipeline.arrRef spec1 5))
    (hafter : ∀ t, dat.after 5 t = iblk Vr c 5 t) (t : Fin cfg1.N) (d) : dat.before 5 t d = iblk Vr c 5 t :=
  (dat.before_in_eq_fetched 5 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-! ## The pipeline's proof data -/

/-- The region's invariant on core c: the core's scoped buffers that are no staging buffer, at some contents each, and
    its generator register at some state; the body uses neither. -/
def ΦR (c : Dev nD) : sProp 𝕄 :=
  iprop(Pipeline.scopedRest (Ix := HIx 1) (Name := ℕ) (U := UU) (Lvl := ℕ) (Val := Elt F) spec1 c ∗ ∃ r, prngReg c r)

/-- The proof data of the dense stage's pipeline on core c: the arrays as the region finds them; after the body at
    point t each input's buffer at its block and the result's at out6 of the input blocks; nothing owed; the two
    windows on the gathered rows take the two halves of that array's share, every other window its array's full share. -/
def rdat (c : Dev nD) : Pipeline.Dat τ (Elt F) (HIx 1) ℕ UU ℕ cfg1 c where
  A w := Vr c (Pipeline.arrRef spec1 w)
  after w t := match w with
    | ⟨0, _⟩ => iblk Vr c 0 t
    | ⟨1, _⟩ => iblk Vr c 1 t
    | ⟨2, _⟩ => iblk Vr c 2 t
    | ⟨3, _⟩ => iblk Vr c 3 t
    | ⟨4, _⟩ => iblk Vr c 4 t
    | ⟨5, _⟩ => iblk Vr c 5 t
    | ⟨6, _⟩ => out6 (iblk Vr c 0 t) (iblk Vr c 1 t) (iblk Vr c 2 t) (iblk Vr c 3 t) (iblk Vr c 4 t) (iblk Vr c 5 t)
  Φ _ := ΦR c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The proof data's arrays are the region's. -/
theorem A_eq (c : Dev nD) (w : Fin cfg1.W) : (rdat Vr c).A w = Vr c (Pipeline.arrRef spec1 w) := by
  dsimp only [rdat]

/-- What the body leaves, window by window. -/
theorem after_0 (c : Dev nD) (t : Fin cfg1.N) : (rdat Vr c).after 0 t = iblk Vr c 0 t := by dsimp only [rdat]
theorem after_1 (c : Dev nD) (t : Fin cfg1.N) : (rdat Vr c).after 1 t = iblk Vr c 1 t := by dsimp only [rdat]
theorem after_2 (c : Dev nD) (t : Fin cfg1.N) : (rdat Vr c).after 2 t = iblk Vr c 2 t := by dsimp only [rdat]
theorem after_3 (c : Dev nD) (t : Fin cfg1.N) : (rdat Vr c).after 3 t = iblk Vr c 3 t := by dsimp only [rdat]
theorem after_4 (c : Dev nD) (t : Fin cfg1.N) : (rdat Vr c).after 4 t = iblk Vr c 4 t := by dsimp only [rdat]
theorem after_5 (c : Dev nD) (t : Fin cfg1.N) : (rdat Vr c).after 5 t = iblk Vr c 5 t := by dsimp only [rdat]
theorem after_6 (c : Dev nD) (t : Fin cfg1.N) :
    (rdat Vr c).after 6 t = out6 (iblk Vr c 0 t) (iblk Vr c 1 t) (iblk Vr c 2 t) (iblk Vr c 3 t) (iblk Vr c 4 t) (iblk Vr c 5 t) := by dsimp only [rdat]

/-- Each input's current staging buffer holds its block at every point. -/
theorem before_0 (c : Dev nD) (t : Fin cfg1.N) (d) : (rdat Vr c).before 0 t d = iblk Vr c 0 t :=
  before_0_of Vr (rdat Vr c) (A_eq Vr c 0) (after_0 Vr c) t d
theorem before_1 (c : Dev nD) (t : Fin cfg1.N) (d) : (rdat Vr c).before 1 t d = iblk Vr c 1 t :=
  before_1_of Vr (rdat Vr c) (A_eq Vr c 1) (after_1 Vr c) t d
theorem before_2 (c : Dev nD) (t : Fin cfg1.N) (d) : (rdat Vr c).before 2 t d = iblk Vr c 2 t :=
  before_2_of Vr (rdat Vr c) (A_eq Vr c 2) (after_2 Vr c) t d
theorem before_3 (c : Dev nD) (t : Fin cfg1.N) (d) : (rdat Vr c).before 3 t d = iblk Vr c 3 t :=
  before_3_of Vr (rdat Vr c) (A_eq Vr c 3) (after_3 Vr c) t d
theorem before_4 (c : Dev nD) (t : Fin cfg1.N) (d) : (rdat Vr c).before 4 t d = iblk Vr c 4 t :=
  before_4_of Vr (rdat Vr c) (A_eq Vr c 4) (after_4 Vr c) t d
theorem before_5 (c : Dev nD) (t : Fin cfg1.N) (d) : (rdat Vr c).before 5 t d = iblk Vr c 5 t :=
  before_5_of Vr (rdat Vr c) (A_eq Vr c 5) (after_5 Vr c) t d

/-! ## The body obligation, at a generic point -/

/-- What the body is called with at point t, the windows one by one, -/
def bodyPre (c : Dev nD) (t : Fin cfg1.N) : sProp 𝕄 :=
  iprop((rdat Vr c).Φ t.castSucc ∗ (rdat Vr c).owesAt (default : HIx 1) t.castSucc
    ∗ (∃ d, owns (c : Thread nD τ) (st1_0 t) fullShare ((rdat Vr c).before 0 t d))
    ∗ (∃ d, owns (c : Thread nD τ) (st1_1 t) fullShare ((rdat Vr c).before 1 t d))
    ∗ (∃ d, owns (c : Thread nD τ) (st1_2 t) fullShare ((rdat Vr c).before 2 t d))
    ∗ (∃ d, owns (c : Thread nD τ) (st1_3 t) fullShare ((rdat Vr c).before 3 t d))
    ∗ (∃ d, owns (c : Thread nD τ) (st1_4 t) fullShare ((rdat Vr c).before 4 t d))
    ∗ (∃ d, owns (c : Thread nD τ) (st1_5 t) fullShare ((rdat Vr c).before 5 t d))
    ∗ (∃ d, owns (c : Thread nD τ) (st1_6 t) fullShare ((rdat Vr c).before 6 t d)))

/-- and what it returns. -/
def bodyPost (c : Dev nD) (t : Fin cfg1.N) : sProp 𝕄 :=
  iprop((rdat Vr c).Φ t.succ ∗ (rdat Vr c).owesAt (default : HIx 1) t.succ
    ∗ owns (c : Thread nD τ) (st1_0 t) fullShare ((rdat Vr c).after 0 t)
    ∗ owns (c : Thread nD τ) (st1_1 t) fullShare ((rdat Vr c).after 1 t)
    ∗ owns (c : Thread nD τ) (st1_2 t) fullShare ((rdat Vr c).after 2 t)
    ∗ owns (c : Thread nD τ) (st1_3 t) fullShare ((rdat Vr c).after 3 t)
    ∗ owns (c : Thread nD τ) (st1_4 t) fullShare ((rdat Vr c).after 4 t)
    ∗ owns (c : Thread nD τ) (st1_5 t) fullShare ((rdat Vr c).after 5 t)
    ∗ owns (c : Thread nD τ) (st1_6 t) fullShare ((rdat Vr c).after 6 t))

/-- The body at any point: the inputs' memrefs hold their blocks, so the body's triple applies; the invariant and the
    core's owed tallies pass through unread. -/
theorem sound_body (c : Dev nD) (t : Fin cfg1.N) :
    bodyPre Vr c t ⊢ wp frame (wpE (defs₀ (F := F)) Variants.none c none) Set.univ (bodyAt1 t) (fun _ => bodyPost Vr c t) := by
  unfold bodyPre bodyPost bodyAt1
  simp only [before_0, before_1, before_2, before_3, before_4, before_5]
  rw [show (rdat Vr c).Φ t.succ = (rdat Vr c).Φ t.castSucc from rfl,
    show (rdat Vr c).owesAt (default : HIx 1) t.succ = (rdat Vr c).owesAt (default : HIx 1) t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid1.coords t) _ _ _ _ _ _ _ _ _ _ _ _ _ _
    (iblk Vr c 0 t) (iblk Vr c 1 t) (iblk Vr c 2 t) (iblk Vr c 3 t) (iblk Vr c 4 t) (iblk Vr c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) :
    Pipeline.BodyObligation (rdat Vr c) (defs₀ (F := F)) Variants.none (default : HIx 1) Set.univ := fun t => by
  rw [bigSep_W1, bigSep_W1]
  exact sound_body Vr c t

end Cert.Kernel.Sc
end
-- ==== Proof.KScRegion.lean ====
/-
  The dense stage as one region of @main: the library's record of a kernel region over the stage's proof data — the
  windows' arrays (the gathered rows at two half shares, the weights and biases, the result), the other arrays of the
  TensorCore passing by, the generator register entering the stage's invariant and coming back.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.Kernel
import proofs.«202841_g12773232738622_fold_wed_m_434_41_alg».proof.Proof.Gen.Kernel.Skeleton
import proofs.«202841_g12773232738622_fold_wed_m_434_41_alg».proof.Proof.Gen.Kernel.Launch
import proofs.«202841_g12773232738622_fold_wed_m_434_41_alg».proof.Proof.Gen.Kernel.Points
import proofs.«202841_g12773232738622_fold_wed_m_434_41_alg».proof.Proof.KScLaunchA
import proofs.«202841_g12773232738622_fold_wed_m_434_41_alg».proof.Proof.KRegion

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type}

local notation "𝕄" => MT nD τ sig (HIx 1) (Elt F) ℕ UU ℕ

variable [FloatOps F] (Vr : (c : Dev nD) → (b : Ref sig .tc) → Buf (Elt F) ((c : Thread nD τ).loc b))

/-- The stage's proof data as the family the region record takes (one pipeline). -/
def pdats (_ : Fin 1) (c : Dev nD) : Pipeline.Dat τ (Elt F) (HIx 1) ℕ UU ℕ (Pipeline.pin (pcfgs (F := F)) adm 0) c := rdat Vr c

/-- The core owing nothing. -/
abbrev Rowe (c : Dev nD) : sProp 𝕄 := iprop(∃ W, owes (c : Thread nD τ) (0 : CellTallies nD τ sig (HIx 1)) W)

/-- The TensorCore's arrays no window is on, whole at W: the group indices, the two index arrays, the two tables, the
    joined index list, the final result. -/
def restArrays (c : Dev nD) (W : (b : Ref sig .tc) → Buf (Elt F) ((c : Thread nD τ).loc b)) : sProp 𝕄 :=
  iprop((((c : Thread nD τ).loc main_arg0) ↦{fullShare} W main_arg0) ∗ (((c : Thread nD τ).loc main_arg1) ↦{fullShare} W main_arg1)
    ∗ (((c : Thread nD τ).loc main_arg2) ↦{fullShare} W main_arg2) ∗ (((c : Thread nD τ).loc main_arg3) ↦{fullShare} W main_arg3)
    ∗ (((c : Thread nD τ).loc main_arg4) ↦{fullShare} W main_arg4) ∗ (((c : Thread nD τ).loc main_v0) ↦{fullShare} W main_v0)
    ∗ (((c : Thread nD τ).loc main_v3) ↦{fullShare} W main_v3))

/-- The thread state around the region: the windows' arrays at contents A, the rest at Vr, the generator register, nothing owed. -/
def regionState (c : Dev nD) (A : (w : Fin cfg1.W) → Buf (Elt F) ((cfg1.win w).arr.view.loc (c : Thread nD τ))) : sProp 𝕄 :=
  iprop((rdat Vr c).arrays A ∗ restArrays c (Vr c) ∗ (∃ r, prngReg c r) ∗ Rowe (F := F) c)

set_option backward.isDefEq.respectTransparency.types false in
/-- The region: the layout the launch decides, no semaphore of the body's own, the body obligation; entered with the
    arrays at the entry contents, left with them at what the write-backs leave. -/
def reg : Pipeline.RegionSeg (pcfgs (F := F)) adm (pdats Vr) (default : HIx 1) defs₀ 𝒱₀ (K (F := F)).L (K (F := F)).lev 0 where
  win := Gen.winFacts₀1
  block_pos := Gen.block_pos1
  stage_whole := Gen.stage_whole1
  K := PEmpty
  osem := fun k => k.elim
  ho := Pipeline.OwnSemFacts.none _
  hbody c := (body_obligation Vr c).loose
  hwaits := Pipeline.hwaits_of_owed_zero _ _ _ _ (K (F := F)).L (K (F := F)).lev 0 fun _ _ => rfl
  pre c := regionState Vr c ((rdat Vr c).arrAt · 0)
  post c := regionState Vr c ((rdat Vr c).arrAt · cfg1.N)
  X c := iprop(∃ r, prngReg c r)
  Y c := iprop(∃ r, prngReg c r)
  Z c := restArrays c (Vr c)
  hentry c := by
    unfold regionState
    iintro ⟨⟨Ha, Hz, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (pdats Vr 0 c).Φ 0 = ΦR (F := F) c from rfl]; unfold ΦR
    iintro ⟨Hp, -, Hr⟩
    isplitl [Hr]; · iexact Hr
    iexact Hp
  hout c := by
    rw [show (pdats Vr 0 c).Φ (Fin.last cfg1.N) = ΦR (F := F) c from rfl]; unfold ΦR
    iintro ⟨Hr, Hp⟩
    isplitl [Hp]; · iexact Hp
    isplitr; · unfold Pipeline.ownSems0; rw [show (Finset.univ : Finset PEmpty) = ∅ from rfl, BI.bigSep_empty]; iempintro
    iexact Hr
  hexit c := by
    unfold regionState
    iintro ⟨Ha, HO, HY, HZ⟩
    imodintro
    isplitl [Ha]; · iexact Ha
    isplitl [HZ]; · iexact HZ
    isplitl [HY]; · iexact HY
    unfold Pipeline.Dat.owesAt Pipeline.owesWithin
    icases HO with ⟨%W, -, HO⟩; iexists W; iexact HO

end Cert.Kernel.Sc

end
-- ==== Proof.KScMainDefs.lean ====
/-
  @main on the TensorCore, its vocabulary: the two host operations (joining the index arrays; the final reshape), the
  TensorCore's thirteen arrays, and what they hold at each stage — at launch, after the join, after the gather stage,
  after the dense stage, after the reshape.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.Kernel
import proofs.«202841_g12773232738622_fold_wed_m_434_41_alg».proof.Proof.Gen.Kernel.Skeleton
import proofs.«202841_g12773232738622_fold_wed_m_434_41_alg».proof.Proof.Gen.Kernel.Launch
import proofs.«202841_g12773232738622_fold_wed_m_434_41_alg».proof.Proof.Gen.Kernel.Points
import proofs.«202841_g12773232738622_fold_wed_m_434_41_alg».proof.Proof.KScLaunchA
import proofs.«202841_g12773232738622_fold_wed_m_434_41_alg».proof.Proof.KScPartition
import proofs.«202841_g12773232738622_fold_wed_m_434_41_alg».proof.Proof.KScRegion

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.TcCoe

variable {F : FTy → Type}

local notation "𝕄" => MT nD τ sig (HIx 1) (Elt F) ℕ UU ℕ

/-! ## The arrays and the operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev a7' : DevRef τ sig := Proc.devRef .tc (main_arg7 : Ref sig .tc)
abbrev a8' : DevRef τ sig := Proc.devRef .tc (main_arg8 : Ref sig .tc)
abbrev x' : DevRef τ sig := Proc.devRef .tc (main_v0 : Ref sig .tc)
abbrev o' : DevRef τ sig := Proc.devRef .tc (main_v1 : Ref sig .tc)
abbrev y' : DevRef τ sig := Proc.devRef .tc (main_v2 : Ref sig .tc)
abbrev r' : DevRef τ sig := Proc.devRef .tc (main_v3 : Ref sig .tc)

/-- The TensorCore's arrays, all unscoped. -/
abbrev S13 : Finset (DevRef τ sig) := {a0', a1', a2', a3', a4', a5', a6', a7', a8', x', o', y', r'}

variable [FloatOps F]

/-- Joining the two index arrays. -/
abbrev opCat : HloOp τ sig (Elt F) :=
  StableHlo.binary main_arg1 main_arg2 main_v0 ((fun a b => concatenate S32768 0 [⟨S16384, a⟩, ⟨S16384, b⟩] concatenates_S16384_S16384_S32768_d0) : (⟨S16384, .i32⟩ : BufTy).Contents (Elt F) → (⟨S16384, .i32⟩ : BufTy).Contents (Elt F) → (⟨S32768, .i32⟩ : BufTy).Contents (Elt F))
/-- The final reshape of the one-row result to one column. -/
abbrev opRs : HloOp τ sig (Elt F) := StableHlo.reshape main_v2 main_v3 rfl shapeCasts_S1x16384_S16384x1

theorem hCat : (opCat (F := F)).bufs ⊆ S13 := show ({a1', a2', x'} : Finset (DevRef τ sig)) ⊆ S13 by decide
theorem hRs : (opRs (F := F)).bufs ⊆ S13 := show ({y', r'} : Finset (DevRef τ sig)) ⊆ S13 by decide

omit [FloatOps F] in
theorem held_S13 (d : Dev nD) (W : Valuation τ sig (Elt F)) :
    (held (T d) S13 W : sProp 𝕄)
      = iprop(((SparseCore.T d).loc main_arg0 ↦{fullShare} W a0') ∗ ((SparseCore.T d).loc main_arg1 ↦{fullShare} W a1') ∗ ((SparseCore.T d).loc main_arg2 ↦{fullShare} W a2')
          ∗ ((SparseCore.T d).loc main_arg3 ↦{fullShare} W a3') ∗ ((SparseCore.T d).loc main_arg4 ↦{fullShare} W a4') ∗ ((SparseCore.T d).loc main_arg5 ↦{fullShare} W a5')
          ∗ ((SparseCore.T d).loc main_arg6 ↦{fullShare} W a6') ∗ ((SparseCore.T d).loc main_arg7 ↦{fullShare} W a7') ∗ ((SparseCore.T d).loc main_arg8 ↦{fullShare} W a8')
          ∗ ((SparseCore.T d).loc main_v0 ↦{fullShare} W x') ∗ ((SparseCore.T d).loc main_v1 ↦{fullShare} W o') ∗ ((SparseCore.T d).loc main_v2 ↦{fullShare} W y')
          ∗ (SparseCore.T d).loc main_v3 ↦{fullShare} W r') := by
  unfold held S13
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1) ∗ ((SparseCore.T d).loc main_arg2 ↦{fullShare} W main_arg2)
          ∗ ((SparseCore.T d).loc main_arg3 ↦{fullShare} W main_arg3) ∗ ((SparseCore.T d).loc main_arg4 ↦{fullShare} W main_arg4) ∗ ((SparseCore.T d).loc main_arg5 ↦{fullShare} W main_arg5)
          ∗ ((SparseCore.T d).loc main_arg6 ↦{fullShare} W main_arg6) ∗ ((SparseCore.T d).loc main_arg7 ↦{fullShare} W main_arg7) ∗ ((SparseCore.T d).loc main_arg8 ↦{fullShare} W main_arg8)
          ∗ ((SparseCore.T d).loc main_v0 ↦{fullShare} W main_v0) ∗ ((SparseCore.T d).loc main_v1 ↦{fullShare} W main_v1) ∗ ((SparseCore.T d).loc main_v2 ↦{fullShare} W main_v2)
          ∗ (SparseCore.T d).loc main_v3 ↦{fullShare} W main_v3) := by
  unfold unscopedBufs
  rw [show (Finset.univ.filter fun b : Ref sig .tc => ¬ b.isScoped) = {main_arg0, main_arg1, main_arg2, main_arg3, main_arg4, main_arg5, main_arg6, main_arg7, main_arg8, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## What the arrays hold, stage by stage -/

variable (m : (ℓ : Loc nD τ sig) → Buf (Elt F) ℓ)

/-- At launch. -/
def V0 (d : Dev nD) : Valuation τ sig (Elt F) := fun b => m (d, b)
/-- After the join. -/
def V1 (d : Dev nD) : Valuation τ sig (Elt F) := (opCat (F := F)).result (V0 m d)
/-- The joined index list. -/
def Xd (d : Dev nD) : Buf (Elt F) (xLoc d) := V1 m d x'
/-- After the gather stage: the gathered rows in place. -/
def V2 (d : Dev nD) : Valuation τ sig (Elt F) := Function.update (V1 m d) o' (gath m (Xd m) d)
/-- The TensorCore's arrays as the dense stage finds them. -/
def Vr (d : Dev nD) (b : Ref sig .tc) : Buf (Elt F) ((d : Thread nD τ).loc b) := V2 m d (Proc.devRef .tc b)
/-- After the dense stage: the one-row result in place. -/
def V3 (d : Dev nD) : Valuation τ sig (Elt F) := Function.update (V2 m d) y' ((rdat (Vr m) d).arrAt 6 cfg1.N)
/-- After the reshape. -/
def V4 (d : Dev nD) : Valuation τ sig (Elt F) := (opRs (F := F)).result (V3 m d)

theorem unscoped_held (d : Dev nD) : (unscopedBufs d (fun b => m ((SparseCore.T d).loc b)) : sProp 𝕄) = held (T d) S13 (V0 m d) := by
  rw [unscopedBufs_eq, held_S13]; rfl

end Cert.Kernel.Sc

end
-- ==== Proof.KRegionOut.lean ====
/-
  The dense stage's result array as one function of the arrays the region finds.

  Point t of the two writes back block t (8192 entries) of the one result row, and the block it writes is the body's
  value of the six input blocks at that point. So entry n of the row, n below 16384, is that value at point n / 8192
  read at column n % 8192; the two blocks tile the row, and the input arrays are never written.
-/
import proofs.«202841_g12773232738622_fold_wed_m_434_41_alg».proof.Proof.KRegion
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Sc

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 idx2_lt0 idx2_lt1)

variable {F : FTy → Type} [FloatOps F]

local notation "𝕄" => MT nD τ sig (HIx 1) (Elt F) ℕ UU ℕ

variable (Vr : (c : Dev nD) → (b : Ref sig .tc) → Buf (Elt F) ((c : Thread nD τ).loc b))

/-! ## What the body stores, as one value of its loaded blocks -/

theorem hz2 : (![0, 0] : Fin 2 → Nat) = fun _ => 0 := funext fun a => by match a with | ⟨0, _⟩ => rfl | ⟨1, _⟩ => rfl
theorem hz1 : (![0] : Fin 1 → Nat) = fun _ => 0 := funext fun a => by match a with | ⟨0, _⟩ => rfl

/-- The result buffer after the body is the body's value of the blocks: the rows blocks, the biases and the output
    weights as they are, the first layer's weights by thirds. -/
theorem out6_eq (x0 x1 : Vec F S8192x128 .f32) (w : Vec F S384x8 .f32) (b1 : Vec F S8 .f32) (w2 : Vec F S8x1 .f32) (b2 : Vec F S1 .f32) :
    out6 x0 x1 w b1 w2 b2 = k1_pay1 x0 x1 (View.ld w rW1a) (View.ld w rW1b) (View.ld w rW1c) b1 w2 b2 := by
  unfold out6
  rw [View.canon_unit_zero hz2]
  rw [View.ld_unit_zero hz2 inb_S8192x128_S8192x128_0_0 x0, View.ld_unit_zero hz2 inb_S8192x128_S8192x128_0_0 x1,
    View.ld_unit_zero hz1 inb_S8_S8_0 b1, View.ld_unit_zero hz2 inb_S8x1_S8x1_0_0 w2, View.ld_unit_zero hz1 inb_S1_S1_0 b2]

/-! ## The result array as one function -/

/-- The stage's value at point t: the body's value of the six input blocks there. -/
def pointOut (c : Dev nD) (t : Fin cfg1.N) : Vec F S1x8192 .f32 :=
  k1_pay1 (iblk Vr c 0 t) (iblk Vr c 1 t) (View.ld (iblk Vr c 2 t) rW1a) (View.ld (iblk Vr c 2 t) rW1b) (View.ld (iblk Vr c 2 t) rW1c)
    (iblk Vr c 3 t) (iblk Vr c 4 t) (iblk Vr c 5 t)

theorem pointOut_congr (c : Dev nD) (t t' : Fin cfg1.N) (h : t = t') (y y' : S1x8192.Idx) (hy : y = y') :
    pointOut Vr c t y = pointOut Vr c t' y' := by subst h hy; rfl

/-- Example n of the 16384 is handled at point n / 8192, as column n % 8192 of that point's block. -/
def ptOf (n : Fin 16384) : Fin cfg1.N := ⟨n.val / 8192, by have := N_1; show n.val / 8192 < grid1.N; omega⟩
def colOf (n : Fin 16384) : Fin 8192 := ⟨n.val % 8192, Nat.mod_lt _ (by decide)⟩

/-- The result row: entry (0, n) is the stage's value at point n / 8192, read at (0, n % 8192). -/
def regionOut (c : Dev nD) : S1x16384.Idx → F .f32 := fun i =>
  pointOut Vr c (ptOf ⟨(i 1).val, idx2_lt1 i⟩) (ix2 (0 : Fin 1) (colOf ⟨(i 1).val, idx2_lt1 i⟩))

theorem regionOut_apply (c : Dev nD) (z : Fin 1) (n : Fin 16384) :
    regionOut Vr c (ix2 z n) = pointOut Vr c (ptOf n) (ix2 (0 : Fin 1) (colOf n)) := rfl

/-- The result window's block index at point t is (0, t). -/
theorem idx6 : ∀ t : Fin cfg1.N, win1_6.index t (0 : Fin 2) = 0 ∧ win1_6.index t (1 : Fin 2) = t.val :=
  (by decide +kernel : ∀ t : Fin grid1.N, _)

/-- What point t writes back is block t of the result row. -/
theorem flushed6_eq (c : Dev nD) (t : Fin cfg1.N) :
    (rdat Vr c).flushed 6 t = ((cfg1.win 6).blk t).view.read (Elt F) (regionOut Vr c) := by
  show (cfg1.win 6).cut (grid1.coords t) ((rdat Vr c).after 6 t) = _
  rw [after_6, out6_eq]
  obtain ⟨e0, e1⟩ := idx6 t
  funext j
  show pointOut Vr c t j = regionOut Vr c (((cfg1.win 6).blk t).view.emb j)
  have h1 : ((((cfg1.win 6).blk t).view.emb j) 1).val = win1_6.index t (1 : Fin 2) * 8192 + 1 * (j 1).val := rfl
  have hj1 : (j 1).val < 8192 := (j 1).isLt
  have hj0 : (j 0).val < 1 := (j 0).isLt
  unfold regionOut
  refine pointOut_congr Vr c _ _ (Fin.ext ?_) _ _ (funext fun a => Fin.ext ?_)
  · show t.val = ((((cfg1.win 6).blk t).view.emb j) 1).val / 8192
    rw [h1, e1]; omega
  · match a with
    | ⟨0, _⟩ => show (j 0).val = 0; omega
    | ⟨1, _⟩ =>
      show (j 1).val = ((((cfg1.win 6).blk t).view.emb j) 1).val % 8192
      rw [h1, e1]; omega

/-- An index of the result row is in point t's block iff each coordinate is in the block's range on its axis. -/
theorem mem_blk6 (t : Fin cfg1.N) (i : S1x16384.Idx) :
    i ∈ ((cfg1.win 6).blk t).view.set ↔ ∀ a : Fin 2, win1_6.index t a * S1x8192.size a ≤ (i a).val ∧ (i a).val < win1_6.index t a * S1x8192.size a + S1x8192.size a := by
  show i ∈ ((View.whole main_v2).slice (win1_6.rect t)).set ↔ _
  rw [View.set_slice_whole, Rect.mem_set_unit]
  exact Iff.rfl

/-- Every entry of the result row is in some point's block: entry n in point n / 8192's. -/
theorem covered6 (i : S1x16384.Idx) : ∃ t : Fin cfg1.N, (cfg1.win 6).flush t = true ∧ i ∈ ((cfg1.win 6).blk t).view.set := by
  have hi0 : (i 0).val < 1 := (i 0).isLt
  have hi1 : (i 1).val < 16384 := (i 1).isLt
  refine ⟨ptOf ⟨(i 1).val, hi1⟩, flush1_6 _, ?_⟩
  rw [mem_blk6]
  obtain ⟨e0, e1⟩ := idx6 (ptOf ⟨(i 1).val, hi1⟩)
  have hp : (ptOf ⟨(i 1).val, hi1⟩).val = (i 1).val / 8192 := rfl
  intro a
  match a with
  | ⟨0, _⟩ =>
    show win1_6.index _ (0 : Fin 2) * 1 ≤ (i 0).val ∧ (i 0).val < win1_6.index _ (0 : Fin 2) * 1 + 1
    rw [e0]; omega
  | ⟨1, _⟩ =>
    show win1_6.index _ (1 : Fin 2) * 8192 ≤ (i 1).val ∧ (i 1).val < win1_6.index _ (1 : Fin 2) * 8192 + 8192
    rw [e1, hp]; omega

/-- The result array after the run is the result row. -/
theorem arrAt_out (c : Dev nD) : (rdat Vr c).arrAt 6 cfg1.N = regionOut Vr c :=
  (rdat Vr c).arrAt_eq_of_cover 6 (regionOut Vr c) (fun t _ => flushed6_eq Vr c t) covered6

/-- The input arrays are never written back. -/
theorem arrAt_in (c : Dev nD) (w : Fin cfg1.W) (hw : w ≠ 6) (n : Nat) : (rdat Vr c).arrAt w n = Vr c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, h => exact absurd rfl h
  exact ((rdat Vr c).arrAt_in w hin n).trans (A_eq Vr c w)

end Cert.Kernel.Sc
end
-- ==== Proof.KScMain.lean ====
/-
  @main on the TensorCore, run: the index arrays joined; the gather stage (the arrays cut among the 32 workers, handed
  over, taken back with the gathered rows in place); the dense stage (the library's region rule, over the stage's proof
  data); the reshape. The ten arrays the claim reads are left whole: the nine arguments at their launch contents, the
  result at the reshape of the dense stage's output.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.Kernel
import proofs.«202841_g12773232738622_fold_wed_m_434_41_alg».proof.Proof.Gen.Kernel.Skeleton
import proofs.«202841_g12773232738622_fold_wed_m_434_41_alg».proof.Proof.Gen.Kernel.Launch
import proofs.«202841_g12773232738622_fold_wed_m_434_41_alg».proof.Proof.Gen.Kernel.Points
import proofs.«202841_g12773232738622_fold_wed_m_434_41_alg».proof.Proof.KScMainDefs
import proofs.«202841_g12773232738622_fold_wed_m_434_41_alg».proof.Proof.KRegionOut

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.TcCoe

variable {F : FTy → Type}

local notation "𝕄" => MT nD τ sig (HIx 1) (Elt F) ℕ UU ℕ

variable [FloatOps F] (m : (ℓ : Loc nD τ sig) → Buf (Elt F) ℓ) (ρ : Dev nD → PrngReg)

/-! ## The valuations at the arrays -/

theorem V1_of_ne (d : Dev nD) (b : DevRef τ sig) (hb : b ∉ ({x'} : Finset (DevRef τ sig))) : V1 m d b = m (d, b) :=
  (opCat (F := F)).result_of_not_mem (V0 m d) hb
theorem V2_o (d : Dev nD) : V2 m d o' = gath m (Xd m) d := Function.update_self _ _ _
theorem V2_of_ne (d : Dev nD) (b : DevRef τ sig) (hb : b ≠ o') : V2 m d b = V1 m d b := Function.update_of_ne hb _ _
theorem V3_y (d : Dev nD) : V3 m d y' = (rdat (Vr m) d).arrAt 6 cfg1.N := Function.update_self _ _ _
theorem V3_of_ne (d : Dev nD) (b : DevRef τ sig) (hb : b ≠ y') : V3 m d b = V2 m d b := Function.update_of_ne hb _ _
theorem V4_of_ne (d : Dev nD) (b : DevRef τ sig) (hb : b ∉ ({r'} : Finset (DevRef τ sig))) : V4 m d b = V3 m d b :=
  (opRs (F := F)).result_of_not_mem (V3 m d) hb

/-- An argument array is never written: it holds its launch contents to the end. -/
theorem V4_arg (d : Dev nD) (b : DevRef τ sig) (h1 : b ∉ ({r'} : Finset (DevRef τ sig))) (h2 : b ≠ y') (h3 : b ≠ o') (h4 : b ∉ ({x'} : Finset (DevRef τ sig))) :
    V4 m d b = m (d, b) := by
  rw [V4_of_ne m d b h1, V3_of_ne m d b h2, V2_of_ne m d b h3, V1_of_ne m d b h4]

/-! ## The handshake's payload at the one call -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (X : (d : Dev nD) → Buf (Elt F) (xLoc d)) (d : Dev nD) :
    (bigSep Finset.univ fun c : Fin ((K (F := F)).nCore 0) => (P m X).st 0 d c)
      = bigSep Finset.univ fun c : Fin 2 => bigSep Finset.univ fun i : Fin 16 => tileRes m X d c i (m (oLoc d)) :=
  bigSep_cores (F := F) (fun c => bigSep Finset.univ fun i : Fin 16 => tileRes m X d c i (m (oLoc d)))
theorem dn0_eq (X : (d : Dev nD) → Buf (Elt F) (xLoc d)) (d : Dev nD) :
    (bigSep Finset.univ fun c : Fin ((K (F := F)).nCore 0) => (P m X).dn 0 d c)
      = bigSep Finset.univ fun c : Fin 2 => bigSep Finset.univ fun i : Fin 16 => tileRes m X d c i (gath m X d) :=
  bigSep_cores (F := F) (fun c => bigSep Finset.univ fun i : Fin 16 => tileRes m X d c i (gath m X d))

/-! ## The dense stage's arrays among the thirteen -/

omit [FloatOps F] in
/-- The windows' arrays, one by one: the gathered rows at the two half shares, the four parameter arrays, the result. -/
theorem arrays_chain (Vr : (c : Dev nD) → (b : Ref sig .tc) → Buf (Elt F) ((c : Thread nD τ).loc b)) [FloatOps F] (d : Dev nD)
    (A : (w : Fin cfg1.W) → Buf (Elt F) ((cfg1.win w).arr.view.loc (d : Thread nD τ))) :
    ((rdat Vr d).arrays A : sProp 𝕄)
      = iprop(((SparseCore.T d).loc main_v1 ↦{fullShare.left} A 0) ∗ ((SparseCore.T d).loc main_v1 ↦{fullShare.right} A 1)
          ∗ ((SparseCore.T d).loc main_arg5 ↦{fullShare} A 2) ∗ ((SparseCore.T d).loc main_arg6 ↦{fullShare} A 3)
          ∗ ((SparseCore.T d).loc main_arg7 ↦{fullShare} A 4) ∗ ((SparseCore.T d).loc main_arg8 ↦{fullShare} A 5)
          ∗ ((SparseCore.T d).loc main_v2 ↦{fullShare} A 6)) := by
  unfold Pipeline.Dat.arrays
  rw [show (bigSep Finset.univ fun w : Fin cfg1.W => ((cfg1.win w).arr.view.loc (d : Thread nD τ) ↦[(cfg1.win w).arr.view.set]{(rdat Vr d).share w} A w : sProp 𝕄))
      = bigSep Finset.univ fun w : Fin 7 => (((d : Thread nD τ).loc (Pipeline.arrRef spec1 w)) ↦{(rdat Vr d).share w} A w : sProp 𝕄) from
    bigSep_congr fun w _ => by rw [(Gen.arr_whole1 w).set_eq_univ]]
  rw [Gen.bigSep_W1]
  rfl

/-! ## The thirteen arrays as one chain -/

/-- The TensorCore's arrays whole: the nine arguments at their launch contents, the joined index list at fx, the
    gathered rows at fo, the dense stage's one-row result at fy, the final result at fr. -/
abbrev tc13 (d : Dev nD) (fx : Buf (Elt F) (xLoc d)) (fo : Buf (Elt F) (oLoc d)) (fy : Buf (Elt F) ((SparseCore.T d : Thread nD τ).loc main_v2))
    (fr : Buf (Elt F) ((SparseCore.T d : Thread nD τ).loc main_v3)) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ ((SparseCore.T d).loc main_arg6 ↦{fullShare} m ((SparseCore.T d).loc main_arg6)) ∗ ((SparseCore.T d).loc main_arg7 ↦{fullShare} m ((SparseCore.T d).loc main_arg7))
    ∗ ((SparseCore.T d).loc main_arg8 ↦{fullShare} m ((SparseCore.T d).loc main_arg8))
    ∗ (xLoc d ↦{fullShare} fx) ∗ (oLoc d ↦{fullShare} fo) ∗ ((SparseCore.T d).loc main_v2 ↦{fullShare} fy) ∗ ((SparseCore.T d).loc main_v3 ↦{fullShare} fr))

omit [FloatOps F] in
/-- A valuation that has the arguments at their launch contents holds the thirteen as the chain. -/
theorem held_tc13 (d : Dev nD) (W : Valuation τ sig (Elt F))
    (h0 : W a0' = m (d, a0')) (h1 : W a1' = m (d, a1')) (h2 : W a2' = m (d, a2')) (h3 : W a3' = m (d, a3')) (h4 : W a4' = m (d, a4'))
    (h5 : W a5' = m (d, a5')) (h6 : W a6' = m (d, a6')) (h7 : W a7' = m (d, a7')) (h8 : W a8' = m (d, a8')) :
    (held (T d) S13 W : sProp 𝕄) = tc13 m d (W x') (W o') (W y') (W r') := by
  rw [held_S13, h0, h1, h2, h3, h4, h5, h6, h7, h8]

theorem V1_arg (d : Dev nD) (b : DevRef τ sig) (h4 : b ∉ ({x'} : Finset (DevRef τ sig))) : V1 m d b = m (d, b) := V1_of_ne m d b h4
theorem V2_arg (d : Dev nD) (b : DevRef τ sig) (h3 : b ≠ o') (h4 : b ∉ ({x'} : Finset (DevRef τ sig))) : V2 m d b = m (d, b) := by
  rw [V2_of_ne m d b h3, V1_of_ne m d b h4]
theorem V3_arg (d : Dev nD) (b : DevRef τ sig) (h2 : b ≠ y') (h3 : b ≠ o') (h4 : b ∉ ({x'} : Finset (DevRef τ sig))) : V3 m d b = m (d, b) := by
  rw [V3_of_ne m d b h2, V2_of_ne m d b h3, V1_of_ne m d b h4]

theorem V2_x (d : Dev nD) : V2 m d x' = Xd m d := V2_of_ne m d x' (by decide)
theorem V3_x (d : Dev nD) : V3 m d x' = Xd m d := (V3_of_ne m d x' (by decide)).trans (V2_x m d)
theorem V4_x (d : Dev nD) : V4 m d x' = Xd m d := (V4_of_ne m d x' (by decide)).trans (V3_x m d)
theorem V3_o (d : Dev nD) : V3 m d o' = gath m (Xd m) d := (V3_of_ne m d o' (by decide)).trans (V2_o m d)
theorem V4_o (d : Dev nD) : V4 m d o' = gath m (Xd m) d := (V4_of_ne m d o' (by decide)).trans (V3_o m d)
theorem V4_y (d : Dev nD) : V4 m d y' = (rdat (Vr m) d).arrAt 6 cfg1.N := (V4_of_ne m d y' (by decide)).trans (V3_y m d)

/-- After the join. -/
theorem held_V1 (d : Dev nD) :
    (held (T d) S13 ((opCat (F := F)).result (V0 m d)) : sProp 𝕄)
      = tc13 m d (Xd m d) (m (oLoc d)) (m ((SparseCore.T d).loc main_v2)) (m ((SparseCore.T d).loc main_v3)) := by
  show held (T d) S13 (V1 m d) = _
  rw [held_tc13 m d (V1 m d) (V1_arg m d _ (by decide)) (V1_arg m d _ (by decide)) (V1_arg m d _ (by decide)) (V1_arg m d _ (by decide)) (V1_arg m d _ (by decide))
    (V1_arg m d _ (by decide)) (V1_arg m d _ (by decide)) (V1_arg m d _ (by decide)) (V1_arg m d _ (by decide)),
    V1_arg m d o' (by decide), V1_arg m d y' (by decide), V1_arg m d r' (by decide)]
  try rfl
/-- After the dense stage, as the reshape finds the arrays. -/
theorem held_V3 (d : Dev nD) :
    (held (T d) S13 (V3 m d) : sProp 𝕄)
      = tc13 m d (Xd m d) (gath m (Xd m) d) ((rdat (Vr m) d).arrAt 6 cfg1.N) (m ((SparseCore.T d).loc main_v3)) := by
  rw [held_tc13 m d (V3 m d) (V3_arg m d _ (by decide) (by decide) (by decide)) (V3_arg m d _ (by decide) (by decide) (by decide)) (V3_arg m d _ (by decide) (by decide) (by decide))
    (V3_arg m d _ (by decide) (by decide) (by decide)) (V3_arg m d _ (by decide) (by decide) (by decide)) (V3_arg m d _ (by decide) (by decide) (by decide))
    (V3_arg m d _ (by decide) (by decide) (by decide)) (V3_arg m d _ (by decide) (by decide) (by decide)) (V3_arg m d _ (by decide) (by decide) (by decide)),
    V3_x, V3_o, V3_y, V3_arg m d r' (by decide) (by decide) (by decide)]
  try rfl
/-- After the reshape. -/
theorem held_V4 (d : Dev nD) :
    (held (T d) S13 ((opRs (F := F)).result (V3 m d)) : sProp 𝕄)
      = tc13 m d (Xd m d) (gath m (Xd m) d) ((rdat (Vr m) d).arrAt 6 cfg1.N) (V4 m d r') := by
  show held (T d) S13 (V4 m d) = _
  rw [held_tc13 m d (V4 m d) (V4_arg m d _ (by decide) (by decide) (by decide) (by decide)) (V4_arg m d _ (by decide) (by decide) (by decide) (by decide))
    (V4_arg m d _ (by decide) (by decide) (by decide) (by decide)) (V4_arg m d _ (by decide) (by decide) (by decide) (by decide)) (V4_arg m d _ (by decide) (by decide) (by decide) (by decide))
    (V4_arg m d _ (by decide) (by decide) (by decide) (by decide)) (V4_arg m d _ (by decide) (by decide) (by decide) (by decide)) (V4_arg m d _ (by decide) (by decide) (by decide) (by decide))
    (V4_arg m d _ (by decide) (by decide) (by decide) (by decide)), V4_x, V4_o, V4_y]

/-! ## Into the dense stage's state and out of it -/

theorem Vr_arg (d : Dev nD) (b : Ref sig .tc) (h3 : Proc.devRef .tc b ≠ o') (h4 : Proc.devRef .tc b ∉ ({x'} : Finset (DevRef τ sig))) :
    Vr m d b = m ((d : Thread nD τ).loc b) := V2_arg m d _ h3 h4
theorem Vr_o (d : Dev nD) : Vr m d main_v1 = gath m (Xd m) d := V2_o m d
theorem Vr_x (d : Dev nD) : Vr m d main_v0 = Xd m d := V2_x m d

/-- From the thirteen (the gathered rows in place) to the dense stage's state at its entry. -/
theorem region_enter (d : Dev nD) :
    iprop(tc13 m d (Xd m d) (gath m (Xd m) d) (m ((SparseCore.T d).loc main_v2)) (m ((SparseCore.T d).loc main_v3)) ∗ (∃ r, prngReg d r) ∗ Rowe (F := F) d)
      ⊢ regionState (Vr m) d (fun w => (rdat (Vr m) d).arrAt w 0) := by
  unfold regionState tc13 restArrays
  rw [arrays_chain]
  have e0 : (rdat (Vr m) d).arrAt 0 0 = gath m (Xd m) d := Vr_o m d
  have e1 : (rdat (Vr m) d).arrAt 1 0 = gath m (Xd m) d := Vr_o m d
  have e2 : (rdat (Vr m) d).arrAt 2 0 = m ((d : Thread nD τ).loc main_arg5) := Vr_arg m d main_arg5 (by decide) (by decide)
  have e3 : (rdat (Vr m) d).arrAt 3 0 = m ((d : Thread nD τ).loc main_arg6) := Vr_arg m d main_arg6 (by decide) (by decide)
  have e4 : (rdat (Vr m) d).arrAt 4 0 = m ((d : Thread nD τ).loc main_arg7) := Vr_arg m d main_arg7 (by decide) (by decide)
  have e5 : (rdat (Vr m) d).arrAt 5 0 = m ((d : Thread nD τ).loc main_arg8) := Vr_arg m d main_arg8 (by decide) (by decide)
  have e6 : (rdat (Vr m) d).arrAt 6 0 = m ((d : Thread nD τ).loc main_v2) := Vr_arg m d main_v2 (by decide) (by decide)
  simp only [e0, e1, e2, e3, e4, e5, e6]
  rw [Vr_arg m d main_arg0 (by decide) (by decide), Vr_arg m d main_arg1 (by decide) (by decide), Vr_arg m d main_arg2 (by decide) (by decide),
    Vr_arg m d main_arg3 (by decide) (by decide), Vr_arg m d main_arg4 (by decide) (by decide), Vr_x, Vr_arg m d main_v3 (by decide) (by decide)]
  iintro ⟨⟨H0, H1, H2, H3, H4, H5, H6, H7, H8, Hx, Ho, Hy, Hr⟩, Hp, HO⟩
  ihave Ho2 := (pointsTo_share (PosShare.mem_left_op_right fullShare)).1 $$ Ho
  icases Ho2 with ⟨HoL, HoR⟩
  isplitl [HoL HoR H5 H6 H7 H8 Hy]
  · isplitl [HoL]; · iexact HoL
    isplitl [HoR]; · iexact HoR
    isplitl [H5]; · iexact H5
    isplitl [H6]; · iexact H6
    isplitl [H7]; · iexact H7
    isplitl [H8]; · iexact H8
    iexact Hy
  isplitl [H0 H1 H2 H3 H4 Hx Hr]
  · isplitl [H0]; · iexact H0
    isplitl [H1]; · iexact H1
    isplitl [H2]; · iexact H2
    isplitl [H3]; · iexact H3
    isplitl [H4]; · iexact H4
    isplitl [Hx]; · iexact Hx
    iexact Hr
  isplitl [Hp]; · iexact Hp
  iexact HO

/-- From the dense stage's state at its exit back to the thirteen, the one-row result in place. -/
theorem region_exit (d : Dev nD) :
    regionState (Vr m) d (fun w => (rdat (Vr m) d).arrAt w cfg1.N)
      ⊢ iprop(tc13 m d (Xd m d) (gath m (Xd m) d) ((rdat (Vr m) d).arrAt 6 cfg1.N) (m ((SparseCore.T d).loc main_v3)) ∗ (∃ r, prngReg d r) ∗ Rowe (F := F) d) := by
  unfold regionState tc13 restArrays
  rw [arrays_chain]
  have e0 : (rdat (Vr m) d).arrAt 0 cfg1.N = gath m (Xd m) d := (arrAt_in (Vr m) d 0 (by decide) _).trans (Vr_o m d)
  have e1 : (rdat (Vr m) d).arrAt 1 cfg1.N = gath m (Xd m) d := (arrAt_in (Vr m) d 1 (by decide) _).trans (Vr_o m d)
  have e2 : (rdat (Vr m) d).arrAt 2 cfg1.N = m ((d : Thread nD τ).loc main_arg5) := (arrAt_in (Vr m) d 2 (by decide) _).trans (Vr_arg m d main_arg5 (by decide) (by decide))
  have e3 : (rdat (Vr m) d).arrAt 3 cfg1.N = m ((d : Thread nD τ).loc main_arg6) := (arrAt_in (Vr m) d 3 (by decide) _).trans (Vr_arg m d main_arg6 (by decide) (by decide))
  have e4 : (rdat (Vr m) d).arrAt 4 cfg1.N = m ((d : Thread nD τ).loc main_arg7) := (arrAt_in (Vr m) d 4 (by decide) _).trans (Vr_arg m d main_arg7 (by decide) (by decide))
  have e5 : (rdat (Vr m) d).arrAt 5 cfg1.N = m ((d : Thread nD τ).loc main_arg8) := (arrAt_in (Vr m) d 5 (by decide) _).trans (Vr_arg m d main_arg8 (by decide) (by decide))
  simp only [e0, e1, e2, e3, e4, e5]
  rw [Vr_arg m d main_arg0 (by decide) (by decide), Vr_arg m d main_arg1 (by decide) (by decide), Vr_arg m d main_arg2 (by decide) (by decide),
    Vr_arg m d main_arg3 (by decide) (by decide), Vr_arg m d main_arg4 (by decide) (by decide), Vr_x, Vr_arg m d main_v3 (by decide) (by decide)]
  iintro ⟨⟨HoL, HoR, H5, H6, H7, H8, Hy⟩, ⟨H0, H1, H2, H3, H4, Hx, Hr⟩, Hp, HO⟩
  ihave Ho := (pointsTo_share (PosShare.mem_left_op_right fullShare)).2 $$ [HoL HoR]
  · isplitl [HoL] <;> iassumption
  isplitl [H0 H1 H2 H3 H4 H5 H6 H7 H8 Hx Ho Hy Hr]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hx]; · iexact Hx
    isplitl [Ho]; · iexact Ho
    isplitl [Hy]; · iexact Hy
    iexact Hr
  isplitl [Hp]; · iexact Hp
  iexact HO

/-! ## The TensorCore's handshake state, its owes taken out and put back -/

omit [FloatOps F] in
/-- With one call, every recorded wait sits at or below level 8. -/
theorem wbelow8 (d : Dev nD) (W : Waits sig (HIx 1)) : (K (F := F)).WBelow (SparseCore.T d) W (8 * 1) := by
  intro p _
  rcases p with ⟨s, ι⟩
  cases ι with
  | none => exact Nat.zero_le _
  | some q =>
    have h := (K (F := F)).lev_some_le (nD := nD) ((SparseCore.T d : Thread nD τ), s) q
    have hq : q.val = 0 := by omega
    exact le_trans h (by omega)

/-- After the one call the TensorCore owes nothing: its owes can be lent to the dense stage and taken back. -/
theorem tcSt_owes_out (d : Dev nD) :
    ((K (F := F)).tcSt EH d 1 : sProp 𝕄)
      ⊢ iprop(Rowe (F := F) d ∗ (Rowe (F := F) d -∗ (K (F := F)).tcSt EH d 1)) := by
  unfold SparseCore.Cfg.tcSt
  rw [(K (F := F)).Otc_end d (n := 1) (le_refl 1)]
  iintro ⟨⟨%W, %hW, HO⟩, Hrest⟩
  isplitl [HO]; · iexists W; iexact HO
  iintro ⟨%W', HO'⟩
  isplitl [HO']
  · iexists W'; isplitr; · ipureintro; exact wbelow8 (F := F) d W'
    iexact HO'
  iexact Hrest

/-! ## The dense stage's step of @main -/

theorem reg_pre (d : Dev nD) : (reg (Vr m)).pre d = regionState (Vr m) d (fun w => (rdat (Vr m) d).arrAt w 0) := rfl
theorem reg_post (d : Dev nD) : (reg (Vr m)).post d = regionState (Vr m) d (fun w => (rdat (Vr m) d).arrAt w cfg1.N) := rfl

/-- The dense stage's call, lifted into the whole program's label signature, is @main's own line. -/
theorem lift_call :
    (SparseCore.liftProg (Q := 1) (Prog.op (.customCall (Pipeline.entry (0 : Fin 1)) ()) fun _ => .ret ⟨⟩ :
        Prog (TpuEff nD τ sig (Elt F) (ΛP (F := F)) .tc) PUnit) : Prog (TpuEff nD τ sig (Elt F) (SparseCore.Sig (ΛP (F := F)) 1) .tc) PUnit)
      = Prog.lift (.customCall (SparseCore.inner (Pipeline.entry (0 : Fin 1))) ()) := rfl

set_option maxHeartbeats 1000000 in
set_option backward.isDefEq.respectTransparency.types false in
/-- The dense stage's call in @main: from the region boundary, the stage's state at entry, the level facts and the
    staging cells' ghost state, to the boundary and the stage's state at exit for whatever follows. -/
theorem region_step (d : Dev nD) (Φ : PUnit → sProp 𝕄) :
    iprop((iprop(boundary (d.tc : Thread nD τ) ∗ (reg (Vr m)).post d)
            -∗ wp frame (wpE (D (F := F)) 𝒱 (d.tc : Thread nD τ) none) Set.univ (.ret ⟨⟩) Φ)
        ∗ boundary (d.tc : Thread nD τ) ∗ (reg (Vr m)).pre d
        ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (d.tc : Thread nD τ) none) Set.univ
          (Prog.lift (.customCall (SparseCore.inner (Pipeline.entry (0 : Fin 1))) ())) Φ := by
  rw [← lift_call (F := F)]
  refine BI.Entails.trans ?_ ((K (F := F)).wp_liftProg (D (F := F)) 𝒱 (d.tc : Thread nD τ) Set.univ none _ Φ)
  exact Pipeline.RegionSeg.wp (pcfgs (F := F)) adm (pdats (Vr m)) (default : HIx 1) pinj (EP (F := F)) defs₀ 𝒱₀ (K (F := F)).L (K (F := F)).lev
      (reg (Vr m)) d none (fun _ h => nomatch h) (fun _ => .ret ⟨⟩) Φ

/-! ## @main -/

/-- What @main leaves the claim: the nine arguments at their launch contents, the result at the reshape of the dense stage's output. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ ((SparseCore.T d).loc main_arg6 ↦{fullShare} m ((SparseCore.T d).loc main_arg6)) ∗ ((SparseCore.T d).loc main_arg7 ↦{fullShare} m ((SparseCore.T d).loc main_arg7))
    ∗ ((SparseCore.T d).loc main_arg8 ↦{fullShare} m ((SparseCore.T d).loc main_arg8)) ∗ ((SparseCore.T d).loc main_v3 ↦{fullShare} V4 m d r'))

set_option maxHeartbeats 1000000 in
/-- @main on device d's TensorCore. -/
theorem hmain (κ : GSem nD τ sig → ℕ) (d : Dev nD) :
    iprop((K (F := F)).ctx EH (P m (Xd m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held]
  simp only [main, wp_bind, wp_pure]
  iintro ⟨#Hctx, Hst, ⟨Hb, Hheld, -, Hprng⟩, ⟨Hcg, Hti⟩⟩
  -- the join of the index arrays
  iapply (wp_hlo_within 𝒱 (SparseCore.T d) none Set.univ (op := opCat) (S := S13) hCat (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨H0, H1, H2, H3, H4, H5, H6, H7, H8, Hx, Ho, Hy, Hr⟩
  -- the gather stage: the four arrays cut among the workers, handed over, taken back
  ihave Hcut := (Entails.of_eq (whole_cut m (Xd m) d (m (oLoc d)))) $$ [Hx H3 H4 Ho]
  · isplitl [Hx]; · iexact Hx
    isplitl [H3]; · iexact H3
    isplitl [H4]; · iexact H4
    iexact Ho
  iapply ((K (F := F)).wp_run (D (F := F)) 𝒱 (EH := EH) (P := P m (Xd m)) κ d 0) $$ [Hst Hcut H0 H1 H2 H5 H6 H7 H8 Hy Hr Hb Hprng Hcg Hti]
  isplitr; · iexact Hctx
  isplitl [Hst]; · iexact Hst
  isplitl [Hcut]
  · rw [st0_eq]; iexact Hcut
  iintro ⟨Hst, Hdn⟩
  ihave Hdn' := (Entails.of_eq (dn0_eq m (Xd m) d)) $$ Hdn
  ihave Hw := (Entails.of_eq (whole_cut m (Xd m) d (gath m (Xd m) d)).symm) $$ Hdn'
  icases Hw with ⟨Hx, H3, H4, Ho⟩
  -- the dense stage: the region rule over its proof data
  ihave Hst1 := (Entails.of_eq (show ((K (F := F)).tcSt EH d ((0 : Fin 1).val + 1) : sProp 𝕄) = (K (F := F)).tcSt EH d 1 from rfl)) $$ Hst
  ihave Hso := (tcSt_owes_out (F := F) d) $$ Hst1
  icases Hso with ⟨HO, Hstback⟩
  ihave Hlev := ((K (F := F)).ctx_levAts (EH := EH) (P := P m (Xd m)) κ) $$ Hctx
  ihave Hpre := (region_enter m d) $$ [H0 H1 H2 H3 H4 H5 H6 H7 H8 Hx Ho Hy Hr Hprng HO]
  · isplitl [H0 H1 H2 H3 H4 H5 H6 H7 H8 Hx Ho Hy Hr]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [Hx]; · iexact Hx
      isplitl [Ho]; · iexact Ho
      isplitl [Hy]; · iexact Hy
      iexact Hr
    isplitl [Hprng]; · iexists _; iexact Hprng
    iexact HO
  iapply (region_step m d _) $$ [Hb Hpre Hlev Hcg Hti Hstback]
  isplitl [Hstback]
  swap
  · isplitl [Hb]; · iexact Hb
    isplitl [Hpre]; · iapply (Entails.of_eq (reg_pre m d).symm); iexact Hpre
    isplitl [Hlev]; · iexact Hlev
    isplitl [Hcg]; · iexact Hcg
    iexact Hti
  iintro ⟨Hb, Hpost⟩
  rw [wp_ret]; imodintro
  ihave Hpost' := (Entails.of_eq (reg_post m d)) $$ Hpost
  ihave Hx13 := (region_exit m d) $$ Hpost'
  icases Hx13 with ⟨H13, -, HO⟩
  ihave Hst := Hstback $$ HO
  -- the reshape
  ihave Hheld := (Entails.of_eq (held_V3 (F := F) m d).symm) $$ H13
  iapply (wp_hlo_within 𝒱 (SparseCore.T d) none Set.univ (op := opRs) (S := S13) hRs (V := V3 m d)) $$ [Hb Hheld]
  · isplitl [Hb] <;> iassumption
  iintro ⟨Hb, Hheld⟩
  ihave Hh := (Entails.of_eq (held_V4 (F := F) m d)) $$ Hheld
  icases Hh with ⟨H0, H1, H2, H3, H4, H5, H6, H7, H8, -, -, -, Hr⟩
  rw [wp_ret]; imodintro; imodintro
  isplitl [Hst]; · iexact Hst
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hr

/-! ## The claim's reading of the final state -/

omit [FloatOps F] in
/-- An array held whole beside the state interpretation is what the state's memory holds there. -/
theorem agree1 (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr; · ipureintro; exact funext fun i => h i (Finset.mem_univ i)
  iexact HSI

/-- What the claim reads on device d: the result, then the nine arguments unchanged. -/
def fq (d : Dev nD) (s' : Phys nD τ sig (Elt F)) : Prop :=
  s'.mem.mem ((SparseCore.T d).loc main_v3) = V4 m d r'
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4) ∧ s'.mem.mem ((SparseCore.T d).loc main_arg5) = m ((SparseCore.T d).loc main_arg5)
    ∧ s'.mem.mem ((SparseCore.T d).loc main_arg6) = m ((SparseCore.T d).loc main_arg6) ∧ s'.mem.mem ((SparseCore.T d).loc main_arg7) = m ((SparseCore.T d).loc main_arg7)
    ∧ s'.mem.mem ((SparseCore.T d).loc main_arg8) = m ((SparseCore.T d).loc main_arg8)

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5, H6, H7, H8, Hr⟩, HSI⟩
  ihave A := (agree1 (F := F) _ _ s') $$ [HSI H0]
  · isplitl [HSI] <;> iassumption
  icases A with ⟨%h0, HSI⟩
  ihave A := (agree1 (F := F) _ _ s') $$ [HSI H1]
  · isplitl [HSI] <;> iassumption
  icases A with ⟨%h1, HSI⟩
  ihave A := (agree1 (F := F) _ _ s') $$ [HSI H2]
  · isplitl [HSI] <;> iassumption
  icases A with ⟨%h2, HSI⟩
  ihave A := (agree1 (F := F) _ _ s') $$ [HSI H3]
  · isplitl [HSI] <;> iassumption
  icases A with ⟨%h3, HSI⟩
  ihave A := (agree1 (F := F) _ _ s') $$ [HSI H4]
  · isplitl [HSI] <;> iassumption
  icases A with ⟨%h4, HSI⟩
  ihave A := (agree1 (F := F) _ _ s') $$ [HSI H5]
  · isplitl [HSI] <;> iassumption
  icases A with ⟨%h5, HSI⟩
  ihave A := (agree1 (F := F) _ _ s') $$ [HSI H6]
  · isplitl [HSI] <;> iassumption
  icases A with ⟨%h6, HSI⟩
  ihave A := (agree1 (F := F) _ _ s') $$ [HSI H7]
  · isplitl [HSI] <;> iassumption
  icases A with ⟨%h7, HSI⟩
  ihave A := (agree1 (F := F) _ _ s') $$ [HSI H8]
  · isplitl [HSI] <;> iassumption
  icases A with ⟨%h8, HSI⟩
  ihave A := (agree1 (F := F) _ _ s') $$ [HSI Hr]
  · isplitl [HSI] <;> iassumption
  icases A with ⟨%hr, -⟩
  ipureintro; exact ⟨hr, h0, h1, h2, h3, h4, h5, h6, h7, h8⟩

end Cert.Kernel.Sc

end
-- ==== Proof.KTileFacts.lean ====
/-
  Facts about one gather worker's pieces of the arrays: the rectangles the program cuts (at offsets it computes from the
  worker's coordinates) are the parts of the even cuts the launch deals out, so a piece held under one name is the piece
  under the other; the index words the worker reads are in range; and a block of rows gathered through a stretch of the
  index list and stored to the output holds the one gathered function there.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.Kernel
import proofs.«202841_g12773232738622_fold_wed_m_434_41_alg».proof.Proof.Gen.Kernel.Skeleton
import proofs.«202841_g12773232738622_fold_wed_m_434_41_alg».proof.Proof.Gen.Kernel.Launch
import proofs.«202841_g12773232738622_fold_wed_m_434_41_alg».proof.Proof.Gen.Kernel.Points
import proofs.«202841_g12773232738622_fold_wed_m_434_41_alg».proof.Proof.Spec
import proofs.«202841_g12773232738622_fold_wed_m_434_41_alg».proof.Proof.KScCommon

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole main_v0_scv : Memref sig Kind.scVector Space.hbm S32768 EltTy.i32)
local notation "uV" => (Memref.whole main_arg3_scv : Memref sig Kind.scVector Space.hbm S100000x128 EltTy.f32)
local notation "tV" => (Memref.whole main_arg4_scv : Memref sig Kind.scVector Space.hbm S100000x128 EltTy.f32)
local notation "oV" => (Memref.whole main_v1_scv : Memref sig Kind.scVector Space.hbm S32768x128 EltTy.f32)
local notation "aV" => (Memref.whole cc0_scratch0 : Memref sig Kind.scVector Space.vmem S512 EltTy.i32)
local notation "bV" => (Memref.whole cc0_scratch1 : Memref sig Kind.scVector Space.vmem S512 EltTy.i32)
local notation "rV" => (Memref.whole cc0_scratch2 : Memref sig Kind.scVector Space.vmem S7x128x128 EltTy.f32)

/-! ## The worker's coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

variable (L : grid0.Coords)

/-! ## The program's own rectangles, and the parts they are -/

abbrev xRectK1 (L : grid0.Coords) : Rect S32768 := Rect.unit (s := S32768) (k0_off1 L) S512.size (k0_off1_inb L)
abbrev xRectK2 (L : grid0.Coords) : Rect S32768 := Rect.unit (s := S32768) (k0_off2 L) S512.size (k0_off2_inb L)
abbrev oRectK (L : grid0.Coords) (a : Fin 2) (b : Fin 4) : Rect S32768x128 :=
  Rect.unit (s := S32768x128) (k0_off3 L (BitVec.ofNat 32 (16384 * a.val)) (BitVec.ofNat 32 (128 * b.val))) S128x128.size (k0_off3_inb L a b)

theorem xRectK1_eq : xRectK1 L = xpart (xN 0 (cL L) (iL L)) := by
  unfold xRectK1 xpart Rect.part Rect.block
  congr 1 <;> funext a
  · rw [k0_off1_eq]
    match a with
    | 0 => simp [Shape.partIx, Shape.partSize, xN, wid]; omega
  · match a with
    | 0 => simp [Shape.partSize]

theorem xRectK2_eq : xRectK2 L = xpart (xN 1 (cL L) (iL L)) := by
  unfold xRectK2 xpart Rect.part Rect.block
  congr 1 <;> funext a
  · rw [k0_off2_eq]
    match a with
    | 0 => simp [Shape.partIx, Shape.partSize, xN, wid]; omega
  · match a with
    | 0 => simp [Shape.partSize]

theorem oRectK_eq (a : Fin 2) (b : Fin 4) : oRectK L a b = opart (oN a (cL L) (iL L) b) := by
  unfold oRectK opart Rect.part Rect.block
  congr 1 <;> funext k
  · rw [k0_off3_eq]
    match k with
    | 0 => simp [Shape.partIx, Shape.partSize, oN, wid]; omega
    | 1 => simp [Shape.partIx, Shape.partSize]
  · match k with
    | 0 => simp [Shape.partSize]
    | 1 => simp [Shape.partSize]

/-! ## The subcore's own semaphore cells and scratch buffers, by name -/

abbrev cell0 (d : Dev nD) (c : Fin τ.nSC) (i : Fin τ.nSub) : GSem nD τ sig := (V d c i, .dma cc0_scratch3.sem)
abbrev cell1 (d : Dev nD) (c : Fin τ.nSC) (i : Fin τ.nSub) : GSem nD τ sig := (V d c i, .dma cc0_scratch4.sem)
abbrev cell2 (d : Dev nD) (c : Fin τ.nSC) (i : Fin τ.nSub) : GSem nD τ sig := (V d c i, .dma cc0_scratch5.sem)
abbrev cell3 (d : Dev nD) (c : Fin τ.nSC) (i : Fin τ.nSub) : GSem nD τ sig := (V d c i, .dma cc0_scratch6.sem)
abbrev cell4 (d : Dev nD) (c : Fin τ.nSC) (i : Fin τ.nSub) : GSem nD τ sig := (V d c i, .dma cc0_scratch7.sem)
abbrev cell5 (d : Dev nD) (c : Fin τ.nSC) (i : Fin τ.nSub) : GSem nD τ sig := (V d c i, .dma cc0_scratch8.sem)
abbrev cell6 (d : Dev nD) (c : Fin τ.nSC) (i : Fin τ.nSub) : GSem nD τ sig := (V d c i, .dma cc0_scratch9.sem)
abbrev cell7 (d : Dev nD) (c : Fin τ.nSC) (i : Fin τ.nSub) : GSem nD τ sig := (V d c i, .dma cc0_scratch10.sem)
abbrev cell8 (d : Dev nD) (c : Fin τ.nSC) (i : Fin τ.nSub) : GSem nD τ sig := (V d c i, .dma cc0_scratch11.sem)
abbrev cell9 (d : Dev nD) (c : Fin τ.nSC) (i : Fin τ.nSub) : GSem nD τ sig := (V d c i, .dma cc0_scratch12.sem)
abbrev cell10 (d : Dev nD) (c : Fin τ.nSC) (i : Fin τ.nSub) : GSem nD τ sig := (V d c i, .dma cc0_scratch13.sem)
abbrev cell11 (d : Dev nD) (c : Fin τ.nSC) (i : Fin τ.nSub) : GSem nD τ sig := (V d c i, .dma cc0_scratch14.sem)
abbrev cell12 (d : Dev nD) (c : Fin τ.nSC) (i : Fin τ.nSub) : GSem nD τ sig := (V d c i, .dma cc0_scratch15.sem)
abbrev cell13 (d : Dev nD) (c : Fin τ.nSC) (i : Fin τ.nSub) : GSem nD τ sig := (V d c i, .dma cc0_scratch16.sem)
abbrev cell14 (d : Dev nD) (c : Fin τ.nSC) (i : Fin τ.nSub) : GSem nD τ sig := (V d c i, .dma cc0_scratch17.sem)
abbrev cell15 (d : Dev nD) (c : Fin τ.nSC) (i : Fin τ.nSub) : GSem nD τ sig := (V d c i, .dma cc0_scratch18.sem)

theorem cell_ne (d : Dev nD) (c : Fin τ.nSC) (i : Fin τ.nSub) {s s' : DmaSem sig} (h : s ≠ s') :
    ((V d c i, SemLoc.dma s) : GSem nD τ sig) ≠ (V d c i, SemLoc.dma s') :=
  fun e => h (by injection e with _ e2; injection e2)

/-- The subcore's sixteen transfer semaphores are among its own cells: they are them, at zero, and the rest. -/
theorem ownSems0_V (d : Dev nD) :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ semVal (cell6 d (cV L) (jV L)) 0 ∗ semVal (cell7 d (cV L) (jV L)) 0 ∗ semVal (cell8 d (cV L) (jV L)) 0 ∗ semVal (cell9 d (cV L) (jV L)) 0 ∗ semVal (cell10 d (cV L) (jV L)) 0 ∗ semVal (cell11 d (cV L) (jV L)) 0 ∗ semVal (cell12 d (cV L) (jV L)) 0 ∗ semVal (cell13 d (cV L) (jV L)) 0 ∗ semVal (cell14 d (cV L) (jV L)) 0 ∗ semVal (cell15 d (cV L) (jV L)) 0
          ∗ bigSep (((((((((((((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))).erase (cell6 d (cV L) (jV L))).erase (cell7 d (cV L) (jV L))).erase (cell8 d (cV L) (jV L))).erase (cell9 d (cV L) (jV L))).erase (cell10 d (cV L) (jV L))).erase (cell11 d (cV L) (jV L))).erase (cell12 d (cV L) (jV L))).erase (cell13 d (cV L) (jV L))).erase (cell14 d (cV L) (jV L))).erase (cell15 d (cV L) (jV L))) fun g => semVal g 0) := by
  unfold SparseCore.Cfg.ownSems0
  rw [SparseCore.bigSep_erase' ((mem_ownCells (g := cell0 d (cV L) (jV L))).mpr ⟨rfl, by show (SemLoc.dma cc0_scratch3.sem : SemLoc sig).isScoped .scVector = true; decide⟩),
    SparseCore.bigSep_erase' (Finset.mem_erase.mpr ⟨cell_ne d (cV L) (jV L) (by decide : cc0_scratch4.sem ≠ cc0_scratch3.sem), (mem_ownCells (g := cell1 d (cV L) (jV L))).mpr ⟨rfl, by show (SemLoc.dma cc0_scratch4.sem : SemLoc sig).isScoped .scVector = true; decide⟩⟩),
    SparseCore.bigSep_erase' (Finset.mem_erase.mpr ⟨cell_ne d (cV L) (jV L) (by decide : cc0_scratch5.sem ≠ cc0_scratch4.sem), Finset.mem_erase.mpr ⟨cell_ne d (cV L) (jV L) (by decide : cc0_scratch5.sem ≠ cc0_scratch3.sem), (mem_ownCells (g := cell2 d (cV L) (jV L))).mpr ⟨rfl, by show (SemLoc.dma cc0_scratch5.sem : SemLoc sig).isScoped .scVector = true; decide⟩⟩⟩),
    SparseCore.bigSep_erase' (Finset.mem_erase.mpr ⟨cell_ne d (cV L) (jV L) (by decide : cc0_scratch6.sem ≠ cc0_scratch5.sem), Finset.mem_erase.mpr ⟨cell_ne d (cV L) (jV L) (by decide : cc0_scratch6.sem ≠ cc0_scratch4.sem), Finset.mem_erase.mpr ⟨cell_ne d (cV L) (jV L) (by decide : cc0_scratch6.sem ≠ cc0_scratch3.sem), (mem_ownCells (g := cell3 d (cV L) (jV L))).mpr ⟨rfl, by show (SemLoc.dma cc0_scratch6.sem : SemLoc sig).isScoped .scVector = true; decide⟩⟩⟩⟩),
    SparseCore.bigSep_erase' (Finset.mem_erase.mpr ⟨cell_ne d (cV L) (jV L) (by decide : cc0_scratch7.sem ≠ cc0_scratch6.sem), Finset.mem_erase.mpr ⟨cell_ne d (cV L) (jV L) (by decide : cc0_scratch7.sem ≠ cc0_scratch5.sem), Finset.mem_erase.mpr ⟨cell_ne d (cV L) (jV L) (by decide : cc0_scratch7.sem ≠ cc0_scratch4.sem), Finset.mem_erase.mpr ⟨cell_ne d (cV L) (jV L) (by decide : cc0_scratch7.sem ≠ cc0_scratch3.sem), (mem_ownCells (g := cell4 d (cV L) (jV L))).mpr ⟨rfl, by show (SemLoc.dma cc0_scratch7.sem : SemLoc sig).isScoped .scVector = true; decide⟩⟩⟩⟩⟩),
    SparseCore.bigSep_erase' (Finset.mem_erase.mpr ⟨cell_ne d (cV L) (jV L) (by decide : cc0_scratch8.sem ≠ cc0_scratch7.sem), Finset.mem_erase.mpr ⟨cell_ne d (cV L) (jV L) (by decide : cc0_scratch8.sem ≠ cc0_scratch6.sem), Finset.mem_erase.mpr ⟨cell_ne d (cV L) (jV L) (by decide : cc0_scratch8.sem ≠ cc0_scratch5.sem), Finset.mem_erase.mpr ⟨cell_ne d (cV L) (jV L) (by decide : cc0_scratch8.sem ≠ cc0_scratch4.sem), Finset.mem_erase.mpr ⟨cell_ne d (cV L) (jV L) (by decide : cc0_scratch8.sem ≠ cc0_scratch3.sem), (mem_ownCells (g := cell5 d (cV L) (jV L))).mpr ⟨rfl, by show (SemLoc.dma cc0_scratch8.sem : SemLoc sig).isScoped .scVector = true; decide⟩⟩⟩⟩⟩⟩),
    SparseCore.bigSep_erase' (Finset.mem_erase.mpr ⟨cell_ne d (cV L) (jV L) (by decide : cc0_scratch9.sem ≠ cc0_scratch8.sem), Finset.mem_erase.mpr ⟨cell_ne d (cV L) (jV L) (by decide : cc0_scratch9.sem ≠ cc0_scratch7.sem), Finset.mem_erase.mpr ⟨cell_ne d (cV L) (jV L) (by decide : cc0_scratch9.sem ≠ cc0_scratch6.sem), Finset.mem_erase.mpr ⟨cell_ne d (cV L) (jV L) (by decide : cc0_scratch9.sem ≠ cc0_scratch5.sem), Finset.mem_erase.mpr ⟨cell_ne d (cV L) (jV L) (by decide : cc0_scratch9.sem ≠ cc0_scratch4.sem), Finset.mem_erase.mpr ⟨cell_ne d (cV L) (jV L) (by decide : cc0_scratch9.sem ≠ cc0_scratch3.sem), (mem_ownCells (g := cell6 d (cV L) (jV L))).mpr ⟨rfl, by show (SemLoc.dma cc0_scratch9.sem : SemLoc sig).isScoped .scVector = true; decide⟩⟩⟩⟩⟩⟩⟩),
    SparseCore.bigSep_erase' (Finset.mem_erase.mpr ⟨cell_ne d (cV L) (jV L) (by decide : cc0_scratch10.sem ≠ cc0_scratch9.sem), Finset.mem_erase.mpr ⟨cell_ne d (cV L) (jV L) (by decide : cc0_scratch10.sem ≠ cc0_scratch8.sem), Finset.mem_erase.mpr ⟨cell_ne d (cV L) (jV L) (by decide : cc0_scratch10.sem ≠ cc0_scratch7.sem), Finset.mem_erase.mpr ⟨cell_ne d (cV L) (jV L) (by decide : cc0_scratch10.sem ≠ cc0_scratch6.sem), Finset.mem_erase.mpr ⟨cell_ne d (cV L) (jV L) (by decide : cc0_scratch10.sem ≠ cc0_scratch5.sem), Finset.mem_erase.mpr ⟨cell_ne d (cV L) (jV L) (by decide : cc0_scratch10.sem ≠ cc0_scratch4.sem), Finset.mem_erase.mpr ⟨cell_ne d (cV L) (jV L) (by decide : cc0_scratch10.sem ≠ cc0_scratch3.sem), (mem_ownCells (g := cell7 d (cV L) (jV L))).mpr ⟨rfl, by show (SemLoc.dma cc0_scratch10.sem : SemLoc sig).isScoped .scVector = true; decide⟩⟩⟩⟩⟩⟩⟩⟩),
    SparseCore.bigSep_erase' (Finset.mem_erase.mpr ⟨cell_ne d (cV L) (jV L) (by decide : cc0_scratch11.sem ≠ cc0_scratch10.sem), Finset.mem_erase.mpr ⟨cell_ne d (cV L) (jV L) (by decide : cc0_scratch11.sem ≠ cc0_scratch9.sem), Finset.mem_erase.mpr ⟨cell_ne d (cV L) (jV L) (by decide : cc0_scratch11.sem ≠ cc0_scratch8.sem), Finset.mem_erase.mpr ⟨cell_ne d (cV L) (jV L) (by decide : cc0_scratch11.sem ≠ cc0_scratch7.sem), Finset.mem_erase.mpr ⟨cell_ne d (cV L) (jV L) (by decide : cc0_scratch11.sem ≠ cc0_scratch6.sem), Finset.mem_erase.mpr ⟨cell_ne d (cV L) (jV L) (by decide : cc0_scratch11.sem ≠ cc0_scratch5.sem), Finset.mem_erase.mpr ⟨cell_ne d (cV L) (jV L) (by decide : cc0_scratch11.sem ≠ cc0_scratch4.sem), Finset.mem_erase.mpr ⟨cell_ne d (cV L) (jV L) (by decide : cc0_scratch11.sem ≠ cc0_scratch3.sem), (mem_ownCells (g := cell8 d (cV L) (jV L))).mpr ⟨rfl, by show (SemLoc.dma cc0_scratch11.sem : SemLoc sig).isScoped .scVector = true; decide⟩⟩⟩⟩⟩⟩⟩⟩⟩),
    SparseCore.bigSep_erase' (Finset.mem_erase.mpr ⟨cell_ne d (cV L) (jV L) (by decide : cc0_scratch12.sem ≠ cc0_scratch11.sem), Finset.mem_erase.mpr ⟨cell_ne d (cV L) (jV L) (by decide : cc0_scratch12.sem ≠ cc0_scratch10.sem), Finset.mem_erase.mpr ⟨cell_ne d (cV L) (jV L) (by decide : cc0_scratch12.sem ≠ cc0_scratch9.sem), Finset.mem_erase.mpr ⟨cell_ne d (cV L) (jV L) (by decide : cc0_scratch12.sem ≠ cc0_scratch8.sem), Finset.mem_erase.mpr ⟨cell_ne d (cV L) (jV L) (by decide : cc0_scratch12.sem ≠ cc0_scratch7.sem), Finset.mem_erase.mpr ⟨cell_ne d (cV L) (jV L) (by decide : cc0_scratch12.sem ≠ cc0_scratch6.sem), Finset.mem_erase.mpr ⟨cell_ne d (cV L) (jV L) (by decide : cc0_scratch12.sem ≠ cc0_scratch5.sem), Finset.mem_erase.mpr ⟨cell_ne d (cV L) (jV L) (by decide : cc0_scratch12.sem ≠ cc0_scratch4.sem), Finset.mem_erase.mpr ⟨cell_ne d (cV L) (jV L) (by decide : cc0_scratch12.sem ≠ cc0_scratch3.sem), (mem_ownCells (g := cell9 d (cV L) (jV L))).mpr ⟨rfl, by show (SemLoc.dma cc0_scratch12.sem : SemLoc sig).isScoped .scVector = true; decide⟩⟩⟩⟩⟩⟩⟩⟩⟩⟩),
    SparseCore.bigSep_erase' (Finset.mem_erase.mpr ⟨cell_ne d (cV L) (jV L) (by decide : cc0_scratch13.sem ≠ cc0_scratch12.sem), Finset.mem_erase.mpr ⟨cell_ne d (cV L) (jV L) (by decide : cc0_scratch13.sem ≠ cc0_scratch11.sem), Finset.mem_erase.mpr ⟨cell_ne d (cV L) (jV L) (by decide : cc0_scratch13.sem ≠ cc0_scratch10.sem), Finset.mem_erase.mpr ⟨cell_ne d (cV L) (jV L) (by decide : cc0_scratch13.sem ≠ cc0_scratch9.sem), Finset.mem_erase.mpr ⟨cell_ne d (cV L) (jV L) (by decide : cc0_scratch13.sem ≠ cc0_scratch8.sem), Finset.mem_erase.mpr ⟨cell_ne d (cV L) (jV L) (by decide : cc0_scratch13.sem ≠ cc0_scratch7.sem), Finset.mem_erase.mpr ⟨cell_ne d (cV L) (jV L) (by decide : cc0_scratch13.sem ≠ cc0_scratch6.sem), Finset.mem_erase.mpr ⟨cell_ne d (cV L) (jV L) (by decide : cc0_scratch13.sem ≠ cc0_scratch5.sem), Finset.mem_erase.mpr ⟨cell_ne d (cV L) (jV L) (by decide : cc0_scratch13.sem ≠ cc0_scratch4.sem), Finset.mem_erase.mpr ⟨cell_ne d (cV L) (jV L) (by decide : cc0_scratch13.sem ≠ cc0_scratch3.sem), (mem_ownCells (g := cell10 d (cV L) (jV L))).mpr ⟨rfl, by show (SemLoc.dma cc0_scratch13.sem : SemLoc sig).isScoped .scVector = true; decide⟩⟩⟩⟩⟩⟩⟩⟩⟩⟩⟩),
    SparseCore.bigSep_erase' (Finset.mem_erase.mpr ⟨cell_ne d (cV L) (jV L) (by decide : cc0_scratch14.sem ≠ cc0_scratch13.sem), Finset.mem_erase.mpr ⟨cell_ne d (cV L) (jV L) (by decide : cc0_scratch14.sem ≠ cc0_scratch12.sem), Finset.mem_erase.mpr ⟨cell_ne d (cV L) (jV L) (by decide : cc0_scratch14.sem ≠ cc0_scratch11.sem), Finset.mem_erase.mpr ⟨cell_ne d (cV L) (jV L) (by decide : cc0_scratch14.sem ≠ cc0_scratch10.sem), Finset.mem_erase.mpr ⟨cell_ne d (cV L) (jV L) (by decide : cc0_scratch14.sem ≠ cc0_scratch9.sem), Finset.mem_erase.mpr ⟨cell_ne d (cV L) (jV L) (by decide : cc0_scratch14.sem ≠ cc0_scratch8.sem), Finset.mem_erase.mpr ⟨cell_ne d (cV L) (jV L) (by decide : cc0_scratch14.sem ≠ cc0_scratch7.sem), Finset.mem_erase.mpr ⟨cell_ne d (cV L) (jV L) (by decide : cc0_scratch14.sem ≠ cc0_scratch6.sem), Finset.mem_erase.mpr ⟨cell_ne d (cV L) (jV L) (by decide : cc0_scratch14.sem ≠ cc0_scratch5.sem), Finset.mem_erase.mpr ⟨cell_ne d (cV L) (jV L) (by decide : cc0_scratch14.sem ≠ cc0_scratch4.sem), Finset.mem_erase.mpr ⟨cell_ne d (cV L) (jV L) (by decide : cc0_scratch14.sem ≠ cc0_scratch3.sem), (mem_ownCells (g := cell11 d (cV L) (jV L))).mpr ⟨rfl, by show (SemLoc.dma cc0_scratch14.sem : SemLoc sig).isScoped .scVector = true; decide⟩⟩⟩⟩⟩⟩⟩⟩⟩⟩⟩⟩),
    SparseCore.bigSep_erase' (Finset.mem_erase.mpr ⟨cell_ne d (cV L) (jV L) (by decide : cc0_scratch15.sem ≠ cc0_scratch14.sem), Finset.mem_erase.mpr ⟨cell_ne d (cV L) (jV L) (by decide : cc0_scratch15.sem ≠ cc0_scratch13.sem), Finset.mem_erase.mpr ⟨cell_ne d (cV L) (jV L) (by decide : cc0_scratch15.sem ≠ cc0_scratch12.sem), Finset.mem_erase.mpr ⟨cell_ne d (cV L) (jV L) (by decide : cc0_scratch15.sem ≠ cc0_scratch11.sem), Finset.mem_erase.mpr ⟨cell_ne d (cV L) (jV L) (by decide : cc0_scratch15.sem ≠ cc0_scratch10.sem), Finset.mem_erase.mpr ⟨cell_ne d (cV L) (jV L) (by decide : cc0_scratch15.sem ≠ cc0_scratch9.sem), Finset.mem_erase.mpr ⟨cell_ne d (cV L) (jV L) (by decide : cc0_scratch15.sem ≠ cc0_scratch8.sem), Finset.mem_erase.mpr ⟨cell_ne d (cV L) (jV L) (by decide : cc0_scratch15.sem ≠ cc0_scratch7.sem), Finset.mem_erase.mpr ⟨cell_ne d (cV L) (jV L) (by decide : cc0_scratch15.sem ≠ cc0_scratch6.sem), Finset.mem_erase.mpr ⟨cell_ne d (cV L) (jV L) (by decide : cc0_scratch15.sem ≠ cc0_scratch5.sem), Finset.mem_erase.mpr ⟨cell_ne d (cV L) (jV L) (by decide : cc0_scratch15.sem ≠ cc0_scratch4.sem), Finset.mem_erase.mpr ⟨cell_ne d (cV L) (jV L) (by decide : cc0_scratch15.sem ≠ cc0_scratch3.sem), (mem_ownCells (g := cell12 d (cV L) (jV L))).mpr ⟨rfl, by show (SemLoc.dma cc0_scratch15.sem : SemLoc sig).isScoped .scVector = true; decide⟩⟩⟩⟩⟩⟩⟩⟩⟩⟩⟩⟩⟩),
    SparseCore.bigSep_erase' (Finset.mem_erase.mpr ⟨cell_ne d (cV L) (jV L) (by decide : cc0_scratch16.sem ≠ cc0_scratch15.sem), Finset.mem_erase.mpr ⟨cell_ne d (cV L) (jV L) (by decide : cc0_scratch16.sem ≠ cc0_scratch14.sem), Finset.mem_erase.mpr ⟨cell_ne d (cV L) (jV L) (by decide : cc0_scratch16.sem ≠ cc0_scratch13.sem), Finset.mem_erase.mpr ⟨cell_ne d (cV L) (jV L) (by decide : cc0_scratch16.sem ≠ cc0_scratch12.sem), Finset.mem_erase.mpr ⟨cell_ne d (cV L) (jV L) (by decide : cc0_scratch16.sem ≠ cc0_scratch11.sem), Finset.mem_erase.mpr ⟨cell_ne d (cV L) (jV L) (by decide : cc0_scratch16.sem ≠ cc0_scratch10.sem), Finset.mem_erase.mpr ⟨cell_ne d (cV L) (jV L) (by decide : cc0_scratch16.sem ≠ cc0_scratch9.sem), Finset.mem_erase.mpr ⟨cell_ne d (cV L) (jV L) (by decide : cc0_scratch16.sem ≠ cc0_scratch8.sem), Finset.mem_erase.mpr ⟨cell_ne d (cV L) (jV L) (by decide : cc0_scratch16.sem ≠ cc0_scratch7.sem), Finset.mem_erase.mpr ⟨cell_ne d (cV L) (jV L) (by decide : cc0_scratch16.sem ≠ cc0_scratch6.sem), Finset.mem_erase.mpr ⟨cell_ne d (cV L) (jV L) (by decide : cc0_scratch16.sem ≠ cc0_scratch5.sem), Finset.mem_erase.mpr ⟨cell_ne d (cV L) (jV L) (by decide : cc0_scratch16.sem ≠ cc0_scratch4.sem), Finset.mem_erase.mpr ⟨cell_ne d (cV L) (jV L) (by decide : cc0_scratch16.sem ≠ cc0_scratch3.sem), (mem_ownCells (g := cell13 d (cV L) (jV L))).mpr ⟨rfl, by show (SemLoc.dma cc0_scratch16.sem : SemLoc sig).isScoped .scVector = true; decide⟩⟩⟩⟩⟩⟩⟩⟩⟩⟩⟩⟩⟩⟩),
    SparseCore.bigSep_erase' (Finset.mem_erase.mpr ⟨cell_ne d (cV L) (jV L) (by decide : cc0_scratch17.sem ≠ cc0_scratch16.sem), Finset.mem_erase.mpr ⟨cell_ne d (cV L) (jV L) (by decide : cc0_scratch17.sem ≠ cc0_scratch15.sem), Finset.mem_erase.mpr ⟨cell_ne d (cV L) (jV L) (by decide : cc0_scratch17.sem ≠ cc0_scratch14.sem), Finset.mem_erase.mpr ⟨cell_ne d (cV L) (jV L) (by decide : cc0_scratch17.sem ≠ cc0_scratch13.sem), Finset.mem_erase.mpr ⟨cell_ne d (cV L) (jV L) (by decide : cc0_scratch17.sem ≠ cc0_scratch12.sem), Finset.mem_erase.mpr ⟨cell_ne d (cV L) (jV L) (by decide : cc0_scratch17.sem ≠ cc0_scratch11.sem), Finset.mem_erase.mpr ⟨cell_ne d (cV L) (jV L) (by decide : cc0_scratch17.sem ≠ cc0_scratch10.sem), Finset.mem_erase.mpr ⟨cell_ne d (cV L) (jV L) (by decide : cc0_scratch17.sem ≠ cc0_scratch9.sem), Finset.mem_erase.mpr ⟨cell_ne d (cV L) (jV L) (by decide : cc0_scratch17.sem ≠ cc0_scratch8.sem), Finset.mem_erase.mpr ⟨cell_ne d (cV L) (jV L) (by decide : cc0_scratch17.sem ≠ cc0_scratch7.sem), Finset.mem_erase.mpr ⟨cell_ne d (cV L) (jV L) (by decide : cc0_scratch17.sem ≠ cc0_scratch6.sem), Finset.mem_erase.mpr ⟨cell_ne d (cV L) (jV L) (by decide : cc0_scratch17.sem ≠ cc0_scratch5.sem), Finset.mem_erase.mpr ⟨cell_ne d (cV L) (jV L) (by decide : cc0_scratch17.sem ≠ cc0_scratch4.sem), Finset.mem_erase.mpr ⟨cell_ne d (cV L) (jV L) (by decide : cc0_scratch17.sem ≠ cc0_scratch3.sem), (mem_ownCells (g := cell14 d (cV L) (jV L))).mpr ⟨rfl, by show (SemLoc.dma cc0_scratch17.sem : SemLoc sig).isScoped .scVector = true; decide⟩⟩⟩⟩⟩⟩⟩⟩⟩⟩⟩⟩⟩⟩⟩),
    SparseCore.bigSep_erase' (Finset.mem_erase.mpr ⟨cell_ne d (cV L) (jV L) (by decide : cc0_scratch18.sem ≠ cc0_scratch17.sem), Finset.mem_erase.mpr ⟨cell_ne d (cV L) (jV L) (by decide : cc0_scratch18.sem ≠ cc0_scratch16.sem), Finset.mem_erase.mpr ⟨cell_ne d (cV L) (jV L) (by decide : cc0_scratch18.sem ≠ cc0_scratch15.sem), Finset.mem_erase.mpr ⟨cell_ne d (cV L) (jV L) (by decide : cc0_scratch18.sem ≠ cc0_scratch14.sem), Finset.mem_erase.mpr ⟨cell_ne d (cV L) (jV L) (by decide : cc0_scratch18.sem ≠ cc0_scratch13.sem), Finset.mem_erase.mpr ⟨cell_ne d (cV L) (jV L) (by decide : cc0_scratch18.sem ≠ cc0_scratch12.sem), Finset.mem_erase.mpr ⟨cell_ne d (cV L) (jV L) (by decide : cc0_scratch18.sem ≠ cc0_scratch11.sem), Finset.mem_erase.mpr ⟨cell_ne d (cV L) (jV L) (by decide : cc0_scratch18.sem ≠ cc0_scratch10.sem), Finset.mem_erase.mpr ⟨cell_ne d (cV L) (jV L) (by decide : cc0_scratch18.sem ≠ cc0_scratch9.sem), Finset.mem_erase.mpr ⟨cell_ne d (cV L) (jV L) (by decide : cc0_scratch18.sem ≠ cc0_scratch8.sem), Finset.mem_erase.mpr ⟨cell_ne d (cV L) (jV L) (by decide : cc0_scratch18.sem ≠ cc0_scratch7.sem), Finset.mem_erase.mpr ⟨cell_ne d (cV L) (jV L) (by decide : cc0_scratch18.sem ≠ cc0_scratch6.sem), Finset.mem_erase.mpr ⟨cell_ne d (cV L) (jV L) (by decide : cc0_scratch18.sem ≠ cc0_scratch5.sem), Finset.mem_erase.mpr ⟨cell_ne d (cV L) (jV L) (by decide : cc0_scratch18.sem ≠ cc0_scratch4.sem), Finset.mem_erase.mpr ⟨cell_ne d (cV L) (jV L) (by decide : cc0_scratch18.sem ≠ cc0_scratch3.sem), (mem_ownCells (g := cell15 d (cV L) (jV L))).mpr ⟨rfl, by show (SemLoc.dma cc0_scratch18.sem : SemLoc sig).isScoped .scVector = true; decide⟩⟩⟩⟩⟩⟩⟩⟩⟩⟩⟩⟩⟩⟩⟩⟩)]

/-- The three scratch buffers are among the subcore's own: they are them, at some contents, and the rest. -/
theorem ownBufs_V (d : Dev nD) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## The program's own memrefs -/

variable (d : Dev nD)

abbrev xK1 (L : grid0.Coords) : Memref sig .scVector .hbm S512 .i32 := (xV).slice (Rect.unit (s := S32768) (k0_off1 L) S512.size (k0_off1_inb L)) (fun _ => rfl)
abbrev xK2 (L : grid0.Coords) : Memref sig .scVector .hbm S512 .i32 := (xV).slice (Rect.unit (s := S32768) (k0_off2 L) S512.size (k0_off2_inb L)) (fun _ => rfl)
abbrev oK (L : grid0.Coords) (a : Fin 2) (b : Fin 4) : Memref sig .scVector .hbm S128x128 .f32 := (oV).slice (oRectK L a b) (fun _ => rfl)
abbrev oK00 (L : grid0.Coords) : Memref sig .scVector .hbm S128x128 .f32 := (oV).slice (Rect.unit (s := S32768x128) (k0_off3 L 0#32 0#32) S128x128.size (k0_off3_inb L 0 0)) (fun _ => rfl)
abbrev oK01 (L : grid0.Coords) : Memref sig .scVector .hbm S128x128 .f32 := (oV).slice (Rect.unit (s := S32768x128) (k0_off3 L 0#32 128#32) S128x128.size (k0_off3_inb L 0 1)) (fun _ => rfl)
abbrev oK02 (L : grid0.Coords) : Memref sig .scVector .hbm S128x128 .f32 := (oV).slice (Rect.unit (s := S32768x128) (k0_off3 L 0#32 256#32) S128x128.size (k0_off3_inb L 0 2)) (fun _ => rfl)
abbrev oK03 (L : grid0.Coords) : Memref sig .scVector .hbm S128x128 .f32 := (oV).slice (Rect.unit (s := S32768x128) (k0_off3 L 0#32 384#32) S128x128.size (k0_off3_inb L 0 3)) (fun _ => rfl)
abbrev oK10 (L : grid0.Coords) : Memref sig .scVector .hbm S128x128 .f32 := (oV).slice (Rect.unit (s := S32768x128) (k0_off3 L 16384#32 0#32) S128x128.size (k0_off3_inb L 1 0)) (fun _ => rfl)
abbrev oK11 (L : grid0.Coords) : Memref sig .scVector .hbm S128x128 .f32 := (oV).slice (Rect.unit (s := S32768x128) (k0_off3 L 16384#32 128#32) S128x128.size (k0_off3_inb L 1 1)) (fun _ => rfl)
abbrev oK12 (L : grid0.Coords) : Memref sig .scVector .hbm S128x128 .f32 := (oV).slice (Rect.unit (s := S32768x128) (k0_off3 L 16384#32 256#32) S128x128.size (k0_off3_inb L 1 2)) (fun _ => rfl)
abbrev oK13 (L : grid0.Coords) : Memref sig .scVector .hbm S128x128 .f32 := (oV).slice (Rect.unit (s := S32768x128) (k0_off3 L 16384#32 384#32) S128x128.size (k0_off3_inb L 1 3)) (fun _ => rfl)

theorem set_xK1 : (xK1 L).view.set = xSet (xN 0 (cL L) (iL L)) := by
  show ((xV).view.slice (xRectK1 L)).set = ((xV).view.slice (xpart (xN 0 (cL L) (iL L)))).set
  exact xRectK1_eq L ▸ rfl
theorem set_xK2 : (xK2 L).view.set = xSet (xN 1 (cL L) (iL L)) := by
  show ((xV).view.slice (xRectK2 L)).set = ((xV).view.slice (xpart (xN 1 (cL L) (iL L)))).set
  exact xRectK2_eq L ▸ rfl
theorem set_oK (a : Fin 2) (b : Fin 4) : (oK L a b).view.set = oSet (oN a (cL L) (iL L) b) := by
  show ((oV).view.slice (oRectK L a b)).set = ((oV).view.slice (opart (oN a (cL L) (iL L) b))).set
  exact oRectK_eq L a b ▸ rfl

theorem pts_xK1 (f : Buf (Elt F) (xLoc d)) :
    ((xK1 L).view.loc (V d (cV L) (jV L)) ↦[(xK1 L).view.set]{fullShare} f : sProp 𝕄) = xLoc d ↦[xSet (xN 0 (cL L) (iL L))]{fullShare} f := by
  rw [set_xK1]
theorem pts_xK2 (f : Buf (Elt F) (xLoc d)) :
    ((xK2 L).view.loc (V d (cV L) (jV L)) ↦[(xK2 L).view.set]{fullShare} f : sProp 𝕄) = xLoc d ↦[xSet (xN 1 (cL L) (iL L))]{fullShare} f := by
  rw [set_xK2]
theorem pts_oK (a : Fin 2) (b : Fin 4) (f : Buf (Elt F) (oLoc d)) :
    ((oK L a b).view.loc (V d (cV L) (jV L)) ↦[(oK L a b).view.set]{fullShare} f : sProp 𝕄) = oLoc d ↦[oSet (oN a (cL L) (iL L) b)]{fullShare} f := by
  rw [set_oK]
theorem pts_oK00 (f : Buf (Elt F) (oLoc d)) :
    ((oK00 L).view.loc (V d (cV L) (jV L)) ↦[(oK00 L).view.set]{fullShare} f : sProp 𝕄) = oLoc d ↦[oSet (oN 0 (cL L) (iL L) 0)]{fullShare} f :=
  pts_oK L d 0 0 f
theorem pts_oK01 (f : Buf (Elt F) (oLoc d)) :
    ((oK01 L).view.loc (V d (cV L) (jV L)) ↦[(oK01 L).view.set]{fullShare} f : sProp 𝕄) = oLoc d ↦[oSet (oN 0 (cL L) (iL L) 1)]{fullShare} f :=
  pts_oK L d 0 1 f
theorem pts_oK02 (f : Buf (Elt F) (oLoc d)) :
    ((oK02 L).view.loc (V d (cV L) (jV L)) ↦[(oK02 L).view.set]{fullShare} f : sProp 𝕄) = oLoc d ↦[oSet (oN 0 (cL L) (iL L) 2)]{fullShare} f :=
  pts_oK L d 0 2 f
theorem pts_oK03 (f : Buf (Elt F) (oLoc d)) :
    ((oK03 L).view.loc (V d (cV L) (jV L)) ↦[(oK03 L).view.set]{fullShare} f : sProp 𝕄) = oLoc d ↦[oSet (oN 0 (cL L) (iL L) 3)]{fullShare} f :=
  pts_oK L d 0 3 f
theorem pts_oK10 (f : Buf (Elt F) (oLoc d)) :
    ((oK10 L).view.loc (V d (cV L) (jV L)) ↦[(oK10 L).view.set]{fullShare} f : sProp 𝕄) = oLoc d ↦[oSet (oN 1 (cL L) (iL L) 0)]{fullShare} f :=
  pts_oK L d 1 0 f
theorem pts_oK11 (f : Buf (Elt F) (oLoc d)) :
    ((oK11 L).view.loc (V d (cV L) (jV L)) ↦[(oK11 L).view.set]{fullShare} f : sProp 𝕄) = oLoc d ↦[oSet (oN 1 (cL L) (iL L) 1)]{fullShare} f :=
  pts_oK L d 1 1 f
theorem pts_oK12 (f : Buf (Elt F) (oLoc d)) :
    ((oK12 L).view.loc (V d (cV L) (jV L)) ↦[(oK12 L).view.set]{fullShare} f : sProp 𝕄) = oLoc d ↦[oSet (oN 1 (cL L) (iL L) 2)]{fullShare} f :=
  pts_oK L d 1 2 f
theorem pts_oK13 (f : Buf (Elt F) (oLoc d)) :
    ((oK13 L).view.loc (V d (cV L) (jV L)) ↦[(oK13 L).view.set]{fullShare} f : sProp 𝕄) = oLoc d ↦[oSet (oN 1 (cL L) (iL L) 3)]{fullShare} f :=
  pts_oK L d 1 3 f
theorem pts_uV (q : PosShare TreeShare) (f : Buf (Elt F) (uLoc d)) :
    ((uV).view.loc (V d (cV L) (jV L)) ↦{q} f : sProp 𝕄) = uLoc d ↦{q} f := rfl
theorem pts_tV (q : PosShare TreeShare) (f : Buf (Elt F) (iLoc d)) :
    ((tV).view.loc (V d (cV L) (jV L)) ↦{q} f : sProp 𝕄) = iLoc d ↦{q} f := rfl
theorem pts_aV (f : Buf (Elt F) ((V d (cV L) (jV L)).loc cc0_scratch0)) :
    ((aV).view.loc (V d (cV L) (jV L)) ↦{fullShare} f : sProp 𝕄) = (V d (cV L) (jV L)).loc cc0_scratch0 ↦{fullShare} f := rfl
theorem pts_bV (f : Buf (Elt F) ((V d (cV L) (jV L)).loc cc0_scratch1)) :
    ((bV).view.loc (V d (cV L) (jV L)) ↦{fullShare} f : sProp 𝕄) = (V d (cV L) (jV L)).loc cc0_scratch1 ↦{fullShare} f := rfl
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-- A worker's holdings, piece by piece. -/
theorem tileRes_eq (m : (ℓ : Loc nD τ sig) → Buf (Elt F) ℓ) (X : (d : Dev nD) → Buf (Elt F) (xLoc d)) (c : Fin 2) (i : Fin 16) (f : Buf (Elt F) (oLoc d)) :
    (tileRes m X d c i f : sProp 𝕄)
      = iprop(((xLoc d ↦[xSet (xN 0 c i)]{fullShare} X d) ∗ (xLoc d ↦[xSet (xN 1 c i)]{fullShare} X d))
          ∗ ((uLoc d ↦{tq c i 0} m (uLoc d)) ∗ (uLoc d ↦{tq c i 1} m (uLoc d)) ∗ (uLoc d ↦{tq c i 2} m (uLoc d)) ∗ (uLoc d ↦{tq c i 3} m (uLoc d)))
          ∗ ((iLoc d ↦{tq c i 0} m (iLoc d)) ∗ (iLoc d ↦{tq c i 1} m (iLoc d)) ∗ (iLoc d ↦{tq c i 2} m (iLoc d)) ∗ (iLoc d ↦{tq c i 3} m (iLoc d)))
          ∗ ((oLoc d ↦[oSet (oN 0 c i 0)]{fullShare} f) ∗ (oLoc d ↦[oSet (oN 0 c i 1)]{fullShare} f) ∗ (oLoc d ↦[oSet (oN 0 c i 2)]{fullShare} f) ∗ (oLoc d ↦[oSet (oN 0 c i 3)]{fullShare} f) ∗ (oLoc d ↦[oSet (oN 1 c i 0)]{fullShare} f) ∗ (oLoc d ↦[oSet (oN 1 c i 1)]{fullShare} f) ∗ (oLoc d ↦[oSet (oN 1 c i 2)]{fullShare} f) ∗ (oLoc d ↦[oSet (oN 1 c i 3)]{fullShare} f))) := by
  unfold tileRes
  rw [BI.bigSep_fin_two,
    bigSep_univ_eq_bigSepL ([0, 1, 2, 3] : List (Fin 4)) (by decide) (by decide),
    bigSep_univ_eq_bigSepL ([0, 1, 2, 3] : List (Fin 4)) (by decide) (by decide),
    bigSep_univ_eq_bigSepL ([(0,0),(0,1),(0,2),(0,3),(1,0),(1,1),(1,2),(1,3)] : List (Fin 2 × Fin 4)) (by decide) (by decide)]
  rfl

/-! ## The index words a gather reads are in range -/

variable (X : (d : Dev nD) → Buf (Elt F) (xLoc d))

/-- A stretch of the index list as a copy reads it: word by word the list's own. -/
theorem read_xK1 (j : S512.Idx) : (xK1 L).view.read (Elt F) (X d) j = X d ((xK1 L).view.emb j) := (View.read_apply _ _).trans (cast_eq _ _)
theorem read_xK2 (j : S512.Idx) : (xK2 L).view.read (Elt F) (X d) j = X d ((xK2 L).view.emb j) := (View.read_apply _ _).trans (cast_eq _ _)

theorem inb_a (fs : Buf (Elt F) ((aV).view.loc (V d (cV L) (jV L)))) (g : S512.Idx → Elt F .i32) (hg : ∀ j, (g j).toNat < 100000)
    (off : Fin 1 → Nat) (ho : ∀ a, off a + S128.size a ≤ S512.size a) (x : S128.Idx) :
    (((aV).slice (Rect.unit (s := S512) off S128.size ho) (fun _ => rfl)).view.read (Elt F) (View.write (Elt F) (aV).view fs g Finset.univ) x).toNat
      < S100000x128.size gathers_S100000x128_S128x128.axis := by
  show _ < 100000
  simp only [Memref.view_whole]
  rw [View.write_whole_univ, (View.read_apply _ _).trans (cast_eq _ _)]
  exact hg _

theorem inb_b (fs : Buf (Elt F) ((bV).view.loc (V d (cV L) (jV L)))) (g : S512.Idx → Elt F .i32) (hg : ∀ j, (g j).toNat < 100000)
    (off : Fin 1 → Nat) (ho : ∀ a, off a + S128.size a ≤ S512.size a) (x : S128.Idx) :
    (((bV).slice (Rect.unit (s := S512) off S128.size ho) (fun _ => rfl)).view.read (Elt F) (View.write (Elt F) (bV).view fs g Finset.univ) x).toNat
      < S100000x128.size gathers_S100000x128_S128x128.axis := by
  show _ < 100000
  simp only [Memref.view_whole]
  rw [View.write_whole_univ, (View.read_apply _ _).trans (cast_eq _ _)]
  exact hg _

/-! ## What a gather lands, and what a block of the output ends at -/

variable [FloatOps F] (m : (ℓ : Loc nD τ sig) → Buf (Elt F) ℓ)

/-- The row-major position of a one-axis index is its coordinate. -/
theorem symm_rowMajor_S128 (k : Fin S128.numel) : ((S128.rowMajor.symm k) 0).val = k.val := by
  have h := Shape.rowMajor_val_one (d := ![128]) (S128.rowMajor.symm k)
  rw [Equiv.apply_symm_apply] at h
  exact h.symm

abbrev uS : Memref sig .scVector .hbm S100000x128 .f32 := (uV).slice (Rect.unit (s := S100000x128) ![0, 0] S100000x128.size inb_S100000x128_S100000x128_0_0) (fun _ => rfl)
abbrev tS : Memref sig .scVector .hbm S100000x128 .f32 := (tV).slice (Rect.unit (s := S100000x128) ![0, 0] S100000x128.size inb_S100000x128_S100000x128_0_0) (fun _ => rfl)
abbrev aS (off : Fin 1 → Nat) (ho : ∀ a, off a + S128.size a ≤ S512.size a) : Memref sig .scVector .vmem S128 .i32 := (aV).slice (Rect.unit (s := S512) off S128.size ho) (fun _ => rfl)
abbrev bS (off : Fin 1 → Nat) (ho : ∀ a, off a + S128.size a ≤ S512.size a) : Memref sig .scVector .vmem S128 .i32 := (bV).slice (Rect.unit (s := S512) off S128.size ho) (fun _ => rfl)

/-- A gather through a stretch of the first index scratch, filled from the worker's stretch of the first half of the index
    list, lands at (e, col) the user table's row named by the list's word at the stretch's place e, column col. -/
theorem gather_val_u (fa : Buf (Elt F) ((aV).view.loc (V d (cV L) (jV L)))) (off : Fin 1 → Nat) (ho : ∀ a, off a + S128.size a ≤ S512.size a)
    (hn : S128.numel = S128x128.size gathers_S100000x128_S128x128.axis')
    (hin : ∀ x, ((aS off ho).view.read (Elt F) (View.write (Elt F) (aV).view fa (ReadAs.same.apply ((xK1 L).view.read (Elt F) (X d))) Finset.univ) x).toNat
      < S100000x128.size gathers_S100000x128_S128x128.axis)
    (x : S128x128.Idx) (I : S100000x128.Idx) (J : S32768.Idx)
    (hJ : (J 0).val = k0_off1 L 0 + off 0 + (x 0).val) (hI0 : (I 0).val = (X d J).toNat) (hI1 : (I 1).val = (x 1).val) :
    SparseCore.gatherPayload gathers_S100000x128_S128x128 ((uS).view.read (Elt F) (m (uLoc d)))
        (SparseCore.rows ((aS off ho).view.read (Elt F) (View.write (Elt F) (aV).view fa (ReadAs.same.apply ((xK1 L).view.read (Elt F) (X d))) Finset.univ)) hn hin) x
      = m (uLoc d) I := by
  unfold SparseCore.gatherPayload
  rw [(View.read_apply _ _).trans (cast_eq _ _)]
  congr 1
  funext a
  apply Fin.ext
  match a with
  | 0 =>
    show 0 + 1 * ((gathers_S100000x128_S128x128.idx _ x) 0).val = (I 0).val
    have e := Shape.Gathers.idx_axis gathers_S100000x128_S128x128 (SparseCore.rows ((aS off ho).view.read (Elt F) (View.write (Elt F) (aV).view fa (ReadAs.same.apply ((xK1 L).view.read (Elt F) (X d))) Finset.univ)) hn hin) x
    show 0 + 1 * ((gathers_S100000x128_S128x128.idx _ x) gathers_S100000x128_S128x128.axis).val = (I 0).val
    rw [e, hI0]
    show 0 + 1 * (((aS off ho).view.read (Elt F) (View.write (Elt F) (aV).view fa (ReadAs.same.apply ((xK1 L).view.read (Elt F) (X d))) Finset.univ)) (S128.rowMajor.symm ((x gathers_S100000x128_S128x128.axis').cast hn.symm))).toNat = _
    rw [(View.read_apply _ _).trans (cast_eq _ _)]
    simp only [Memref.view_whole]
    rw [View.write_whole_univ, ReadAs.apply_same, (View.read_apply _ _).trans (cast_eq _ _), Nat.zero_add, Nat.one_mul]
    congr 2
    funext a
    apply Fin.ext
    match a with
    | 0 =>
      show k0_off1 L 0 + 1 * (off 0 + 1 * ((S128.rowMajor.symm ((x gathers_S100000x128_S128x128.axis').cast hn.symm)) 0).val) = (J 0).val
      rw [hJ, symm_rowMajor_S128]
      show k0_off1 L 0 + 1 * (off 0 + 1 * (x 0).val) = _
      omega
  | 1 =>
    show 0 + 1 * ((gathers_S100000x128_S128x128.idx _ x) 1).val = (I 1).val
    rw [hI1, Shape.Gathers.idx_of_ne _ _ _ 1 (by decide)]
    show 0 + 1 * (x 1).val = _
    omega

/-- The same through the second index scratch, filled from the worker's stretch of the second half of the list, out of the
    item table. -/
theorem gather_val_t (fb : Buf (Elt F) ((bV).view.loc (V d (cV L) (jV L)))) (off : Fin 1 → Nat) (ho : ∀ a, off a + S128.size a ≤ S512.size a)
    (hn : S128.numel = S128x128.size gathers_S100000x128_S128x128.axis')
    (hin : ∀ x, ((bS off ho).view.read (Elt F) (View.write (Elt F) (bV).view fb (ReadAs.same.apply ((xK2 L).view.read (Elt F) (X d))) Finset.univ) x).toNat
      < S100000x128.size gathers_S100000x128_S128x128.axis)
    (x : S128x128.Idx) (I : S100000x128.Idx) (J : S32768.Idx)
    (hJ : (J 0).val = k0_off2 L 0 + off 0 + (x 0).val) (hI0 : (I 0).val = (X d J).toNat) (hI1 : (I 1).val = (x 1).val) :
    SparseCore.gatherPayload gathers_S100000x128_S128x128 ((tS).view.read (Elt F) (m (iLoc d)))
        (SparseCore.rows ((bS off ho).view.read (Elt F) (View.write (Elt F) (bV).view fb (ReadAs.same.apply ((xK2 L).view.read (Elt F) (X d))) Finset.univ)) hn hin) x
      = m (iLoc d) I := by
  unfold SparseCore.gatherPayload
  rw [(View.read_apply _ _).trans (cast_eq _ _)]
  congr 1
  funext a
  apply Fin.ext
  match a with
  | 0 =>
    show 0 + 1 * ((gathers_S100000x128_S128x128.idx _ x) 0).val = (I 0).val
    have e := Shape.Gathers.idx_axis gathers_S100000x128_S128x128 (SparseCore.rows ((bS off ho).view.read (Elt F) (View.write (Elt F) (bV).view fb (ReadAs.same.apply ((xK2 L).view.read (Elt F) (X d))) Finset.univ)) hn hin) x
    show 0 + 1 * ((gathers_S100000x128_S128x128.idx _ x) gathers_S100000x128_S128x128.axis).val = (I 0).val
    rw [e, hI0]
    show 0 + 1 * (((bS off ho).view.read (Elt F) (View.write (Elt F) (bV).view fb (ReadAs.same.apply ((xK2 L).view.read (Elt F) (X d))) Finset.univ)) (S128.rowMajor.symm ((x gathers_S100000x128_S128x128.axis').cast hn.symm))).toNat = _
    rw [(View.read_apply _ _).trans (cast_eq _ _)]
    simp only [Memref.view_whole]
    rw [View.write_whole_univ, ReadAs.apply_same, (View.read_apply _ _).trans (cast_eq _ _), Nat.zero_add, Nat.one_mul]
    congr 2
    funext a
    apply Fin.ext
    match a with
    | 0 =>
      show k0_off2 L 0 + 1 * (off 0 + 1 * ((S128.rowMajor.symm ((x gathers_S100000x128_S128x128.axis').cast hn.symm)) 0).val) = (J 0).val
      rw [hJ, symm_rowMajor_S128]
      show k0_off2 L 0 + 1 * (off 0 + 1 * (x 0).val) = _
      omega
  | 1 =>
    show 0 + 1 * ((gathers_S100000x128_S128x128.idx _ x) 1).val = (I 1).val
    rw [hI1, Shape.Gathers.idx_of_ne _ _ _ 1 (by decide)]
    show 0 + 1 * (x 1).val = _
    omega

/-- Block b of half 0 of the gathered rows: what the gather through stretch b of the first index scratch lands is the one
    gathered function at the block's rows. -/
theorem gath_u (b : Fin 4) (fa : Buf (Elt F) ((aV).view.loc (V d (cV L) (jV L)))) (hX : InRange X) (off : Fin 1 → Nat) (hoff : off 0 = 128 * b.val) (ho : ∀ a, off a + S128.size a ≤ S512.size a)
    (hn : S128.numel = S128x128.size gathers_S100000x128_S128x128.axis')
    (hin : ∀ x, ((aS off ho).view.read (Elt F) (View.write (Elt F) (aV).view fa (ReadAs.same.apply ((xK1 L).view.read (Elt F) (X d))) Finset.univ) x).toNat
      < S100000x128.size gathers_S100000x128_S128x128.axis)
    (x : S128x128.Idx) :
    SparseCore.gatherPayload gathers_S100000x128_S128x128 ((uS).view.read (Elt F) (m (uLoc d)))
        (SparseCore.rows ((aS off ho).view.read (Elt F) (View.write (Elt F) (aV).view fa (ReadAs.same.apply ((xK1 L).view.read (Elt F) (X d))) Finset.univ)) hn hin) x
      = gath m X d ((oK L 0 b).view.emb x) := by
  have h0 : (((oK L 0 b).view.emb x) 0).val = 16384 * 0 + 1024 * (L 1).val + 512 * (L 0).val + 128 * b.val + (x 0).val := by
    show k0_off3 L (BitVec.ofNat 32 (16384 * (0 : Fin 2).val)) (BitVec.ofNat 32 (128 * b.val)) 0 + 1 * (x 0).val = _
    rw [k0_off3_eq]; simp
  have h1 : (((oK L 0 b).view.emb x) 1).val = (x 1).val := by
    show k0_off3 L (BitVec.ofNat 32 (16384 * (0 : Fin 2).val)) (BitVec.ofNat 32 (128 * b.val)) 1 + 1 * (x 1).val = _
    rw [k0_off3_eq]; simp
  have hk : k0_off1 L 0 = 1024 * (L 1).val + 512 * (L 0).val := by rw [k0_off1_eq]; rfl
  have hL0 : (L 0).val < 2 := (L 0).isLt
  have hL1 : (L 1).val < 16 := (L 1).isLt
  have hb : b.val < 4 := b.isLt
  have hx0 : (x 0).val < 128 := (x 0).isLt
  unfold gath gathered
  rw [if_pos (by rw [h0]; omega)]
  refine gather_val_u L d X m fa off ho hn hin x _ (ValueIdx.ix1 (⟨(((oK L 0 b).view.emb x) 0).val, ValueIdx.idx2_lt0 _⟩ : Fin 32768)) ?_ ?_ ?_
  · show (((oK L 0 b).view.emb x) 0).val = _
    rw [h0, hk, hoff]; omega
  · exact Cert.Spec.row_val_of_lt _ (hX d _)
  · exact h1

/-- Block b of half 1 of the gathered rows: what the gather through stretch b of the second index scratch lands is the one
    gathered function at the block's rows. -/
theorem gath_t (b : Fin 4) (fb : Buf (Elt F) ((bV).view.loc (V d (cV L) (jV L)))) (hX : InRange X) (off : Fin 1 → Nat) (hoff : off 0 = 128 * b.val) (ho : ∀ a, off a + S128.size a ≤ S512.size a)
    (hn : S128.numel = S128x128.size gathers_S100000x128_S128x128.axis')
    (hin : ∀ x, ((bS off ho).view.read (Elt F) (View.write (Elt F) (bV).view fb (ReadAs.same.apply ((xK2 L).view.read (Elt F) (X d))) Finset.univ) x).toNat
      < S100000x128.size gathers_S100000x128_S128x128.axis)
    (x : S128x128.Idx) :
    SparseCore.gatherPayload gathers_S100000x128_S128x128 ((tS).view.read (Elt F) (m (iLoc d)))
        (SparseCore.rows ((bS off ho).view.read (Elt F) (View.write (Elt F) (bV).view fb (ReadAs.same.apply ((xK2 L).view.read (Elt F) (X d))) Finset.univ)) hn hin) x
      = gath m X d ((oK L 1 b).view.emb x) := by
  have h0 : (((oK L 1 b).view.emb x) 0).val = 16384 * 1 + 1024 * (L 1).val + 512 * (L 0).val + 128 * b.val + (x 0).val := by
    show k0_off3 L (BitVec.ofNat 32 (16384 * (1 : Fin 2).val)) (BitVec.ofNat 32 (128 * b.val)) 0 + 1 * (x 0).val = _
    rw [k0_off3_eq]; simp
  have h1 : (((oK L 1 b).view.emb x) 1).val = (x 1).val := by
    show k0_off3 L (BitVec.ofNat 32 (16384 * (1 : Fin 2).val)) (BitVec.ofNat 32 (128 * b.val)) 1 + 1 * (x 1).val = _
    rw [k0_off3_eq]; simp
  have hk : k0_off2 L 0 = 1024 * (L 1).val + 512 * (L 0).val + 16384 := by rw [k0_off2_eq]; rfl
  have hL0 : (L 0).val < 2 := (L 0).isLt
  have hL1 : (L 1).val < 16 := (L 1).isLt
  have hb : b.val < 4 := b.isLt
  have hx0 : (x 0).val < 128 := (x 0).isLt
  unfold gath gathered
  rw [if_neg (by rw [h0]; omega)]
  refine gather_val_t L d X m fb off ho hn hin x _ (ValueIdx.ix1 (⟨(((oK L 1 b).view.emb x) 0).val, ValueIdx.idx2_lt0 _⟩ : Fin 32768)) ?_ ?_ ?_
  · show (((oK L 1 b).view.emb x) 0).val = _
    rw [h0, hk, hoff]; omega
  · exact Cert.Spec.row_val_of_lt _ (hX d _)
  · exact h1

/-! ## The seven row slots are apart -/

abbrev slot (off : Fin 3 → Nat) (h : ∀ a, off a + S1x128x128.size a ≤ S7x128x128.size a) : Memref sig .scVector .vmem S128x128 .f32 :=
  ((rV).slice (Rect.unit (s := S7x128x128) off S1x128x128.size h) (fun _ => rfl)).squeeze S128x128 squeezes_S1x128x128_S128x128

theorem slot_disjoint {off off' : Fin 3 → Nat} (h : ∀ a, off a + S1x128x128.size a ≤ S7x128x128.size a)
    (h' : ∀ a, off' a + S1x128x128.size a ≤ S7x128x128.size a) (hne : off 0 ≠ off' 0) :
    Disjoint (slot off h).view.set (slot off' h').view.set := by
  show Disjoint (((rV).view.slice (Rect.unit (s := S7x128x128) off S1x128x128.size h)).reshape S128x128 squeezes_S1x128x128_S128x128.numel_eq).set
    (((rV).view.slice (Rect.unit (s := S7x128x128) off' S1x128x128.size h')).reshape S128x128 squeezes_S1x128x128_S128x128.numel_eq).set
  rw [View.set_reshape, View.set_reshape, View.set_slice, View.set_slice]
  refine (Finset.disjoint_map _).mpr (Rect.disjoint_of_separated _ _ 0 ?_)
  show (1 = 0 ∨ off 0 + 1 * (1 - 1) < off' 0) ∨ (1 = 0 ∨ off' 0 + 1 * (1 - 1) < off 0)
  omega

/-- A write into one slot is not seen through another. -/
theorem read_slot_write_slot {off off' : Fin 3 → Nat} (h : ∀ a, off a + S1x128x128.size a ≤ S7x128x128.size a)
    (h' : ∀ a, off' a + S1x128x128.size a ≤ S7x128x128.size a) (hne : off 0 ≠ off' 0)
    (f : Buf (Elt F) ((rV).view.loc (V d (cV L) (jV L)))) (w : S128x128.Idx → Elt F .f32) :
    (slot off h).view.read (Elt F) ((slot off' h').view.write (Elt F) f w Finset.univ) = (slot off h).view.read (Elt F) f :=
  View.read_congr fun i hi => View.write_of_not_mem _ _ _ (by
    rw [View.setOn_univ]; exact Finset.disjoint_left.mp (slot_disjoint h h' hne) hi)

/-! ## A block of the output written whole -/

/-- A block of the output written whole with a payload that is the gathered function at the block's rows holds the gathered
    function there. -/
theorem block_val (a : Fin 2) (b : Fin 4) (pay : S128x128.Idx → Elt F .f32)
    (hpay : ∀ x : S128x128.Idx, pay x = gath m X d ((oK L a b).view.emb x)) :
    ((oK L a b).view.loc (V d (cV L) (jV L)) ↦[(oK L a b).view.set]{fullShare}
        (oK L a b).view.writes (Elt F) (m (oLoc d)) [⟨Rect.whole S128x128, pay⟩] : sProp 𝕄)
      = oLoc d ↦[oSet (oN a (cL L) (iL L) b)]{fullShare} gath m X d := by
  rw [← pts_oK (F := F) L d a b]
  refine pointsTo_congr fun i hi => ?_
  obtain ⟨x, -, rfl⟩ := Finset.mem_map.mp hi
  rw [View.writes_singleton]
  have e : ((oK L a b).view.slice (Rect.whole S128x128)).emb x = (oK L a b).view.emb x := by
    show (oK L a b).view.emb ((Rect.whole S128x128).emb x) = _
    rw [Rect.emb_whole_apply]
  rw [← e, View.write_emb_of_mem _ _ (Finset.mem_univ x), cast_eq, e]
  exact hpay x

end Cert.Kernel.Sc

end
-- ==== Proof.KTileBody.lean ====
/-
  One gather worker's whole run: it copies its two stretches of the index list into its index scratches, then for each of
  its eight blocks of 128 rows gathers the table rows the block's index words name into a row slot and copies the slot out
  to the block of the gathered rows; seven slots serve the eight blocks, the first slot twice. Every transfer is waited for
  before its buffers are touched again, so the run is a straight line of issues and waits; what is left is that each block
  of the output holds the one gathered function: a slot read after later gathers wrote the other slots still reads its own
  gather's rows (the slots are apart), and those rows are the table's at the rows the index words name.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.Kernel
import proofs.«202841_g12773232738622_fold_wed_m_434_41_alg».proof.Proof.Gen.Kernel.Skeleton
import proofs.«202841_g12773232738622_fold_wed_m_434_41_alg».proof.Proof.Gen.Kernel.Launch
import proofs.«202841_g12773232738622_fold_wed_m_434_41_alg».proof.Proof.Gen.Kernel.Points
import proofs.«202841_g12773232738622_fold_wed_m_434_41_alg».proof.Proof.Spec
import proofs.«202841_g12773232738622_fold_wed_m_434_41_alg».proof.Proof.KScCommon
import proofs.«202841_g12773232738622_fold_wed_m_434_41_alg».proof.Proof.KTileFacts

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole main_v0_scv : Memref sig Kind.scVector Space.hbm S32768 EltTy.i32)
local notation "uV" => (Memref.whole main_arg3_scv : Memref sig Kind.scVector Space.hbm S100000x128 EltTy.f32)
local notation "tV" => (Memref.whole main_arg4_scv : Memref sig Kind.scVector Space.hbm S100000x128 EltTy.f32)
local notation "oV" => (Memref.whole main_v1_scv : Memref sig Kind.scVector Space.hbm S32768x128 EltTy.f32)
local notation "aV" => (Memref.whole cc0_scratch0 : Memref sig Kind.scVector Space.vmem S512 EltTy.i32)
local notation "bV" => (Memref.whole cc0_scratch1 : Memref sig Kind.scVector Space.vmem S512 EltTy.i32)
local notation "rV" => (Memref.whole cc0_scratch2 : Memref sig Kind.scVector Space.vmem S7x128x128 EltTy.f32)

variable [FloatOps F] (m : (ℓ : Loc nD τ sig) → Buf (Elt F) ℓ) (X : (d : Dev nD) → Buf (Elt F) (xLoc d)) (d : Dev nD) (L : grid0.Coords)

/-! ## The eight blocks, in the program's own spelling -/

theorem block_val_00 (pay : S128x128.Idx → Elt F .f32) (hpay : ∀ x : S128x128.Idx, pay x = gath m X d ((oK L 0 0).view.emb x)) :
    ((oK00 L).view.loc (V d (cV L) (jV L)) ↦[(oK00 L).view.set]{fullShare}
        (oK00 L).view.writes (Elt F) (m (oLoc d)) [⟨Rect.whole S128x128, pay⟩] : sProp 𝕄)
      ⊢ oLoc d ↦[oSet (oN 0 (cL L) (iL L) 0)]{fullShare} gath m X d :=
  Entails.of_eq (block_val (F := F) L d X m 0 0 pay hpay)

theorem block_val_01 (pay : S128x128.Idx → Elt F .f32) (hpay : ∀ x : S128x128.Idx, pay x = gath m X d ((oK L 0 1).view.emb x)) :
    ((oK01 L).view.loc (V d (cV L) (jV L)) ↦[(oK01 L).view.set]{fullShare}
        (oK01 L).view.writes (Elt F) (m (oLoc d)) [⟨Rect.whole S128x128, pay⟩] : sProp 𝕄)
      ⊢ oLoc d ↦[oSet (oN 0 (cL L) (iL L) 1)]{fullShare} gath m X d :=
  Entails.of_eq (block_val (F := F) L d X m 0 1 pay hpay)

theorem block_val_02 (pay : S128x128.Idx → Elt F .f32) (hpay : ∀ x : S128x128.Idx, pay x = gath m X d ((oK L 0 2).view.emb x)) :
    ((oK02 L).view.loc (V d (cV L) (jV L)) ↦[(oK02 L).view.set]{fullShare}
        (oK02 L).view.writes (Elt F) (m (oLoc d)) [⟨Rect.whole S128x128, pay⟩] : sProp 𝕄)
      ⊢ oLoc d ↦[oSet (oN 0 (cL L) (iL L) 2)]{fullShare} gath m X d :=
  Entails.of_eq (block_val (F := F) L d X m 0 2 pay hpay)

theorem block_val_03 (pay : S128x128.Idx → Elt F .f32) (hpay : ∀ x : S128x128.Idx, pay x = gath m X d ((oK L 0 3).view.emb x)) :
    ((oK03 L).view.loc (V d (cV L) (jV L)) ↦[(oK03 L).view.set]{fullShare}
        (oK03 L).view.writes (Elt F) (m (oLoc d)) [⟨Rect.whole S128x128, pay⟩] : sProp 𝕄)
      ⊢ oLoc d ↦[oSet (oN 0 (cL L) (iL L) 3)]{fullShare} gath m X d :=
  Entails.of_eq (block_val (F := F) L d X m 0 3 pay hpay)

theorem block_val_10 (pay : S128x128.Idx → Elt F .f32) (hpay : ∀ x : S128x128.Idx, pay x = gath m X d ((oK L 1 0).view.emb x)) :
    ((oK10 L).view.loc (V d (cV L) (jV L)) ↦[(oK10 L).view.set]{fullShare}
        (oK10 L).view.writes (Elt F) (m (oLoc d)) [⟨Rect.whole S128x128, pay⟩] : sProp 𝕄)
      ⊢ oLoc d ↦[oSet (oN 1 (cL L) (iL L) 0)]{fullShare} gath m X d :=
  Entails.of_eq (block_val (F := F) L d X m 1 0 pay hpay)

theorem block_val_11 (pay : S128x128.Idx → Elt F .f32) (hpay : ∀ x : S128x128.Idx, pay x = gath m X d ((oK L 1 1).view.emb x)) :
    ((oK11 L).view.loc (V d (cV L) (jV L)) ↦[(oK11 L).view.set]{fullShare}
        (oK11 L).view.writes (Elt F) (m (oLoc d)) [⟨Rect.whole S128x128, pay⟩] : sProp 𝕄)
      ⊢ oLoc d ↦[oSet (oN 1 (cL L) (iL L) 1)]{fullShare} gath m X d :=
  Entails.of_eq (block_val (F := F) L d X m 1 1 pay hpay)

theorem block_val_12 (pay : S128x128.Idx → Elt F .f32) (hpay : ∀ x : S128x128.Idx, pay x = gath m X d ((oK L 1 2).view.emb x)) :
    ((oK12 L).view.loc (V d (cV L) (jV L)) ↦[(oK12 L).view.set]{fullShare}
        (oK12 L).view.writes (Elt F) (m (oLoc d)) [⟨Rect.whole S128x128, pay⟩] : sProp 𝕄)
      ⊢ oLoc d ↦[oSet (oN 1 (cL L) (iL L) 2)]{fullShare} gath m X d :=
  Entails.of_eq (block_val (F := F) L d X m 1 2 pay hpay)

theorem block_val_13 (pay : S128x128.Idx → Elt F .f32) (hpay : ∀ x : S128x128.Idx, pay x = gath m X d ((oK L 1 3).view.emb x)) :
    ((oK13 L).view.loc (V d (cV L) (jV L)) ↦[(oK13 L).view.set]{fullShare}
        (oK13 L).view.writes (Elt F) (m (oLoc d)) [⟨Rect.whole S128x128, pay⟩] : sProp 𝕄)
      ⊢ oLoc d ↦[oSet (oN 1 (cL L) (iL L) 3)]{fullShare} gath m X d :=
  Entails.of_eq (block_val (F := F) L d X m 1 3 pay hpay)

set_option maxHeartbeats 4000000 in
set_option maxRecDepth 65536 in
theorem tile_body (hF : (K (F := F)).Facts) (hX : InRange X) (O : CellTallies nD τ sig (HIx 1)) (W : Waits sig (HIx 1)) (hO : ∀ g, O g none = 0) :
    iprop(levAts (K (F := F)).L (K (F := F)).lev ∗ emp
        ∗ tileRes m X d (cL L) (iL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L (Memref.whole main_v0_scv) (Memref.isWhole_whole _) (Memref.whole main_arg3_scv) (Memref.isWhole_whole _) (Memref.whole main_arg4_scv) (Memref.isWhole_whole _)
            (Memref.whole main_v1_scv) (Memref.isWhole_whole _) (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18)
          fun _ => iprop(tileRes m X d (cL L) (iL L) (gath m X d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  simp only [tileRes_eq]
  iintro ⟨#Hlv, -, ⟨⟨Hx1, Hx2⟩, ⟨Hu0, Hu1, Hu2, Hu3⟩, ⟨Ht0, Ht1, Ht2, Ht3⟩, ⟨Ho00, Ho01, Ho02, Ho03, Ho10, Ho11, Ho12, Ho13⟩⟩, ⟨⟨%fa, Ha⟩, ⟨%fb, Hb⟩, ⟨%fr, Hr⟩, Hbufs⟩, ⟨Hs0, Hs1, Hs2, Hs3, Hs4, Hs5, Hs6, Hs7, Hs8, Hs9, Hs10, Hs11, Hs12, Hs13, Hs14, Hs15, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx1' := (Entails.of_eq (pts_xK1 (F := F) L d _).symm) $$ Hx1
  ihave Hx2' := (Entails.of_eq (pts_xK2 (F := F) L d _).symm) $$ Hx2
  ihave Hu0' := (Entails.of_eq (pts_uV (F := F) L d _ _).symm) $$ Hu0
  ihave Ht0' := (Entails.of_eq (pts_tV (F := F) L d _ _).symm) $$ Ht0
  ihave Hu1' := (Entails.of_eq (pts_uV (F := F) L d _ _).symm) $$ Hu1
  ihave Ht1' := (Entails.of_eq (pts_tV (F := F) L d _ _).symm) $$ Ht1
  ihave Hu2' := (Entails.of_eq (pts_uV (F := F) L d _ _).symm) $$ Hu2
  ihave Ht2' := (Entails.of_eq (pts_tV (F := F) L d _ _).symm) $$ Ht2
  ihave Hu3' := (Entails.of_eq (pts_uV (F := F) L d _ _).symm) $$ Hu3
  ihave Ht3' := (Entails.of_eq (pts_tV (F := F) L d _ _).symm) $$ Ht3
  ihave Ho00' := (Entails.of_eq (pts_oK00 (F := F) L d _).symm) $$ Ho00
  ihave Ho01' := (Entails.of_eq (pts_oK01 (F := F) L d _).symm) $$ Ho01
  ihave Ho02' := (Entails.of_eq (pts_oK02 (F := F) L d _).symm) $$ Ho02
  ihave Ho03' := (Entails.of_eq (pts_oK03 (F := F) L d _).symm) $$ Ho03
  ihave Ho10' := (Entails.of_eq (pts_oK10 (F := F) L d _).symm) $$ Ho10
  ihave Ho11' := (Entails.of_eq (pts_oK11 (F := F) L d _).symm) $$ Ho11
  ihave Ho12' := (Entails.of_eq (pts_oK12 (F := F) L d _).symm) $$ Ho12
  ihave Ho13' := (Entails.of_eq (pts_oK13 (F := F) L d _).symm) $$ Ho13
  ihave Ha' := (Entails.of_eq (pts_aV (F := F) L d _).symm) $$ Ha
  ihave Hb' := (Entails.of_eq (pts_bV (F := F) L d _).symm) $$ Hb
  ihave Hr' := (Entails.of_eq (pts_rV (F := F) L d _).symm) $$ Hr
  have hinA : ∀ (fs : Buf (Elt F) ((aV).view.loc (V d (cV L) (jV L)))) (off : Fin 1 → Nat) (ho : ∀ a, off a + S128.size a ≤ S512.size a) (x : S128.Idx),
      (((aV).slice (Rect.unit (s := S512) off S128.size ho) (fun _ => rfl)).view.read (Elt F)
        (View.write (Elt F) (aV).view fs (ReadAs.same.apply ((xK1 L).view.read (Elt F) (X d))) Finset.univ) x).toNat
      < S100000x128.size gathers_S100000x128_S128x128.axis :=
    fun fs off ho x => inb_a L d fs _ (fun j => by rw [ReadAs.apply_same, read_xK1]; exact hX d _) off ho x
  have hinB : ∀ (fs : Buf (Elt F) ((bV).view.loc (V d (cV L) (jV L)))) (off : Fin 1 → Nat) (ho : ∀ a, off a + S128.size a ≤ S512.size a) (x : S128.Idx),
      (((bV).slice (Rect.unit (s := S512) off S128.size ho) (fun _ => rfl)).view.read (Elt F)
        (View.write (Elt F) (bV).view fs (ReadAs.same.apply ((xK2 L).view.read (Elt F) (X d))) Finset.univ) x).toNat
      < S100000x128.size gathers_S100000x128_S128x128.axis :=
    fun fs off ho x => inb_b L d fs _ (fun j => by rw [ReadAs.apply_same, read_xK2]; exact hX d _) off ho x
  sl_exec
  sl_step
  isplitl [Hx1' Hx2' Hu0' Hu1' Hu2' Hu3' Ht0' Ht1' Ht2' Ht3' Ho00' Ho01' Ho02' Ho03' Ho10' Ho11' Ho12' Ho13']
  · isplitl [Hx1' Hx2']
    · isplitl [Hx1']
      · iapply (Entails.of_eq (pts_xK1 (F := F) L d _)); iexact Hx1'
      · iapply (Entails.of_eq (pts_xK2 (F := F) L d _)); iexact Hx2'
    isplitl [Hu0' Hu1' Hu2' Hu3']
    · isplitl [Hu0']; · iexact Hu0'
      isplitl [Hu1']; · iexact Hu1'
      isplitl [Hu2']; · iexact Hu2'
      iexact Hu3'
    isplitl [Ht0' Ht1' Ht2' Ht3']
    · isplitl [Ht0']; · iexact Ht0'
      isplitl [Ht1']; · iexact Ht1'
      isplitl [Ht2']; · iexact Ht2'
      iexact Ht3'
    isplitl [Ho00']
    · iapply (block_val_00 (F := F) m X d L)
      any_goals iexact Ho00'
      intro x
      unfold tile_body.sl.dma0_2
      rw [ReadAs.apply_same,
        read_slot_write_slot (F := F) L d (off := ![0, 0, 0]) (off' := ![6, 0, 0]) _ _ (by decide),
        read_slot_write_slot (F := F) L d (off := ![0, 0, 0]) (off' := ![5, 0, 0]) _ _ (by decide),
        read_slot_write_slot (F := F) L d (off := ![0, 0, 0]) (off' := ![4, 0, 0]) _ _ (by decide),
        read_slot_write_slot (F := F) L d (off := ![0, 0, 0]) (off' := ![3, 0, 0]) _ _ (by decide),
        read_slot_write_slot (F := F) L d (off := ![0, 0, 0]) (off' := ![2, 0, 0]) _ _ (by decide),
        read_slot_write_slot (F := F) L d (off := ![0, 0, 0]) (off' := ![1, 0, 0]) _ _ (by decide),
        View.read_write_univ]
      unfold tile_body.sl.gather2
      exact gath_u (F := F) L d X m 0 fa hX ![0] rfl _ _ _ x
    isplitl [Ho01']
    · iapply (block_val_01 (F := F) m X d L)
      any_goals iexact Ho01'
      intro x
      unfold tile_body.sl.dma0_3
      rw [ReadAs.apply_same,
        read_slot_write_slot (F := F) L d (off := ![1, 0, 0]) (off' := ![0, 0, 0]) _ _ (by decide),
        read_slot_write_slot (F := F) L d (off := ![1, 0, 0]) (off' := ![6, 0, 0]) _ _ (by decide),
        read_slot_write_slot (F := F) L d (off := ![1, 0, 0]) (off' := ![5, 0, 0]) _ _ (by decide),
        read_slot_write_slot (F := F) L d (off := ![1, 0, 0]) (off' := ![4, 0, 0]) _ _ (by decide),
        read_slot_write_slot (F := F) L d (off := ![1, 0, 0]) (off' := ![3, 0, 0]) _ _ (by decide),
        read_slot_write_slot (F := F) L d (off := ![1, 0, 0]) (off' := ![2, 0, 0]) _ _ (by decide),
        View.read_write_univ]
      unfold tile_body.sl.gather3
      exact gath_u (F := F) L d X m 1 fa hX ![128] rfl _ _ _ x
    isplitl [Ho02']
    · iapply (block_val_02 (F := F) m X d L)
      any_goals iexact Ho02'
      intro x
      unfold tile_body.sl.dma0_4
      rw [ReadAs.apply_same,
        read_slot_write_slot (F := F) L d (off := ![2, 0, 0]) (off' := ![0, 0, 0]) _ _ (by decide),
        read_slot_write_slot (F := F) L d (off := ![2, 0, 0]) (off' := ![6, 0, 0]) _ _ (by decide),
        read_slot_write_slot (F := F) L d (off := ![2, 0, 0]) (off' := ![5, 0, 0]) _ _ (by decide),
        read_slot_write_slot (F := F) L d (off := ![2, 0, 0]) (off' := ![4, 0, 0]) _ _ (by decide),
        read_slot_write_slot (F := F) L d (off := ![2, 0, 0]) (off' := ![3, 0, 0]) _ _ (by decide),
        View.read_write_univ]
      unfold tile_body.sl.gather4
      exact gath_u (F := F) L d X m 2 fa hX ![256] rfl _ _ _ x
    isplitl [Ho03']
    · iapply (block_val_03 (F := F) m X d L)
      any_goals iexact Ho03'
      intro x
      unfold tile_body.sl.dma0_5
      rw [ReadAs.apply_same,
        read_slot_write_slot (F := F) L d (off := ![3, 0, 0]) (off' := ![0, 0, 0]) _ _ (by decide),
        read_slot_write_slot (F := F) L d (off := ![3, 0, 0]) (off' := ![6, 0, 0]) _ _ (by decide),
        read_slot_write_slot (F := F) L d (off := ![3, 0, 0]) (off' := ![5, 0, 0]) _ _ (by decide),
        read_slot_write_slot (F := F) L d (off := ![3, 0, 0]) (off' := ![4, 0, 0]) _ _ (by decide),
        View.read_write_univ]
      unfold tile_body.sl.gather5
      exact gath_u (F := F) L d X m 3 fa hX ![384] rfl _ _ _ x
    isplitl [Ho10']
    · iapply (block_val_10 (F := F) m X d L)
      any_goals iexact Ho10'
      intro x
      unfold tile_body.sl.dma0_6
      rw [ReadAs.apply_same,
        read_slot_write_slot (F := F) L d (off := ![4, 0, 0]) (off' := ![0, 0, 0]) _ _ (by decide),
        read_slot_write_slot (F := F) L d (off := ![4, 0, 0]) (off' := ![6, 0, 0]) _ _ (by decide),
        read_slot_write_slot (F := F) L d (off := ![4, 0, 0]) (off' := ![5, 0, 0]) _ _ (by decide),
        View.read_write_univ]
      unfold tile_body.sl.gather6
      exact gath_t (F := F) L d X m 0 fb hX ![0] rfl _ _ _ x
    isplitl [Ho11']
    · iapply (block_val_11 (F := F) m X d L)
      any_goals iexact Ho11'
      intro x
      unfold tile_body.sl.dma0_7
      rw [ReadAs.apply_same,
        read_slot_write_slot (F := F) L d (off := ![5, 0, 0]) (off' := ![0, 0, 0]) _ _ (by decide),
        read_slot_write_slot (F := F) L d (off := ![5, 0, 0]) (off' := ![6, 0, 0]) _ _ (by decide),
        View.read_write_univ]
      unfold tile_body.sl.gather7
      exact gath_t (F := F) L d X m 1 fb hX ![128] rfl _ _ _ x
    isplitl [Ho12']
    · iapply (block_val_12 (F := F) m X d L)
      any_goals iexact Ho12'
      intro x
      unfold tile_body.sl.dma0_8
      rw [ReadAs.apply_same,
        read_slot_write_slot (F := F) L d (off := ![6, 0, 0]) (off' := ![0, 0, 0]) _ _ (by decide),
        View.read_write_univ]
      unfold tile_body.sl.gather8
      exact gath_t (F := F) L d X m 2 fb hX ![256] rfl _ _ _ x
    iapply (block_val_13 (F := F) m X d L)
    any_goals iexact Ho13'
    intro x
    unfold tile_body.sl.dma0_9
    rw [ReadAs.apply_same,
      View.read_write_univ]
    unfold tile_body.sl.gather10
    exact gath_t (F := F) L d X m 3 fb hX ![384] rfl _ _ _ x
  isplitl [Ha' Hb' Hr' Hbufs]
  · isplitl [Ha']; · iexists _; iexact Ha'
    isplitl [Hb']; · iexists _; iexact Hb'
    isplitl [Hr']; · iexists _; iexact Hr'
    iexact Hbufs
  isplitl [Hs0 Hs1 Hs2 Hs3 Hs4 Hs5 Hs6 Hs7 Hs8 Hs9 Hs10 Hs11 Hs12 Hs13 Hs14 Hs15 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    iexact Hsems
  iexists _; isplitr
  swap; · iexact HO
  ipureintro; intro p hp
  iterate 18 (rcases Finset.mem_insert.mp hp with hp | hp; · exact .inr (hp ▸ rfl))
  exact .inl hp

end Cert.Kernel.Sc

end
-- ==== Proof.KKernelGlue.lean ====
/-
  Two small facts about the kernel program's host operations around its two kernels.

  The two index arrays are joined end to end into one array of 32768 words: the first 16384 entries are the first
  array's, the last 16384 the second's; so if every word of both arrays is below 100000, so is every word of the
  joined array. And the final reshape of the one-row result [1, 16384] into one column [16384, 1] reads, at row n
  of the column, the row's entry n: both have row-major position n.
-/
import proofs.«202841_g12773232738622_fold_wed_m_434_41_alg».proof.Proof.Gen.Kernel
import Idealize.ShloMosaic.Lib.ValueIdx
import Idealize.ShloMosaic.Lib.Pipeline.Value
import Idealize.ShloMosaic.Lib.ValueLayout

noncomputable section

namespace Cert.Kernel.Glue

open Idealize.ShloMosaic Idealize.ShloMosaic.ValueIdx Cert.Kernel Cert.Kernel.Gen

/-- The two index arrays joined end to end, as the program's first host operation forms them. -/
def cat (a b : IVec S16384 32) : IVec S32768 32 :=
  concatenate S32768 0 [⟨S16384, a⟩, ⟨S16384, b⟩] concatenates_S16384_S16384_S32768_d0

/-- The first half of the joined array is the first array. -/
theorem cat_lo (a b : IVec S16384 32) (n : Fin 16384) :
    cat a b (ix1 (⟨n.val, by omega⟩ : Fin 32768)) = a (ix1 n) := by
  unfold cat
  refine concatenate_apply_piece (α := BitVec 32) (t := S32768) (0 : Fin 1) [⟨S16384, a⟩, ⟨S16384, b⟩]
    concatenates_S16384_S16384_S32768_d0 _ 0 (by simp) S16384 a rfl rfl 0 rfl (ix1 n) (fun c hc => ?_) ?_
  · match c with
    | ⟨0, _⟩ => exact absurd rfl hc
  · show 0 + n.val = n.val
    omega

/-- The second half of the joined array is the second array. -/
theorem cat_hi (a b : IVec S16384 32) (n : Fin 16384) :
    cat a b (ix1 (⟨16384 + n.val, by omega⟩ : Fin 32768)) = b (ix1 n) := by
  unfold cat
  refine concatenate_apply_piece (α := BitVec 32) (t := S32768) (0 : Fin 1) [⟨S16384, a⟩, ⟨S16384, b⟩]
    concatenates_S16384_S16384_S32768_d0 _ 1 (by simp) S16384 b rfl rfl 16384 rfl (ix1 n) (fun c hc => ?_) ?_
  · match c with
    | ⟨0, _⟩ => exact absurd rfl hc
  · rfl

/-- If every word of both arrays is below 100000, so is every word of the joined array. -/
theorem cat_inRange (a b : IVec S16384 32) (ha : ∀ j, (a j).toNat < 100000) (hb : ∀ j, (b j).toNat < 100000) :
    ∀ j, (cat a b j).toNat < 100000 := by
  intro j
  obtain ⟨p, rfl⟩ : ∃ p : Fin 32768, j = ix1 p := ⟨j 0, eq_ix1 j⟩
  by_cases hp : p.val < 16384
  · have e : p = (⟨(⟨p.val, hp⟩ : Fin 16384).val, by omega⟩ : Fin 32768) := rfl
    rw [e, cat_lo a b ⟨p.val, hp⟩]
    exact ha _
  · have e : p = (⟨16384 + (⟨p.val - 16384, by omega⟩ : Fin 16384).val, by omega⟩ : Fin 32768) :=
      Fin.ext (by show p.val = 16384 + (p.val - 16384); omega)
    rw [e, cat_hi a b ⟨p.val - 16384, by omega⟩]
    exact hb _

/-- The one-row array [1, 16384] reshaped into one column [16384, 1] reads, at row n, the row's entry n. -/
theorem reshape_col {α : Type} (y : S1x16384.Idx → α) (n : Fin 16384) (z : Fin 1) :
    shapeCast S16384x1 y shapeCasts_S1x16384_S16384x1 (ix2 n z) = y (ix2 (0 : Fin 1) n) :=
  shapeCast_apply y shapeCasts_S1x16384_S16384x1 _ _ (by
    have hz : z.val = 0 := by omega
    rw [Shape.rowMajor_val_two, Shape.rowMajor_val_two]
    show 0 * 16384 + n.val = n.val * 1 + z.val
    rw [hz]
    omega)

end Cert.Kernel.Glue

end
-- ==== Proof.KScRun.lean ====
/-
  The gather-then-dense program's run: every weakly fair execution of its threads — the TensorCore's @main, the two
  sequencers, the 32 workers — terminates without a fault, with the nine arguments unchanged and the result at the
  reshape of the dense stage's output; and, read over the extended reals, that result is the specification's function
  of the arguments.
-/
import proofs.«202841_g12773232738622_fold_wed_m_434_41_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202841_g12773232738622_fold_wed_m_434_41_alg».proof.Proof.Gen.Kernel
import proofs.«202841_g12773232738622_fold_wed_m_434_41_alg».proof.Proof.Gen.Kernel.Skeleton
import proofs.«202841_g12773232738622_fold_wed_m_434_41_alg».proof.Proof.Gen.Kernel.Launch
import proofs.«202841_g12773232738622_fold_wed_m_434_41_alg».proof.Proof.Gen.Kernel.Points
import proofs.«202841_g12773232738622_fold_wed_m_434_41_alg».proof.Proof.KScMain
import proofs.«202841_g12773232738622_fold_wed_m_434_41_alg».proof.Proof.KTileBody
import proofs.«202841_g12773232738622_fold_wed_m_434_41_alg».proof.Proof.KKernelGlue

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.TcCoe

/-! ## The worker's obligation, in the launch theorem's spelling -/

section Obl

variable {F : FTy → Type} [FloatOps F] (m : (ℓ : Loc nD τ sig) → Buf (Elt F) ℓ) (X : (d : Dev nD) → Buf (Elt F) (xLoc d))

local notation "𝕄" => MT nD τ sig (HIx 1) (Elt F) ℕ UU ℕ

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          (Memref.whole main_v0_scv) (Memref.isWhole_whole _) (Memref.whole main_arg3_scv) (Memref.isWhole_whole _) (Memref.whole main_arg4_scv) (Memref.isWhole_whole _)
          (Memref.whole main_v1_scv) (Memref.isWhole_whole _) (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hX : InRange X) : (K (F := F)).TileObl (D (F := F)) 𝒱 (P m X) v₀ 0 := by
  intro d c i O W hO _ _
  simp only [show (P m X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m X d (coordsV ⟨_, hci.1⟩ ⟨_, hci.2⟩) hF hX O W hO).trans (wp_mono frame _ _ fun _ => obl_post)

end Obl

variable {F : FTy → Type}

local notation "𝕄" => MT nD τ sig (HIx 1) (Elt F) ℕ UU ℕ

variable [FloatOps F] (m : (ℓ : Loc nD τ sig) → Buf (Elt F) ℓ) (ρ : Dev nD → PrngReg)

/-- The run's post: on every device the result at the final valuation's, the nine arguments at their launch contents. -/
def QC : PUnit × MemSt nD τ sig (Elt F) → Prop := fun r => ∀ c : Dev nD,
  r.2.mem ((SparseCore.T c).loc main_v3) = V4 m c r'
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_arg4) = m ((SparseCore.T c).loc main_arg4) ∧ r.2.mem ((SparseCore.T c).loc main_arg5) = m ((SparseCore.T c).loc main_arg5)
    ∧ r.2.mem ((SparseCore.T c).loc main_arg6) = m ((SparseCore.T c).loc main_arg6) ∧ r.2.mem ((SparseCore.T c).loc main_arg7) = m ((SparseCore.T c).loc main_arg7)
    ∧ r.2.mem ((SparseCore.T c).loc main_arg8) = m ((SparseCore.T c).loc main_arg8)

theorem run_main [∀ e, Nonempty (Elt F e)] (hX : InRange (Xd m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (Xd m)) facts v₀
    (fun q hq => match q with | 0 => nomatch hq)
    (fun q _ => match q with | 0 => tileObl m (Xd m) facts hX)
    (fun q _ => match q with | 0 => SparseCore.Cfg.VecSplit.of_plain (vecSplit m (Xd m)))
    m ρ main (G (F := F)) (FIN m) (u₀ (F := F)) (hu₀ m (Xd m)) (hmain m ρ) (fq m) (hfin m) (QC m) (fun _ h => h)

/-! ## The joined index list, and the frame -/

/-- The joined index list is the two index arrays' concatenation. -/
theorem Xd_eq (d : Dev nD) : Xd m d = Glue.cat (m ((SparseCore.T d).loc main_arg1)) (m ((SparseCore.T d).loc main_arg2)) := by
  show (opCat (F := F)).result (V0 m d) x' = _
  exact (StableHlo.binary_result main_arg1 main_arg2 main_v0 _ _ _ _ (V0 m d)).trans rfl

/-- Index words below 100000 in both arrays are index words below 100000 in the joined list. -/
theorem inRange (h1 : ∀ (c : Dev nD) j, (m ((c.tc : Thread nD τ).loc main_arg1) j).toNat < 100000)
    (h2 : ∀ (c : Dev nD) j, (m ((c.tc : Thread nD τ).loc main_arg2) j).toNat < 100000) : InRange (Xd m) := fun d j => by
  rw [Xd_eq]; exact Glue.cat_inRange _ _ (h1 d) (h2 d) j

/-- The frame: the run with the result dropped. -/
theorem run_frame [∀ e, Nonempty (Elt F e)] (g : Dev nD → PrngReg)
    (h1 : ∀ (c : Dev nD) j, (m ((c.tc : Thread nD τ).loc main_arg1) j).toNat < 100000)
    (h2 : ∀ (c : Dev nD) j, (m ((c.tc : Thread nD τ).loc main_arg2) j).toNat < 100000) :
    θ_run (Cert.Kernel.defs (F := F)) (Cert.Kernel.threads (F := F)) ⟨m, fun _ => 0, g⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)
      ∧ r.2.mem ((c.tc : Thread nD τ).loc main_arg6) = m ((c.tc : Thread nD τ).loc main_arg6) ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (Cert.Kernel.defs (F := F)) _ _).mono (fun _ h c => (h c).2) (run_main m g (inRange m h1 h2))

end Cert.Kernel.Sc

end
-- ==== Proof.lean ====
/-
  The kernel program and the reference program compute the same array, at the exact (extended-real) reading of
  floats, on every input the precondition admits.

  For each of 16384 examples both read one row of a user table and one row of an item table (the rows the
  example's two index words name; the precondition says every word lies in [0, 99999]), form the elementwise
  product of the rows, feed the 384 numbers (product, user row, item row) to a dense layer of 8 units with a bias
  and the positive part, then to one output unit with a bias and the logistic function. The kernel program gathers
  the rows on the sparse cores from the two index arrays joined end to end, and forms the first layer as three
  matrix products of 128 columns each; the reference program joins the three 128-column pieces and forms one
  product over 384 columns. The two agree because a sum of 384 extended reals is the sum of its three thirds:
  addition is commutative and associative, multiplication commutative, and nothing else is used (no
  distributivity, so no finiteness). Each side is proved equal to one shared specification of the result, read
  index by index; the argument arrays are written by neither program.
-/
import proofs.«202841_g12773232738622_fold_wed_m_434_41_alg».proof.Defs
import proofs.«202841_g12773232738622_fold_wed_m_434_41_alg».proof.Proof.Gen.Kernel
import proofs.«202841_g12773232738622_fold_wed_m_434_41_alg».proof.Proof.Gen.Kernel.Skeleton
import proofs.«202841_g12773232738622_fold_wed_m_434_41_alg».proof.Proof.Gen.Kernel.Launch
import proofs.«202841_g12773232738622_fold_wed_m_434_41_alg».proof.Proof.Gen.Kernel.Points
import proofs.«202841_g12773232738622_fold_wed_m_434_41_alg».proof.Proof.Gen.KernelIdeal
import proofs.«202841_g12773232738622_fold_wed_m_434_41_alg».proof.Proof.Gen.KernelIdeal.Skeleton
import proofs.«202841_g12773232738622_fold_wed_m_434_41_alg».proof.Proof.Gen.KernelIdeal.Launch
import proofs.«202841_g12773232738622_fold_wed_m_434_41_alg».proof.Proof.Gen.KernelIdeal.Points
import proofs.«202841_g12773232738622_fold_wed_m_434_41_alg».proof.Proof.Gen.ReferenceIdeal
import proofs.«202841_g12773232738622_fold_wed_m_434_41_alg».proof.Proof.Gen.Pre_input_domain
import proofs.«202841_g12773232738622_fold_wed_m_434_41_alg».proof.Proof.Spec
import proofs.«202841_g12773232738622_fold_wed_m_434_41_alg».proof.Proof.PreRange
import proofs.«202841_g12773232738622_fold_wed_m_434_41_alg».proof.Proof.RefRun
import proofs.«202841_g12773232738622_fold_wed_m_434_41_alg».proof.Proof.RefValue
import proofs.«202841_g12773232738622_fold_wed_m_434_41_alg».proof.Proof.ScValue
import proofs.«202841_g12773232738622_fold_wed_m_434_41_alg».proof.Proof.KScRun
import Idealize.ShloMosaic.Adequacy
import Idealize.ShloMosaic.Init

noncomputable section

namespace Cert.Proof

open Idealize.ShloMosaic Idealize.SL.Sem

/-- The kernel program runs and leaves its arguments unchanged: the precondition gives the two index ranges. -/
theorem frame_Kernel_holds : Cert.frame_Kernel := by
  intro m g hpre
  have hr := fun c : Dev Cert.Kernel.nD => Cert.PreRange.ranges _ _ _ _ _ _ _ _ _ (hpre c)
  exact Cert.Kernel.Sc.run_frame m g (fun c => (hr c).1) (fun c => (hr c).2)

/-- The same program read at the extended reals runs and leaves its arguments unchanged: its run with the result
    dropped. -/
theorem frame_KernelIdeal_holds : Cert.frame_KernelIdeal := by
  intro m g hpre
  have hr := fun c : Dev Cert.KernelIdeal.nD => Cert.PreRange.ranges _ _ _ _ _ _ _ _ _ (hpre c)
  exact (θ_run _ _ _).mono (fun _ h c => (h c).2) (Cert.KernelIdeal.Sc.run_G m g (fun c => (hr c).1) (fun c => (hr c).2))

/-- The reference program runs and leaves its arguments unchanged: its run with the result dropped (the run needs no
    precondition). -/
theorem frame_ReferenceIdeal_holds : Cert.frame_ReferenceIdeal := by
  intro m g _
  exact (θ_run _ _ _).mono (fun _ h c => (h c).2) (Cert.ReferenceIdeal.RefRun.run m g)

/-- From memories that agree on the arguments both programs end with the shared specification's array of the
    kernel side's arguments: the kernel side by its run; the reference side by its run, its composed term being the
    specification of its own arguments (their index words are in range because they are the kernel side's), which
    are the kernel side's. -/
theorem algebraic_holds : Cert.algebraic_KernelIdeal_ReferenceIdeal := by
  intro m g m' g' hpre hagree
  have hr := fun c : Dev Cert.KernelIdeal.nD => Cert.PreRange.ranges _ _ _ _ _ _ _ _ _ (hpre c)
  refine ⟨fun c => Cert.Spec.G (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Sc.run_G m g (fun c => (hr c).1) (fun c => (hr c).2), ?_⟩
  refine (θ_run _ _ _).mono (fun r h c => ?_) (Cert.ReferenceIdeal.RefRun.run m' g')
  obtain ⟨h0, hrest⟩ := h c
  obtain ⟨e0, e1, e2, e3, e4, e5, e6, e7, e8⟩ := hagree c
  refine ⟨?_, hrest⟩
  have hm1 : ∀ j, (m' ((c.tc : Thread Cert.ReferenceIdeal.nD Cert.ReferenceIdeal.τ).loc Cert.ReferenceIdeal.main_arg1) j).toNat < 100000 := by rw [e1]; exact (hr c).1
  have hm2 : ∀ j, (m' ((c.tc : Thread Cert.ReferenceIdeal.nD Cert.ReferenceIdeal.τ).loc Cert.ReferenceIdeal.main_arg2) j).toNat < 100000 := by rw [e2]; exact (hr c).2
  refine h0.trans ((Cert.ReferenceIdeal.RefValue.refOut_eq_G _ _ _ _ _ _ _ _ hm1 hm2).trans ?_)
  rw [e1, e2, e3, e4, e5, e6, e7, e8]

theorem claim : Cert.Claim :=
  ⟨Cert.Kernel.Gen.facts, Cert.KernelIdeal.Gen.facts, Cert.ReferenceIdeal.Gen.facts, Cert.Pre_input_domain.Gen.facts,
    frame_Kernel_holds, frame_KernelIdeal_holds, frame_ReferenceIdeal_holds, trivial, algebraic_holds⟩

end Cert.Proof

end
